-- ==== Defs.lean ====
def Pre_Kernel [hPre_finite_inputs : Cert.Pre_finite_inputs.Facts] (m : (ℓ : Loc Cert.Kernel.nD Cert.Kernel.τ Cert.Kernel.sig) → Buf (Elt Bits) ℓ) : Prop :=
  ∀ c : Dev Cert.Kernel.nD,
    (Cert.Pre_finite_inputs.fn (F := Bits) (m ((c.tc : Thread Cert.Kernel.nD Cert.Kernel.τ).loc Cert.Kernel.main_arg0)) (m ((c.tc : Thread Cert.Kernel.nD Cert.Kernel.τ).loc Cert.Kernel.main_arg1)) (m ((c.tc : Thread Cert.Kernel.nD Cert.Kernel.τ).loc Cert.Kernel.main_arg2)) (m ((c.tc : Thread Cert.Kernel.nD Cert.Kernel.τ).loc Cert.Kernel.main_arg3)) (m ((c.tc : Thread Cert.Kernel.nD Cert.Kernel.τ).loc Cert.Kernel.main_arg4)) (m ((c.tc : Thread Cert.Kernel.nD Cert.Kernel.τ).loc Cert.Kernel.main_arg5)) (m ((c.tc : Thread Cert.Kernel.nD Cert.Kernel.τ).loc Cert.Kernel.main_arg6)) (m ((c.tc : Thread Cert.Kernel.nD Cert.Kernel.τ).loc Cert.Kernel.main_arg7)) (m ((c.tc : Thread Cert.Kernel.nD Cert.Kernel.τ).loc Cert.Kernel.main_arg8)) (m ((c.tc : Thread Cert.Kernel.nD Cert.Kernel.τ).loc Cert.Kernel.main_arg9)) (m ((c.tc : Thread Cert.Kernel.nD Cert.Kernel.τ).loc Cert.Kernel.main_arg10)) (m ((c.tc : Thread Cert.Kernel.nD Cert.Kernel.τ).loc Cert.Kernel.main_arg11))) = (fun _ => 1#1)

def Pre_KernelIdeal [hPre_finite_inputs : Cert.Pre_finite_inputs.Facts] (m : (ℓ : Loc Cert.KernelIdeal.nD Cert.KernelIdeal.τ Cert.KernelIdeal.sig) → Buf (Elt Ideal) ℓ) : Prop :=
  ∀ c : Dev Cert.KernelIdeal.nD,
    (Cert.Pre_finite_inputs.fn (F := Ideal) (m ((c.tc : Thread Cert.KernelIdeal.nD Cert.KernelIdeal.τ).loc Cert.KernelIdeal.main_arg0)) (m ((c.tc : Thread Cert.KernelIdeal.nD Cert.KernelIdeal.τ).loc Cert.KernelIdeal.main_arg1)) (m ((c.tc : Thread Cert.KernelIdeal.nD Cert.KernelIdeal.τ).loc Cert.KernelIdeal.main_arg2)) (m ((c.tc : Thread Cert.KernelIdeal.nD Cert.KernelIdeal.τ).loc Cert.KernelIdeal.main_arg3)) (m ((c.tc : Thread Cert.KernelIdeal.nD Cert.KernelIdeal.τ).loc Cert.KernelIdeal.main_arg4)) (m ((c.tc : Thread Cert.KernelIdeal.nD Cert.KernelIdeal.τ).loc Cert.KernelIdeal.main_arg5)) (m ((c.tc : Thread Cert.KernelIdeal.nD Cert.KernelIdeal.τ).loc Cert.KernelIdeal.main_arg6)) (m ((c.tc : Thread Cert.KernelIdeal.nD Cert.KernelIdeal.τ).loc Cert.KernelIdeal.main_arg7)) (m ((c.tc : Thread Cert.KernelIdeal.nD Cert.KernelIdeal.τ).loc Cert.KernelIdeal.main_arg8)) (m ((c.tc : Thread Cert.KernelIdeal.nD Cert.KernelIdeal.τ).loc Cert.KernelIdeal.main_arg9)) (m ((c.tc : Thread Cert.KernelIdeal.nD Cert.KernelIdeal.τ).loc Cert.KernelIdeal.main_arg10)) (m ((c.tc : Thread Cert.KernelIdeal.nD Cert.KernelIdeal.τ).loc Cert.KernelIdeal.main_arg11))) = (fun _ => 1#1)

def Pre_ReferenceIdeal [hPre_finite_inputs : Cert.Pre_finite_inputs.Facts] (m : (ℓ : Loc Cert.ReferenceIdeal.nD Cert.ReferenceIdeal.τ Cert.ReferenceIdeal.sig) → Buf (Elt Ideal) ℓ) : Prop :=
  ∀ c : Dev Cert.ReferenceIdeal.nD,
    (Cert.Pre_finite_inputs.fn (F := Ideal) (m ((c.tc : Thread Cert.ReferenceIdeal.nD Cert.ReferenceIdeal.τ).loc Cert.ReferenceIdeal.main_arg0)) (m ((c.tc : Thread Cert.ReferenceIdeal.nD Cert.ReferenceIdeal.τ).loc Cert.ReferenceIdeal.main_arg1)) (m ((c.tc : Thread Cert.ReferenceIdeal.nD Cert.ReferenceIdeal.τ).loc Cert.ReferenceIdeal.main_arg2)) (m ((c.tc : Thread Cert.ReferenceIdeal.nD Cert.ReferenceIdeal.τ).loc Cert.ReferenceIdeal.main_arg3)) (m ((c.tc : Thread Cert.ReferenceIdeal.nD Cert.ReferenceIdeal.τ).loc Cert.ReferenceIdeal.main_arg4)) (m ((c.tc : Thread Cert.ReferenceIdeal.nD Cert.ReferenceIdeal.τ).loc Cert.ReferenceIdeal.main_arg5)) (m ((c.tc : Thread Cert.ReferenceIdeal.nD Cert.ReferenceIdeal.τ).loc Cert.ReferenceIdeal.main_arg6)) (m ((c.tc : Thread Cert.ReferenceIdeal.nD Cert.ReferenceIdeal.τ).loc Cert.ReferenceIdeal.main_arg7)) (m ((c.tc : Thread Cert.ReferenceIdeal.nD Cert.ReferenceIdeal.τ).loc Cert.ReferenceIdeal.main_arg8)) (m ((c.tc : Thread Cert.ReferenceIdeal.nD Cert.ReferenceIdeal.τ).loc Cert.ReferenceIdeal.main_arg9)) (m ((c.tc : Thread Cert.ReferenceIdeal.nD Cert.ReferenceIdeal.τ).loc Cert.ReferenceIdeal.main_arg10)) (m ((c.tc : Thread Cert.ReferenceIdeal.nD Cert.ReferenceIdeal.τ).loc Cert.ReferenceIdeal.main_arg11))) = (fun _ => 1#1)

def frame_Kernel [hKernel : Cert.Kernel.Facts] [hPre_finite_inputs : Cert.Pre_finite_inputs.Facts] : Prop :=
  ∀ (m : (ℓ : Loc Cert.Kernel.nD Cert.Kernel.τ Cert.Kernel.sig) → Buf (Elt Bits) ℓ) (g : Dev Cert.Kernel.nD → PrngReg), Pre_Kernel m →
    θ_run (Cert.Kernel.defs (F := Bits)) (onTc (τ := Cert.Kernel.τ) (Cert.Kernel.main (F := Bits))) ⟨m, fun _ => 0, g⟩ (fun r => ∀ c : Dev Cert.Kernel.nD,
      r.2.mem ((c.tc : Thread Cert.Kernel.nD Cert.Kernel.τ).loc Cert.Kernel.main_arg0) = m ((c.tc : Thread Cert.Kernel.nD Cert.Kernel.τ).loc Cert.Kernel.main_arg0)
      ∧ r.2.mem ((c.tc : Thread Cert.Kernel.nD Cert.Kernel.τ).loc Cert.Kernel.main_arg1) = m ((c.tc : Thread Cert.Kernel.nD Cert.Kernel.τ).loc Cert.Kernel.main_arg1)
      ∧ r.2.mem ((c.tc : Thread Cert.Kernel.nD Cert.Kernel.τ).loc Cert.Kernel.main_arg2) = m ((c.tc : Thread Cert.Kernel.nD Cert.Kernel.τ).loc Cert.Kernel.main_arg2)
      ∧ r.2.mem ((c.tc : Thread Cert.Kernel.nD Cert.Kernel.τ).loc Cert.Kernel.main_arg3) = m ((c.tc : Thread Cert.Kernel.nD Cert.Kernel.τ).loc Cert.Kernel.main_arg3)
      ∧ r.2.mem ((c.tc : Thread Cert.Kernel.nD Cert.Kernel.τ).loc Cert.Kernel.main_arg4) = m ((c.tc : Thread Cert.Kernel.nD Cert.Kernel.τ).loc Cert.Kernel.main_arg4)
      ∧ r.2.mem ((c.tc : Thread Cert.Kernel.nD Cert.Kernel.τ).loc Cert.Kernel.main_arg5) = m ((c.tc : Thread Cert.Kernel.nD Cert.Kernel.τ).loc Cert.Kernel.main_arg5)
      ∧ r.2.mem ((c.tc : Thread Cert.Kernel.nD Cert.Kernel.τ).loc Cert.Kernel.main_arg6) = m ((c.tc : Thread Cert.Kernel.nD Cert.Kernel.τ).loc Cert.Kernel.main_arg6)
      ∧ r.2.mem ((c.tc : Thread Cert.Kernel.nD Cert.Kernel.τ).loc Cert.Kernel.main_arg7) = m ((c.tc : Thread Cert.Kernel.nD Cert.Kernel.τ).loc Cert.Kernel.main_arg7)
      ∧ r.2.mem ((c.tc : Thread Cert.Kernel.nD Cert.Kernel.τ).loc Cert.Kernel.main_arg8) = m ((c.tc : Thread Cert.Kernel.nD Cert.Kernel.τ).loc Cert.Kernel.main_arg8)
      ∧ r.2.mem ((c.tc : Thread Cert.Kernel.nD Cert.Kernel.τ).loc Cert.Kernel.main_arg9) = m ((c.tc : Thread Cert.Kernel.nD Cert.Kernel.τ).loc Cert.Kernel.main_arg9)
      ∧ r.2.mem ((c.tc : Thread Cert.Kernel.nD Cert.Kernel.τ).loc Cert.Kernel.main_arg10) = m ((c.tc : Thread Cert.Kernel.nD Cert.Kernel.τ).loc Cert.Kernel.main_arg10)
      ∧ r.2.mem ((c.tc : Thread Cert.Kernel.nD Cert.Kernel.τ).loc Cert.Kernel.main_arg11) = m ((c.tc : Thread Cert.Kernel.nD Cert.Kernel.τ).loc Cert.Kernel.main_arg11))

def frame_KernelIdeal [hKernelIdeal : Cert.KernelIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal m →
    θ_run (Cert.KernelIdeal.defs (F := Ideal)) (onTc (τ := Cert.KernelIdeal.τ) (Cert.KernelIdeal.main (F := Ideal))) ⟨m, fun _ => 0, g⟩ (fun r => ∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
      ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
      ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
      ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
      ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4)
      ∧ r.2.mem ((c.tc : Thread Cert.KernelIdeal.nD Cert.KernelIdeal.τ).loc Cert.KernelIdeal.main_arg5) = m ((c.tc : Thread Cert.KernelIdeal.nD Cert.KernelIdeal.τ).loc Cert.KernelIdeal.main_arg5)
      ∧ r.2.mem ((c.tc : Thread Cert.KernelIdeal.nD Cert.KernelIdeal.τ).loc Cert.KernelIdeal.main_arg6) = m ((c.tc : Thread Cert.KernelIdeal.nD Cert.KernelIdeal.τ).loc Cert.KernelIdeal.main_arg6)
      ∧ r.2.mem ((c.tc : Thread Cert.KernelIdeal.nD Cert.KernelIdeal.τ).loc Cert.KernelIdeal.main_arg7) = m ((c.tc : Thread Cert.KernelIdeal.nD Cert.KernelIdeal.τ).loc Cert.KernelIdeal.main_arg7)
      ∧ r.2.mem ((c.tc : Thread Cert.KernelIdeal.nD Cert.KernelIdeal.τ).loc Cert.KernelIdeal.main_arg8) = m ((c.tc : Thread Cert.KernelIdeal.nD Cert.KernelIdeal.τ).loc Cert.KernelIdeal.main_arg8)
      ∧ r.2.mem ((c.tc : Thread Cert.KernelIdeal.nD Cert.KernelIdeal.τ).loc Cert.KernelIdeal.main_arg9) = m ((c.tc : Thread Cert.KernelIdeal.nD Cert.KernelIdeal.τ).loc Cert.KernelIdeal.main_arg9)
      ∧ r.2.mem ((c.tc : Thread Cert.KernelIdeal.nD Cert.KernelIdeal.τ).loc Cert.KernelIdeal.main_arg10) = m ((c.tc : Thread Cert.KernelIdeal.nD Cert.KernelIdeal.τ).loc Cert.KernelIdeal.main_arg10)
      ∧ r.2.mem ((c.tc : Thread Cert.KernelIdeal.nD Cert.KernelIdeal.τ).loc Cert.KernelIdeal.main_arg11) = m ((c.tc : Thread Cert.KernelIdeal.nD Cert.KernelIdeal.τ).loc Cert.KernelIdeal.main_arg11))

def frame_ReferenceIdeal [hReferenceIdeal : Cert.ReferenceIdeal.Facts] [hPre_finite_inputs : Cert.Pre_finite_inputs.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal m →
    θ_run (Cert.ReferenceIdeal.defs (F := Ideal)) (onTc (τ := Cert.ReferenceIdeal.τ) (Cert.ReferenceIdeal.main (F := Ideal))) ⟨m, fun _ => 0, g⟩ (fun r => ∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0)
      ∧ r.2.mem ((c.tc : Thread Cert.ReferenceIdeal.nD Cert.ReferenceIdeal.τ).loc Cert.ReferenceIdeal.main_arg1) = m ((c.tc : Thread Cert.ReferenceIdeal.nD Cert.ReferenceIdeal.τ).loc Cert.ReferenceIdeal.main_arg1)
      ∧ r.2.mem ((c.tc : Thread Cert.ReferenceIdeal.nD Cert.ReferenceIdeal.τ).loc Cert.ReferenceIdeal.main_arg2) = m ((c.tc : Thread Cert.ReferenceIdeal.nD Cert.ReferenceIdeal.τ).loc Cert.ReferenceIdeal.main_arg2)
      ∧ r.2.mem ((c.tc : Thread Cert.ReferenceIdeal.nD Cert.ReferenceIdeal.τ).loc Cert.ReferenceIdeal.main_arg3) = m ((c.tc : Thread Cert.ReferenceIdeal.nD Cert.ReferenceIdeal.τ).loc Cert.ReferenceIdeal.main_arg3)
      ∧ r.2.mem ((c.tc : Thread Cert.ReferenceIdeal.nD Cert.ReferenceIdeal.τ).loc Cert.ReferenceIdeal.main_arg4) = m ((c.tc : Thread Cert.ReferenceIdeal.nD Cert.ReferenceIdeal.τ).loc Cert.ReferenceIdeal.main_arg4)
      ∧ r.2.mem ((c.tc : Thread Cert.ReferenceIdeal.nD Cert.ReferenceIdeal.τ).loc Cert.ReferenceIdeal.main_arg5) = m ((c.tc : Thread Cert.ReferenceIdeal.nD Cert.ReferenceIdeal.τ).loc Cert.ReferenceIdeal.main_arg5)
      ∧ r.2.mem ((c.tc : Thread Cert.ReferenceIdeal.nD Cert.ReferenceIdeal.τ).loc Cert.ReferenceIdeal.main_arg6) = m ((c.tc : Thread Cert.ReferenceIdeal.nD Cert.ReferenceIdeal.τ).loc Cert.ReferenceIdeal.main_arg6)
      ∧ r.2.mem ((c.tc : Thread Cert.ReferenceIdeal.nD Cert.ReferenceIdeal.τ).loc Cert.ReferenceIdeal.main_arg7) = m ((c.tc : Thread Cert.ReferenceIdeal.nD Cert.ReferenceIdeal.τ).loc Cert.ReferenceIdeal.main_arg7)
      ∧ r.2.mem ((c.tc : Thread Cert.ReferenceIdeal.nD Cert.ReferenceIdeal.τ).loc Cert.ReferenceIdeal.main_arg8) = m ((c.tc : Thread Cert.ReferenceIdeal.nD Cert.ReferenceIdeal.τ).loc Cert.ReferenceIdeal.main_arg8)
      ∧ r.2.mem ((c.tc : Thread Cert.ReferenceIdeal.nD Cert.ReferenceIdeal.τ).loc Cert.ReferenceIdeal.main_arg9) = m ((c.tc : Thread Cert.ReferenceIdeal.nD Cert.ReferenceIdeal.τ).loc Cert.ReferenceIdeal.main_arg9)
      ∧ r.2.mem ((c.tc : Thread Cert.ReferenceIdeal.nD Cert.ReferenceIdeal.τ).loc Cert.ReferenceIdeal.main_arg10) = m ((c.tc : Thread Cert.ReferenceIdeal.nD Cert.ReferenceIdeal.τ).loc Cert.ReferenceIdeal.main_arg10)
      ∧ r.2.mem ((c.tc : Thread Cert.ReferenceIdeal.nD Cert.ReferenceIdeal.τ).loc Cert.ReferenceIdeal.main_arg11) = m ((c.tc : Thread Cert.ReferenceIdeal.nD Cert.ReferenceIdeal.τ).loc Cert.ReferenceIdeal.main_arg11))

def preserves_Kernel_KernelIdeal : Prop :=
  True

def algebraic_KernelIdeal_ReferenceIdeal [hKernelIdeal : Cert.KernelIdeal.Facts] [hReferenceIdeal : Cert.ReferenceIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg)
    (m' : (ℓ : Loc Cert.ReferenceIdeal.nD Cert.ReferenceIdeal.τ Cert.ReferenceIdeal.sig) → Buf (Elt Ideal) ℓ) (g' : Dev Cert.ReferenceIdeal.nD → PrngReg), Pre_KernelIdeal m →
    (∀ c : Dev Cert.KernelIdeal.nD,
      m' ((c.tc : Thread Cert.ReferenceIdeal.nD Cert.ReferenceIdeal.τ).loc Cert.ReferenceIdeal.main_arg0) = m ((c.tc : Thread Cert.KernelIdeal.nD Cert.KernelIdeal.τ).loc Cert.KernelIdeal.main_arg0)
      ∧ m' ((c.tc : Thread Cert.ReferenceIdeal.nD Cert.ReferenceIdeal.τ).loc Cert.ReferenceIdeal.main_arg1) = m ((c.tc : Thread Cert.KernelIdeal.nD Cert.KernelIdeal.τ).loc Cert.KernelIdeal.main_arg1)
      ∧ m' ((c.tc : Thread Cert.ReferenceIdeal.nD Cert.ReferenceIdeal.τ).loc Cert.ReferenceIdeal.main_arg2) = m ((c.tc : Thread Cert.KernelIdeal.nD Cert.KernelIdeal.τ).loc Cert.KernelIdeal.main_arg2)
      ∧ m' ((c.tc : Thread Cert.ReferenceIdeal.nD Cert.ReferenceIdeal.τ).loc Cert.ReferenceIdeal.main_arg3) = m ((c.tc : Thread Cert.KernelIdeal.nD Cert.KernelIdeal.τ).loc Cert.KernelIdeal.main_arg3)
      ∧ m' ((c.tc : Thread Cert.ReferenceIdeal.nD Cert.ReferenceIdeal.τ).loc Cert.ReferenceIdeal.main_arg4) = m ((c.tc : Thread Cert.KernelIdeal.nD Cert.KernelIdeal.τ).loc Cert.KernelIdeal.main_arg4)
      ∧ m' ((c.tc : Thread Cert.ReferenceIdeal.nD Cert.ReferenceIdeal.τ).loc Cert.ReferenceIdeal.main_arg5) = m ((c.tc : Thread Cert.KernelIdeal.nD Cert.KernelIdeal.τ).loc Cert.KernelIdeal.main_arg5)
      ∧ m' ((c.tc : Thread Cert.ReferenceIdeal.nD Cert.ReferenceIdeal.τ).loc Cert.ReferenceIdeal.main_arg6) = m ((c.tc : Thread Cert.KernelIdeal.nD Cert.KernelIdeal.τ).loc Cert.KernelIdeal.main_arg6)
      ∧ m' ((c.tc : Thread Cert.ReferenceIdeal.nD Cert.ReferenceIdeal.τ).loc Cert.ReferenceIdeal.main_arg7) = m ((c.tc : Thread Cert.KernelIdeal.nD Cert.KernelIdeal.τ).loc Cert.KernelIdeal.main_arg7)
      ∧ m' ((c.tc : Thread Cert.ReferenceIdeal.nD Cert.ReferenceIdeal.τ).loc Cert.ReferenceIdeal.main_arg8) = m ((c.tc : Thread Cert.KernelIdeal.nD Cert.KernelIdeal.τ).loc Cert.KernelIdeal.main_arg8)
      ∧ m' ((c.tc : Thread Cert.ReferenceIdeal.nD Cert.ReferenceIdeal.τ).loc Cert.ReferenceIdeal.main_arg9) = m ((c.tc : Thread Cert.KernelIdeal.nD Cert.KernelIdeal.τ).loc Cert.KernelIdeal.main_arg9)
      ∧ m' ((c.tc : Thread Cert.ReferenceIdeal.nD Cert.ReferenceIdeal.τ).loc Cert.ReferenceIdeal.main_arg10) = m ((c.tc : Thread Cert.KernelIdeal.nD Cert.KernelIdeal.τ).loc Cert.KernelIdeal.main_arg10)
      ∧ m' ((c.tc : Thread Cert.ReferenceIdeal.nD Cert.ReferenceIdeal.τ).loc Cert.ReferenceIdeal.main_arg11) = m ((c.tc : Thread Cert.KernelIdeal.nD Cert.KernelIdeal.τ).loc Cert.KernelIdeal.main_arg11)) →
    ∃ (v0 : (c : Dev Cert.KernelIdeal.nD) → Buf (Elt Ideal) ((c.tc : Thread Cert.KernelIdeal.nD Cert.KernelIdeal.τ).loc Cert.KernelIdeal.main_v104)),
      θ_run (Cert.KernelIdeal.defs (F := Ideal)) (onTc (τ := Cert.KernelIdeal.τ) (Cert.KernelIdeal.main (F := Ideal))) ⟨m, fun _ => 0, g⟩ (fun r => ∀ c : Dev Cert.KernelIdeal.nD,
          r.2.mem ((c.tc : Thread Cert.KernelIdeal.nD Cert.KernelIdeal.τ).loc Cert.KernelIdeal.main_v104) = v0 c
          ∧ r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
          ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
          ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
          ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
          ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4)
          ∧ r.2.mem ((c.tc : Thread Cert.KernelIdeal.nD Cert.KernelIdeal.τ).loc Cert.KernelIdeal.main_arg5) = m ((c.tc : Thread Cert.KernelIdeal.nD Cert.KernelIdeal.τ).loc Cert.KernelIdeal.main_arg5)
          ∧ r.2.mem ((c.tc : Thread Cert.KernelIdeal.nD Cert.KernelIdeal.τ).loc Cert.KernelIdeal.main_arg6) = m ((c.tc : Thread Cert.KernelIdeal.nD Cert.KernelIdeal.τ).loc Cert.KernelIdeal.main_arg6)
          ∧ r.2.mem ((c.tc : Thread Cert.KernelIdeal.nD Cert.KernelIdeal.τ).loc Cert.KernelIdeal.main_arg7) = m ((c.tc : Thread Cert.KernelIdeal.nD Cert.KernelIdeal.τ).loc Cert.KernelIdeal.main_arg7)
          ∧ r.2.mem ((c.tc : Thread Cert.KernelIdeal.nD Cert.KernelIdeal.τ).loc Cert.KernelIdeal.main_arg8) = m ((c.tc : Thread Cert.KernelIdeal.nD Cert.KernelIdeal.τ).loc Cert.KernelIdeal.main_arg8)
          ∧ r.2.mem ((c.tc : Thread Cert.KernelIdeal.nD Cert.KernelIdeal.τ).loc Cert.KernelIdeal.main_arg9) = m ((c.tc : Thread Cert.KernelIdeal.nD Cert.KernelIdeal.τ).loc Cert.KernelIdeal.main_arg9)
          ∧ r.2.mem ((c.tc : Thread Cert.KernelIdeal.nD Cert.KernelIdeal.τ).loc Cert.KernelIdeal.main_arg10) = m ((c.tc : Thread Cert.KernelIdeal.nD Cert.KernelIdeal.τ).loc Cert.KernelIdeal.main_arg10)
          ∧ r.2.mem ((c.tc : Thread Cert.KernelIdeal.nD Cert.KernelIdeal.τ).loc Cert.KernelIdeal.main_arg11) = m ((c.tc : Thread Cert.KernelIdeal.nD Cert.KernelIdeal.τ).loc Cert.KernelIdeal.main_arg11))
      ∧ θ_run (Cert.ReferenceIdeal.defs (F := Ideal)) (onTc (τ := Cert.ReferenceIdeal.τ) (Cert.ReferenceIdeal.main (F := Ideal))) ⟨m', fun _ => 0, g'⟩ (fun r => ∀ c : Dev Cert.ReferenceIdeal.nD,
          r.2.mem ((c.tc : Thread Cert.ReferenceIdeal.nD Cert.ReferenceIdeal.τ).loc Cert.ReferenceIdeal.main_v114) = v0 c
          ∧ r.2.mem ((c.tc : Thread Cert.ReferenceIdeal.nD Cert.ReferenceIdeal.τ).loc Cert.ReferenceIdeal.main_arg0) = m' ((c.tc : Thread Cert.ReferenceIdeal.nD Cert.ReferenceIdeal.τ).loc Cert.ReferenceIdeal.main_arg0)
          ∧ r.2.mem ((c.tc : Thread Cert.ReferenceIdeal.nD Cert.ReferenceIdeal.τ).loc Cert.ReferenceIdeal.main_arg1) = m' ((c.tc : Thread Cert.ReferenceIdeal.nD Cert.ReferenceIdeal.τ).loc Cert.ReferenceIdeal.main_arg1)
          ∧ r.2.mem ((c.tc : Thread Cert.ReferenceIdeal.nD Cert.ReferenceIdeal.τ).loc Cert.ReferenceIdeal.main_arg2) = m' ((c.tc : Thread Cert.ReferenceIdeal.nD Cert.ReferenceIdeal.τ).loc Cert.ReferenceIdeal.main_arg2)
          ∧ r.2.mem ((c.tc : Thread Cert.ReferenceIdeal.nD Cert.ReferenceIdeal.τ).loc Cert.ReferenceIdeal.main_arg3) = m' ((c.tc : Thread Cert.ReferenceIdeal.nD Cert.ReferenceIdeal.τ).loc Cert.ReferenceIdeal.main_arg3)
          ∧ r.2.mem ((c.tc : Thread Cert.ReferenceIdeal.nD Cert.ReferenceIdeal.τ).loc Cert.ReferenceIdeal.main_arg4) = m' ((c.tc : Thread Cert.ReferenceIdeal.nD Cert.ReferenceIdeal.τ).loc Cert.ReferenceIdeal.main_arg4)
          ∧ r.2.mem ((c.tc : Thread Cert.ReferenceIdeal.nD Cert.ReferenceIdeal.τ).loc Cert.ReferenceIdeal.main_arg5) = m' ((c.tc : Thread Cert.ReferenceIdeal.nD Cert.ReferenceIdeal.τ).loc Cert.ReferenceIdeal.main_arg5)
          ∧ r.2.mem ((c.tc : Thread Cert.ReferenceIdeal.nD Cert.ReferenceIdeal.τ).loc Cert.ReferenceIdeal.main_arg6) = m' ((c.tc : Thread Cert.ReferenceIdeal.nD Cert.ReferenceIdeal.τ).loc Cert.ReferenceIdeal.main_arg6)
          ∧ r.2.mem ((c.tc : Thread Cert.ReferenceIdeal.nD Cert.ReferenceIdeal.τ).loc Cert.ReferenceIdeal.main_arg7) = m' ((c.tc : Thread Cert.ReferenceIdeal.nD Cert.ReferenceIdeal.τ).loc Cert.ReferenceIdeal.main_arg7)
          ∧ r.2.mem ((c.tc : Thread Cert.ReferenceIdeal.nD Cert.ReferenceIdeal.τ).loc Cert.ReferenceIdeal.main_arg8) = m' ((c.tc : Thread Cert.ReferenceIdeal.nD Cert.ReferenceIdeal.τ).loc Cert.ReferenceIdeal.main_arg8)
          ∧ r.2.mem ((c.tc : Thread Cert.ReferenceIdeal.nD Cert.ReferenceIdeal.τ).loc Cert.ReferenceIdeal.main_arg9) = m' ((c.tc : Thread Cert.ReferenceIdeal.nD Cert.ReferenceIdeal.τ).loc Cert.ReferenceIdeal.main_arg9)
          ∧ r.2.mem ((c.tc : Thread Cert.ReferenceIdeal.nD Cert.ReferenceIdeal.τ).loc Cert.ReferenceIdeal.main_arg10) = m' ((c.tc : Thread Cert.ReferenceIdeal.nD Cert.ReferenceIdeal.τ).loc Cert.ReferenceIdeal.main_arg10)
          ∧ r.2.mem ((c.tc : Thread Cert.ReferenceIdeal.nD Cert.ReferenceIdeal.τ).loc Cert.ReferenceIdeal.main_arg11) = m' ((c.tc : Thread Cert.ReferenceIdeal.nD Cert.ReferenceIdeal.τ).loc Cert.ReferenceIdeal.main_arg11))

def Claim : Prop :=
  ∃ (hKernel : Cert.Kernel.Facts) (hKernelIdeal : Cert.KernelIdeal.Facts) (hReferenceIdeal : Cert.ReferenceIdeal.Facts) (hPre_finite_inputs : Cert.Pre_finite_inputs.Facts),
    frame_Kernel (hKernel := hKernel) (hPre_finite_inputs := hPre_finite_inputs)
    ∧ frame_KernelIdeal (hKernelIdeal := hKernelIdeal) (hPre_finite_inputs := hPre_finite_inputs)
    ∧ frame_ReferenceIdeal (hReferenceIdeal := hReferenceIdeal) (hPre_finite_inputs := hPre_finite_inputs)
    ∧ preserves_Kernel_KernelIdeal
    ∧ algebraic_KernelIdeal_ReferenceIdeal (hKernelIdeal := hKernelIdeal) (hReferenceIdeal := hReferenceIdeal) (hPre_finite_inputs := hPre_finite_inputs)
-- ==== Pre_finite_inputs.lean ====
abbrev S100000x128 : Shape := ⟨2, ![100000, 128]⟩
abbrev S2x3200000 : Shape := ⟨2, ![2, 3200000]⟩
abbrev S100000 : Shape := ⟨1, ![100000]⟩
abbrev S128x64 : Shape := ⟨2, ![128, 64]⟩
abbrev S64 : Shape := ⟨1, ![64]⟩
abbrev S64x16 : Shape := ⟨2, ![64, 16]⟩
abbrev S16 : Shape := ⟨1, ![16]⟩
abbrev S16x32 : Shape := ⟨2, ![16, 32]⟩
abbrev S32 : Shape := ⟨1, ![32]⟩
abbrev S32x10 : Shape := ⟨2, ![32, 10]⟩
abbrev S10 : Shape := ⟨1, ![10]⟩
abbrev S_ : Shape := ⟨0, ![]⟩

class Facts : Prop where
  bcast_S_S100000x128 : S_.BroadcastsInDim S100000x128 (![] : Fin 0 → Fin S100000x128.rank)
  reducesTo_S100000x128_S_d0_1 : S100000x128.ReducesTo [0, 1] S_
  h_S_ : 0 < S_.numel
  bcast_S_S128x64 : S_.BroadcastsInDim S128x64 (![] : Fin 0 → Fin S128x64.rank)
  reducesTo_S128x64_S_d0_1 : S128x64.ReducesTo [0, 1] S_
  bcast_S_S64 : S_.BroadcastsInDim S64 (![] : Fin 0 → Fin S64.rank)
  reducesTo_S64_S_d0 : S64.ReducesTo [0] S_
  bcast_S_S64x16 : S_.BroadcastsInDim S64x16 (![] : Fin 0 → Fin S64x16.rank)
  reducesTo_S64x16_S_d0_1 : S64x16.ReducesTo [0, 1] S_
  bcast_S_S16 : S_.BroadcastsInDim S16 (![] : Fin 0 → Fin S16.rank)
  reducesTo_S16_S_d0 : S16.ReducesTo [0] S_
  bcast_S_S16x32 : S_.BroadcastsInDim S16x32 (![] : Fin 0 → Fin S16x32.rank)
  reducesTo_S16x32_S_d0_1 : S16x32.ReducesTo [0, 1] S_
  bcast_S_S32 : S_.BroadcastsInDim S32 (![] : Fin 0 → Fin S32.rank)
  reducesTo_S32_S_d0 : S32.ReducesTo [0] S_
  bcast_S_S32x10 : S_.BroadcastsInDim S32x10 (![] : Fin 0 → Fin S32x10.rank)
  reducesTo_S32x10_S_d0_1 : S32x10.ReducesTo [0, 1] S_
  bcast_S_S10 : S_.BroadcastsInDim S10 (![] : Fin 0 → Fin S10.rank)
  reducesTo_S10_S_d0 : S10.ReducesTo [0] S_

variable [Facts]

def fn_part2 {F : FTy → Type} [FloatOps F] (main_arg10 : FVec F S32x10 .f32) (main_arg11 : FVec F S10 .f32) (main_v33 : IVec S_ 1) : IVec S_ 1 :=
  let main_v34 : FVec F S32x10 .f32 := Host.absf main_arg10
  let main_cst_12 : FVec F S_ .f32 := constant S_ .f32 0x7F800000#32
  let main_v35 : FVec F S32x10 .f32 := broadcastInDim S32x10 ![] bcast_S_S32x10 main_cst_12
  let main_v36 : IVec S32x10 1 := cmpf .olt main_v34 main_v35
  let main_c_13 : IVec S_ 1 := constantI S_ 1 1#1
  let main_v37 : IVec S_ 1 := (fun x v => Host.reduce IntOp.andi x v reducesTo_S32x10_S_d0_1 h_S_) main_v36 main_c_13
  let main_v38 : IVec S_ 1 := andi main_v33 main_v37
  let main_v39 : FVec F S10 .f32 := Host.absf main_arg11
  let main_cst_14 : FVec F S_ .f32 := constant S_ .f32 0x7F800000#32
  let main_v40 : FVec F S10 .f32 := broadcastInDim S10 ![] bcast_S_S10 main_cst_14
  let main_v41 : IVec S10 1 := cmpf .olt main_v39 main_v40
  let main_c_15 : IVec S_ 1 := constantI S_ 1 1#1
  let main_v42 : IVec S_ 1 := (fun x v => Host.reduce IntOp.andi x v reducesTo_S10_S_d0 h_S_) main_v41 main_c_15
  let main_v43 : IVec S_ 1 := andi main_v38 main_v42
  main_v43

def fn_part1 {F : FTy → Type} [FloatOps F] (main_arg7 : FVec F S16 .f32) (main_arg8 : FVec F S16x32 .f32) (main_arg9 : FVec F S32 .f32) (main_arg10 : FVec F S32x10 .f32) (main_arg11 : FVec F S10 .f32) (main_v13 : IVec S_ 1) (main_v16 : IVec S64x16 1) : IVec S_ 1 :=
  let main_c_5 : IVec S_ 1 := constantI S_ 1 1#1
  let main_v17 : IVec S_ 1 := (fun x v => Host.reduce IntOp.andi x v reducesTo_S64x16_S_d0_1 h_S_) main_v16 main_c_5
  let main_v18 : IVec S_ 1 := andi main_v13 main_v17
  let main_v19 : FVec F S16 .f32 := Host.absf main_arg7
  let main_cst_6 : FVec F S_ .f32 := constant S_ .f32 0x7F800000#32
  let main_v20 : FVec F S16 .f32 := broadcastInDim S16 ![] bcast_S_S16 main_cst_6
  let main_v21 : IVec S16 1 := cmpf .olt main_v19 main_v20
  let main_c_7 : IVec S_ 1 := constantI S_ 1 1#1
  let main_v22 : IVec S_ 1 := (fun x v => Host.reduce IntOp.andi x v reducesTo_S16_S_d0 h_S_) main_v21 main_c_7
  let main_v23 : IVec S_ 1 := andi main_v18 main_v22
  let main_v24 : FVec F S16x32 .f32 := Host.absf main_arg8
  let main_cst_8 : FVec F S_ .f32 := constant S_ .f32 0x7F800000#32
  let main_v25 : FVec F S16x32 .f32 := broadcastInDim S16x32 ![] bcast_S_S16x32 main_cst_8
  let main_v26 : IVec S16x32 1 := cmpf .olt main_v24 main_v25
  let main_c_9 : IVec S_ 1 := constantI S_ 1 1#1
  let main_v27 : IVec S_ 1 := (fun x v => Host.reduce IntOp.andi x v reducesTo_S16x32_S_d0_1 h_S_) main_v26 main_c_9
  let main_v28 : IVec S_ 1 := andi main_v23 main_v27
  let main_v29 : FVec F S32 .f32 := Host.absf main_arg9
  let main_cst_10 : FVec F S_ .f32 := constant S_ .f32 0x7F800000#32
  let main_v30 : FVec F S32 .f32 := broadcastInDim S32 ![] bcast_S_S32 main_cst_10
  let main_v31 : IVec S32 1 := cmpf .olt main_v29 main_v30
  let main_c_11 : IVec S_ 1 := constantI S_ 1 1#1
  let main_v32 : IVec S_ 1 := (fun x v => Host.reduce IntOp.andi x v reducesTo_S32_S_d0 h_S_) main_v31 main_c_11
  let main_v33 : IVec S_ 1 := andi main_v28 main_v32
  fn_part2 (F := F) main_arg10 main_arg11 main_v33

def fn {F : FTy → Type} [FloatOps F] (main_arg0 : FVec F S100000x128 .f32) (main_arg1 : IVec S2x3200000 32) (main_arg2 : IVec S100000 32) (main_arg3 : IVec S100000 1) (main_arg4 : FVec F S128x64 .f32) (main_arg5 : FVec F S64 .f32) (main_arg6 : FVec F S64x16 .f32) (main_arg7 : FVec F S16 .f32) (main_arg8 : FVec F S16x32 .f32) (main_arg9 : FVec F S32 .f32) (main_arg10 : FVec F S32x10 .f32) (main_arg11 : FVec F S10 .f32) : IVec S_ 1 :=
  let main_v0 : FVec F S100000x128 .f32 := Host.absf main_arg0
  let main_cst : FVec F S_ .f32 := constant S_ .f32 0x7F800000#32
  let main_v1 : FVec F S100000x128 .f32 := broadcastInDim S100000x128 ![] bcast_S_S100000x128 main_cst
  let main_v2 : IVec S100000x128 1 := cmpf .olt main_v0 main_v1
  let main_c : IVec S_ 1 := constantI S_ 1 1#1
  let main_v3 : IVec S_ 1 := (fun x v => Host.reduce IntOp.andi x v reducesTo_S100000x128_S_d0_1 h_S_) main_v2 main_c
  let main_v4 : FVec F S128x64 .f32 := Host.absf main_arg4
  let main_cst_0 : FVec F S_ .f32 := constant S_ .f32 0x7F800000#32
  let main_v5 : FVec F S128x64 .f32 := broadcastInDim S128x64 ![] bcast_S_S128x64 main_cst_0
  let main_v6 : IVec S128x64 1 := cmpf .olt main_v4 main_v5
  let main_c_1 : IVec S_ 1 := constantI S_ 1 1#1
  let main_v7 : IVec S_ 1 := (fun x v => Host.reduce IntOp.andi x v reducesTo_S128x64_S_d0_1 h_S_) main_v6 main_c_1
  let main_v8 : IVec S_ 1 := andi main_v3 main_v7
  let main_v9 : FVec F S64 .f32 := Host.absf main_arg5
  let main_cst_2 : FVec F S_ .f32 := constant S_ .f32 0x7F800000#32
  let main_v10 : FVec F S64 .f32 := broadcastInDim S64 ![] bcast_S_S64 main_cst_2
  let main_v11 : IVec S64 1 := cmpf .olt main_v9 main_v10
  let main_c_3 : IVec S_ 1 := constantI S_ 1 1#1
  let main_v12 : IVec S_ 1 := (fun x v => Host.reduce IntOp.andi x v reducesTo_S64_S_d0 h_S_) main_v11 main_c_3
  let main_v13 : IVec S_ 1 := andi main_v8 main_v12
  let main_v14 : FVec F S64x16 .f32 := Host.absf main_arg6
  let main_cst_4 : FVec F S_ .f32 := constant S_ .f32 0x7F800000#32
  let main_v15 : FVec F S64x16 .f32 := broadcastInDim S64x16 ![] bcast_S_S64x16 main_cst_4
  let main_v16 : IVec S64x16 1 := cmpf .olt main_v14 main_v15
  fn_part1 (F := F) main_arg7 main_arg8 main_arg9 main_arg10 main_arg11 main_v13 main_v16
-- ==== Kernel.lean ====
abbrev S100000x128 : Shape := ⟨2, ![100000, 128]⟩
abbrev S2x3200000 : Shape := ⟨2, ![2, 3200000]⟩
abbrev S100000 : Shape := ⟨1, ![100000]⟩
abbrev S128x64 : Shape := ⟨2, ![128, 64]⟩
abbrev S64 : Shape := ⟨1, ![64]⟩
abbrev S64x16 : Shape := ⟨2, ![64, 16]⟩
abbrev S16 : Shape := ⟨1, ![16]⟩
abbrev S16x32 : Shape := ⟨2, ![16, 32]⟩
abbrev S32 : Shape := ⟨1, ![32]⟩
abbrev S32x10 : Shape := ⟨2, ![32, 10]⟩
abbrev S10 : Shape := ⟨1, ![10]⟩
abbrev S1x3200000 : Shape := ⟨2, ![1, 3200000]⟩
abbrev S3200000 : Shape := ⟨1, ![3200000]⟩
abbrev S100000x64 : Shape := ⟨2, ![100000, 64]⟩
abbrev S5000x128 : Shape := ⟨2, ![5000, 128]⟩
abbrev S5000x64 : Shape := ⟨2, ![5000, 64]⟩
abbrev S_ : Shape := ⟨0, ![]⟩
abbrev S3200000x1 : Shape := ⟨2, ![3200000, 1]⟩
abbrev S3200000x64 : Shape := ⟨2, ![3200000, 64]⟩
abbrev S100000x1 : Shape := ⟨2, ![100000, 1]⟩
abbrev S1x64 : Shape := ⟨2, ![1, 64]⟩
abbrev S5000x1 : Shape := ⟨2, ![5000, 1]⟩
abbrev S100000x16 : Shape := ⟨2, ![100000, 16]⟩
abbrev S5000x16 : Shape := ⟨2, ![5000, 16]⟩
abbrev S3200000x16 : Shape := ⟨2, ![3200000, 16]⟩
abbrev S1x16 : Shape := ⟨2, ![1, 16]⟩
abbrev S64x1 : Shape := ⟨2, ![64, 1]⟩
abbrev S64x32 : Shape := ⟨2, ![64, 32]⟩
abbrev S1x32 : Shape := ⟨2, ![1, 32]⟩
abbrev S64x10 : Shape := ⟨2, ![64, 10]⟩
abbrev S1x10 : Shape := ⟨2, ![1, 10]⟩

abbrev nBuf : Space → Nat
  | .hbm => 148
  | .vmem => 28
  | .smem => 0
  | _ => 0

abbrev hbmTy0_0 (i : Nat) : BufTy := match i % 128 with
  | 0 => ⟨S100000x128, .f32⟩
  | 1 => ⟨S2x3200000, .i32⟩
  | 2 => ⟨S100000, .i32⟩
  | 3 => ⟨S100000, .i1⟩
  | 4 => ⟨S128x64, .f32⟩
  | 5 => ⟨S64, .f32⟩
  | 6 => ⟨S64x16, .f32⟩
  | 7 => ⟨S16, .f32⟩
  | 8 => ⟨S16x32, .f32⟩
  | 9 => ⟨S32, .f32⟩
  | 10 => ⟨S32x10, .f32⟩
  | 11 => ⟨S10, .f32⟩
  | 12 => ⟨S1x3200000, .i32⟩
  | 13 => ⟨S3200000, .i32⟩
  | 14 => ⟨S1x3200000, .i32⟩
  | 15 => ⟨S3200000, .i32⟩
  | 16 => ⟨S100000x64, .f32⟩
  | 17 => ⟨S_, .f32⟩
  | 18 => ⟨S3200000, .f32⟩
  | 19 => ⟨S_, .f32⟩
  | 20 => ⟨S100000, .f32⟩
  | 21 => ⟨S3200000x1, .i32⟩
  | 22 => ⟨S100000, .f32⟩
  | 23 => ⟨S_, .f32⟩
  | 24 => ⟨S100000, .f32⟩
  | 25 => ⟨S100000, .f32⟩
  | 26 => ⟨S100000, .f32⟩
  | 27 => ⟨S_, .i32⟩
  | 28 => ⟨S3200000, .i32⟩
  | 29 => ⟨S3200000, .i1⟩
  | 30 => ⟨S_, .i32⟩
  | 31 => ⟨S3200000, .i32⟩
  | 32 => ⟨S3200000, .i32⟩
  | 33 => ⟨S3200000, .i32⟩
  | 34 => ⟨S3200000x1, .i32⟩
  | 35 => ⟨S3200000, .f32⟩
  | 36 => ⟨S_, .i32⟩
  | 37 => ⟨S3200000, .i32⟩
  | 38 => ⟨S3200000, .i1⟩
  | 39 => ⟨S_, .i32⟩
  | 40 => ⟨S3200000, .i32⟩
  | 41 => ⟨S3200000, .i32⟩
  | 42 => ⟨S3200000, .i32⟩
  | 43 => ⟨S3200000x1, .i32⟩
  | 44 => ⟨S3200000, .f32⟩
  | 45 => ⟨S3200000, .f32⟩
  | 46 => ⟨S_, .i32⟩
  | 47 => ⟨S3200000, .i32⟩
  | 48 => ⟨S3200000, .i1⟩
  | 49 => ⟨S_, .i32⟩
  | 50 => ⟨S3200000, .i32⟩
  | 51 => ⟨S3200000, .i32⟩
  | 52 => ⟨S3200000, .i32⟩
  | 53 => ⟨S3200000x1, .i32⟩
  | 54 => ⟨S3200000x64, .f32⟩
  | 55 => ⟨S3200000x1, .f32⟩
  | 56 => ⟨S3200000x64, .f32⟩
  | 57 => ⟨S3200000x64, .f32⟩
  | 58 => ⟨S_, .f32⟩
  | 59 => ⟨S100000x64, .f32⟩
  | 60 => ⟨S3200000x1, .i32⟩
  | 61 => ⟨S100000x64, .f32⟩
  | 62 => ⟨S100000, .f32⟩
  | 63 => ⟨S100000x1, .f32⟩
  | 64 => ⟨S1x64, .f32⟩
  | 65 => ⟨S100000x64, .f32⟩
  | 66 => ⟨S100000x16, .f32⟩
  | 67 => ⟨S_, .f32⟩
  | 68 => ⟨S3200000, .f32⟩
  | 69 => ⟨S_, .f32⟩
  | 70 => ⟨S100000, .f32⟩
  | 71 => ⟨S3200000x1, .i32⟩
  | 72 => ⟨S100000, .f32⟩
  | 73 => ⟨S_, .f32⟩
  | 74 => ⟨S100000, .f32⟩
  | 75 => ⟨S100000, .f32⟩
  | 76 => ⟨S100000, .f32⟩
  | 77 => ⟨S_, .i32⟩
  | 78 => ⟨S3200000, .i32⟩
  | 79 => ⟨S3200000, .i1⟩
  | 80 => ⟨S_, .i32⟩
  | 81 => ⟨S3200000, .i32⟩
  | 82 => ⟨S3200000, .i32⟩
  | 83 => ⟨S3200000, .i32⟩
  | 84 => ⟨S3200000x1, .i32⟩
  | 85 => ⟨S3200000, .f32⟩
  | 86 => ⟨S_, .i32⟩
  | 87 => ⟨S3200000, .i32⟩
  | 88 => ⟨S3200000, .i1⟩
  | 89 => ⟨S_, .i32⟩
  | 90 => ⟨S3200000, .i32⟩
  | 91 => ⟨S3200000, .i32⟩
  | 92 => ⟨S3200000, .i32⟩
  | 93 => ⟨S3200000x1, .i32⟩
  | 94 => ⟨S3200000, .f32⟩
  | 95 => ⟨S3200000, .f32⟩
  | 96 => ⟨S_, .i32⟩
  | 97 => ⟨S3200000, .i32⟩
  | 98 => ⟨S3200000, .i1⟩
  | 99 => ⟨S_, .i32⟩
  | 100 => ⟨S3200000, .i32⟩
  | 101 => ⟨S3200000, .i32⟩
  | 102 => ⟨S3200000, .i32⟩
  | 103 => ⟨S3200000x1, .i32⟩
  | 104 => ⟨S3200000x16, .f32⟩
  | 105 => ⟨S3200000x1, .f32⟩
  | 106 => ⟨S3200000x16, .f32⟩
  | 107 => ⟨S3200000x16, .f32⟩
  | 108 => ⟨S_, .f32⟩
  | 109 => ⟨S100000x16, .f32⟩
  | 110 => ⟨S3200000x1, .i32⟩
  | 111 => ⟨S100000x16, .f32⟩
  | 112 => ⟨S100000, .f32⟩
  | 113 => ⟨S100000x1, .f32⟩
  | 114 => ⟨S1x16, .f32⟩
  | 115 => ⟨S100000x16, .f32⟩
  | 116 => ⟨S_, .f32⟩
  | 117 => ⟨S64x16, .f32⟩
  | 118 => ⟨S100000x1, .i32⟩
  | 119 => ⟨S64x16, .f32⟩
  | 120 => ⟨S_, .f32⟩
  | 121 => ⟨S100000, .f32⟩
  | 122 => ⟨S_, .f32⟩
  | 123 => ⟨S64, .f32⟩
  | 124 => ⟨S100000x1, .i32⟩
  | 125 => ⟨S64, .f32⟩
  | 126 => ⟨S_, .f32⟩
  | 127 => ⟨S64, .f32⟩
  | _ => ⟨S100000x128, .f32⟩

abbrev hbmTy0_1 (i : Nat) : BufTy := match i % 128 with
  | 0 => ⟨S64, .f32⟩
  | 1 => ⟨S64x1, .f32⟩
  | 2 => ⟨S64x16, .f32⟩
  | 3 => ⟨S64x16, .f32⟩
  | 4 => ⟨S64x32, .f32⟩
  | 5 => ⟨S1x32, .f32⟩
  | 6 => ⟨S64x32, .f32⟩
  | 7 => ⟨S64x32, .f32⟩
  | 8 => ⟨S_, .f32⟩
  | 9 => ⟨S_, .f32⟩
  | 10 => ⟨S64x32, .f32⟩
  | 11 => ⟨S64x32, .i1⟩
  | 12 => ⟨S_, .f32⟩
  | 13 => ⟨S64x32, .f32⟩
  | 14 => ⟨S64x32, .f32⟩
  | 15 => ⟨S64x32, .f32⟩
  | 16 => ⟨S64x10, .f32⟩
  | 17 => ⟨S1x10, .f32⟩
  | 18 => ⟨S64x10, .f32⟩
  | 19 => ⟨S64x10, .f32⟩
  | _ => ⟨S100000x128, .f32⟩

abbrev hbmTy (i : Nat) : BufTy := match i / 128 with
  | 0 => hbmTy0_0 i
  | 1 => hbmTy0_1 i
  | _ => ⟨S100000x128, .f32⟩

abbrev bufTy : (tb : Table) → Fin (tcTables nBuf tb) → BufTy
  | .hbm, ⟨i, _⟩ => hbmTy i
  | .local _ .vmem, ⟨0, _⟩ => ⟨S5000x128, .f32⟩
  | .local _ .vmem, ⟨1, _⟩ => ⟨S5000x128, .f32⟩
  | .local _ .vmem, ⟨2, _⟩ => ⟨S128x64, .f32⟩
  | .local _ .vmem, ⟨3, _⟩ => ⟨S5000x64, .f32⟩
  | .local _ .vmem, ⟨4, _⟩ => ⟨S5000x64, .f32⟩
  | .local _ .vmem, ⟨5, _⟩ => ⟨S5000x64, .f32⟩
  | .local _ .vmem, ⟨6, _⟩ => ⟨S5000x64, .f32⟩
  | .local _ .vmem, ⟨7, _⟩ => ⟨S5000x64, .f32⟩
  | .local _ .vmem, ⟨8, _⟩ => ⟨S5000x64, .f32⟩
  | .local _ .vmem, ⟨9, _⟩ => ⟨S5000x1, .f32⟩
  | .local _ .vmem, ⟨10, _⟩ => ⟨S5000x1, .f32⟩
  | .local _ .vmem, ⟨11, _⟩ => ⟨S1x64, .f32⟩
  | .local _ .vmem, ⟨12, _⟩ => ⟨S5000x64, .f32⟩
  | .local _ .vmem, ⟨13, _⟩ => ⟨S5000x64, .f32⟩
  | .local _ .vmem, ⟨14, _⟩ => ⟨S5000x64, .f32⟩
  | .local _ .vmem, ⟨15, _⟩ => ⟨S5000x64, .f32⟩
  | .local _ .vmem, ⟨16, _⟩ => ⟨S64x16, .f32⟩
  | .local _ .vmem, ⟨17, _⟩ => ⟨S5000x16, .f32⟩
  | .local _ .vmem, ⟨18, _⟩ => ⟨S5000x16, .f32⟩
  | .local _ .vmem, ⟨19, _⟩ => ⟨S5000x16, .f32⟩
  | .local _ .vmem, ⟨20, _⟩ => ⟨S5000x16, .f32⟩
  | .local _ .vmem, ⟨21, _⟩ => ⟨S5000x16, .f32⟩
  | .local _ .vmem, ⟨22, _⟩ => ⟨S5000x16, .f32⟩
  | .local _ .vmem, ⟨23, _⟩ => ⟨S5000x1, .f32⟩
  | .local _ .vmem, ⟨24, _⟩ => ⟨S5000x1, .f32⟩
  | .local _ .vmem, ⟨25, _⟩ => ⟨S1x16, .f32⟩
  | .local _ .vmem, ⟨26, _⟩ => ⟨S5000x16, .f32⟩
  | .local _ .vmem, ⟨27, _⟩ => ⟨S5000x16, .f32⟩
  | _, _ => ⟨S100000x128, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | .vmem, ⟨12, _⟩ => true
  | .vmem, ⟨13, _⟩ => true
  | .vmem, ⟨14, _⟩ => true
  | .vmem, ⟨15, _⟩ => true
  | .vmem, ⟨16, _⟩ => true
  | .vmem, ⟨17, _⟩ => true
  | .vmem, ⟨18, _⟩ => true
  | .vmem, ⟨19, _⟩ => true
  | .vmem, ⟨20, _⟩ => true
  | .vmem, ⟨21, _⟩ => true
  | .vmem, ⟨22, _⟩ => true
  | .vmem, ⟨23, _⟩ => true
  | .vmem, ⟨24, _⟩ => true
  | .vmem, ⟨25, _⟩ => true
  | .vmem, ⟨26, _⟩ => true
  | .vmem, ⟨27, _⟩ => true
  | _, _ => false

abbrev semScoped : Fin 0 → Bool
  | ⟨_, h⟩ => absurd h (Nat.not_lt_zero _)

abbrev dmaSemScoped : Fin 28 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | ⟨12, _⟩ => true
  | ⟨13, _⟩ => true
  | ⟨14, _⟩ => true
  | ⟨15, _⟩ => true
  | ⟨16, _⟩ => true
  | ⟨17, _⟩ => true
  | ⟨18, _⟩ => true
  | ⟨19, _⟩ => true
  | ⟨20, _⟩ => true
  | ⟨21, _⟩ => true
  | ⟨22, _⟩ => true
  | ⟨23, _⟩ => true
  | ⟨24, _⟩ => true
  | ⟨25, _⟩ => true
  | ⟨26, _⟩ => true
  | ⟨27, _⟩ => true
  | _ => false

abbrev sig : RefSig :=
  ofTc nBuf bufTy 0 28 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_arg7 : Ref sig .tc := ⟨.hbm, 7, rfl⟩
abbrev main_arg8 : Ref sig .tc := ⟨.hbm, 8, rfl⟩
abbrev main_arg9 : Ref sig .tc := ⟨.hbm, 9, rfl⟩
abbrev main_arg10 : Ref sig .tc := ⟨.hbm, 10, rfl⟩
abbrev main_arg11 : Ref sig .tc := ⟨.hbm, 11, rfl⟩
abbrev main_v0 : Ref sig .tc := ⟨.hbm, 12, rfl⟩
abbrev main_v1 : Ref sig .tc := ⟨.hbm, 13, rfl⟩
abbrev main_v2 : Ref sig .tc := ⟨.hbm, 14, rfl⟩
abbrev main_v3 : Ref sig .tc := ⟨.hbm, 15, rfl⟩
abbrev main_v4 : Ref sig .tc := ⟨.hbm, 16, rfl⟩
abbrev main_cst : Ref sig .tc := ⟨.hbm, 17, rfl⟩
abbrev main_v5 : Ref sig .tc := ⟨.hbm, 18, rfl⟩
abbrev main_cst_0 : Ref sig .tc := ⟨.hbm, 19, rfl⟩
abbrev main_v6 : Ref sig .tc := ⟨.hbm, 20, rfl⟩
abbrev main_v7 : Ref sig .tc := ⟨.hbm, 21, rfl⟩
abbrev main_v8 : Ref sig .tc := ⟨.hbm, 22, rfl⟩
abbrev main_cst_1 : Ref sig .tc := ⟨.hbm, 23, rfl⟩
abbrev main_v9 : Ref sig .tc := ⟨.hbm, 24, rfl⟩
abbrev main_v10 : Ref sig .tc := ⟨.hbm, 25, rfl⟩
abbrev main_v11 : Ref sig .tc := ⟨.hbm, 26, rfl⟩
abbrev main_c : Ref sig .tc := ⟨.hbm, 27, rfl⟩
abbrev main_v12 : Ref sig .tc := ⟨.hbm, 28, rfl⟩
abbrev main_v13 : Ref sig .tc := ⟨.hbm, 29, rfl⟩
abbrev main_c_2 : Ref sig .tc := ⟨.hbm, 30, rfl⟩
abbrev main_v14 : Ref sig .tc := ⟨.hbm, 31, rfl⟩
abbrev main_v15 : Ref sig .tc := ⟨.hbm, 32, rfl⟩
abbrev main_v16 : Ref sig .tc := ⟨.hbm, 33, rfl⟩
abbrev main_v17 : Ref sig .tc := ⟨.hbm, 34, rfl⟩
abbrev main_v18 : Ref sig .tc := ⟨.hbm, 35, rfl⟩
abbrev main_c_3 : Ref sig .tc := ⟨.hbm, 36, rfl⟩
abbrev main_v19 : Ref sig .tc := ⟨.hbm, 37, rfl⟩
abbrev main_v20 : Ref sig .tc := ⟨.hbm, 38, rfl⟩
abbrev main_c_4 : Ref sig .tc := ⟨.hbm, 39, rfl⟩
abbrev main_v21 : Ref sig .tc := ⟨.hbm, 40, rfl⟩
abbrev main_v22 : Ref sig .tc := ⟨.hbm, 41, rfl⟩
abbrev main_v23 : Ref sig .tc := ⟨.hbm, 42, rfl⟩
abbrev main_v24 : Ref sig .tc := ⟨.hbm, 43, rfl⟩
abbrev main_v25 : Ref sig .tc := ⟨.hbm, 44, rfl⟩
abbrev main_v26 : Ref sig .tc := ⟨.hbm, 45, rfl⟩
abbrev main_c_5 : Ref sig .tc := ⟨.hbm, 46, rfl⟩
abbrev main_v27 : Ref sig .tc := ⟨.hbm, 47, rfl⟩
abbrev main_v28 : Ref sig .tc := ⟨.hbm, 48, rfl⟩
abbrev main_c_6 : Ref sig .tc := ⟨.hbm, 49, rfl⟩
abbrev main_v29 : Ref sig .tc := ⟨.hbm, 50, rfl⟩
abbrev main_v30 : Ref sig .tc := ⟨.hbm, 51, rfl⟩
abbrev main_v31 : Ref sig .tc := ⟨.hbm, 52, rfl⟩
abbrev main_v32 : Ref sig .tc := ⟨.hbm, 53, rfl⟩
abbrev main_v33 : Ref sig .tc := ⟨.hbm, 54, rfl⟩
abbrev main_v34 : Ref sig .tc := ⟨.hbm, 55, rfl⟩
abbrev main_v35 : Ref sig .tc := ⟨.hbm, 56, rfl⟩
abbrev main_v36 : Ref sig .tc := ⟨.hbm, 57, rfl⟩
abbrev main_cst_7 : Ref sig .tc := ⟨.hbm, 58, rfl⟩
abbrev main_v37 : Ref sig .tc := ⟨.hbm, 59, rfl⟩
abbrev main_v38 : Ref sig .tc := ⟨.hbm, 60, rfl⟩
abbrev main_v39 : Ref sig .tc := ⟨.hbm, 61, rfl⟩
abbrev main_v40 : Ref sig .tc := ⟨.hbm, 62, rfl⟩
abbrev main_v41 : Ref sig .tc := ⟨.hbm, 63, rfl⟩
abbrev main_v42 : Ref sig .tc := ⟨.hbm, 64, rfl⟩
abbrev main_v43 : Ref sig .tc := ⟨.hbm, 65, rfl⟩
abbrev main_v44 : Ref sig .tc := ⟨.hbm, 66, rfl⟩
abbrev main_cst_8 : Ref sig .tc := ⟨.hbm, 67, rfl⟩
abbrev main_v45 : Ref sig .tc := ⟨.hbm, 68, rfl⟩
abbrev main_cst_9 : Ref sig .tc := ⟨.hbm, 69, rfl⟩
abbrev main_v46 : Ref sig .tc := ⟨.hbm, 70, rfl⟩
abbrev main_v47 : Ref sig .tc := ⟨.hbm, 71, rfl⟩
abbrev main_v48 : Ref sig .tc := ⟨.hbm, 72, rfl⟩
abbrev main_cst_10 : Ref sig .tc := ⟨.hbm, 73, rfl⟩
abbrev main_v49 : Ref sig .tc := ⟨.hbm, 74, rfl⟩
abbrev main_v50 : Ref sig .tc := ⟨.hbm, 75, rfl⟩
abbrev main_v51 : Ref sig .tc := ⟨.hbm, 76, rfl⟩
abbrev main_c_11 : Ref sig .tc := ⟨.hbm, 77, rfl⟩
abbrev main_v52 : Ref sig .tc := ⟨.hbm, 78, rfl⟩
abbrev main_v53 : Ref sig .tc := ⟨.hbm, 79, rfl⟩
abbrev main_c_12 : Ref sig .tc := ⟨.hbm, 80, rfl⟩
abbrev main_v54 : Ref sig .tc := ⟨.hbm, 81, rfl⟩
abbrev main_v55 : Ref sig .tc := ⟨.hbm, 82, rfl⟩
abbrev main_v56 : Ref sig .tc := ⟨.hbm, 83, rfl⟩
abbrev main_v57 : Ref sig .tc := ⟨.hbm, 84, rfl⟩
abbrev main_v58 : Ref sig .tc := ⟨.hbm, 85, rfl⟩
abbrev main_c_13 : Ref sig .tc := ⟨.hbm, 86, rfl⟩
abbrev main_v59 : Ref sig .tc := ⟨.hbm, 87, rfl⟩
abbrev main_v60 : Ref sig .tc := ⟨.hbm, 88, rfl⟩
abbrev main_c_14 : Ref sig .tc := ⟨.hbm, 89, rfl⟩
abbrev main_v61 : Ref sig .tc := ⟨.hbm, 90, rfl⟩
abbrev main_v62 : Ref sig .tc := ⟨.hbm, 91, rfl⟩
abbrev main_v63 : Ref sig .tc := ⟨.hbm, 92, rfl⟩
abbrev main_v64 : Ref sig .tc := ⟨.hbm, 93, rfl⟩
abbrev main_v65 : Ref sig .tc := ⟨.hbm, 94, rfl⟩
abbrev main_v66 : Ref sig .tc := ⟨.hbm, 95, rfl⟩
abbrev main_c_15 : Ref sig .tc := ⟨.hbm, 96, rfl⟩
abbrev main_v67 : Ref sig .tc := ⟨.hbm, 97, rfl⟩
abbrev main_v68 : Ref sig .tc := ⟨.hbm, 98, rfl⟩
abbrev main_c_16 : Ref sig .tc := ⟨.hbm, 99, rfl⟩
abbrev main_v69 : Ref sig .tc := ⟨.hbm, 100, rfl⟩
abbrev main_v70 : Ref sig .tc := ⟨.hbm, 101, rfl⟩
abbrev main_v71 : Ref sig .tc := ⟨.hbm, 102, rfl⟩
abbrev main_v72 : Ref sig .tc := ⟨.hbm, 103, rfl⟩
abbrev main_v73 : Ref sig .tc := ⟨.hbm, 104, rfl⟩
abbrev main_v74 : Ref sig .tc := ⟨.hbm, 105, rfl⟩
abbrev main_v75 : Ref sig .tc := ⟨.hbm, 106, rfl⟩
abbrev main_v76 : Ref sig .tc := ⟨.hbm, 107, rfl⟩
abbrev main_cst_17 : Ref sig .tc := ⟨.hbm, 108, rfl⟩
abbrev main_v77 : Ref sig .tc := ⟨.hbm, 109, rfl⟩
abbrev main_v78 : Ref sig .tc := ⟨.hbm, 110, rfl⟩
abbrev main_v79 : Ref sig .tc := ⟨.hbm, 111, rfl⟩
abbrev main_v80 : Ref sig .tc := ⟨.hbm, 112, rfl⟩
abbrev main_v81 : Ref sig .tc := ⟨.hbm, 113, rfl⟩
abbrev main_v82 : Ref sig .tc := ⟨.hbm, 114, rfl⟩
abbrev main_v83 : Ref sig .tc := ⟨.hbm, 115, rfl⟩
abbrev main_cst_18 : Ref sig .tc := ⟨.hbm, 116, rfl⟩
abbrev main_v84 : Ref sig .tc := ⟨.hbm, 117, rfl⟩
abbrev main_v85 : Ref sig .tc := ⟨.hbm, 118, rfl⟩
abbrev main_v86 : Ref sig .tc := ⟨.hbm, 119, rfl⟩
abbrev main_cst_19 : Ref sig .tc := ⟨.hbm, 120, rfl⟩
abbrev main_v87 : Ref sig .tc := ⟨.hbm, 121, rfl⟩
abbrev main_cst_20 : Ref sig .tc := ⟨.hbm, 122, rfl⟩
abbrev main_v88 : Ref sig .tc := ⟨.hbm, 123, rfl⟩
abbrev main_v89 : Ref sig .tc := ⟨.hbm, 124, rfl⟩
abbrev main_v90 : Ref sig .tc := ⟨.hbm, 125, rfl⟩
abbrev main_cst_21 : Ref sig .tc := ⟨.hbm, 126, rfl⟩
abbrev main_v91 : Ref sig .tc := ⟨.hbm, 127, rfl⟩
abbrev main_v92 : Ref sig .tc := ⟨.hbm, 128, rfl⟩
abbrev main_v93 : Ref sig .tc := ⟨.hbm, 129, rfl⟩
abbrev main_v94 : Ref sig .tc := ⟨.hbm, 130, rfl⟩
abbrev main_v95 : Ref sig .tc := ⟨.hbm, 131, rfl⟩
abbrev main_v96 : Ref sig .tc := ⟨.hbm, 132, rfl⟩
abbrev main_v97 : Ref sig .tc := ⟨.hbm, 133, rfl⟩
abbrev main_v98 : Ref sig .tc := ⟨.hbm, 134, rfl⟩
abbrev main_v99 : Ref sig .tc := ⟨.hbm, 135, rfl⟩
abbrev main_cst_22 : Ref sig .tc := ⟨.hbm, 136, rfl⟩
abbrev main_call0_cst : Ref sig .tc := ⟨.hbm, 137, rfl⟩
abbrev main_call0_v0 : Ref sig .tc := ⟨.hbm, 138, rfl⟩
abbrev main_call0_v1 : Ref sig .tc := ⟨.hbm, 139, rfl⟩
abbrev main_call0_v2 : Ref sig .tc := ⟨.hbm, 140, rfl⟩
abbrev main_call0_v3 : Ref sig .tc := ⟨.hbm, 141, rfl⟩
abbrev main_call0_v4 : Ref sig .tc := ⟨.hbm, 142, rfl⟩
abbrev main_v100 : Ref sig .tc := ⟨.hbm, 143, rfl⟩
abbrev main_v101 : Ref sig .tc := ⟨.hbm, 144, rfl⟩
abbrev main_v102 : Ref sig .tc := ⟨.hbm, 145, rfl⟩
abbrev main_v103 : Ref sig .tc := ⟨.hbm, 146, rfl⟩
abbrev main_v104 : Ref sig .tc := ⟨.hbm, 147, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg2_0 : Ref sig .tc := ⟨.vmem, 3, rfl⟩
abbrev cc0_stg2_1 : Ref sig .tc := ⟨.vmem, 4, rfl⟩
abbrev cc1_stg0_0 : Ref sig .tc := ⟨.vmem, 5, rfl⟩
abbrev cc1_stg0_1 : Ref sig .tc := ⟨.vmem, 6, rfl⟩
abbrev cc1_stg1_0 : Ref sig .tc := ⟨.vmem, 7, rfl⟩
abbrev cc1_stg1_1 : Ref sig .tc := ⟨.vmem, 8, rfl⟩
abbrev cc1_stg2_0 : Ref sig .tc := ⟨.vmem, 9, rfl⟩
abbrev cc1_stg2_1 : Ref sig .tc := ⟨.vmem, 10, rfl⟩
abbrev cc1_stg3_0 : Ref sig .tc := ⟨.vmem, 11, rfl⟩
abbrev cc1_stg4_0 : Ref sig .tc := ⟨.vmem, 12, rfl⟩
abbrev cc1_stg4_1 : Ref sig .tc := ⟨.vmem, 13, rfl⟩
abbrev cc2_stg0_0 : Ref sig .tc := ⟨.vmem, 14, rfl⟩
abbrev cc2_stg0_1 : Ref sig .tc := ⟨.vmem, 15, rfl⟩
abbrev cc2_stg1_0 : Ref sig .tc := ⟨.vmem, 16, rfl⟩
abbrev cc2_stg2_0 : Ref sig .tc := ⟨.vmem, 17, rfl⟩
abbrev cc2_stg2_1 : Ref sig .tc := ⟨.vmem, 18, rfl⟩
abbrev cc3_stg0_0 : Ref sig .tc := ⟨.vmem, 19, rfl⟩
abbrev cc3_stg0_1 : Ref sig .tc := ⟨.vmem, 20, rfl⟩
abbrev cc3_stg1_0 : Ref sig .tc := ⟨.vmem, 21, rfl⟩
abbrev cc3_stg1_1 : Ref sig .tc := ⟨.vmem, 22, rfl⟩
abbrev cc3_stg2_0 : Ref sig .tc := ⟨.vmem, 23, rfl⟩
abbrev cc3_stg2_1 : Ref sig .tc := ⟨.vmem, 24, rfl⟩
abbrev cc3_stg3_0 : Ref sig .tc := ⟨.vmem, 25, rfl⟩
abbrev cc3_stg4_0 : Ref sig .tc := ⟨.vmem, 26, rfl⟩
abbrev cc3_stg4_1 : Ref sig .tc := ⟨.vmem, 27, rfl⟩
abbrev cc0_sem0_0 : DmaSem sig := 0
abbrev cc0_sem0_1 : DmaSem sig := 1
abbrev cc0_sem1_0 : DmaSem sig := 2
abbrev cc0_sem2_0 : DmaSem sig := 3
abbrev cc0_sem2_1 : DmaSem sig := 4
abbrev cc1_sem0_0 : DmaSem sig := 5
abbrev cc1_sem0_1 : DmaSem sig := 6
abbrev cc1_sem1_0 : DmaSem sig := 7
abbrev cc1_sem1_1 : DmaSem sig := 8
abbrev cc1_sem2_0 : DmaSem sig := 9
abbrev cc1_sem2_1 : DmaSem sig := 10
abbrev cc1_sem3_0 : DmaSem sig := 11
abbrev cc1_sem4_0 : DmaSem sig := 12
abbrev cc1_sem4_1 : DmaSem sig := 13
abbrev cc2_sem0_0 : DmaSem sig := 14
abbrev cc2_sem0_1 : DmaSem sig := 15
abbrev cc2_sem1_0 : DmaSem sig := 16
abbrev cc2_sem2_0 : DmaSem sig := 17
abbrev cc2_sem2_1 : DmaSem sig := 18
abbrev cc3_sem0_0 : DmaSem sig := 19
abbrev cc3_sem0_1 : DmaSem sig := 20
abbrev cc3_sem1_0 : DmaSem sig := 21
abbrev cc3_sem1_1 : DmaSem sig := 22
abbrev cc3_sem2_0 : DmaSem sig := 23
abbrev cc3_sem2_1 : DmaSem sig := 24
abbrev cc3_sem3_0 : DmaSem sig := 25
abbrev cc3_sem4_0 : DmaSem sig := 26
abbrev cc3_sem4_1 : DmaSem sig := 27

abbrev nD : Nat := 1
abbrev τ : Topo := Topo.v7x

variable {F : FTy → Type} [FloatOps F]

abbrev grid0 : Pipeline.Grid := ⟨1, ![20], ![false]⟩

def cc0_transform_0 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_1 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_2 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage0_0 : Fin 2 → Memref sig .tc .vmem S5000x128 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true]

abbrev stage0_1 : Fin 1 → Memref sig .tc .vmem S128x64 .f32 := fun | 0 => Memref.whole cc0_stg1_0 | ⟨_ + 1, h⟩ => absurd h (Nat.not_lt.2 (Nat.le_add_left _ _))
abbrev sem0_1 : Fin 1 → DmaSem sig := fun | 0 => cc0_sem1_0 | ⟨_ + 1, h⟩ => absurd h (Nat.not_lt.2 (Nat.le_add_left _ _))
abbrev reads0_1 : Fin grid0.rank → Bool := ![false]

abbrev stage0_2 : Fin 2 → Memref sig .tc .vmem S5000x64 .f32 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true]

abbrev grid1 : Pipeline.Grid := ⟨1, ![20], ![false]⟩

def cc1_transform_0 (i : grid1.Coords) : Fin 2 → Nat :=
  let arg0 : BitVec 32 := BitVec.ofNat 32 (i 0).val
  let c0_i32 : BitVec 32 := 0#32
  let c0_i32_0 : BitVec 32 := 0#32
  ![arg0.toNat, c0_i32.toNat]

def cc1_transform_1 (i : grid1.Coords) : Fin 2 → Nat :=
  let arg0 : BitVec 32 := BitVec.ofNat 32 (i 0).val
  let c0_i32 : BitVec 32 := 0#32
  let c0_i32_0 : BitVec 32 := 0#32
  ![arg0.toNat, c0_i32.toNat]

def cc1_transform_2 (i : grid1.Coords) : Fin 2 → Nat :=
  let arg0 : BitVec 32 := BitVec.ofNat 32 (i 0).val
  let c0_i32 : BitVec 32 := 0#32
  let c0_i32_0 : BitVec 32 := 0#32
  ![arg0.toNat, c0_i32.toNat]

def cc1_transform_3 (i : grid1.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc1_transform_4 (i : grid1.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage1_0 : Fin 2 → Memref sig .tc .vmem S5000x64 .f32 := fun | 0 => Memref.whole cc1_stg0_0 | 1 => Memref.whole cc1_stg0_1 | ⟨_ + 2, h⟩ => absurd h (Nat.not_lt.2 (Nat.le_add_left _ _))
abbrev sem1_0 : Fin 2 → DmaSem sig := fun | 0 => cc1_sem0_0 | 1 => cc1_sem0_1 | ⟨_ + 2, h⟩ => absurd h (Nat.not_lt.2 (Nat.le_add_left _ _))
abbrev reads1_0 : Fin grid1.rank → Bool := ![true]

abbrev stage1_1 : Fin 2 → Memref sig .tc .vmem S5000x64 .f32 := fun | 0 => Memref.whole cc1_stg1_0 | 1 => Memref.whole cc1_stg1_1 | ⟨_ + 2, h⟩ => absurd h (Nat.not_lt.2 (Nat.le_add_left _ _))
abbrev sem1_1 : Fin 2 → DmaSem sig := fun | 0 => cc1_sem1_0 | 1 => cc1_sem1_1 | ⟨_ + 2, h⟩ => absurd h (Nat.not_lt.2 (Nat.le_add_left _ _))
abbrev reads1_1 : Fin grid1.rank → Bool := ![true]

abbrev stage1_2 : Fin 2 → Memref sig .tc .vmem S5000x1 .f32 := fun | 0 => Memref.whole cc1_stg2_0 | 1 => Memref.whole cc1_stg2_1 | ⟨_ + 2, h⟩ => absurd h (Nat.not_lt.2 (Nat.le_add_left _ _))
abbrev sem1_2 : Fin 2 → DmaSem sig := fun | 0 => cc1_sem2_0 | 1 => cc1_sem2_1 | ⟨_ + 2, h⟩ => absurd h (Nat.not_lt.2 (Nat.le_add_left _ _))
abbrev reads1_2 : Fin grid1.rank → Bool := ![true]

abbrev stage1_3 : Fin 1 → Memref sig .tc .vmem S1x64 .f32 := fun | 0 => Memref.whole cc1_stg3_0 | ⟨_ + 1, h⟩ => absurd h (Nat.not_lt.2 (Nat.le_add_left _ _))
abbrev sem1_3 : Fin 1 → DmaSem sig := fun | 0 => cc1_sem3_0 | ⟨_ + 1, h⟩ => absurd h (Nat.not_lt.2 (Nat.le_add_left _ _))
abbrev reads1_3 : Fin grid1.rank → Bool := ![false]

abbrev stage1_4 : Fin 2 → Memref sig .tc .vmem S5000x64 .f32 := fun | 0 => Memref.whole cc1_stg4_0 | 1 => Memref.whole cc1_stg4_1 | ⟨_ + 2, h⟩ => absurd h (Nat.not_lt.2 (Nat.le_add_left _ _))
abbrev sem1_4 : Fin 2 → DmaSem sig := fun | 0 => cc1_sem4_0 | 1 => cc1_sem4_1 | ⟨_ + 2, h⟩ => absurd h (Nat.not_lt.2 (Nat.le_add_left _ _))
abbrev reads1_4 : Fin grid1.rank → Bool := ![true]

abbrev grid2 : Pipeline.Grid := ⟨1, ![20], ![false]⟩

def cc2_transform_0 (i : grid2.Coords) : Fin 2 → Nat :=
  let arg0 : BitVec 32 := BitVec.ofNat 32 (i 0).val
  let c0_i32 : BitVec 32 := 0#32
  let c0_i32_0 : BitVec 32 := 0#32
  ![arg0.toNat, c0_i32.toNat]

def cc2_transform_1 (i : grid2.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc2_transform_2 (i : grid2.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage2_0 : Fin 2 → Memref sig .tc .vmem S5000x64 .f32 := fun | 0 => Memref.whole cc2_stg0_0 | 1 => Memref.whole cc2_stg0_1 | ⟨_ + 2, h⟩ => absurd h (Nat.not_lt.2 (Nat.le_add_left _ _))
abbrev sem2_0 : Fin 2 → DmaSem sig := fun | 0 => cc2_sem0_0 | 1 => cc2_sem0_1 | ⟨_ + 2, h⟩ => absurd h (Nat.not_lt.2 (Nat.le_add_left _ _))
abbrev reads2_0 : Fin grid2.rank → Bool := ![true]

abbrev stage2_1 : Fin 1 → Memref sig .tc .vmem S64x16 .f32 := fun | 0 => Memref.whole cc2_stg1_0 | ⟨_ + 1, h⟩ => absurd h (Nat.not_lt.2 (Nat.le_add_left _ _))
abbrev sem2_1 : Fin 1 → DmaSem sig := fun | 0 => cc2_sem1_0 | ⟨_ + 1, h⟩ => absurd h (Nat.not_lt.2 (Nat.le_add_left _ _))
abbrev reads2_1 : Fin grid2.rank → Bool := ![false]

abbrev stage2_2 : Fin 2 → Memref sig .tc .vmem S5000x16 .f32 := fun | 0 => Memref.whole cc2_stg2_0 | 1 => Memref.whole cc2_stg2_1 | ⟨_ + 2, h⟩ => absurd h (Nat.not_lt.2 (Nat.le_add_left _ _))
abbrev sem2_2 : Fin 2 → DmaSem sig := fun | 0 => cc2_sem2_0 | 1 => cc2_sem2_1 | ⟨_ + 2, h⟩ => absurd h (Nat.not_lt.2 (Nat.le_add_left _ _))
abbrev reads2_2 : Fin grid2.rank → Bool := ![true]

abbrev grid3 : Pipeline.Grid := ⟨1, ![20], ![false]⟩

def cc3_transform_0 (i : grid3.Coords) : Fin 2 → Nat :=
  let arg0 : BitVec 32 := BitVec.ofNat 32 (i 0).val
  let c0_i32 : BitVec 32 := 0#32
  let c0_i32_0 : BitVec 32 := 0#32
  ![arg0.toNat, c0_i32.toNat]

def cc3_transform_1 (i : grid3.Coords) : Fin 2 → Nat :=
  let arg0 : BitVec 32 := BitVec.ofNat 32 (i 0).val
  let c0_i32 : BitVec 32 := 0#32
  let c0_i32_0 : BitVec 32 := 0#32
  ![arg0.toNat, c0_i32.toNat]

def cc3_transform_2 (i : grid3.Coords) : Fin 2 → Nat :=
  let arg0 : BitVec 32 := BitVec.ofNat 32 (i 0).val
  let c0_i32 : BitVec 32 := 0#32
  let c0_i32_0 : BitVec 32 := 0#32
  ![arg0.toNat, c0_i32.toNat]

def cc3_transform_3 (i : grid3.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc3_transform_4 (i : grid3.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage3_0 : Fin 2 → Memref sig .tc .vmem S5000x16 .f32 := fun | 0 => Memref.whole cc3_stg0_0 | 1 => Memref.whole cc3_stg0_1 | ⟨_ + 2, h⟩ => absurd h (Nat.not_lt.2 (Nat.le_add_left _ _))
abbrev sem3_0 : Fin 2 → DmaSem sig := fun | 0 => cc3_sem0_0 | 1 => cc3_sem0_1 | ⟨_ + 2, h⟩ => absurd h (Nat.not_lt.2 (Nat.le_add_left _ _))
abbrev reads3_0 : Fin grid3.rank → Bool := ![true]

abbrev stage3_1 : Fin 2 → Memref sig .tc .vmem S5000x16 .f32 := fun | 0 => Memref.whole cc3_stg1_0 | 1 => Memref.whole cc3_stg1_1 | ⟨_ + 2, h⟩ => absurd h (Nat.not_lt.2 (Nat.le_add_left _ _))
abbrev sem3_1 : Fin 2 → DmaSem sig := fun | 0 => cc3_sem1_0 | 1 => cc3_sem1_1 | ⟨_ + 2, h⟩ => absurd h (Nat.not_lt.2 (Nat.le_add_left _ _))
abbrev reads3_1 : Fin grid3.rank → Bool := ![true]

abbrev stage3_2 : Fin 2 → Memref sig .tc .vmem S5000x1 .f32 := fun | 0 => Memref.whole cc3_stg2_0 | 1 => Memref.whole cc3_stg2_1 | ⟨_ + 2, h⟩ => absurd h (Nat.not_lt.2 (Nat.le_add_left _ _))
abbrev sem3_2 : Fin 2 → DmaSem sig := fun | 0 => cc3_sem2_0 | 1 => cc3_sem2_1 | ⟨_ + 2, h⟩ => absurd h (Nat.not_lt.2 (Nat.le_add_left _ _))
abbrev reads3_2 : Fin grid3.rank → Bool := ![true]

abbrev stage3_3 : Fin 1 → Memref sig .tc .vmem S1x16 .f32 := fun | 0 => Memref.whole cc3_stg3_0 | ⟨_ + 1, h⟩ => absurd h (Nat.not_lt.2 (Nat.le_add_left _ _))
abbrev sem3_3 : Fin 1 → DmaSem sig := fun | 0 => cc3_sem3_0 | ⟨_ + 1, h⟩ => absurd h (Nat.not_lt.2 (Nat.le_add_left _ _))
abbrev reads3_3 : Fin grid3.rank → Bool := ![false]

abbrev stage3_4 : Fin 2 → Memref sig .tc .vmem S5000x16 .f32 := fun | 0 => Memref.whole cc3_stg4_0 | 1 => Memref.whole cc3_stg4_1 | ⟨_ + 2, h⟩ => absurd h (Nat.not_lt.2 (Nat.le_add_left _ _))
abbrev sem3_4 : Fin 2 → DmaSem sig := fun | 0 => cc3_sem4_0 | 1 => cc3_sem4_1 | ⟨_ + 2, h⟩ => absurd h (Nat.not_lt.2 (Nat.le_add_left _ _))
abbrev reads3_4 : Fin grid3.rank → Bool := ![true]

class Facts₀ : Prop where
  slices_S2x3200000_S1x3200000_0_0 : S2x3200000.Slices ![0, 0] S1x3200000
  shapeCasts_S1x3200000_S3200000 : S1x3200000.ShapeCasts S3200000
  slices_S2x3200000_S1x3200000_1_0 : S2x3200000.Slices ![1, 0] S1x3200000
  inb_S5000x128_S5000x128_0_0 : ∀ a, (![0, 0] : Fin 2 → Nat) a + S5000x128.size a ≤ S5000x128.size a
  h_S5000x128 : 0 < S5000x128.numel
  bitsLt_bf16_f32 : FTy.bits .bf16 < FTy.bits .f32
  inb_S128x64_S128x64_0_0 : ∀ a, (![0, 0] : Fin 2 → Nat) a + S128x64.size a ≤ S128x64.size a
  h_S128x64 : 0 < S128x64.numel
  inb_S5000x64_S5000x64_0_0 : ∀ a, (![0, 0] : Fin 2 → Nat) a + S5000x64.size a ≤ S5000x64.size a
  h_S5000x64 : 0 < S5000x64.numel
  bcast_S_S3200000 : S_.BroadcastsInDim S3200000 (![] : Fin 0 → Fin S3200000.rank)
  bcast_S_S100000 : S_.BroadcastsInDim S100000 (![] : Fin 0 → Fin S100000.rank)
  bcast_S3200000_S3200000x1_0 : S3200000.BroadcastsInDim S3200000x1 (![0] : Fin 1 → Fin S3200000x1.rank)
  bcast_S3200000x1_S3200000x64_0_1 : S3200000x1.BroadcastsInDim S3200000x64 (![0, 1] : Fin 2 → Fin S3200000x64.rank)
  bcast_S_S100000x64 : S_.BroadcastsInDim S100000x64 (![] : Fin 0 → Fin S100000x64.rank)
  shapeCasts_S100000_S100000x1 : S100000.ShapeCasts S100000x1
  shapeCasts_S64_S1x64 : S64.ShapeCasts S1x64
  shapeCasts_S5000x64_S5000x64 : S5000x64.ShapeCasts S5000x64
  inb_S5000x1_S5000x1_0_0 : ∀ a, (![0, 0] : Fin 2 → Nat) a + S5000x1.size a ≤ S5000x1.size a
  h_S5000x1 : 0 < S5000x1.numel
  shapeCasts_S5000x1_S5000x1 : S5000x1.ShapeCasts S5000x1
  broadcasts_S5000x1_S5000x64 : S5000x1.Broadcasts S5000x64
  inb_S1x64_S1x64_0_0 : ∀ a, (![0, 0] : Fin 2 → Nat) a + S1x64.size a ≤ S1x64.size a
  h_S1x64 : 0 < S1x64.numel
  shapeCasts_S1x64_S1x64 : S1x64.ShapeCasts S1x64
  broadcasts_S1x64_S5000x64 : S1x64.Broadcasts S5000x64
  inb_S64x16_S64x16_0_0 : ∀ a, (![0, 0] : Fin 2 → Nat) a + S64x16.size a ≤ S64x16.size a
  h_S64x16 : 0 < S64x16.numel
  inb_S5000x16_S5000x16_0_0 : ∀ a, (![0, 0] : Fin 2 → Nat) a + S5000x16.size a ≤ S5000x16.size a
  h_S5000x16 : 0 < S5000x16.numel
  bcast_S3200000x1_S3200000x16_0_1 : S3200000x1.BroadcastsInDim S3200000x16 (![0, 1] : Fin 2 → Fin S3200000x16.rank)
  bcast_S_S100000x16 : S_.BroadcastsInDim S100000x16 (![] : Fin 0 → Fin S100000x16.rank)
  shapeCasts_S16_S1x16 : S16.ShapeCasts S1x16
  shapeCasts_S5000x16_S5000x16 : S5000x16.ShapeCasts S5000x16
  broadcasts_S5000x1_S5000x16 : S5000x1.Broadcasts S5000x16
  inb_S1x16_S1x16_0_0 : ∀ a, (![0, 0] : Fin 2 → Nat) a + S1x16.size a ≤ S1x16.size a
  h_S1x16 : 0 < S1x16.numel
  shapeCasts_S1x16_S1x16 : S1x16.ShapeCasts S1x16
  broadcasts_S1x16_S5000x16 : S1x16.Broadcasts S5000x16
  bcast_S_S64x16 : S_.BroadcastsInDim S64x16 (![] : Fin 0 → Fin S64x16.rank)
  bcast_S100000_S100000x1_0 : S100000.BroadcastsInDim S100000x1 (![0] : Fin 1 → Fin S100000x1.rank)
  bcast_S_S64 : S_.BroadcastsInDim S64 (![] : Fin 0 → Fin S64.rank)
  bcast_S64_S64x1_0 : S64.BroadcastsInDim S64x1 (![0] : Fin 1 → Fin S64x1.rank)
  bcast_S64x1_S64x16_0_1 : S64x1.BroadcastsInDim S64x16 (![0, 1] : Fin 2 → Fin S64x16.rank)
  bcast_S32_S1x32_1 : S32.BroadcastsInDim S1x32 (![1] : Fin 1 → Fin S1x32.rank)
  bcast_S1x32_S64x32_0_1 : S1x32.BroadcastsInDim S64x32 (![0, 1] : Fin 2 → Fin S64x32.rank)
  bcast_S_S64x32 : S_.BroadcastsInDim S64x32 (![] : Fin 0 → Fin S64x32.rank)
  bcast_S10_S1x10_1 : S10.BroadcastsInDim S1x10 (![1] : Fin 1 → Fin S1x10.rank)
  bcast_S1x10_S64x10_0_1 : S1x10.BroadcastsInDim S64x10 (![0, 1] : Fin 2 → Fin S64x10.rank)
  dot_S5000x128_S128x64_S5000x64_1_0_0_1_n_n_wf : DotDims.WF S5000x128 S128x64 S5000x64 [1] [0] [0] [1] [] []
  scatter_S100000_S3200000x1_S3200000_n_0_0_1_wf : ScatterDims.WF S100000 S3200000x1 S3200000 [] [0] [0] 1
  gather_S100000_S3200000x1_S3200000_n_0_n_n_0_1_1_wf : GatherDims.WF S100000 S3200000x1 S3200000 [] [0] [] [0] [] 1 ![1]
  gather_S100000x64_S3200000x1_S3200000x64_1_0_n_n_0_1_164_wf : GatherDims.WF S100000x64 S3200000x1 S3200000x64 [1] [0] [] [0] [] 1 ![1, 64]
  scatter_S100000x64_S3200000x1_S3200000x64_1_0_0_1_wf : ScatterDims.WF S100000x64 S3200000x1 S3200000x64 [1] [0] [0] 1
  dot_S5000x64_S64x16_S5000x16_1_0_0_1_n_n_wf : DotDims.WF S5000x64 S64x16 S5000x16 [1] [0] [0] [1] [] []
  gather_S100000x16_S3200000x1_S3200000x16_1_0_n_n_0_1_116_wf : GatherDims.WF S100000x16 S3200000x1 S3200000x16 [1] [0] [] [0] [] 1 ![1, 16]
  scatter_S100000x16_S3200000x1_S3200000x16_1_0_0_1_wf : ScatterDims.WF S100000x16 S3200000x1 S3200000x16 [1] [0] [0] 1
  scatter_S64x16_S100000x1_S100000x16_1_0_0_1_wf : ScatterDims.WF S64x16 S100000x1 S100000x16 [1] [0] [0] 1
  scatter_S64_S100000x1_S100000_n_0_0_1_wf : ScatterDims.WF S64 S100000x1 S100000 [] [0] [0] 1
  dot_S64x16_S16x32_S64x32_1_0_0_1_n_n_wf : DotDims.WF S64x16 S16x32 S64x32 [1] [0] [0] [1] [] []
  dot_S64x32_S32x10_S64x10_1_0_0_1_n_n_wf : DotDims.WF S64x32 S32x10 S64x10 [1] [0] [0] [1] [] []
  hrank0 : 0 < grid0.rank
  hstage0_0 : ∀ j, (stage0_0 j).IsWhole
  nbuf0_0 : grid0.bufCount reads0_0 false = 2
  hreads0_0 : ∀ i i' : grid0.Coords, (∀ a, reads0_0 a = true → i a = i' a) → cc0_transform_0 i = cc0_transform_0 i'
  hinb0_0 : ∀ (i : grid0.Coords) a, (cc0_transform_0 i a + 1) * S5000x128.size a ≤ S100000x128.size a
  hwx0_0 : ∀ i : grid0.Coords, EltTy.bits .f32 = 32 ∨ (Rect.block (s := S100000x128) S5000x128.size (cc0_transform_0 i) (hinb0_0 i)).WholeWords (EltTy.packing .f32)
  hstage0_1 : ∀ j, (stage0_1 j).IsWhole
  nbuf0_1 : grid0.bufCount reads0_1 true = 1
  hreads0_1 : ∀ i i' : grid0.Coords, (∀ a, reads0_1 a = true → i a = i' a) → cc0_transform_1 i = cc0_transform_1 i'
  hinb0_1 : ∀ (i : grid0.Coords) a, (cc0_transform_1 i a + 1) * S128x64.size a ≤ S128x64.size a
  hwx0_1 : ∀ i : grid0.Coords, EltTy.bits .f32 = 32 ∨ (Rect.block (s := S128x64) S128x64.size (cc0_transform_1 i) (hinb0_1 i)).WholeWords (EltTy.packing .f32)
  hstage0_2 : ∀ j, (stage0_2 j).IsWhole
  nbuf0_2 : grid0.bufCount reads0_2 false = 2
  hreads0_2 : ∀ i i' : grid0.Coords, (∀ a, reads0_2 a = true → i a = i' a) → cc0_transform_2 i = cc0_transform_2 i'
  hinb0_2 : ∀ (i : grid0.Coords) a, (cc0_transform_2 i a + 1) * S5000x64.size a ≤ S100000x64.size a
  hwx0_2 : ∀ i : grid0.Coords, EltTy.bits .f32 = 32 ∨ (Rect.block (s := S100000x64) S5000x64.size (cc0_transform_2 i) (hinb0_2 i)).WholeWords (EltTy.packing .f32)
  hrank1 : 0 < grid1.rank
  hstage1_0 : ∀ j, (stage1_0 j).IsWhole
  nbuf1_0 : grid1.bufCount reads1_0 false = 2
  hreads1_0 : ∀ i i' : grid1.Coords, (∀ a, reads1_0 a = true → i a = i' a) → cc1_transform_0 i = cc1_transform_0 i'
  hinb1_0 : ∀ (i : grid1.Coords) a, (cc1_transform_0 i a + 1) * S5000x64.size a ≤ S100000x64.size a
  hwx1_0 : ∀ i : grid1.Coords, EltTy.bits .f32 = 32 ∨ (Rect.block (s := S100000x64) S5000x64.size (cc1_transform_0 i) (hinb1_0 i)).WholeWords (EltTy.packing .f32)
  hstage1_1 : ∀ j, (stage1_1 j).IsWhole
  nbuf1_1 : grid1.bufCount reads1_1 false = 2
  hreads1_1 : ∀ i i' : grid1.Coords, (∀ a, reads1_1 a = true → i a = i' a) → cc1_transform_1 i = cc1_transform_1 i'
  hinb1_1 : ∀ (i : grid1.Coords) a, (cc1_transform_1 i a + 1) * S5000x64.size a ≤ S100000x64.size a
  hwx1_1 : ∀ i : grid1.Coords, EltTy.bits .f32 = 32 ∨ (Rect.block (s := S100000x64) S5000x64.size (cc1_transform_1 i) (hinb1_1 i)).WholeWords (EltTy.packing .f32)
  hstage1_2 : ∀ j, (stage1_2 j).IsWhole
  nbuf1_2 : grid1.bufCount reads1_2 false = 2
  hreads1_2 : ∀ i i' : grid1.Coords, (∀ a, reads1_2 a = true → i a = i' a) → cc1_transform_2 i = cc1_transform_2 i'
  hinb1_2 : ∀ (i : grid1.Coords) a, (cc1_transform_2 i a + 1) * S5000x1.size a ≤ S100000x1.size a
  hwx1_2 : ∀ i : grid1.Coords, EltTy.bits .f32 = 32 ∨ (Rect.block (s := S100000x1) S5000x1.size (cc1_transform_2 i) (hinb1_2 i)).WholeWords (EltTy.packing .f32)
  hstage1_3 : ∀ j, (stage1_3 j).IsWhole
  nbuf1_3 : grid1.bufCount reads1_3 true = 1
  hreads1_3 : ∀ i i' : grid1.Coords, (∀ a, reads1_3 a = true → i a = i' a) → cc1_transform_3 i = cc1_transform_3 i'
  hinb1_3 : ∀ (i : grid1.Coords) a, (cc1_transform_3 i a + 1) * S1x64.size a ≤ S1x64.size a
  hwx1_3 : ∀ i : grid1.Coords, EltTy.bits .f32 = 32 ∨ (Rect.block (s := S1x64) S1x64.size (cc1_transform_3 i) (hinb1_3 i)).WholeWords (EltTy.packing .f32)
  hstage1_4 : ∀ j, (stage1_4 j).IsWhole
  nbuf1_4 : grid1.bufCount reads1_4 false = 2
  hreads1_4 : ∀ i i' : grid1.Coords, (∀ a, reads1_4 a = true → i a = i' a) → cc1_transform_4 i = cc1_transform_4 i'
  hinb1_4 : ∀ (i : grid1.Coords) a, (cc1_transform_4 i a + 1) * S5000x64.size a ≤ S100000x64.size a
  hwx1_4 : ∀ i : grid1.Coords, EltTy.bits .f32 = 32 ∨ (Rect.block (s := S100000x64) S5000x64.size (cc1_transform_4 i) (hinb1_4 i)).WholeWords (EltTy.packing .f32)
  hrank2 : 0 < grid2.rank
  hstage2_0 : ∀ j, (stage2_0 j).IsWhole
  nbuf2_0 : grid2.bufCount reads2_0 false = 2
  hreads2_0 : ∀ i i' : grid2.Coords, (∀ a, reads2_0 a = true → i a = i' a) → cc2_transform_0 i = cc2_transform_0 i'
  hinb2_0 : ∀ (i : grid2.Coords) a, (cc2_transform_0 i a + 1) * S5000x64.size a ≤ S100000x64.size a
  hwx2_0 : ∀ i : grid2.Coords, EltTy.bits .f32 = 32 ∨ (Rect.block (s := S100000x64) S5000x64.size (cc2_transform_0 i) (hinb2_0 i)).WholeWords (EltTy.packing .f32)
  hstage2_1 : ∀ j, (stage2_1 j).IsWhole
  nbuf2_1 : grid2.bufCount reads2_1 true = 1
  hreads2_1 : ∀ i i' : grid2.Coords, (∀ a, reads2_1 a = true → i a = i' a) → cc2_transform_1 i = cc2_transform_1 i'
  hinb2_1 : ∀ (i : grid2.Coords) a, (cc2_transform_1 i a + 1) * S64x16.size a ≤ S64x16.size a
  hwx2_1 : ∀ i : grid2.Coords, EltTy.bits .f32 = 32 ∨ (Rect.block (s := S64x16) S64x16.size (cc2_transform_1 i) (hinb2_1 i)).WholeWords (EltTy.packing .f32)
  hstage2_2 : ∀ j, (stage2_2 j).IsWhole
  nbuf2_2 : grid2.bufCount reads2_2 false = 2
  hreads2_2 : ∀ i i' : grid2.Coords, (∀ a, reads2_2 a = true → i a = i' a) → cc2_transform_2 i = cc2_transform_2 i'
  hinb2_2 : ∀ (i : grid2.Coords) a, (cc2_transform_2 i a + 1) * S5000x16.size a ≤ S100000x16.size a
  hwx2_2 : ∀ i : grid2.Coords, EltTy.bits .f32 = 32 ∨ (Rect.block (s := S100000x16) S5000x16.size (cc2_transform_2 i) (hinb2_2 i)).WholeWords (EltTy.packing .f32)
  hrank3 : 0 < grid3.rank
  hstage3_0 : ∀ j, (stage3_0 j).IsWhole
  nbuf3_0 : grid3.bufCount reads3_0 false = 2
  hreads3_0 : ∀ i i' : grid3.Coords, (∀ a, reads3_0 a = true → i a = i' a) → cc3_transform_0 i = cc3_transform_0 i'
  hinb3_0 : ∀ (i : grid3.Coords) a, (cc3_transform_0 i a + 1) * S5000x16.size a ≤ S100000x16.size a
  hwx3_0 : ∀ i : grid3.Coords, EltTy.bits .f32 = 32 ∨ (Rect.block (s := S100000x16) S5000x16.size (cc3_transform_0 i) (hinb3_0 i)).WholeWords (EltTy.packing .f32)
  hstage3_1 : ∀ j, (stage3_1 j).IsWhole
  nbuf3_1 : grid3.bufCount reads3_1 false = 2
  hreads3_1 : ∀ i i' : grid3.Coords, (∀ a, reads3_1 a = true → i a = i' a) → cc3_transform_1 i = cc3_transform_1 i'
  hinb3_1 : ∀ (i : grid3.Coords) a, (cc3_transform_1 i a + 1) * S5000x16.size a ≤ S100000x16.size a
  hwx3_1 : ∀ i : grid3.Coords, EltTy.bits .f32 = 32 ∨ (Rect.block (s := S100000x16) S5000x16.size (cc3_transform_1 i) (hinb3_1 i)).WholeWords (EltTy.packing .f32)
  hstage3_2 : ∀ j, (stage3_2 j).IsWhole
  nbuf3_2 : grid3.bufCount reads3_2 false = 2
  hreads3_2 : ∀ i i' : grid3.Coords, (∀ a, reads3_2 a = true → i a = i' a) → cc3_transform_2 i = cc3_transform_2 i'
  hinb3_2 : ∀ (i : grid3.Coords) a, (cc3_transform_2 i a + 1) * S5000x1.size a ≤ S100000x1.size a
  hwx3_2 : ∀ i : grid3.Coords, EltTy.bits .f32 = 32 ∨ (Rect.block (s := S100000x1) S5000x1.size (cc3_transform_2 i) (hinb3_2 i)).WholeWords (EltTy.packing .f32)
  hstage3_3 : ∀ j, (stage3_3 j).IsWhole
  nbuf3_3 : grid3.bufCount reads3_3 true = 1
  hreads3_3 : ∀ i i' : grid3.Coords, (∀ a, reads3_3 a = true → i a = i' a) → cc3_transform_3 i = cc3_transform_3 i'
  hinb3_3 : ∀ (i : grid3.Coords) a, (cc3_transform_3 i a + 1) * S1x16.size a ≤ S1x16.size a
  hwx3_3 : ∀ i : grid3.Coords, EltTy.bits .f32 = 32 ∨ (Rect.block (s := S1x16) S1x16.size (cc3_transform_3 i) (hinb3_3 i)).WholeWords (EltTy.packing .f32)
  hstage3_4 : ∀ j, (stage3_4 j).IsWhole
  nbuf3_4 : grid3.bufCount reads3_4 false = 2
  hreads3_4 : ∀ i i' : grid3.Coords, (∀ a, reads3_4 a = true → i a = i' a) → cc3_transform_4 i = cc3_transform_4 i'
  hinb3_4 : ∀ (i : grid3.Coords) a, (cc3_transform_4 i a + 1) * S5000x16.size a ≤ S100000x16.size a
  hwx3_4 : ∀ i : grid3.Coords, EltTy.bits .f32 = 32 ∨ (Rect.block (s := S100000x16) S5000x16.size (cc3_transform_4 i) (hinb3_4 i)).WholeWords (EltTy.packing .f32)

variable [Facts₀]

def dot_S5000x128_S128x64_S5000x64_1_0_0_1_n_n : DotDims S5000x128 S128x64 S5000x64 where
  lhsContracting := [1]
  rhsContracting := [0]
  lhsNonContracting := [0]
  rhsNonContracting := [1]
  lhsBatch := []
  rhsBatch := []
  wf := dot_S5000x128_S128x64_S5000x64_1_0_0_1_n_n_wf
def scatter_S100000_S3200000x1_S3200000_n_0_0_1 : ScatterDims S100000 S3200000x1 S3200000 where
  updateWindowDims := []
  insertedWindowDims := [0]
  scatterDimsToOperandDims := [0]
  indexVectorDim := 1
  wf := scatter_S100000_S3200000x1_S3200000_n_0_0_1_wf
def gather_S100000_S3200000x1_S3200000_n_0_n_n_0_1_1 : GatherDims S100000 S3200000x1 S3200000 where
  offsetDims := []
  collapsedSliceDims := [0]
  operandBatchingDims := []
  startIndicesBatchingDims := []
  startIndexMap := [0]
  indexVectorDim := 1
  sliceSizes := ![1]
  wf := gather_S100000_S3200000x1_S3200000_n_0_n_n_0_1_1_wf
def gather_S100000x64_S3200000x1_S3200000x64_1_0_n_n_0_1_164 : GatherDims S100000x64 S3200000x1 S3200000x64 where
  offsetDims := [1]
  collapsedSliceDims := [0]
  operandBatchingDims := []
  startIndicesBatchingDims := []
  startIndexMap := [0]
  indexVectorDim := 1
  sliceSizes := ![1, 64]
  wf := gather_S100000x64_S3200000x1_S3200000x64_1_0_n_n_0_1_164_wf
def scatter_S100000x64_S3200000x1_S3200000x64_1_0_0_1 : ScatterDims S100000x64 S3200000x1 S3200000x64 where
  updateWindowDims := [1]
  insertedWindowDims := [0]
  scatterDimsToOperandDims := [0]
  indexVectorDim := 1
  wf := scatter_S100000x64_S3200000x1_S3200000x64_1_0_0_1_wf
def dot_S5000x64_S64x16_S5000x16_1_0_0_1_n_n : DotDims S5000x64 S64x16 S5000x16 where
  lhsContracting := [1]
  rhsContracting := [0]
  lhsNonContracting := [0]
  rhsNonContracting := [1]
  lhsBatch := []
  rhsBatch := []
  wf := dot_S5000x64_S64x16_S5000x16_1_0_0_1_n_n_wf
def gather_S100000x16_S3200000x1_S3200000x16_1_0_n_n_0_1_116 : GatherDims S100000x16 S3200000x1 S3200000x16 where
  offsetDims := [1]
  collapsedSliceDims := [0]
  operandBatchingDims := []
  startIndicesBatchingDims := []
  startIndexMap := [0]
  indexVectorDim := 1
  sliceSizes := ![1, 16]
  wf := gather_S100000x16_S3200000x1_S3200000x16_1_0_n_n_0_1_116_wf
def scatter_S100000x16_S3200000x1_S3200000x16_1_0_0_1 : ScatterDims S100000x16 S3200000x1 S3200000x16 where
  updateWindowDims := [1]
  insertedWindowDims := [0]
  scatterDimsToOperandDims := [0]
  indexVectorDim := 1
  wf := scatter_S100000x16_S3200000x1_S3200000x16_1_0_0_1_wf
def scatter_S64x16_S100000x1_S100000x16_1_0_0_1 : ScatterDims S64x16 S100000x1 S100000x16 where
  updateWindowDims := [1]
  insertedWindowDims := [0]
  scatterDimsToOperandDims := [0]
  indexVectorDim := 1
  wf := scatter_S64x16_S100000x1_S100000x16_1_0_0_1_wf
def scatter_S64_S100000x1_S100000_n_0_0_1 : ScatterDims S64 S100000x1 S100000 where
  updateWindowDims := []
  insertedWindowDims := [0]
  scatterDimsToOperandDims := [0]
  indexVectorDim := 1
  wf := scatter_S64_S100000x1_S100000_n_0_0_1_wf
def dot_S64x16_S16x32_S64x32_1_0_0_1_n_n : DotDims S64x16 S16x32 S64x32 where
  lhsContracting := [1]
  rhsContracting := [0]
  lhsNonContracting := [0]
  rhsNonContracting := [1]
  lhsBatch := []
  rhsBatch := []
  wf := dot_S64x16_S16x32_S64x32_1_0_0_1_n_n_wf
def dot_S64x32_S32x10_S64x10_1_0_0_1_n_n : DotDims S64x32 S32x10 S64x10 where
  lhsContracting := [1]
  rhsContracting := [0]
  lhsNonContracting := [0]
  rhsNonContracting := [1]
  lhsBatch := []
  rhsBatch := []
  wf := dot_S64x32_S32x10_S64x10_1_0_0_1_n_n_wf

abbrev win0_0 : Pipeline.Window sig grid0 :=
  Pipeline.Window.ofSpec (Memref.whole main_arg0) S5000x128.size cc0_transform_0 reads0_0 false false 2 stage0_0 sem0_0
    hrank0 hreads0_0 hinb0_0 nbuf0_0 (Memref.isWhole_whole _) hwx0_0 hstage0_0

abbrev win0_1 : Pipeline.Window sig grid0 :=
  Pipeline.Window.ofSpec (Memref.whole main_arg4) S128x64.size cc0_transform_1 reads0_1 false true 1 stage0_1 sem0_1
    hrank0 hreads0_1 hinb0_1 nbuf0_1 (Memref.isWhole_whole _) hwx0_1 hstage0_1

abbrev win0_2 : Pipeline.Window sig grid0 :=
  Pipeline.Window.ofSpec (Memref.whole main_v4) S5000x64.size cc0_transform_2 reads0_2 true false 2 stage0_2 sem0_2
    hrank0 hreads0_2 hinb0_2 nbuf0_2 (Memref.isWhole_whole _) hwx0_2 hstage0_2

abbrev win0 : Fin 3 → Pipeline.Window sig grid0 := fun | 0 => win0_0 | 1 => win0_1 | 2 => win0_2 | ⟨_ + 3, h⟩ => absurd h (Nat.not_lt.2 (Nat.le_add_left _ _))
abbrev spec0 : Fin 3 → Pipeline.WinSpec sig grid0.rank := fun w => (win0 w).toWinSpec

abbrev win1_0 : Pipeline.Window sig grid1 :=
  Pipeline.Window.ofSpec (Memref.whole main_v39) S5000x64.size cc1_transform_0 reads1_0 false false 2 stage1_0 sem1_0
    hrank1 hreads1_0 hinb1_0 nbuf1_0 (Memref.isWhole_whole _) hwx1_0 hstage1_0

abbrev win1_1 : Pipeline.Window sig grid1 :=
  Pipeline.Window.ofSpec (Memref.whole main_v4) S5000x64.size cc1_transform_1 reads1_1 false false 2 stage1_1 sem1_1
    hrank1 hreads1_1 hinb1_1 nbuf1_1 (Memref.isWhole_whole _) hwx1_1 hstage1_1

abbrev win1_2 : Pipeline.Window sig grid1 :=
  Pipeline.Window.ofSpec (Memref.whole main_v41) S5000x1.size cc1_transform_2 reads1_2 false false 2 stage1_2 sem1_2
    hrank1 hreads1_2 hinb1_2 nbuf1_2 (Memref.isWhole_whole _) hwx1_2 hstage1_2

abbrev win1_3 : Pipeline.Window sig grid1 :=
  Pipeline.Window.ofSpec (Memref.whole main_v42) S1x64.size cc1_transform_3 reads1_3 false true 1 stage1_3 sem1_3
    hrank1 hreads1_3 hinb1_3 nbuf1_3 (Memref.isWhole_whole _) hwx1_3 hstage1_3

abbrev win1_4 : Pipeline.Window sig grid1 :=
  Pipeline.Window.ofSpec (Memref.whole main_v43) S5000x64.size cc1_transform_4 reads1_4 true false 2 stage1_4 sem1_4
    hrank1 hreads1_4 hinb1_4 nbuf1_4 (Memref.isWhole_whole _) hwx1_4 hstage1_4

abbrev win1 : Fin 5 → Pipeline.Window sig grid1 := fun | 0 => win1_0 | 1 => win1_1 | 2 => win1_2 | 3 => win1_3 | 4 => win1_4 | ⟨_ + 5, h⟩ => absurd h (Nat.not_lt.2 (Nat.le_add_left _ _))
abbrev spec1 : Fin 5 → Pipeline.WinSpec sig grid1.rank := fun w => (win1 w).toWinSpec

abbrev win2_0 : Pipeline.Window sig grid2 :=
  Pipeline.Window.ofSpec (Memref.whole main_v43) S5000x64.size cc2_transform_0 reads2_0 false false 2 stage2_0 sem2_0
    hrank2 hreads2_0 hinb2_0 nbuf2_0 (Memref.isWhole_whole _) hwx2_0 hstage2_0

abbrev win2_1 : Pipeline.Window sig grid2 :=
  Pipeline.Window.ofSpec (Memref.whole main_arg6) S64x16.size cc2_transform_1 reads2_1 false true 1 stage2_1 sem2_1
    hrank2 hreads2_1 hinb2_1 nbuf2_1 (Memref.isWhole_whole _) hwx2_1 hstage2_1

abbrev win2_2 : Pipeline.Window sig grid2 :=
  Pipeline.Window.ofSpec (Memref.whole main_v44) S5000x16.size cc2_transform_2 reads2_2 true false 2 stage2_2 sem2_2
    hrank2 hreads2_2 hinb2_2 nbuf2_2 (Memref.isWhole_whole _) hwx2_2 hstage2_2

abbrev win2 : Fin 3 → Pipeline.Window sig grid2 := fun | 0 => win2_0 | 1 => win2_1 | 2 => win2_2 | ⟨_ + 3, h⟩ => absurd h (Nat.not_lt.2 (Nat.le_add_left _ _))
abbrev spec2 : Fin 3 → Pipeline.WinSpec sig grid2.rank := fun w => (win2 w).toWinSpec

abbrev win3_0 : Pipeline.Window sig grid3 :=
  Pipeline.Window.ofSpec (Memref.whole main_v79) S5000x16.size cc3_transform_0 reads3_0 false false 2 stage3_0 sem3_0
    hrank3 hreads3_0 hinb3_0 nbuf3_0 (Memref.isWhole_whole _) hwx3_0 hstage3_0

abbrev win3_1 : Pipeline.Window sig grid3 :=
  Pipeline.Window.ofSpec (Memref.whole main_v44) S5000x16.size cc3_transform_1 reads3_1 false false 2 stage3_1 sem3_1
    hrank3 hreads3_1 hinb3_1 nbuf3_1 (Memref.isWhole_whole _) hwx3_1 hstage3_1

abbrev win3_2 : Pipeline.Window sig grid3 :=
  Pipeline.Window.ofSpec (Memref.whole main_v81) S5000x1.size cc3_transform_2 reads3_2 false false 2 stage3_2 sem3_2
    hrank3 hreads3_2 hinb3_2 nbuf3_2 (Memref.isWhole_whole _) hwx3_2 hstage3_2

abbrev win3_3 : Pipeline.Window sig grid3 :=
  Pipeline.Window.ofSpec (Memref.whole main_v82) S1x16.size cc3_transform_3 reads3_3 false true 1 stage3_3 sem3_3
    hrank3 hreads3_3 hinb3_3 nbuf3_3 (Memref.isWhole_whole _) hwx3_3 hstage3_3

abbrev win3_4 : Pipeline.Window sig grid3 :=
  Pipeline.Window.ofSpec (Memref.whole main_v83) S5000x16.size cc3_transform_4 reads3_4 true false 2 stage3_4 sem3_4
    hrank3 hreads3_4 hinb3_4 nbuf3_4 (Memref.isWhole_whole _) hwx3_4 hstage3_4

abbrev win3 : Fin 5 → Pipeline.Window sig grid3 := fun | 0 => win3_0 | 1 => win3_1 | 2 => win3_2 | 3 => win3_3 | 4 => win3_4 | ⟨_ + 5, h⟩ => absurd h (Nat.not_lt.2 (Nat.le_add_left _ _))
abbrev spec3 : Fin 5 → Pipeline.WinSpec sig grid3.rank := fun w => (win3 w).toWinSpec

class Facts : Prop extends Facts₀ where

variable [Facts]
-- ==== ReferenceIdeal.lean ====
abbrev S100000x128 : Shape := ⟨2, ![100000, 128]⟩
abbrev S2x3200000 : Shape := ⟨2, ![2, 3200000]⟩
abbrev S100000 : Shape := ⟨1, ![100000]⟩
abbrev S128x64 : Shape := ⟨2, ![128, 64]⟩
abbrev S64 : Shape := ⟨1, ![64]⟩
abbrev S64x16 : Shape := ⟨2, ![64, 16]⟩
abbrev S16 : Shape := ⟨1, ![16]⟩
abbrev S16x32 : Shape := ⟨2, ![16, 32]⟩
abbrev S32 : Shape := ⟨1, ![32]⟩
abbrev S32x10 : Shape := ⟨2, ![32, 10]⟩
abbrev S10 : Shape := ⟨1, ![10]⟩
abbrev S1x3200000 : Shape := ⟨2, ![1, 3200000]⟩
abbrev S3200000 : Shape := ⟨1, ![3200000]⟩
abbrev S100000x64 : Shape := ⟨2, ![100000, 64]⟩
abbrev S_ : Shape := ⟨0, ![]⟩
abbrev S3200000x1 : Shape := ⟨2, ![3200000, 1]⟩
abbrev S3200000x64 : Shape := ⟨2, ![3200000, 64]⟩
abbrev S100000x1 : Shape := ⟨2, ![100000, 1]⟩
abbrev S1x64 : Shape := ⟨2, ![1, 64]⟩
abbrev S100000x16 : Shape := ⟨2, ![100000, 16]⟩
abbrev S3200000x16 : Shape := ⟨2, ![3200000, 16]⟩
abbrev S1x16 : Shape := ⟨2, ![1, 16]⟩
abbrev S64x1 : Shape := ⟨2, ![64, 1]⟩
abbrev S64x32 : Shape := ⟨2, ![64, 32]⟩
abbrev S1x32 : Shape := ⟨2, ![1, 32]⟩
abbrev S64x10 : Shape := ⟨2, ![64, 10]⟩
abbrev S1x10 : Shape := ⟨2, ![1, 10]⟩

abbrev nBuf : Space → Nat
  | .hbm => 172
  | .vmem => 0
  | .smem => 0
  | _ => 0

abbrev hbmTy0_0 (i : Nat) : BufTy := match i % 128 with
  | 0 => ⟨S100000x128, .f32⟩
  | 1 => ⟨S2x3200000, .i32⟩
  | 2 => ⟨S100000, .i32⟩
  | 3 => ⟨S100000, .i1⟩
  | 4 => ⟨S128x64, .f32⟩
  | 5 => ⟨S64, .f32⟩
  | 6 => ⟨S64x16, .f32⟩
  | 7 => ⟨S16, .f32⟩
  | 8 => ⟨S16x32, .f32⟩
  | 9 => ⟨S32, .f32⟩
  | 10 => ⟨S32x10, .f32⟩
  | 11 => ⟨S10, .f32⟩
  | 12 => ⟨S1x3200000, .i32⟩
  | 13 => ⟨S3200000, .i32⟩
  | 14 => ⟨S1x3200000, .i32⟩
  | 15 => ⟨S3200000, .i32⟩
  | 16 => ⟨S100000x64, .f32⟩
  | 17 => ⟨S_, .f32⟩
  | 18 => ⟨S3200000, .f32⟩
  | 19 => ⟨S_, .f32⟩
  | 20 => ⟨S100000, .f32⟩
  | 21 => ⟨S3200000x1, .i32⟩
  | 22 => ⟨S100000, .f32⟩
  | 23 => ⟨S_, .f32⟩
  | 24 => ⟨S100000, .f32⟩
  | 25 => ⟨S100000, .f32⟩
  | 26 => ⟨S100000, .f32⟩
  | 27 => ⟨S_, .i32⟩
  | 28 => ⟨S3200000, .i32⟩
  | 29 => ⟨S3200000, .i1⟩
  | 30 => ⟨S_, .i32⟩
  | 31 => ⟨S3200000, .i32⟩
  | 32 => ⟨S3200000, .i32⟩
  | 33 => ⟨S3200000, .i32⟩
  | 34 => ⟨S3200000x1, .i32⟩
  | 35 => ⟨S3200000, .f32⟩
  | 36 => ⟨S_, .i32⟩
  | 37 => ⟨S3200000, .i32⟩
  | 38 => ⟨S3200000, .i1⟩
  | 39 => ⟨S_, .i32⟩
  | 40 => ⟨S3200000, .i32⟩
  | 41 => ⟨S3200000, .i32⟩
  | 42 => ⟨S3200000, .i32⟩
  | 43 => ⟨S3200000x1, .i32⟩
  | 44 => ⟨S3200000, .f32⟩
  | 45 => ⟨S3200000, .f32⟩
  | 46 => ⟨S_, .i32⟩
  | 47 => ⟨S3200000, .i32⟩
  | 48 => ⟨S3200000, .i1⟩
  | 49 => ⟨S_, .i32⟩
  | 50 => ⟨S3200000, .i32⟩
  | 51 => ⟨S3200000, .i32⟩
  | 52 => ⟨S3200000, .i32⟩
  | 53 => ⟨S3200000x1, .i32⟩
  | 54 => ⟨S3200000x64, .f32⟩
  | 55 => ⟨S3200000x1, .f32⟩
  | 56 => ⟨S3200000x64, .f32⟩
  | 57 => ⟨S3200000x64, .f32⟩
  | 58 => ⟨S_, .f32⟩
  | 59 => ⟨S100000x64, .f32⟩
  | 60 => ⟨S3200000x1, .i32⟩
  | 61 => ⟨S100000x64, .f32⟩
  | 62 => ⟨S100000, .f32⟩
  | 63 => ⟨S100000x1, .f32⟩
  | 64 => ⟨S100000x64, .f32⟩
  | 65 => ⟨S100000x64, .f32⟩
  | 66 => ⟨S100000x64, .f32⟩
  | 67 => ⟨S1x64, .f32⟩
  | 68 => ⟨S100000x64, .f32⟩
  | 69 => ⟨S100000x64, .f32⟩
  | 70 => ⟨S_, .f32⟩
  | 71 => ⟨S_, .f32⟩
  | 72 => ⟨S100000x64, .f32⟩
  | 73 => ⟨S100000x64, .i1⟩
  | 74 => ⟨S_, .f32⟩
  | 75 => ⟨S100000x64, .f32⟩
  | 76 => ⟨S100000x64, .f32⟩
  | 77 => ⟨S100000x64, .f32⟩
  | 78 => ⟨S100000x16, .f32⟩
  | 79 => ⟨S_, .f32⟩
  | 80 => ⟨S3200000, .f32⟩
  | 81 => ⟨S_, .f32⟩
  | 82 => ⟨S100000, .f32⟩
  | 83 => ⟨S3200000x1, .i32⟩
  | 84 => ⟨S100000, .f32⟩
  | 85 => ⟨S_, .f32⟩
  | 86 => ⟨S100000, .f32⟩
  | 87 => ⟨S100000, .f32⟩
  | 88 => ⟨S100000, .f32⟩
  | 89 => ⟨S_, .i32⟩
  | 90 => ⟨S3200000, .i32⟩
  | 91 => ⟨S3200000, .i1⟩
  | 92 => ⟨S_, .i32⟩
  | 93 => ⟨S3200000, .i32⟩
  | 94 => ⟨S3200000, .i32⟩
  | 95 => ⟨S3200000, .i32⟩
  | 96 => ⟨S3200000x1, .i32⟩
  | 97 => ⟨S3200000, .f32⟩
  | 98 => ⟨S_, .i32⟩
  | 99 => ⟨S3200000, .i32⟩
  | 100 => ⟨S3200000, .i1⟩
  | 101 => ⟨S_, .i32⟩
  | 102 => ⟨S3200000, .i32⟩
  | 103 => ⟨S3200000, .i32⟩
  | 104 => ⟨S3200000, .i32⟩
  | 105 => ⟨S3200000x1, .i32⟩
  | 106 => ⟨S3200000, .f32⟩
  | 107 => ⟨S3200000, .f32⟩
  | 108 => ⟨S_, .i32⟩
  | 109 => ⟨S3200000, .i32⟩
  | 110 => ⟨S3200000, .i1⟩
  | 111 => ⟨S_, .i32⟩
  | 112 => ⟨S3200000, .i32⟩
  | 113 => ⟨S3200000, .i32⟩
  | 114 => ⟨S3200000, .i32⟩
  | 115 => ⟨S3200000x1, .i32⟩
  | 116 => ⟨S3200000x16, .f32⟩
  | 117 => ⟨S3200000x1, .f32⟩
  | 118 => ⟨S3200000x16, .f32⟩
  | 119 => ⟨S3200000x16, .f32⟩
  | 120 => ⟨S_, .f32⟩
  | 121 => ⟨S100000x16, .f32⟩
  | 122 => ⟨S3200000x1, .i32⟩
  | 123 => ⟨S100000x16, .f32⟩
  | 124 => ⟨S100000, .f32⟩
  | 125 => ⟨S100000x1, .f32⟩
  | 126 => ⟨S100000x16, .f32⟩
  | 127 => ⟨S100000x16, .f32⟩
  | _ => ⟨S100000x128, .f32⟩

abbrev hbmTy0_1 (i : Nat) : BufTy := match i % 128 with
  | 0 => ⟨S100000x16, .f32⟩
  | 1 => ⟨S1x16, .f32⟩
  | 2 => ⟨S100000x16, .f32⟩
  | 3 => ⟨S100000x16, .f32⟩
  | 4 => ⟨S_, .f32⟩
  | 5 => ⟨S_, .f32⟩
  | 6 => ⟨S100000x16, .f32⟩
  | 7 => ⟨S100000x16, .i1⟩
  | 8 => ⟨S_, .f32⟩
  | 9 => ⟨S100000x16, .f32⟩
  | 10 => ⟨S100000x16, .f32⟩
  | 11 => ⟨S100000x16, .f32⟩
  | 12 => ⟨S_, .f32⟩
  | 13 => ⟨S64x16, .f32⟩
  | 14 => ⟨S100000x1, .i32⟩
  | 15 => ⟨S64x16, .f32⟩
  | 16 => ⟨S_, .f32⟩
  | 17 => ⟨S100000, .f32⟩
  | 18 => ⟨S_, .f32⟩
  | 19 => ⟨S64, .f32⟩
  | 20 => ⟨S100000x1, .i32⟩
  | 21 => ⟨S64, .f32⟩
  | 22 => ⟨S_, .f32⟩
  | 23 => ⟨S64, .f32⟩
  | 24 => ⟨S64, .f32⟩
  | 25 => ⟨S64x1, .f32⟩
  | 26 => ⟨S64x16, .f32⟩
  | 27 => ⟨S64x16, .f32⟩
  | 28 => ⟨S64x32, .f32⟩
  | 29 => ⟨S1x32, .f32⟩
  | 30 => ⟨S64x32, .f32⟩
  | 31 => ⟨S64x32, .f32⟩
  | 32 => ⟨S_, .f32⟩
  | 33 => ⟨S_, .f32⟩
  | 34 => ⟨S64x32, .f32⟩
  | 35 => ⟨S64x32, .i1⟩
  | 36 => ⟨S_, .f32⟩
  | 37 => ⟨S64x32, .f32⟩
  | 38 => ⟨S64x32, .f32⟩
  | 39 => ⟨S64x32, .f32⟩
  | 40 => ⟨S64x10, .f32⟩
  | 41 => ⟨S1x10, .f32⟩
  | 42 => ⟨S64x10, .f32⟩
  | 43 => ⟨S64x10, .f32⟩
  | _ => ⟨S100000x128, .f32⟩

abbrev hbmTy (i : Nat) : BufTy := match i / 128 with
  | 0 => hbmTy0_0 i
  | 1 => hbmTy0_1 i
  | _ => ⟨S100000x128, .f32⟩

abbrev bufTy : (tb : Table) → Fin (tcTables nBuf tb) → BufTy
  | .hbm, ⟨i, _⟩ => hbmTy i
  | _, _ => ⟨S100000x128, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_arg7 : Ref sig .tc := ⟨.hbm, 7, rfl⟩
abbrev main_arg8 : Ref sig .tc := ⟨.hbm, 8, rfl⟩
abbrev main_arg9 : Ref sig .tc := ⟨.hbm, 9, rfl⟩
abbrev main_arg10 : Ref sig .tc := ⟨.hbm, 10, rfl⟩
abbrev main_arg11 : Ref sig .tc := ⟨.hbm, 11, rfl⟩
abbrev main_v0 : Ref sig .tc := ⟨.hbm, 12, rfl⟩
abbrev main_v1 : Ref sig .tc := ⟨.hbm, 13, rfl⟩
abbrev main_v2 : Ref sig .tc := ⟨.hbm, 14, rfl⟩
abbrev main_v3 : Ref sig .tc := ⟨.hbm, 15, rfl⟩
abbrev main_v4 : Ref sig .tc := ⟨.hbm, 16, rfl⟩
abbrev main_cst : Ref sig .tc := ⟨.hbm, 17, rfl⟩
abbrev main_v5 : Ref sig .tc := ⟨.hbm, 18, rfl⟩
abbrev main_cst_0 : Ref sig .tc := ⟨.hbm, 19, rfl⟩
abbrev main_v6 : Ref sig .tc := ⟨.hbm, 20, rfl⟩
abbrev main_v7 : Ref sig .tc := ⟨.hbm, 21, rfl⟩
abbrev main_v8 : Ref sig .tc := ⟨.hbm, 22, rfl⟩
abbrev main_cst_1 : Ref sig .tc := ⟨.hbm, 23, rfl⟩
abbrev main_v9 : Ref sig .tc := ⟨.hbm, 24, rfl⟩
abbrev main_v10 : Ref sig .tc := ⟨.hbm, 25, rfl⟩
abbrev main_v11 : Ref sig .tc := ⟨.hbm, 26, rfl⟩
abbrev main_c : Ref sig .tc := ⟨.hbm, 27, rfl⟩
abbrev main_v12 : Ref sig .tc := ⟨.hbm, 28, rfl⟩
abbrev main_v13 : Ref sig .tc := ⟨.hbm, 29, rfl⟩
abbrev main_c_2 : Ref sig .tc := ⟨.hbm, 30, rfl⟩
abbrev main_v14 : Ref sig .tc := ⟨.hbm, 31, rfl⟩
abbrev main_v15 : Ref sig .tc := ⟨.hbm, 32, rfl⟩
abbrev main_v16 : Ref sig .tc := ⟨.hbm, 33, rfl⟩
abbrev main_v17 : Ref sig .tc := ⟨.hbm, 34, rfl⟩
abbrev main_v18 : Ref sig .tc := ⟨.hbm, 35, rfl⟩
abbrev main_c_3 : Ref sig .tc := ⟨.hbm, 36, rfl⟩
abbrev main_v19 : Ref sig .tc := ⟨.hbm, 37, rfl⟩
abbrev main_v20 : Ref sig .tc := ⟨.hbm, 38, rfl⟩
abbrev main_c_4 : Ref sig .tc := ⟨.hbm, 39, rfl⟩
abbrev main_v21 : Ref sig .tc := ⟨.hbm, 40, rfl⟩
abbrev main_v22 : Ref sig .tc := ⟨.hbm, 41, rfl⟩
abbrev main_v23 : Ref sig .tc := ⟨.hbm, 42, rfl⟩
abbrev main_v24 : Ref sig .tc := ⟨.hbm, 43, rfl⟩
abbrev main_v25 : Ref sig .tc := ⟨.hbm, 44, rfl⟩
abbrev main_v26 : Ref sig .tc := ⟨.hbm, 45, rfl⟩
abbrev main_c_5 : Ref sig .tc := ⟨.hbm, 46, rfl⟩
abbrev main_v27 : Ref sig .tc := ⟨.hbm, 47, rfl⟩
abbrev main_v28 : Ref sig .tc := ⟨.hbm, 48, rfl⟩
abbrev main_c_6 : Ref sig .tc := ⟨.hbm, 49, rfl⟩
abbrev main_v29 : Ref sig .tc := ⟨.hbm, 50, rfl⟩
abbrev main_v30 : Ref sig .tc := ⟨.hbm, 51, rfl⟩
abbrev main_v31 : Ref sig .tc := ⟨.hbm, 52, rfl⟩
abbrev main_v32 : Ref sig .tc := ⟨.hbm, 53, rfl⟩
abbrev main_v33 : Ref sig .tc := ⟨.hbm, 54, rfl⟩
abbrev main_v34 : Ref sig .tc := ⟨.hbm, 55, rfl⟩
abbrev main_v35 : Ref sig .tc := ⟨.hbm, 56, rfl⟩
abbrev main_v36 : Ref sig .tc := ⟨.hbm, 57, rfl⟩
abbrev main_cst_7 : Ref sig .tc := ⟨.hbm, 58, rfl⟩
abbrev main_v37 : Ref sig .tc := ⟨.hbm, 59, rfl⟩
abbrev main_v38 : Ref sig .tc := ⟨.hbm, 60, rfl⟩
abbrev main_v39 : Ref sig .tc := ⟨.hbm, 61, rfl⟩
abbrev main_v40 : Ref sig .tc := ⟨.hbm, 62, rfl⟩
abbrev main_v41 : Ref sig .tc := ⟨.hbm, 63, rfl⟩
abbrev main_v42 : Ref sig .tc := ⟨.hbm, 64, rfl⟩
abbrev main_v43 : Ref sig .tc := ⟨.hbm, 65, rfl⟩
abbrev main_v44 : Ref sig .tc := ⟨.hbm, 66, rfl⟩
abbrev main_v45 : Ref sig .tc := ⟨.hbm, 67, rfl⟩
abbrev main_v46 : Ref sig .tc := ⟨.hbm, 68, rfl⟩
abbrev main_v47 : Ref sig .tc := ⟨.hbm, 69, rfl⟩
abbrev main_cst_8 : Ref sig .tc := ⟨.hbm, 70, rfl⟩
abbrev main_call0_cst : Ref sig .tc := ⟨.hbm, 71, rfl⟩
abbrev main_call0_v0 : Ref sig .tc := ⟨.hbm, 72, rfl⟩
abbrev main_call0_v1 : Ref sig .tc := ⟨.hbm, 73, rfl⟩
abbrev main_call0_v2 : Ref sig .tc := ⟨.hbm, 74, rfl⟩
abbrev main_call0_v3 : Ref sig .tc := ⟨.hbm, 75, rfl⟩
abbrev main_call0_v4 : Ref sig .tc := ⟨.hbm, 76, rfl⟩
abbrev main_v48 : Ref sig .tc := ⟨.hbm, 77, rfl⟩
abbrev main_v49 : Ref sig .tc := ⟨.hbm, 78, rfl⟩
abbrev main_cst_9 : Ref sig .tc := ⟨.hbm, 79, rfl⟩
abbrev main_v50 : Ref sig .tc := ⟨.hbm, 80, rfl⟩
abbrev main_cst_10 : Ref sig .tc := ⟨.hbm, 81, rfl⟩
abbrev main_v51 : Ref sig .tc := ⟨.hbm, 82, rfl⟩
abbrev main_v52 : Ref sig .tc := ⟨.hbm, 83, rfl⟩
abbrev main_v53 : Ref sig .tc := ⟨.hbm, 84, rfl⟩
abbrev main_cst_11 : Ref sig .tc := ⟨.hbm, 85, rfl⟩
abbrev main_v54 : Ref sig .tc := ⟨.hbm, 86, rfl⟩
abbrev main_v55 : Ref sig .tc := ⟨.hbm, 87, rfl⟩
abbrev main_v56 : Ref sig .tc := ⟨.hbm, 88, rfl⟩
abbrev main_c_12 : Ref sig .tc := ⟨.hbm, 89, rfl⟩
abbrev main_v57 : Ref sig .tc := ⟨.hbm, 90, rfl⟩
abbrev main_v58 : Ref sig .tc := ⟨.hbm, 91, rfl⟩
abbrev main_c_13 : Ref sig .tc := ⟨.hbm, 92, rfl⟩
abbrev main_v59 : Ref sig .tc := ⟨.hbm, 93, rfl⟩
abbrev main_v60 : Ref sig .tc := ⟨.hbm, 94, rfl⟩
abbrev main_v61 : Ref sig .tc := ⟨.hbm, 95, rfl⟩
abbrev main_v62 : Ref sig .tc := ⟨.hbm, 96, rfl⟩
abbrev main_v63 : Ref sig .tc := ⟨.hbm, 97, rfl⟩
abbrev main_c_14 : Ref sig .tc := ⟨.hbm, 98, rfl⟩
abbrev main_v64 : Ref sig .tc := ⟨.hbm, 99, rfl⟩
abbrev main_v65 : Ref sig .tc := ⟨.hbm, 100, rfl⟩
abbrev main_c_15 : Ref sig .tc := ⟨.hbm, 101, rfl⟩
abbrev main_v66 : Ref sig .tc := ⟨.hbm, 102, rfl⟩
abbrev main_v67 : Ref sig .tc := ⟨.hbm, 103, rfl⟩
abbrev main_v68 : Ref sig .tc := ⟨.hbm, 104, rfl⟩
abbrev main_v69 : Ref sig .tc := ⟨.hbm, 105, rfl⟩
abbrev main_v70 : Ref sig .tc := ⟨.hbm, 106, rfl⟩
abbrev main_v71 : Ref sig .tc := ⟨.hbm, 107, rfl⟩
abbrev main_c_16 : Ref sig .tc := ⟨.hbm, 108, rfl⟩
abbrev main_v72 : Ref sig .tc := ⟨.hbm, 109, rfl⟩
abbrev main_v73 : Ref sig .tc := ⟨.hbm, 110, rfl⟩
abbrev main_c_17 : Ref sig .tc := ⟨.hbm, 111, rfl⟩
abbrev main_v74 : Ref sig .tc := ⟨.hbm, 112, rfl⟩
abbrev main_v75 : Ref sig .tc := ⟨.hbm, 113, rfl⟩
abbrev main_v76 : Ref sig .tc := ⟨.hbm, 114, rfl⟩
abbrev main_v77 : Ref sig .tc := ⟨.hbm, 115, rfl⟩
abbrev main_v78 : Ref sig .tc := ⟨.hbm, 116, rfl⟩
abbrev main_v79 : Ref sig .tc := ⟨.hbm, 117, rfl⟩
abbrev main_v80 : Ref sig .tc := ⟨.hbm, 118, rfl⟩
abbrev main_v81 : Ref sig .tc := ⟨.hbm, 119, rfl⟩
abbrev main_cst_18 : Ref sig .tc := ⟨.hbm, 120, rfl⟩
abbrev main_v82 : Ref sig .tc := ⟨.hbm, 121, rfl⟩
abbrev main_v83 : Ref sig .tc := ⟨.hbm, 122, rfl⟩
abbrev main_v84 : Ref sig .tc := ⟨.hbm, 123, rfl⟩
abbrev main_v85 : Ref sig .tc := ⟨.hbm, 124, rfl⟩
abbrev main_v86 : Ref sig .tc := ⟨.hbm, 125, rfl⟩
abbrev main_v87 : Ref sig .tc := ⟨.hbm, 126, rfl⟩
abbrev main_v88 : Ref sig .tc := ⟨.hbm, 127, rfl⟩
abbrev main_v89 : Ref sig .tc := ⟨.hbm, 128, rfl⟩
abbrev main_v90 : Ref sig .tc := ⟨.hbm, 129, rfl⟩
abbrev main_v91 : Ref sig .tc := ⟨.hbm, 130, rfl⟩
abbrev main_v92 : Ref sig .tc := ⟨.hbm, 131, rfl⟩
abbrev main_cst_19 : Ref sig .tc := ⟨.hbm, 132, rfl⟩
abbrev main_call1_cst : Ref sig .tc := ⟨.hbm, 133, rfl⟩
abbrev main_call1_v0 : Ref sig .tc := ⟨.hbm, 134, rfl⟩
abbrev main_call1_v1 : Ref sig .tc := ⟨.hbm, 135, rfl⟩
abbrev main_call1_v2 : Ref sig .tc := ⟨.hbm, 136, rfl⟩
abbrev main_call1_v3 : Ref sig .tc := ⟨.hbm, 137, rfl⟩
abbrev main_call1_v4 : Ref sig .tc := ⟨.hbm, 138, rfl⟩
abbrev main_v93 : Ref sig .tc := ⟨.hbm, 139, rfl⟩
abbrev main_cst_20 : Ref sig .tc := ⟨.hbm, 140, rfl⟩
abbrev main_v94 : Ref sig .tc := ⟨.hbm, 141, rfl⟩
abbrev main_v95 : Ref sig .tc := ⟨.hbm, 142, rfl⟩
abbrev main_v96 : Ref sig .tc := ⟨.hbm, 143, rfl⟩
abbrev main_cst_21 : Ref sig .tc := ⟨.hbm, 144, rfl⟩
abbrev main_v97 : Ref sig .tc := ⟨.hbm, 145, rfl⟩
abbrev main_cst_22 : Ref sig .tc := ⟨.hbm, 146, rfl⟩
abbrev main_v98 : Ref sig .tc := ⟨.hbm, 147, rfl⟩
abbrev main_v99 : Ref sig .tc := ⟨.hbm, 148, rfl⟩
abbrev main_v100 : Ref sig .tc := ⟨.hbm, 149, rfl⟩
abbrev main_cst_23 : Ref sig .tc := ⟨.hbm, 150, rfl⟩
abbrev main_v101 : Ref sig .tc := ⟨.hbm, 151, rfl⟩
abbrev main_v102 : Ref sig .tc := ⟨.hbm, 152, rfl⟩
abbrev main_v103 : Ref sig .tc := ⟨.hbm, 153, rfl⟩
abbrev main_v104 : Ref sig .tc := ⟨.hbm, 154, rfl⟩
abbrev main_v105 : Ref sig .tc := ⟨.hbm, 155, rfl⟩
abbrev main_v106 : Ref sig .tc := ⟨.hbm, 156, rfl⟩
abbrev main_v107 : Ref sig .tc := ⟨.hbm, 157, rfl⟩
abbrev main_v108 : Ref sig .tc := ⟨.hbm, 158, rfl⟩
abbrev main_v109 : Ref sig .tc := ⟨.hbm, 159, rfl⟩
abbrev main_cst_24 : Ref sig .tc := ⟨.hbm, 160, rfl⟩
abbrev main_call2_cst : Ref sig .tc := ⟨.hbm, 161, rfl⟩
abbrev main_call2_v0 : Ref sig .tc := ⟨.hbm, 162, rfl⟩
abbrev main_call2_v1 : Ref sig .tc := ⟨.hbm, 163, rfl⟩
abbrev main_call2_v2 : Ref sig .tc := ⟨.hbm, 164, rfl⟩
abbrev main_call2_v3 : Ref sig .tc := ⟨.hbm, 165, rfl⟩
abbrev main_call2_v4 : Ref sig .tc := ⟨.hbm, 166, rfl⟩
abbrev main_v110 : Ref sig .tc := ⟨.hbm, 167, rfl⟩
abbrev main_v111 : Ref sig .tc := ⟨.hbm, 168, rfl⟩
abbrev main_v112 : Ref sig .tc := ⟨.hbm, 169, rfl⟩
abbrev main_v113 : Ref sig .tc := ⟨.hbm, 170, rfl⟩
abbrev main_v114 : Ref sig .tc := ⟨.hbm, 171, rfl⟩

abbrev nD : Nat := 1
abbrev τ : Topo := Topo.v7x

variable {F : FTy → Type} [FloatOps F]

class Facts₀ : Prop where
  slices_S2x3200000_S1x3200000_0_0 : S2x3200000.Slices ![0, 0] S1x3200000
  shapeCasts_S1x3200000_S3200000 : S1x3200000.ShapeCasts S3200000
  slices_S2x3200000_S1x3200000_1_0 : S2x3200000.Slices ![1, 0] S1x3200000
  bcast_S_S3200000 : S_.BroadcastsInDim S3200000 (![] : Fin 0 → Fin S3200000.rank)
  bcast_S_S100000 : S_.BroadcastsInDim S100000 (![] : Fin 0 → Fin S100000.rank)
  bcast_S3200000_S3200000x1_0 : S3200000.BroadcastsInDim S3200000x1 (![0] : Fin 1 → Fin S3200000x1.rank)
  bcast_S3200000x1_S3200000x64_0_1 : S3200000x1.BroadcastsInDim S3200000x64 (![0, 1] : Fin 2 → Fin S3200000x64.rank)
  bcast_S_S100000x64 : S_.BroadcastsInDim S100000x64 (![] : Fin 0 → Fin S100000x64.rank)
  bcast_S100000_S100000x1_0 : S100000.BroadcastsInDim S100000x1 (![0] : Fin 1 → Fin S100000x1.rank)
  bcast_S100000x1_S100000x64_0_1 : S100000x1.BroadcastsInDim S100000x64 (![0, 1] : Fin 2 → Fin S100000x64.rank)
  bcast_S64_S1x64_1 : S64.BroadcastsInDim S1x64 (![1] : Fin 1 → Fin S1x64.rank)
  bcast_S1x64_S100000x64_0_1 : S1x64.BroadcastsInDim S100000x64 (![0, 1] : Fin 2 → Fin S100000x64.rank)
  bcast_S3200000x1_S3200000x16_0_1 : S3200000x1.BroadcastsInDim S3200000x16 (![0, 1] : Fin 2 → Fin S3200000x16.rank)
  bcast_S_S100000x16 : S_.BroadcastsInDim S100000x16 (![] : Fin 0 → Fin S100000x16.rank)
  bcast_S100000x1_S100000x16_0_1 : S100000x1.BroadcastsInDim S100000x16 (![0, 1] : Fin 2 → Fin S100000x16.rank)
  bcast_S16_S1x16_1 : S16.BroadcastsInDim S1x16 (![1] : Fin 1 → Fin S1x16.rank)
  bcast_S1x16_S100000x16_0_1 : S1x16.BroadcastsInDim S100000x16 (![0, 1] : Fin 2 → Fin S100000x16.rank)
  bcast_S_S64x16 : S_.BroadcastsInDim S64x16 (![] : Fin 0 → Fin S64x16.rank)
  bcast_S_S64 : S_.BroadcastsInDim S64 (![] : Fin 0 → Fin S64.rank)
  bcast_S64_S64x1_0 : S64.BroadcastsInDim S64x1 (![0] : Fin 1 → Fin S64x1.rank)
  bcast_S64x1_S64x16_0_1 : S64x1.BroadcastsInDim S64x16 (![0, 1] : Fin 2 → Fin S64x16.rank)
  bcast_S32_S1x32_1 : S32.BroadcastsInDim S1x32 (![1] : Fin 1 → Fin S1x32.rank)
  bcast_S1x32_S64x32_0_1 : S1x32.BroadcastsInDim S64x32 (![0, 1] : Fin 2 → Fin S64x32.rank)
  bcast_S_S64x32 : S_.BroadcastsInDim S64x32 (![] : Fin 0 → Fin S64x32.rank)
  bcast_S10_S1x10_1 : S10.BroadcastsInDim S1x10 (![1] : Fin 1 → Fin S1x10.rank)
  bcast_S1x10_S64x10_0_1 : S1x10.BroadcastsInDim S64x10 (![0, 1] : Fin 2 → Fin S64x10.rank)
  dot_S100000x128_S128x64_S100000x64_1_0_0_1_n_n_wf : DotDims.WF S100000x128 S128x64 S100000x64 [1] [0] [0] [1] [] []
  scatter_S100000_S3200000x1_S3200000_n_0_0_1_wf : ScatterDims.WF S100000 S3200000x1 S3200000 [] [0] [0] 1
  gather_S100000_S3200000x1_S3200000_n_0_n_n_0_1_1_wf : GatherDims.WF S100000 S3200000x1 S3200000 [] [0] [] [0] [] 1 ![1]
  gather_S100000x64_S3200000x1_S3200000x64_1_0_n_n_0_1_164_wf : GatherDims.WF S100000x64 S3200000x1 S3200000x64 [1] [0] [] [0] [] 1 ![1, 64]
  scatter_S100000x64_S3200000x1_S3200000x64_1_0_0_1_wf : ScatterDims.WF S100000x64 S3200000x1 S3200000x64 [1] [0] [0] 1
  dot_S100000x64_S64x16_S100000x16_1_0_0_1_n_n_wf : DotDims.WF S100000x64 S64x16 S100000x16 [1] [0] [0] [1] [] []
  gather_S100000x16_S3200000x1_S3200000x16_1_0_n_n_0_1_116_wf : GatherDims.WF S100000x16 S3200000x1 S3200000x16 [1] [0] [] [0] [] 1 ![1, 16]
  scatter_S100000x16_S3200000x1_S3200000x16_1_0_0_1_wf : ScatterDims.WF S100000x16 S3200000x1 S3200000x16 [1] [0] [0] 1
  scatter_S64x16_S100000x1_S100000x16_1_0_0_1_wf : ScatterDims.WF S64x16 S100000x1 S100000x16 [1] [0] [0] 1
  scatter_S64_S100000x1_S100000_n_0_0_1_wf : ScatterDims.WF S64 S100000x1 S100000 [] [0] [0] 1
  dot_S64x16_S16x32_S64x32_1_0_0_1_n_n_wf : DotDims.WF S64x16 S16x32 S64x32 [1] [0] [0] [1] [] []
  dot_S64x32_S32x10_S64x10_1_0_0_1_n_n_wf : DotDims.WF S64x32 S32x10 S64x10 [1] [0] [0] [1] [] []

variable [Facts₀]

def dot_S100000x128_S128x64_S100000x64_1_0_0_1_n_n : DotDims S100000x128 S128x64 S100000x64 where
  lhsContracting := [1]
  rhsContracting := [0]
  lhsNonContracting := [0]
  rhsNonContracting := [1]
  lhsBatch := []
  rhsBatch := []
  wf := dot_S100000x128_S128x64_S100000x64_1_0_0_1_n_n_wf
def scatter_S100000_S3200000x1_S3200000_n_0_0_1 : ScatterDims S100000 S3200000x1 S3200000 where
  updateWindowDims := []
  insertedWindowDims := [0]
  scatterDimsToOperandDims := [0]
  indexVectorDim := 1
  wf := scatter_S100000_S3200000x1_S3200000_n_0_0_1_wf
def gather_S100000_S3200000x1_S3200000_n_0_n_n_0_1_1 : GatherDims S100000 S3200000x1 S3200000 where
  offsetDims := []
  collapsedSliceDims := [0]
  operandBatchingDims := []
  startIndicesBatchingDims := []
  startIndexMap := [0]
  indexVectorDim := 1
  sliceSizes := ![1]
  wf := gather_S100000_S3200000x1_S3200000_n_0_n_n_0_1_1_wf
def gather_S100000x64_S3200000x1_S3200000x64_1_0_n_n_0_1_164 : GatherDims S100000x64 S3200000x1 S3200000x64 where
  offsetDims := [1]
  collapsedSliceDims := [0]
  operandBatchingDims := []
  startIndicesBatchingDims := []
  startIndexMap := [0]
  indexVectorDim := 1
  sliceSizes := ![1, 64]
  wf := gather_S100000x64_S3200000x1_S3200000x64_1_0_n_n_0_1_164_wf
def scatter_S100000x64_S3200000x1_S3200000x64_1_0_0_1 : ScatterDims S100000x64 S3200000x1 S3200000x64 where
  updateWindowDims := [1]
  insertedWindowDims := [0]
  scatterDimsToOperandDims := [0]
  indexVectorDim := 1
  wf := scatter_S100000x64_S3200000x1_S3200000x64_1_0_0_1_wf
def dot_S100000x64_S64x16_S100000x16_1_0_0_1_n_n : DotDims S100000x64 S64x16 S100000x16 where
  lhsContracting := [1]
  rhsContracting := [0]
  lhsNonContracting := [0]
  rhsNonContracting := [1]
  lhsBatch := []
  rhsBatch := []
  wf := dot_S100000x64_S64x16_S100000x16_1_0_0_1_n_n_wf
def gather_S100000x16_S3200000x1_S3200000x16_1_0_n_n_0_1_116 : GatherDims S100000x16 S3200000x1 S3200000x16 where
  offsetDims := [1]
  collapsedSliceDims := [0]
  operandBatchingDims := []
  startIndicesBatchingDims := []
  startIndexMap := [0]
  indexVectorDim := 1
  sliceSizes := ![1, 16]
  wf := gather_S100000x16_S3200000x1_S3200000x16_1_0_n_n_0_1_116_wf
def scatter_S100000x16_S3200000x1_S3200000x16_1_0_0_1 : ScatterDims S100000x16 S3200000x1 S3200000x16 where
  updateWindowDims := [1]
  insertedWindowDims := [0]
  scatterDimsToOperandDims := [0]
  indexVectorDim := 1
  wf := scatter_S100000x16_S3200000x1_S3200000x16_1_0_0_1_wf
def scatter_S64x16_S100000x1_S100000x16_1_0_0_1 : ScatterDims S64x16 S100000x1 S100000x16 where
  updateWindowDims := [1]
  insertedWindowDims := [0]
  scatterDimsToOperandDims := [0]
  indexVectorDim := 1
  wf := scatter_S64x16_S100000x1_S100000x16_1_0_0_1_wf
def scatter_S64_S100000x1_S100000_n_0_0_1 : ScatterDims S64 S100000x1 S100000 where
  updateWindowDims := []
  insertedWindowDims := [0]
  scatterDimsToOperandDims := [0]
  indexVectorDim := 1
  wf := scatter_S64_S100000x1_S100000_n_0_0_1_wf
def dot_S64x16_S16x32_S64x32_1_0_0_1_n_n : DotDims S64x16 S16x32 S64x32 where
  lhsContracting := [1]
  rhsContracting := [0]
  lhsNonContracting := [0]
  rhsNonContracting := [1]
  lhsBatch := []
  rhsBatch := []
  wf := dot_S64x16_S16x32_S64x32_1_0_0_1_n_n_wf
def dot_S64x32_S32x10_S64x10_1_0_0_1_n_n : DotDims S64x32 S32x10 S64x10 where
  lhsContracting := [1]
  rhsContracting := [0]
  lhsNonContracting := [0]
  rhsNonContracting := [1]
  lhsBatch := []
  rhsBatch := []
  wf := dot_S64x32_S32x10_S64x10_1_0_0_1_n_n_wf

class Facts : Prop extends Facts₀ where

variable [Facts]
-- ==== Proof.KernelRun.lean ====
/-
  The idealized kernel's run with its RESULT named: every weakly fair execution of @main terminates, the argument
  arrays end as launched, and the result buffer ends at the last boundary's contents — the fold of the program's
  segments (host stretches as folds of their operations, each region as its arrays at what its write-backs leave)
  over the launch memory, read at the result buffer.
-/
import proofs.«134301_j23244363006452_2_alg».proof.Proof.Gen.KernelIdeal.Frame

set_option maxRecDepth 16384

noncomputable section

namespace Cert.KernelIdeal.RunValue

open Cert.KernelIdeal Cert.KernelIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

variable (m : (ℓ : Loc nD τ sig) → Buf (Elt F) ℓ) (ρ : Dev nD → PrngReg)

-- the launch theorem's implicit arguments are found by unifying its conclusion with this one, which takes unfolding
-- plain definitions in a metavariable's type
set_option backward.isDefEq.respectTransparency.types false in
/-- The library's launch theorem for a program of several regions, over the program's segments; the last thread state (every unscoped buffer at the last boundary's
    contents) read against the final state, at the result buffer and at each argument. -/
theorem run_value : θ_run defs (onTc (τ := τ) (main (F := F))) ⟨m, fun _ => 0, ρ⟩ (fun r => ∀ c : Dev nD,
      r.2.mem ((c.tc : Thread nD τ).loc main_v104) = W10 m ρ c (Proc.devRef .tc main_v104)
      ∧ r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)
      ∧ r.2.mem ((c.tc : Thread nD τ).loc main_arg3) = m ((c.tc : Thread nD τ).loc main_arg3)
      ∧ r.2.mem ((c.tc : Thread nD τ).loc main_arg4) = m ((c.tc : Thread nD τ).loc main_arg4)
      ∧ r.2.mem ((c.tc : Thread nD τ).loc main_arg5) = m ((c.tc : Thread nD τ).loc main_arg5)
      ∧ r.2.mem ((c.tc : Thread nD τ).loc main_arg6) = m ((c.tc : Thread nD τ).loc main_arg6)
      ∧ r.2.mem ((c.tc : Thread nD τ).loc main_arg7) = m ((c.tc : Thread nD τ).loc main_arg7)
      ∧ r.2.mem ((c.tc : Thread nD τ).loc main_arg8) = m ((c.tc : Thread nD τ).loc main_arg8)
      ∧ r.2.mem ((c.tc : Thread nD τ).loc main_arg9) = m ((c.tc : Thread nD τ).loc main_arg9)
      ∧ r.2.mem ((c.tc : Thread nD τ).loc main_arg10) = m ((c.tc : Thread nD τ).loc main_arg10)
      ∧ r.2.mem ((c.tc : Thread nD τ).loc main_arg11) = m ((c.tc : Thread nD τ).loc main_arg11)) :=
  Pipeline.θ_run_regions_kit (pcfgs (F := F)) adm (pdats m ρ) () cellOf_inj emb₁ defs₀ 𝒱₀ L lv m ρ main (segs m ρ)
    (fun c Q => by rw [main_run m ρ c])
    (by simp only [segs, Pipeline.Seg.pipes_host, Pipeline.Seg.pipes_region, Pipeline.Seg.pipes_nil]; decide)
    (O₀ := 0) (hL := fun _ _ => rfl) (G := fun _ => iprop(emp))
    (u₀ := initOf (Pipeline.cells cfgs cellOf_inj) (Pipeline.launchToks cfgs cellOf_inj))
    (hu₀ := by
      iintro Hu; imodintro
      isplitl [Hu]
      · iapply (show (ownU (initOf (Pipeline.cells cfgs cellOf_inj) (Pipeline.launchToks cfgs cellOf_inj)) : sProp 𝕄)
            ⊢ BI.own (emb₁ (initOf (Pipeline.cells cfgs cellOf_inj) (Pipeline.launchToks cfgs cellOf_inj))) from .rfl)
        iexact Hu
      iapply (show (BI.emp : sProp 𝕄) ⊢ bigSep Finset.univ (fun _ : Dev nD => (BI.emp : sProp 𝕄)) from by rw [BI.bigSep_emp_const])
      iempintro)
    (T₀ := fun c => iprop(StableHlo.held (c : Thread nD τ) (Pipeline.ucRefs τ sig) (W0 m ρ c) ∗ R c)) (Tₙ := Tₙ m ρ)
    (hch := ⟨fun _ => .rfl, fun _ => .rfl, fun _ => .rfl, fun _ => .rfl, fun _ => .rfl, fun _ => .rfl, fun _ => .rfl, fun _ => .rfl, fun _ => .rfl, fun _ => .rfl, fun c => by
      dsimp only [Pipeline.Seg.post, hseg, Pipeline.HostSeg.ofOps]
      iintro ⟨Hh, Hp, HO⟩
      isplitl [Hh Hp]
      · isplitl [Hh]; · iexact Hh
        iexact Hp
      iexact HO⟩)
    (hinit := by
      refine Pipeline.initEach L lv fun c => ?_
      rw [show unscopedBufs c (fun b => m ((c : Thread nD τ).loc b)) = StableHlo.held (c : Thread nD τ) (Pipeline.ucRefs τ sig) (W0 m ρ c)
        from Pipeline.unscopedBufs_held c (W0 m ρ c)]
      iintro ⟨⟨Hh, -, HO, -, Hp, -⟩, -⟩
      imodintro
      isplitl [Hh]; · iexact Hh
      isplitl [Hp]; · iexists _; iexact Hp
      iexists ∅; iexact HO)
    (QY := fun c s => ∀ b ∈ Pipeline.ucRefs τ sig, s.mem (((c : Thread nD τ)).1, b) = W10 m ρ c b)
    (hfin := fun c s' => by
      iintro ⟨⟨Hh, -⟩, HSI⟩
      unfold StableHlo.held
      imodintro
      iapply (pointsTo_read_all (Pipeline.ucRefs τ sig) (fun b => (((c : Thread nD τ)).1, b)) (W10 m ρ c) s')
      isplitl [Hh] <;> iassumption)
    (hQ := fun s h c =>
      ⟨h c _ (mem_uc main_v104 (by decide)),
       (h c _ (mem_uc main_arg0 (by decide))).trans (W10_main_arg0 m ρ c),
       (h c _ (mem_uc main_arg1 (by decide))).trans (W10_main_arg1 m ρ c),
       (h c _ (mem_uc main_arg2 (by decide))).trans (W10_main_arg2 m ρ c),
       (h c _ (mem_uc main_arg3 (by decide))).trans (W10_main_arg3 m ρ c),
       (h c _ (mem_uc main_arg4 (by decide))).trans (W10_main_arg4 m ρ c),
       (h c _ (mem_uc main_arg5 (by decide))).trans (W10_main_arg5 m ρ c),
       (h c _ (mem_uc main_arg6 (by decide))).trans (W10_main_arg6 m ρ c),
       (h c _ (mem_uc main_arg7 (by decide))).trans (W10_main_arg7 m ρ c),
       (h c _ (mem_uc main_arg8 (by decide))).trans (W10_main_arg8 m ρ c),
       (h c _ (mem_uc main_arg9 (by decide))).trans (W10_main_arg9 m ρ c),
       (h c _ (mem_uc main_arg10 (by decide))).trans (W10_main_arg10 m ρ c),
       (h c _ (mem_uc main_arg11 (by decide))).trans (W10_main_arg11 m ρ c)⟩)

end Cert.KernelIdeal.RunValue

end
-- ==== Proof.RefOps.lean ====
/-
  The reference's @main as ONE straight line of host operations, cut into nine stretches at the places where the
  kernel's program launches a region: the rows of the edge table (A), x · W1 (D1), the first layer's graph side (B)
  and node side (L1), h1 · W2 (D2), the second layer's graph side (C) and node side (L2), the pooled sums (T1), and the
  mean followed by the two dense layers (T2). Each call of an outlined function (the leaky rectifier, which itself
  calls a select) appears as the callee's operations over the call's own buffers. The run of the line leaves every
  buffer at the fold of the operations over the launch contents, and that fold is the nine stretches' folds one
  after the other.
-/
import proofs.«134301_j23244363006452_2_alg».proof.Proof.Gen.ReferenceIdeal
import Idealize.ShloMosaic.Lib.StableHlo.Run

noncomputable section

namespace Cert.ReferenceIdeal.Line

open Cert.ReferenceIdeal Cert.ReferenceIdeal.Gen Idealize.ShloMosaic Idealize.ShloMosaic.TcCoe Idealize.SL.Sem Idealize.ShloMosaic.StableHlo

variable {F : FTy → Type} [FloatOps F]

/-- The two rows of the edge table as vectors: sources `main_v1`, destinations `main_v3`. -/
abbrev opsA : List (HloOp τ sig (Elt F)) :=
  [ StableHlo.unary main_arg1 main_v0 ((extractStridedSlice S1x3200000 ![0, 0] · slices_S2x3200000_S1x3200000_0_0) : (⟨S2x3200000, .i32⟩ : BufTy).Contents (Elt F) → (⟨S1x3200000, .i32⟩ : BufTy).Contents (Elt F)),
    StableHlo.reshape main_v0 main_v1 rfl shapeCasts_S1x3200000_S3200000,
    StableHlo.unary main_arg1 main_v2 ((extractStridedSlice S1x3200000 ![1, 0] · slices_S2x3200000_S1x3200000_1_0) : (⟨S2x3200000, .i32⟩ : BufTy).Contents (Elt F) → (⟨S1x3200000, .i32⟩ : BufTy).Contents (Elt F)),
    StableHlo.reshape main_v2 main_v3 rfl shapeCasts_S1x3200000_S3200000 ]
theorem opsA_sub : (opsA : List (HloOp τ sig (Elt F))).Forall fun op => op.bufs ⊆ tcRefs τ sig :=
  ⟨unary_bufs_sub .., reshape_bufs_sub .., unary_bufs_sub .., reshape_bufs_sub ..⟩

/-- The first layer's product x · W1. -/
abbrev opsD1 : List (HloOp τ sig (Elt F)) :=
  [ StableHlo.binary main_arg0 main_arg4 main_v4 ((fun l r => Host.dotGeneral dot_S100000x128_S128x64_S100000x64_1_0_0_1_n_n none l r) : (⟨S100000x128, .f32⟩ : BufTy).Contents (Elt F) → (⟨S128x64, .f32⟩ : BufTy).Contents (Elt F) → (⟨S100000x64, .f32⟩ : BufTy).Contents (Elt F)) ]
theorem opsD1_sub : (opsD1 : List (HloOp τ sig (Elt F))).Forall fun op => op.bufs ⊆ tcRefs τ sig :=
  binary_bufs_sub ..

/-- The first layer's graph side: in-degrees + 1, their inverse roots, the per-edge weights, the weighted gathered rows scattered to their destinations (`main_v39`) and the squared inverse roots (`main_v40`). -/
abbrev opsB : List (HloOp τ sig (Elt F)) :=
  [ StableHlo.nullary main_cst (constant S_ .f32 0x3F800000#32),
    StableHlo.unary main_cst main_v5 (broadcastInDim S3200000 ![] bcast_S_S3200000 : (⟨S_, .f32⟩ : BufTy).Contents (Elt F) → (⟨S3200000, .f32⟩ : BufTy).Contents (Elt F)),
    StableHlo.nullary main_cst_0 (constant S_ .f32 0x00000000#32),
    StableHlo.unary main_cst_0 main_v6 (broadcastInDim S100000 ![] bcast_S_S100000 : (⟨S_, .f32⟩ : BufTy).Contents (Elt F) → (⟨S100000, .f32⟩ : BufTy).Contents (Elt F)),
    StableHlo.unary main_v3 main_v7 (broadcastInDim S3200000x1 ![0] bcast_S3200000_S3200000x1_0 : (⟨S3200000, .i32⟩ : BufTy).Contents (Elt F) → (⟨S3200000x1, .i32⟩ : BufTy).Contents (Elt F)),
    StableHlo.ternary main_v6 main_v7 main_v5 main_v8 ((fun x i u => Host.scatterAdd scatter_S100000_S3200000x1_S3200000_n_0_0_1 x i u) : (⟨S100000, .f32⟩ : BufTy).Contents (Elt F) → (⟨S3200000x1, .i32⟩ : BufTy).Contents (Elt F) → (⟨S3200000, .f32⟩ : BufTy).Contents (Elt F) → (⟨S100000, .f32⟩ : BufTy).Contents (Elt F)),
    StableHlo.nullary main_cst_1 (constant S_ .f32 0x3F800000#32),
    StableHlo.unary main_cst_1 main_v9 (broadcastInDim S100000 ![] bcast_S_S100000 : (⟨S_, .f32⟩ : BufTy).Contents (Elt F) → (⟨S100000, .f32⟩ : BufTy).Contents (Elt F)),
    StableHlo.binary main_v8 main_v9 main_v10 (addf : (⟨S100000, .f32⟩ : BufTy).Contents (Elt F) → (⟨S100000, .f32⟩ : BufTy).Contents (Elt F) → (⟨S100000, .f32⟩ : BufTy).Contents (Elt F)),
    StableHlo.unary main_v10 main_v11 (Host.rsqrt : (⟨S100000, .f32⟩ : BufTy).Contents (Elt F) → (⟨S100000, .f32⟩ : BufTy).Contents (Elt F)),
    StableHlo.nullary main_c (constantI S_ 32 0#32),
    StableHlo.unary main_c main_v12 (broadcastInDim S3200000 ![] bcast_S_S3200000 : (⟨S_, .i32⟩ : BufTy).Contents (Elt F) → (⟨S3200000, .i32⟩ : BufTy).Contents (Elt F)),
    StableHlo.binary main_v1 main_v12 main_v13 (cmpi .slt : (⟨S3200000, .i32⟩ : BufTy).Contents (Elt F) → (⟨S3200000, .i32⟩ : BufTy).Contents (Elt F) → (⟨S3200000, .i1⟩ : BufTy).Contents (Elt F)),
    StableHlo.nullary main_c_2 (constantI S_ 32 100000#32),
    StableHlo.unary main_c_2 main_v14 (broadcastInDim S3200000 ![] bcast_S_S3200000 : (⟨S_, .i32⟩ : BufTy).Contents (Elt F) → (⟨S3200000, .i32⟩ : BufTy).Contents (Elt F)),
    StableHlo.binary main_v1 main_v14 main_v15 (addi : (⟨S3200000, .i32⟩ : BufTy).Contents (Elt F) → (⟨S3200000, .i32⟩ : BufTy).Contents (Elt F) → (⟨S3200000, .i32⟩ : BufTy).Contents (Elt F)),
    StableHlo.ternary main_v13 main_v15 main_v1 main_v16 (select : (⟨S3200000, .i1⟩ : BufTy).Contents (Elt F) → (⟨S3200000, .i32⟩ : BufTy).Contents (Elt F) → (⟨S3200000, .i32⟩ : BufTy).Contents (Elt F) → (⟨S3200000, .i32⟩ : BufTy).Contents (Elt F)),
    StableHlo.unary main_v16 main_v17 (broadcastInDim S3200000x1 ![0] bcast_S3200000_S3200000x1_0 : (⟨S3200000, .i32⟩ : BufTy).Contents (Elt F) → (⟨S3200000x1, .i32⟩ : BufTy).Contents (Elt F)),
    StableHlo.binary main_v11 main_v17 main_v18 ((fun x i => Host.gather gather_S100000_S3200000x1_S3200000_n_0_n_n_0_1_1 x i) : (⟨S100000, .f32⟩ : BufTy).Contents (Elt F) → (⟨S3200000x1, .i32⟩ : BufTy).Contents (Elt F) → (⟨S3200000, .f32⟩ : BufTy).Contents (Elt F)),
    StableHlo.nullary main_c_3 (constantI S_ 32 0#32),
    StableHlo.unary main_c_3 main_v19 (broadcastInDim S3200000 ![] bcast_S_S3200000 : (⟨S_, .i32⟩ : BufTy).Contents (Elt F) → (⟨S3200000, .i32⟩ : BufTy).Contents (Elt F)),
    StableHlo.binary main_v3 main_v19 main_v20 (cmpi .slt : (⟨S3200000, .i32⟩ : BufTy).Contents (Elt F) → (⟨S3200000, .i32⟩ : BufTy).Contents (Elt F) → (⟨S3200000, .i1⟩ : BufTy).Contents (Elt F)),
    StableHlo.nullary main_c_4 (constantI S_ 32 100000#32),
    StableHlo.unary main_c_4 main_v21 (broadcastInDim S3200000 ![] bcast_S_S3200000 : (⟨S_, .i32⟩ : BufTy).Contents (Elt F) → (⟨S3200000, .i32⟩ : BufTy).Contents (Elt F)),
    StableHlo.binary main_v3 main_v21 main_v22 (addi : (⟨S3200000, .i32⟩ : BufTy).Contents (Elt F) → (⟨S3200000, .i32⟩ : BufTy).Contents (Elt F) → (⟨S3200000, .i32⟩ : BufTy).Contents (Elt F)),
    StableHlo.ternary main_v20 main_v22 main_v3 main_v23 (select : (⟨S3200000, .i1⟩ : BufTy).Contents (Elt F) → (⟨S3200000, .i32⟩ : BufTy).Contents (Elt F) → (⟨S3200000, .i32⟩ : BufTy).Contents (Elt F) → (⟨S3200000, .i32⟩ : BufTy).Contents (Elt F)),
    StableHlo.unary main_v23 main_v24 (broadcastInDim S3200000x1 ![0] bcast_S3200000_S3200000x1_0 : (⟨S3200000, .i32⟩ : BufTy).Contents (Elt F) → (⟨S3200000x1, .i32⟩ : BufTy).Contents (Elt F)),
    StableHlo.binary main_v11 main_v24 main_v25 ((fun x i => Host.gather gather_S100000_S3200000x1_S3200000_n_0_n_n_0_1_1 x i) : (⟨S100000, .f32⟩ : BufTy).Contents (Elt F) → (⟨S3200000x1, .i32⟩ : BufTy).Contents (Elt F) → (⟨S3200000, .f32⟩ : BufTy).Contents (Elt F)),
    StableHlo.binary main_v18 main_v25 main_v26 (mulf : (⟨S3200000, .f32⟩ : BufTy).Contents (Elt F) → (⟨S3200000, .f32⟩ : BufTy).Contents (Elt F) → (⟨S3200000, .f32⟩ : BufTy).Contents (Elt F)),
    StableHlo.nullary main_c_5 (constantI S_ 32 0#32),
    StableHlo.unary main_c_5 main_v27 (broadcastInDim S3200000 ![] bcast_S_S3200000 : (⟨S_, .i32⟩ : BufTy).Contents (Elt F) → (⟨S3200000, .i32⟩ : BufTy).Contents (Elt F)),
    StableHlo.binary main_v1 main_v27 main_v28 (cmpi .slt : (⟨S3200000, .i32⟩ : BufTy).Contents (Elt F) → (⟨S3200000, .i32⟩ : BufTy).Contents (Elt F) → (⟨S3200000, .i1⟩ : BufTy).Contents (Elt F)),
    StableHlo.nullary main_c_6 (constantI S_ 32 100000#32),
    StableHlo.unary main_c_6 main_v29 (broadcastInDim S3200000 ![] bcast_S_S3200000 : (⟨S_, .i32⟩ : BufTy).Contents (Elt F) → (⟨S3200000, .i32⟩ : BufTy).Contents (Elt F)),
    StableHlo.binary main_v1 main_v29 main_v30 (addi : (⟨S3200000, .i32⟩ : BufTy).Contents (Elt F) → (⟨S3200000, .i32⟩ : BufTy).Contents (Elt F) → (⟨S3200000, .i32⟩ : BufTy).Contents (Elt F)),
    StableHlo.ternary main_v28 main_v30 main_v1 main_v31 (select : (⟨S3200000, .i1⟩ : BufTy).Contents (Elt F) → (⟨S3200000, .i32⟩ : BufTy).Contents (Elt F) → (⟨S3200000, .i32⟩ : BufTy).Contents (Elt F) → (⟨S3200000, .i32⟩ : BufTy).Contents (Elt F)),
    StableHlo.unary main_v31 main_v32 (broadcastInDim S3200000x1 ![0] bcast_S3200000_S3200000x1_0 : (⟨S3200000, .i32⟩ : BufTy).Contents (Elt F) → (⟨S3200000x1, .i32⟩ : BufTy).Contents (Elt F)),
    StableHlo.binary main_v4 main_v32 main_v33 ((fun x i => Host.gather gather_S100000x64_S3200000x1_S3200000x64_1_0_n_n_0_1_164 x i) : (⟨S100000x64, .f32⟩ : BufTy).Contents (Elt F) → (⟨S3200000x1, .i32⟩ : BufTy).Contents (Elt F) → (⟨S3200000x64, .f32⟩ : BufTy).Contents (Elt F)),
    StableHlo.unary main_v26 main_v34 (broadcastInDim S3200000x1 ![0] bcast_S3200000_S3200000x1_0 : (⟨S3200000, .f32⟩ : BufTy).Contents (Elt F) → (⟨S3200000x1, .f32⟩ : BufTy).Contents (Elt F)),
    StableHlo.unary main_v34 main_v35 (broadcastInDim S3200000x64 ![0, 1] bcast_S3200000x1_S3200000x64_0_1 : (⟨S3200000x1, .f32⟩ : BufTy).Contents (Elt F) → (⟨S3200000x64, .f32⟩ : BufTy).Contents (Elt F)),
    StableHlo.binary main_v33 main_v35 main_v36 (mulf : (⟨S3200000x64, .f32⟩ : BufTy).Contents (Elt F) → (⟨S3200000x64, .f32⟩ : BufTy).Contents (Elt F) → (⟨S3200000x64, .f32⟩ : BufTy).Contents (Elt F)),
    StableHlo.nullary main_cst_7 (constant S_ .f32 0x00000000#32),
    StableHlo.unary main_cst_7 main_v37 (broadcastInDim S100000x64 ![] bcast_S_S100000x64 : (⟨S_, .f32⟩ : BufTy).Contents (Elt F) → (⟨S100000x64, .f32⟩ : BufTy).Contents (Elt F)),
    StableHlo.unary main_v3 main_v38 (broadcastInDim S3200000x1 ![0] bcast_S3200000_S3200000x1_0 : (⟨S3200000, .i32⟩ : BufTy).Contents (Elt F) → (⟨S3200000x1, .i32⟩ : BufTy).Contents (Elt F)),
    StableHlo.ternary main_v37 main_v38 main_v36 main_v39 ((fun x i u => Host.scatterAdd scatter_S100000x64_S3200000x1_S3200000x64_1_0_0_1 x i u) : (⟨S100000x64, .f32⟩ : BufTy).Contents (Elt F) → (⟨S3200000x1, .i32⟩ : BufTy).Contents (Elt F) → (⟨S3200000x64, .f32⟩ : BufTy).Contents (Elt F) → (⟨S100000x64, .f32⟩ : BufTy).Contents (Elt F)),
    StableHlo.binary main_v11 main_v11 main_v40 (mulf : (⟨S100000, .f32⟩ : BufTy).Contents (Elt F) → (⟨S100000, .f32⟩ : BufTy).Contents (Elt F) → (⟨S100000, .f32⟩ : BufTy).Contents (Elt F)) ]
theorem opsB_sub : (opsB : List (HloOp τ sig (Elt F))).Forall fun op => op.bufs ⊆ tcRefs τ sig :=
  ⟨nullary_bufs_sub .., unary_bufs_sub .., nullary_bufs_sub .., unary_bufs_sub .., unary_bufs_sub .., ternary_bufs_sub .., nullary_bufs_sub .., unary_bufs_sub .., binary_bufs_sub .., unary_bufs_sub .., nullary_bufs_sub .., unary_bufs_sub .., binary_bufs_sub .., nullary_bufs_sub .., unary_bufs_sub .., binary_bufs_sub .., ternary_bufs_sub .., unary_bufs_sub .., binary_bufs_sub .., nullary_bufs_sub .., unary_bufs_sub .., binary_bufs_sub .., nullary_bufs_sub .., unary_bufs_sub .., binary_bufs_sub .., ternary_bufs_sub .., unary_bufs_sub .., binary_bufs_sub .., binary_bufs_sub .., nullary_bufs_sub .., unary_bufs_sub .., binary_bufs_sub .., nullary_bufs_sub .., unary_bufs_sub .., binary_bufs_sub .., ternary_bufs_sub .., unary_bufs_sub .., binary_bufs_sub .., unary_bufs_sub .., unary_bufs_sub .., binary_bufs_sub .., nullary_bufs_sub .., unary_bufs_sub .., unary_bufs_sub .., ternary_bufs_sub .., binary_bufs_sub ..⟩

/-- The first layer's node side: aggregate + (product scaled by the squared inverse roots) + bias, then the leaky rectifier (its outlined function's operations in place). -/
abbrev opsL1 : List (HloOp τ sig (Elt F)) :=
  [ StableHlo.unary main_v40 main_v41 (broadcastInDim S100000x1 ![0] bcast_S100000_S100000x1_0 : (⟨S100000, .f32⟩ : BufTy).Contents (Elt F) → (⟨S100000x1, .f32⟩ : BufTy).Contents (Elt F)),
    StableHlo.unary main_v41 main_v42 (broadcastInDim S100000x64 ![0, 1] bcast_S100000x1_S100000x64_0_1 : (⟨S100000x1, .f32⟩ : BufTy).Contents (Elt F) → (⟨S100000x64, .f32⟩ : BufTy).Contents (Elt F)),
    StableHlo.binary main_v4 main_v42 main_v43 (mulf : (⟨S100000x64, .f32⟩ : BufTy).Contents (Elt F) → (⟨S100000x64, .f32⟩ : BufTy).Contents (Elt F) → (⟨S100000x64, .f32⟩ : BufTy).Contents (Elt F)),
    StableHlo.binary main_v39 main_v43 main_v44 (addf : (⟨S100000x64, .f32⟩ : BufTy).Contents (Elt F) → (⟨S100000x64, .f32⟩ : BufTy).Contents (Elt F) → (⟨S100000x64, .f32⟩ : BufTy).Contents (Elt F)),
    StableHlo.unary main_arg5 main_v45 (broadcastInDim S1x64 ![1] bcast_S64_S1x64_1 : (⟨S64, .f32⟩ : BufTy).Contents (Elt F) → (⟨S1x64, .f32⟩ : BufTy).Contents (Elt F)),
    StableHlo.unary main_v45 main_v46 (broadcastInDim S100000x64 ![0, 1] bcast_S1x64_S100000x64_0_1 : (⟨S1x64, .f32⟩ : BufTy).Contents (Elt F) → (⟨S100000x64, .f32⟩ : BufTy).Contents (Elt F)),
    StableHlo.binary main_v44 main_v46 main_v47 (addf : (⟨S100000x64, .f32⟩ : BufTy).Contents (Elt F) → (⟨S100000x64, .f32⟩ : BufTy).Contents (Elt F) → (⟨S100000x64, .f32⟩ : BufTy).Contents (Elt F)),
    StableHlo.nullary main_cst_8 (constant S_ .f32 0x3C23D70A#32),
    StableHlo.TRef.nullary (.of main_call0_cst : StableHlo.TRef sig ⟨S_, .f32⟩) (constant S_ .f32 0x00000000#32),
    StableHlo.TRef.unary (.of main_call0_cst : StableHlo.TRef sig ⟨S_, .f32⟩) (.of main_call0_v0 : StableHlo.TRef sig ⟨S100000x64, .f32⟩) (broadcastInDim S100000x64 ![] bcast_S_S100000x64),
    StableHlo.TRef.binary (.of main_v47 : StableHlo.TRef sig ⟨S100000x64, .f32⟩) (.of main_call0_v0 : StableHlo.TRef sig ⟨S100000x64, .f32⟩) (.of main_call0_v1 : StableHlo.TRef sig ⟨S100000x64, .i1⟩) (cmpf .oge),
    StableHlo.TRef.unary (.of main_cst_8 : StableHlo.TRef sig ⟨S_, .f32⟩) (.of main_call0_v2 : StableHlo.TRef sig ⟨S_, .f32⟩) id,
    StableHlo.TRef.unary (.of main_call0_v2 : StableHlo.TRef sig ⟨S_, .f32⟩) (.of main_call0_v3 : StableHlo.TRef sig ⟨S100000x64, .f32⟩) (broadcastInDim S100000x64 ![] bcast_S_S100000x64),
    StableHlo.TRef.binary (.of main_call0_v3 : StableHlo.TRef sig ⟨S100000x64, .f32⟩) (.of main_v47 : StableHlo.TRef sig ⟨S100000x64, .f32⟩) (.of main_call0_v4 : StableHlo.TRef sig ⟨S100000x64, .f32⟩) mulf,
    StableHlo.TRef.ternary (.of main_call0_v1 : StableHlo.TRef sig ⟨S100000x64, .i1⟩) (.of main_v47 : StableHlo.TRef sig ⟨S100000x64, .f32⟩) (.of main_call0_v4 : StableHlo.TRef sig ⟨S100000x64, .f32⟩) (.of main_v48 : StableHlo.TRef sig ⟨S100000x64, .f32⟩) select ]
theorem opsL1_sub : (opsL1 : List (HloOp τ sig (Elt F))).Forall fun op => op.bufs ⊆ tcRefs τ sig :=
  ⟨unary_bufs_sub .., unary_bufs_sub .., binary_bufs_sub .., binary_bufs_sub .., unary_bufs_sub .., unary_bufs_sub .., binary_bufs_sub .., nullary_bufs_sub .., nullary_bufs_sub .., unary_bufs_sub .., binary_bufs_sub .., unary_bufs_sub .., unary_bufs_sub .., binary_bufs_sub .., ternary_bufs_sub ..⟩

/-- The second layer's product h1 · W2. -/
abbrev opsD2 : List (HloOp τ sig (Elt F)) :=
  [ StableHlo.binary main_v48 main_arg6 main_v49 ((fun l r => Host.dotGeneral dot_S100000x64_S64x16_S100000x16_1_0_0_1_n_n none l r) : (⟨S100000x64, .f32⟩ : BufTy).Contents (Elt F) → (⟨S64x16, .f32⟩ : BufTy).Contents (Elt F) → (⟨S100000x16, .f32⟩ : BufTy).Contents (Elt F)) ]
theorem opsD2_sub : (opsD2 : List (HloOp τ sig (Elt F))).Forall fun op => op.bufs ⊆ tcRefs τ sig :=
  binary_bufs_sub ..

/-- The second layer's graph side, as the first's on the narrower rows (`main_v84`, `main_v85`). -/
abbrev opsC : List (HloOp τ sig (Elt F)) :=
  [ StableHlo.nullary main_cst_9 (constant S_ .f32 0x3F800000#32),
    StableHlo.unary main_cst_9 main_v50 (broadcastInDim S3200000 ![] bcast_S_S3200000 : (⟨S_, .f32⟩ : BufTy).Contents (Elt F) → (⟨S3200000, .f32⟩ : BufTy).Contents (Elt F)),
    StableHlo.nullary main_cst_10 (constant S_ .f32 0x00000000#32),
    StableHlo.unary main_cst_10 main_v51 (broadcastInDim S100000 ![] bcast_S_S100000 : (⟨S_, .f32⟩ : BufTy).Contents (Elt F) → (⟨S100000, .f32⟩ : BufTy).Contents (Elt F)),
    StableHlo.unary main_v3 main_v52 (broadcastInDim S3200000x1 ![0] bcast_S3200000_S3200000x1_0 : (⟨S3200000, .i32⟩ : BufTy).Contents (Elt F) → (⟨S3200000x1, .i32⟩ : BufTy).Contents (Elt F)),
    StableHlo.ternary main_v51 main_v52 main_v50 main_v53 ((fun x i u => Host.scatterAdd scatter_S100000_S3200000x1_S3200000_n_0_0_1 x i u) : (⟨S100000, .f32⟩ : BufTy).Contents (Elt F) → (⟨S3200000x1, .i32⟩ : BufTy).Contents (Elt F) → (⟨S3200000, .f32⟩ : BufTy).Contents (Elt F) → (⟨S100000, .f32⟩ : BufTy).Contents (Elt F)),
    StableHlo.nullary main_cst_11 (constant S_ .f32 0x3F800000#32),
    StableHlo.unary main_cst_11 main_v54 (broadcastInDim S100000 ![] bcast_S_S100000 : (⟨S_, .f32⟩ : BufTy).Contents (Elt F) → (⟨S100000, .f32⟩ : BufTy).Contents (Elt F)),
    StableHlo.binary main_v53 main_v54 main_v55 (addf : (⟨S100000, .f32⟩ : BufTy).Contents (Elt F) → (⟨S100000, .f32⟩ : BufTy).Contents (Elt F) → (⟨S100000, .f32⟩ : BufTy).Contents (Elt F)),
    StableHlo.unary main_v55 main_v56 (Host.rsqrt : (⟨S100000, .f32⟩ : BufTy).Contents (Elt F) → (⟨S100000, .f32⟩ : BufTy).Contents (Elt F)),
    StableHlo.nullary main_c_12 (constantI S_ 32 0#32),
    StableHlo.unary main_c_12 main_v57 (broadcastInDim S3200000 ![] bcast_S_S3200000 : (⟨S_, .i32⟩ : BufTy).Contents (Elt F) → (⟨S3200000, .i32⟩ : BufTy).Contents (Elt F)),
    StableHlo.binary main_v1 main_v57 main_v58 (cmpi .slt : (⟨S3200000, .i32⟩ : BufTy).Contents (Elt F) → (⟨S3200000, .i32⟩ : BufTy).Contents (Elt F) → (⟨S3200000, .i1⟩ : BufTy).Contents (Elt F)),
    StableHlo.nullary main_c_13 (constantI S_ 32 100000#32),
    StableHlo.unary main_c_13 main_v59 (broadcastInDim S3200000 ![] bcast_S_S3200000 : (⟨S_, .i32⟩ : BufTy).Contents (Elt F) → (⟨S3200000, .i32⟩ : BufTy).Contents (Elt F)),
    StableHlo.binary main_v1 main_v59 main_v60 (addi : (⟨S3200000, .i32⟩ : BufTy).Contents (Elt F) → (⟨S3200000, .i32⟩ : BufTy).Contents (Elt F) → (⟨S3200000, .i32⟩ : BufTy).Contents (Elt F)),
    StableHlo.ternary main_v58 main_v60 main_v1 main_v61 (select : (⟨S3200000, .i1⟩ : BufTy).Contents (Elt F) → (⟨S3200000, .i32⟩ : BufTy).Contents (Elt F) → (⟨S3200000, .i32⟩ : BufTy).Contents (Elt F) → (⟨S3200000, .i32⟩ : BufTy).Contents (Elt F)),
    StableHlo.unary main_v61 main_v62 (broadcastInDim S3200000x1 ![0] bcast_S3200000_S3200000x1_0 : (⟨S3200000, .i32⟩ : BufTy).Contents (Elt F) → (⟨S3200000x1, .i32⟩ : BufTy).Contents (Elt F)),
    StableHlo.binary main_v56 main_v62 main_v63 ((fun x i => Host.gather gather_S100000_S3200000x1_S3200000_n_0_n_n_0_1_1 x i) : (⟨S100000, .f32⟩ : BufTy).Contents (Elt F) → (⟨S3200000x1, .i32⟩ : BufTy).Contents (Elt F) → (⟨S3200000, .f32⟩ : BufTy).Contents (Elt F)),
    StableHlo.nullary main_c_14 (constantI S_ 32 0#32),
    StableHlo.unary main_c_14 main_v64 (broadcastInDim S3200000 ![] bcast_S_S3200000 : (⟨S_, .i32⟩ : BufTy).Contents (Elt F) → (⟨S3200000, .i32⟩ : BufTy).Contents (Elt F)),
    StableHlo.binary main_v3 main_v64 main_v65 (cmpi .slt : (⟨S3200000, .i32⟩ : BufTy).Contents (Elt F) → (⟨S3200000, .i32⟩ : BufTy).Contents (Elt F) → (⟨S3200000, .i1⟩ : BufTy).Contents (Elt F)),
    StableHlo.nullary main_c_15 (constantI S_ 32 100000#32),
    StableHlo.unary main_c_15 main_v66 (broadcastInDim S3200000 ![] bcast_S_S3200000 : (⟨S_, .i32⟩ : BufTy).Contents (Elt F) → (⟨S3200000, .i32⟩ : BufTy).Contents (Elt F)),
    StableHlo.binary main_v3 main_v66 main_v67 (addi : (⟨S3200000, .i32⟩ : BufTy).Contents (Elt F) → (⟨S3200000, .i32⟩ : BufTy).Contents (Elt F) → (⟨S3200000, .i32⟩ : BufTy).Contents (Elt F)),
    StableHlo.ternary main_v65 main_v67 main_v3 main_v68 (select : (⟨S3200000, .i1⟩ : BufTy).Contents (Elt F) → (⟨S3200000, .i32⟩ : BufTy).Contents (Elt F) → (⟨S3200000, .i32⟩ : BufTy).Contents (Elt F) → (⟨S3200000, .i32⟩ : BufTy).Contents (Elt F)),
    StableHlo.unary main_v68 main_v69 (broadcastInDim S3200000x1 ![0] bcast_S3200000_S3200000x1_0 : (⟨S3200000, .i32⟩ : BufTy).Contents (Elt F) → (⟨S3200000x1, .i32⟩ : BufTy).Contents (Elt F)),
    StableHlo.binary main_v56 main_v69 main_v70 ((fun x i => Host.gather gather_S100000_S3200000x1_S3200000_n_0_n_n_0_1_1 x i) : (⟨S100000, .f32⟩ : BufTy).Contents (Elt F) → (⟨S3200000x1, .i32⟩ : BufTy).Contents (Elt F) → (⟨S3200000, .f32⟩ : BufTy).Contents (Elt F)),
    StableHlo.binary main_v63 main_v70 main_v71 (mulf : (⟨S3200000, .f32⟩ : BufTy).Contents (Elt F) → (⟨S3200000, .f32⟩ : BufTy).Contents (Elt F) → (⟨S3200000, .f32⟩ : BufTy).Contents (Elt F)),
    StableHlo.nullary main_c_16 (constantI S_ 32 0#32),
    StableHlo.unary main_c_16 main_v72 (broadcastInDim S3200000 ![] bcast_S_S3200000 : (⟨S_, .i32⟩ : BufTy).Contents (Elt F) → (⟨S3200000, .i32⟩ : BufTy).Contents (Elt F)),
    StableHlo.binary main_v1 main_v72 main_v73 (cmpi .slt : (⟨S3200000, .i32⟩ : BufTy).Contents (Elt F) → (⟨S3200000, .i32⟩ : BufTy).Contents (Elt F) → (⟨S3200000, .i1⟩ : BufTy).Contents (Elt F)),
    StableHlo.nullary main_c_17 (constantI S_ 32 100000#32),
    StableHlo.unary main_c_17 main_v74 (broadcastInDim S3200000 ![] bcast_S_S3200000 : (⟨S_, .i32⟩ : BufTy).Contents (Elt F) → (⟨S3200000, .i32⟩ : BufTy).Contents (Elt F)),
    StableHlo.binary main_v1 main_v74 main_v75 (addi : (⟨S3200000, .i32⟩ : BufTy).Contents (Elt F) → (⟨S3200000, .i32⟩ : BufTy).Contents (Elt F) → (⟨S3200000, .i32⟩ : BufTy).Contents (Elt F)),
    StableHlo.ternary main_v73 main_v75 main_v1 main_v76 (select : (⟨S3200000, .i1⟩ : BufTy).Contents (Elt F) → (⟨S3200000, .i32⟩ : BufTy).Contents (Elt F) → (⟨S3200000, .i32⟩ : BufTy).Contents (Elt F) → (⟨S3200000, .i32⟩ : BufTy).Contents (Elt F)),
    StableHlo.unary main_v76 main_v77 (broadcastInDim S3200000x1 ![0] bcast_S3200000_S3200000x1_0 : (⟨S3200000, .i32⟩ : BufTy).Contents (Elt F) → (⟨S3200000x1, .i32⟩ : BufTy).Contents (Elt F)),
    StableHlo.binary main_v49 main_v77 main_v78 ((fun x i => Host.gather gather_S100000x16_S3200000x1_S3200000x16_1_0_n_n_0_1_116 x i) : (⟨S100000x16, .f32⟩ : BufTy).Contents (Elt F) → (⟨S3200000x1, .i32⟩ : BufTy).Contents (Elt F) → (⟨S3200000x16, .f32⟩ : BufTy).Contents (Elt F)),
    StableHlo.unary main_v71 main_v79 (broadcastInDim S3200000x1 ![0] bcast_S3200000_S3200000x1_0 : (⟨S3200000, .f32⟩ : BufTy).Contents (Elt F) → (⟨S3200000x1, .f32⟩ : BufTy).Contents (Elt F)),
    StableHlo.unary main_v79 main_v80 (broadcastInDim S3200000x16 ![0, 1] bcast_S3200000x1_S3200000x16_0_1 : (⟨S3200000x1, .f32⟩ : BufTy).Contents (Elt F) → (⟨S3200000x16, .f32⟩ : BufTy).Contents (Elt F)),
    StableHlo.binary main_v78 main_v80 main_v81 (mulf : (⟨S3200000x16, .f32⟩ : BufTy).Contents (Elt F) → (⟨S3200000x16, .f32⟩ : BufTy).Contents (Elt F) → (⟨S3200000x16, .f32⟩ : BufTy).Contents (Elt F)),
    StableHlo.nullary main_cst_18 (constant S_ .f32 0x00000000#32),
    StableHlo.unary main_cst_18 main_v82 (broadcastInDim S100000x16 ![] bcast_S_S100000x16 : (⟨S_, .f32⟩ : BufTy).Contents (Elt F) → (⟨S100000x16, .f32⟩ : BufTy).Contents (Elt F)),
    StableHlo.unary main_v3 main_v83 (broadcastInDim S3200000x1 ![0] bcast_S3200000_S3200000x1_0 : (⟨S3200000, .i32⟩ : BufTy).Contents (Elt F) → (⟨S3200000x1, .i32⟩ : BufTy).Contents (Elt F)),
    StableHlo.ternary main_v82 main_v83 main_v81 main_v84 ((fun x i u => Host.scatterAdd scatter_S100000x16_S3200000x1_S3200000x16_1_0_0_1 x i u) : (⟨S100000x16, .f32⟩ : BufTy).Contents (Elt F) → (⟨S3200000x1, .i32⟩ : BufTy).Contents (Elt F) → (⟨S3200000x16, .f32⟩ : BufTy).Contents (Elt F) → (⟨S100000x16, .f32⟩ : BufTy).Contents (Elt F)),
    StableHlo.binary main_v56 main_v56 main_v85 (mulf : (⟨S100000, .f32⟩ : BufTy).Contents (Elt F) → (⟨S100000, .f32⟩ : BufTy).Contents (Elt F) → (⟨S100000, .f32⟩ : BufTy).Contents (Elt F)) ]
theorem opsC_sub : (opsC : List (HloOp τ sig (Elt F))).Forall fun op => op.bufs ⊆ tcRefs τ sig :=
  ⟨nullary_bufs_sub .., unary_bufs_sub .., nullary_bufs_sub .., unary_bufs_sub .., unary_bufs_sub .., ternary_bufs_sub .., nullary_bufs_sub .., unary_bufs_sub .., binary_bufs_sub .., unary_bufs_sub .., nullary_bufs_sub .., unary_bufs_sub .., binary_bufs_sub .., nullary_bufs_sub .., unary_bufs_sub .., binary_bufs_sub .., ternary_bufs_sub .., unary_bufs_sub .., binary_bufs_sub .., nullary_bufs_sub .., unary_bufs_sub .., binary_bufs_sub .., nullary_bufs_sub .., unary_bufs_sub .., binary_bufs_sub .., ternary_bufs_sub .., unary_bufs_sub .., binary_bufs_sub .., binary_bufs_sub .., nullary_bufs_sub .., unary_bufs_sub .., binary_bufs_sub .., nullary_bufs_sub .., unary_bufs_sub .., binary_bufs_sub .., ternary_bufs_sub .., unary_bufs_sub .., binary_bufs_sub .., unary_bufs_sub .., unary_bufs_sub .., binary_bufs_sub .., nullary_bufs_sub .., unary_bufs_sub .., unary_bufs_sub .., ternary_bufs_sub .., binary_bufs_sub ..⟩

/-- The second layer's node side, as the first's. -/
abbrev opsL2 : List (HloOp τ sig (Elt F)) :=
  [ StableHlo.unary main_v85 main_v86 (broadcastInDim S100000x1 ![0] bcast_S100000_S100000x1_0 : (⟨S100000, .f32⟩ : BufTy).Contents (Elt F) → (⟨S100000x1, .f32⟩ : BufTy).Contents (Elt F)),
    StableHlo.unary main_v86 main_v87 (broadcastInDim S100000x16 ![0, 1] bcast_S100000x1_S100000x16_0_1 : (⟨S100000x1, .f32⟩ : BufTy).Contents (Elt F) → (⟨S100000x16, .f32⟩ : BufTy).Contents (Elt F)),
    StableHlo.binary main_v49 main_v87 main_v88 (mulf : (⟨S100000x16, .f32⟩ : BufTy).Contents (Elt F) → (⟨S100000x16, .f32⟩ : BufTy).Contents (Elt F) → (⟨S100000x16, .f32⟩ : BufTy).Contents (Elt F)),
    StableHlo.binary main_v84 main_v88 main_v89 (addf : (⟨S100000x16, .f32⟩ : BufTy).Contents (Elt F) → (⟨S100000x16, .f32⟩ : BufTy).Contents (Elt F) → (⟨S100000x16, .f32⟩ : BufTy).Contents (Elt F)),
    StableHlo.unary main_arg7 main_v90 (broadcastInDim S1x16 ![1] bcast_S16_S1x16_1 : (⟨S16, .f32⟩ : BufTy).Contents (Elt F) → (⟨S1x16, .f32⟩ : BufTy).Contents (Elt F)),
    StableHlo.unary main_v90 main_v91 (broadcastInDim S100000x16 ![0, 1] bcast_S1x16_S100000x16_0_1 : (⟨S1x16, .f32⟩ : BufTy).Contents (Elt F) → (⟨S100000x16, .f32⟩ : BufTy).Contents (Elt F)),
    StableHlo.binary main_v89 main_v91 main_v92 (addf : (⟨S100000x16, .f32⟩ : BufTy).Contents (Elt F) → (⟨S100000x16, .f32⟩ : BufTy).Contents (Elt F) → (⟨S100000x16, .f32⟩ : BufTy).Contents (Elt F)),
    StableHlo.nullary main_cst_19 (constant S_ .f32 0x3C23D70A#32),
    StableHlo.TRef.nullary (.of main_call1_cst : StableHlo.TRef sig ⟨S_, .f32⟩) (constant S_ .f32 0x00000000#32),
    StableHlo.TRef.unary (.of main_call1_cst : StableHlo.TRef sig ⟨S_, .f32⟩) (.of main_call1_v0 : StableHlo.TRef sig ⟨S100000x16, .f32⟩) (broadcastInDim S100000x16 ![] bcast_S_S100000x16),
    StableHlo.TRef.binary (.of main_v92 : StableHlo.TRef sig ⟨S100000x16, .f32⟩) (.of main_call1_v0 : StableHlo.TRef sig ⟨S100000x16, .f32⟩) (.of main_call1_v1 : StableHlo.TRef sig ⟨S100000x16, .i1⟩) (cmpf .oge),
    StableHlo.TRef.unary (.of main_cst_19 : StableHlo.TRef sig ⟨S_, .f32⟩) (.of main_call1_v2 : StableHlo.TRef sig ⟨S_, .f32⟩) id,
    StableHlo.TRef.unary (.of main_call1_v2 : StableHlo.TRef sig ⟨S_, .f32⟩) (.of main_call1_v3 : StableHlo.TRef sig ⟨S100000x16, .f32⟩) (broadcastInDim S100000x16 ![] bcast_S_S100000x16),
    StableHlo.TRef.binary (.of main_call1_v3 : StableHlo.TRef sig ⟨S100000x16, .f32⟩) (.of main_v92 : StableHlo.TRef sig ⟨S100000x16, .f32⟩) (.of main_call1_v4 : StableHlo.TRef sig ⟨S100000x16, .f32⟩) mulf,
    StableHlo.TRef.ternary (.of main_call1_v1 : StableHlo.TRef sig ⟨S100000x16, .i1⟩) (.of main_v92 : StableHlo.TRef sig ⟨S100000x16, .f32⟩) (.of main_call1_v4 : StableHlo.TRef sig ⟨S100000x16, .f32⟩) (.of main_v93 : StableHlo.TRef sig ⟨S100000x16, .f32⟩) select ]
theorem opsL2_sub : (opsL2 : List (HloOp τ sig (Elt F))).Forall fun op => op.bufs ⊆ tcRefs τ sig :=
  ⟨unary_bufs_sub .., unary_bufs_sub .., binary_bufs_sub .., binary_bufs_sub .., unary_bufs_sub .., unary_bufs_sub .., binary_bufs_sub .., nullary_bufs_sub .., nullary_bufs_sub .., unary_bufs_sub .., binary_bufs_sub .., unary_bufs_sub .., unary_bufs_sub .., binary_bufs_sub .., ternary_bufs_sub ..⟩

/-- The pooled sums per graph (`main_v96`). -/
abbrev opsT1 : List (HloOp τ sig (Elt F)) :=
  [ StableHlo.nullary main_cst_20 (constant S_ .f32 0x00000000#32),
    StableHlo.unary main_cst_20 main_v94 (broadcastInDim S64x16 ![] bcast_S_S64x16 : (⟨S_, .f32⟩ : BufTy).Contents (Elt F) → (⟨S64x16, .f32⟩ : BufTy).Contents (Elt F)),
    StableHlo.unary main_arg2 main_v95 (broadcastInDim S100000x1 ![0] bcast_S100000_S100000x1_0 : (⟨S100000, .i32⟩ : BufTy).Contents (Elt F) → (⟨S100000x1, .i32⟩ : BufTy).Contents (Elt F)),
    StableHlo.ternary main_v94 main_v95 main_v93 main_v96 ((fun x i u => Host.scatterAdd scatter_S64x16_S100000x1_S100000x16_1_0_0_1 x i u) : (⟨S64x16, .f32⟩ : BufTy).Contents (Elt F) → (⟨S100000x1, .i32⟩ : BufTy).Contents (Elt F) → (⟨S100000x16, .f32⟩ : BufTy).Contents (Elt F) → (⟨S64x16, .f32⟩ : BufTy).Contents (Elt F)) ]
theorem opsT1_sub : (opsT1 : List (HloOp τ sig (Elt F))).Forall fun op => op.bufs ⊆ tcRefs τ sig :=
  ⟨nullary_bufs_sub .., unary_bufs_sub .., unary_bufs_sub .., ternary_bufs_sub ..⟩

/-- The graph sizes, the mean, and the two dense layers with a leaky rectifier between (its outlined function's operations in place). -/
abbrev opsT2 : List (HloOp τ sig (Elt F)) :=
  [ StableHlo.nullary main_cst_21 (constant S_ .f32 0x3F800000#32),
    StableHlo.unary main_cst_21 main_v97 (broadcastInDim S100000 ![] bcast_S_S100000 : (⟨S_, .f32⟩ : BufTy).Contents (Elt F) → (⟨S100000, .f32⟩ : BufTy).Contents (Elt F)),
    StableHlo.nullary main_cst_22 (constant S_ .f32 0x00000000#32),
    StableHlo.unary main_cst_22 main_v98 (broadcastInDim S64 ![] bcast_S_S64 : (⟨S_, .f32⟩ : BufTy).Contents (Elt F) → (⟨S64, .f32⟩ : BufTy).Contents (Elt F)),
    StableHlo.unary main_arg2 main_v99 (broadcastInDim S100000x1 ![0] bcast_S100000_S100000x1_0 : (⟨S100000, .i32⟩ : BufTy).Contents (Elt F) → (⟨S100000x1, .i32⟩ : BufTy).Contents (Elt F)),
    StableHlo.ternary main_v98 main_v99 main_v97 main_v100 ((fun x i u => Host.scatterAdd scatter_S64_S100000x1_S100000_n_0_0_1 x i u) : (⟨S64, .f32⟩ : BufTy).Contents (Elt F) → (⟨S100000x1, .i32⟩ : BufTy).Contents (Elt F) → (⟨S100000, .f32⟩ : BufTy).Contents (Elt F) → (⟨S64, .f32⟩ : BufTy).Contents (Elt F)),
    StableHlo.nullary main_cst_23 (constant S_ .f32 0x3F800000#32),
    StableHlo.unary main_cst_23 main_v101 (broadcastInDim S64 ![] bcast_S_S64 : (⟨S_, .f32⟩ : BufTy).Contents (Elt F) → (⟨S64, .f32⟩ : BufTy).Contents (Elt F)),
    StableHlo.binary main_v100 main_v101 main_v102 (maximumf : (⟨S64, .f32⟩ : BufTy).Contents (Elt F) → (⟨S64, .f32⟩ : BufTy).Contents (Elt F) → (⟨S64, .f32⟩ : BufTy).Contents (Elt F)),
    StableHlo.unary main_v102 main_v103 (broadcastInDim S64x1 ![0] bcast_S64_S64x1_0 : (⟨S64, .f32⟩ : BufTy).Contents (Elt F) → (⟨S64x1, .f32⟩ : BufTy).Contents (Elt F)),
    StableHlo.unary main_v103 main_v104 (broadcastInDim S64x16 ![0, 1] bcast_S64x1_S64x16_0_1 : (⟨S64x1, .f32⟩ : BufTy).Contents (Elt F) → (⟨S64x16, .f32⟩ : BufTy).Contents (Elt F)),
    StableHlo.binary main_v96 main_v104 main_v105 (Host.divf : (⟨S64x16, .f32⟩ : BufTy).Contents (Elt F) → (⟨S64x16, .f32⟩ : BufTy).Contents (Elt F) → (⟨S64x16, .f32⟩ : BufTy).Contents (Elt F)),
    StableHlo.binary main_v105 main_arg8 main_v106 ((fun l r => Host.dotGeneral dot_S64x16_S16x32_S64x32_1_0_0_1_n_n none l r) : (⟨S64x16, .f32⟩ : BufTy).Contents (Elt F) → (⟨S16x32, .f32⟩ : BufTy).Contents (Elt F) → (⟨S64x32, .f32⟩ : BufTy).Contents (Elt F)),
    StableHlo.unary main_arg9 main_v107 (broadcastInDim S1x32 ![1] bcast_S32_S1x32_1 : (⟨S32, .f32⟩ : BufTy).Contents (Elt F) → (⟨S1x32, .f32⟩ : BufTy).Contents (Elt F)),
    StableHlo.unary main_v107 main_v108 (broadcastInDim S64x32 ![0, 1] bcast_S1x32_S64x32_0_1 : (⟨S1x32, .f32⟩ : BufTy).Contents (Elt F) → (⟨S64x32, .f32⟩ : BufTy).Contents (Elt F)),
    StableHlo.binary main_v106 main_v108 main_v109 (addf : (⟨S64x32, .f32⟩ : BufTy).Contents (Elt F) → (⟨S64x32, .f32⟩ : BufTy).Contents (Elt F) → (⟨S64x32, .f32⟩ : BufTy).Contents (Elt F)),
    StableHlo.nullary main_cst_24 (constant S_ .f32 0x3C23D70A#32),
    StableHlo.TRef.nullary (.of main_call2_cst : StableHlo.TRef sig ⟨S_, .f32⟩) (constant S_ .f32 0x00000000#32),
    StableHlo.TRef.unary (.of main_call2_cst : StableHlo.TRef sig ⟨S_, .f32⟩) (.of main_call2_v0 : StableHlo.TRef sig ⟨S64x32, .f32⟩) (broadcastInDim S64x32 ![] bcast_S_S64x32),
    StableHlo.TRef.binary (.of main_v109 : StableHlo.TRef sig ⟨S64x32, .f32⟩) (.of main_call2_v0 : StableHlo.TRef sig ⟨S64x32, .f32⟩) (.of main_call2_v1 : StableHlo.TRef sig ⟨S64x32, .i1⟩) (cmpf .oge),
    StableHlo.TRef.unary (.of main_cst_24 : StableHlo.TRef sig ⟨S_, .f32⟩) (.of main_call2_v2 : StableHlo.TRef sig ⟨S_, .f32⟩) id,
    StableHlo.TRef.unary (.of main_call2_v2 : StableHlo.TRef sig ⟨S_, .f32⟩) (.of main_call2_v3 : StableHlo.TRef sig ⟨S64x32, .f32⟩) (broadcastInDim S64x32 ![] bcast_S_S64x32),
    StableHlo.TRef.binary (.of main_call2_v3 : StableHlo.TRef sig ⟨S64x32, .f32⟩) (.of main_v109 : StableHlo.TRef sig ⟨S64x32, .f32⟩) (.of main_call2_v4 : StableHlo.TRef sig ⟨S64x32, .f32⟩) mulf,
    StableHlo.TRef.ternary (.of main_call2_v1 : StableHlo.TRef sig ⟨S64x32, .i1⟩) (.of main_v109 : StableHlo.TRef sig ⟨S64x32, .f32⟩) (.of main_call2_v4 : StableHlo.TRef sig ⟨S64x32, .f32⟩) (.of main_v110 : StableHlo.TRef sig ⟨S64x32, .f32⟩) select,
    StableHlo.binary main_v110 main_arg10 main_v111 ((fun l r => Host.dotGeneral dot_S64x32_S32x10_S64x10_1_0_0_1_n_n none l r) : (⟨S64x32, .f32⟩ : BufTy).Contents (Elt F) → (⟨S32x10, .f32⟩ : BufTy).Contents (Elt F) → (⟨S64x10, .f32⟩ : BufTy).Contents (Elt F)),
    StableHlo.unary main_arg11 main_v112 (broadcastInDim S1x10 ![1] bcast_S10_S1x10_1 : (⟨S10, .f32⟩ : BufTy).Contents (Elt F) → (⟨S1x10, .f32⟩ : BufTy).Contents (Elt F)),
    StableHlo.unary main_v112 main_v113 (broadcastInDim S64x10 ![0, 1] bcast_S1x10_S64x10_0_1 : (⟨S1x10, .f32⟩ : BufTy).Contents (Elt F) → (⟨S64x10, .f32⟩ : BufTy).Contents (Elt F)),
    StableHlo.binary main_v111 main_v113 main_v114 (addf : (⟨S64x10, .f32⟩ : BufTy).Contents (Elt F) → (⟨S64x10, .f32⟩ : BufTy).Contents (Elt F) → (⟨S64x10, .f32⟩ : BufTy).Contents (Elt F)) ]
theorem opsT2_sub : (opsT2 : List (HloOp τ sig (Elt F))).Forall fun op => op.bufs ⊆ tcRefs τ sig :=
  ⟨nullary_bufs_sub .., unary_bufs_sub .., nullary_bufs_sub .., unary_bufs_sub .., unary_bufs_sub .., ternary_bufs_sub .., nullary_bufs_sub .., unary_bufs_sub .., binary_bufs_sub .., unary_bufs_sub .., unary_bufs_sub .., binary_bufs_sub .., binary_bufs_sub .., unary_bufs_sub .., unary_bufs_sub .., binary_bufs_sub .., nullary_bufs_sub .., nullary_bufs_sub .., unary_bufs_sub .., binary_bufs_sub .., unary_bufs_sub .., unary_bufs_sub .., binary_bufs_sub .., ternary_bufs_sub .., binary_bufs_sub .., unary_bufs_sub .., unary_bufs_sub .., binary_bufs_sub ..⟩

/-- The three windows @main is printed in, each as its stretches in order. -/
def ops0 : List (HloOp τ sig (Elt F)) := opsA ++ (opsD1 ++ (opsB ++ opsL1))
def ops1 : List (HloOp τ sig (Elt F)) := opsD2 ++ (opsC ++ (opsL2 ++ opsT1))
def ops2 : List (HloOp τ sig (Elt F)) := opsT2
/-- @main's 160 operations, in order. -/
def ops : List (HloOp τ sig (Elt F)) := ops0 ++ (ops1 ++ ops2)

set_option maxRecDepth 16384 in
set_option maxHeartbeats 4000000 in
theorem main_part0_eq (c : Dev nD) : main_part0 (F := F) c = seq ops0 := rfl
set_option maxRecDepth 16384 in
set_option maxHeartbeats 4000000 in
theorem main_part1_eq (c : Dev nD) : main_part1 (F := F) c = seq ops1 := rfl
set_option maxRecDepth 16384 in
set_option maxHeartbeats 4000000 in
theorem main_part2_eq (c : Dev nD) : main_part2 (F := F) c = seq ops2 := rfl

/-- @main is the three windows one after the other, hence the whole line. -/
theorem main_eq (c : Dev nD) : main (F := F) c = seq ops := by
  show (main_part0 (F := F) c >>= fun _ => main_part1 (F := F) c >>= fun _ => main_part2 (F := F) c) = seq (ops0 ++ (ops1 ++ ops2))
  rw [seq_append, seq_append, main_part0_eq, main_part1_eq, main_part2_eq]

theorem scopedRefs_eq : (Finset.univ.filter fun b : Ref sig .tc => b.isScoped) = ∅ := by decide
theorem scopedSems_eq : (Finset.univ.filter fun sm : SemLoc sig => sm.isScoped .tc) = ∅ := by decide

theorem forall_append {α : Type} {p : α → Prop} {l₁ l₂ : List α} (h₁ : l₁.Forall p) (h₂ : l₂.Forall p) : (l₁ ++ l₂).Forall p :=
  List.forall_iff_forall_mem.mpr fun a h => (List.mem_append.mp h).elim
    (List.forall_iff_forall_mem.mp h₁ a) (List.forall_iff_forall_mem.mp h₂ a)

theorem ops_sub : (ops : List (HloOp τ sig (Elt F))).Forall fun op => op.bufs ⊆ tcRefs τ sig :=
  forall_append (forall_append opsA_sub (forall_append opsD1_sub (forall_append opsB_sub opsL1_sub)))
    (forall_append (forall_append opsD2_sub (forall_append opsC_sub (forall_append opsL2_sub opsT1_sub))) opsT2_sub)

/-- No operation of the line allocates a buffer. -/
theorem ops_fresh : ∀ op ∈ (ops : List (HloOp τ sig (Elt F))), op.fresh = ∅ := by
  intro op h
  simp only [ops, ops0, ops1, ops2, List.mem_append] at h
  rcases h with (h | h | h | h) | (h | h | h | h) | h <;>
    ((repeat (cases h with | head => rfl | tail _ h => ?_)); exact nomatch h)

/-- A fold over two lines in a row is the second's fold over the first's. -/
theorem after_app : ∀ (l₁ l₂ : List (HloOp τ sig (Elt F))) (V : Valuation τ sig (Elt F)), after (l₁ ++ l₂) V = after l₂ (after l₁ V)
  | [], _, _ => rfl
  | op :: l₁, l₂, V => by rw [List.cons_append, after_cons, after_cons, after_app l₁ l₂]

/-- The whole line's fold is the nine stretches' folds, one after the other. -/
theorem after_ops (V : Valuation τ sig (Elt F)) :
    after ops V = after opsT2 (after opsT1 (after opsL2 (after opsC (after opsD2 (after opsL1 (after opsB (after opsD1 (after opsA V)))))))) := by
  simp only [ops, ops0, ops1, ops2, after_app]

/-- On every device, for any float values, from any memory with zero counters: every weakly fair execution of @main
    terminates, and every final state has each buffer at the line's fold over the launch contents. -/
theorem run (m : (ℓ : Loc nD τ sig) → Buf (Elt F) ℓ) (ρ : Dev nD → PrngReg) :
    θ_run defs (onTc (τ := τ) (main (F := F))) ⟨m, fun _ => 0, ρ⟩ fun r =>
      ∀ (c : Dev nD) (b : Ref sig .tc), r.2.mem ((c.tc : Thread nD τ).loc b) = after ops (launchContents m c) (Proc.devRef .tc b) :=
  run_seq scopedRefs_eq scopedSems_eq defs main (fun _ => ops) main_eq (fun _ => ops_sub) m ρ (fun _ => ops_fresh)

end Cert.ReferenceIdeal.Line

end
-- ==== Proof.RefKept.lean ====
/-
  The reference's line writes none of its twelve argument arrays: each of its nine stretches writes only buffers of
  its own results, so after the whole line an argument array holds what it held at launch.
-/
import proofs.«134301_j23244363006452_2_alg».proof.Proof.RefOps

set_option maxRecDepth 16384

noncomputable section

namespace Cert.ReferenceIdeal.Line

open Cert.ReferenceIdeal Cert.ReferenceIdeal.Gen Idealize.ShloMosaic Idealize.ShloMosaic.TcCoe Idealize.SL.Sem Idealize.ShloMosaic.StableHlo

variable {F : FTy → Type} [FloatOps F]

/-- No operation of a literal stretch writes the buffer: the stretch unfolded, each operation's written buffer another one. -/
macro "untouched" : tactic => `(tactic| (
  refine List.forall_iff_forall_mem.mp ?_
  simp only [opsA, opsD1, opsB, opsL1, opsD2, opsC, opsL2, opsT1, opsT2, List.Forall, StableHlo.nullary_writes,
    StableHlo.unary_writes, StableHlo.binary_writes, StableHlo.ternary_writes, StableHlo.reshape_writes, Finset.mem_singleton]
  repeat' apply And.intro
  all_goals exact StableHlo.devRef_ne_of_ne (by decide)))

/-- A buffer none of the nine stretches writes holds after the line what it held before. -/
theorem kept (b : Ref sig .tc) (V : Valuation τ sig (Elt F))
    (hopsA : ∀ op ∈ (opsA : List (HloOp τ sig (Elt F))), Proc.devRef .tc b ∉ op.writes)
    (hopsD1 : ∀ op ∈ (opsD1 : List (HloOp τ sig (Elt F))), Proc.devRef .tc b ∉ op.writes)
    (hopsB : ∀ op ∈ (opsB : List (HloOp τ sig (Elt F))), Proc.devRef .tc b ∉ op.writes)
    (hopsL1 : ∀ op ∈ (opsL1 : List (HloOp τ sig (Elt F))), Proc.devRef .tc b ∉ op.writes)
    (hopsD2 : ∀ op ∈ (opsD2 : List (HloOp τ sig (Elt F))), Proc.devRef .tc b ∉ op.writes)
    (hopsC : ∀ op ∈ (opsC : List (HloOp τ sig (Elt F))), Proc.devRef .tc b ∉ op.writes)
    (hopsL2 : ∀ op ∈ (opsL2 : List (HloOp τ sig (Elt F))), Proc.devRef .tc b ∉ op.writes)
    (hopsT1 : ∀ op ∈ (opsT1 : List (HloOp τ sig (Elt F))), Proc.devRef .tc b ∉ op.writes)
    (hopsT2 : ∀ op ∈ (opsT2 : List (HloOp τ sig (Elt F))), Proc.devRef .tc b ∉ op.writes) :
    after ops V (Proc.devRef .tc b) = V (Proc.devRef .tc b) := by
  rw [after_ops]
  exact (after_of_forall_not_mem opsT2 _ hopsT2).trans <| (after_of_forall_not_mem opsT1 _ hopsT1).trans <|
    (after_of_forall_not_mem opsL2 _ hopsL2).trans <| (after_of_forall_not_mem opsC _ hopsC).trans <|
    (after_of_forall_not_mem opsD2 _ hopsD2).trans <| (after_of_forall_not_mem opsL1 _ hopsL1).trans <|
    (after_of_forall_not_mem opsB _ hopsB).trans <| (after_of_forall_not_mem opsD1 _ hopsD1).trans <|
    after_of_forall_not_mem opsA _ hopsA

theorem kept_arg0 (V : Valuation τ sig (Elt F)) : after ops V (Proc.devRef .tc main_arg0) = V (Proc.devRef .tc main_arg0) :=
  kept main_arg0 V (by untouched) (by untouched) (by untouched) (by untouched) (by untouched) (by untouched) (by untouched) (by untouched) (by untouched)
theorem kept_arg1 (V : Valuation τ sig (Elt F)) : after ops V (Proc.devRef .tc main_arg1) = V (Proc.devRef .tc main_arg1) :=
  kept main_arg1 V (by untouched) (by untouched) (by untouched) (by untouched) (by untouched) (by untouched) (by untouched) (by untouched) (by untouched)
theorem kept_arg2 (V : Valuation τ sig (Elt F)) : after ops V (Proc.devRef .tc main_arg2) = V (Proc.devRef .tc main_arg2) :=
  kept main_arg2 V (by untouched) (by untouched) (by untouched) (by untouched) (by untouched) (by untouched) (by untouched) (by untouched) (by untouched)
theorem kept_arg3 (V : Valuation τ sig (Elt F)) : after ops V (Proc.devRef .tc main_arg3) = V (Proc.devRef .tc main_arg3) :=
  kept main_arg3 V (by untouched) (by untouched) (by untouched) (by untouched) (by untouched) (by untouched) (by untouched) (by untouched) (by untouched)
theorem kept_arg4 (V : Valuation τ sig (Elt F)) : after ops V (Proc.devRef .tc main_arg4) = V (Proc.devRef .tc main_arg4) :=
  kept main_arg4 V (by untouched) (by untouched) (by untouched) (by untouched) (by untouched) (by untouched) (by untouched) (by untouched) (by untouched)
theorem kept_arg5 (V : Valuation τ sig (Elt F)) : after ops V (Proc.devRef .tc main_arg5) = V (Proc.devRef .tc main_arg5) :=
  kept main_arg5 V (by untouched) (by untouched) (by untouched) (by untouched) (by untouched) (by untouched) (by untouched) (by untouched) (by untouched)
theorem kept_arg6 (V : Valuation τ sig (Elt F)) : after ops V (Proc.devRef .tc main_arg6) = V (Proc.devRef .tc main_arg6) :=
  kept main_arg6 V (by untouched) (by untouched) (by untouched) (by untouched) (by untouched) (by untouched) (by untouched) (by untouched) (by untouched)
theorem kept_arg7 (V : Valuation τ sig (Elt F)) : after ops V (Proc.devRef .tc main_arg7) = V (Proc.devRef .tc main_arg7) :=
  kept main_arg7 V (by untouched) (by untouched) (by untouched) (by untouched) (by untouched) (by untouched) (by untouched) (by untouched) (by untouched)
theorem kept_arg8 (V : Valuation τ sig (Elt F)) : after ops V (Proc.devRef .tc main_arg8) = V (Proc.devRef .tc main_arg8) :=
  kept main_arg8 V (by untouched) (by untouched) (by untouched) (by untouched) (by untouched) (by untouched) (by untouched) (by untouched) (by untouched)
theorem kept_arg9 (V : Valuation τ sig (Elt F)) : after ops V (Proc.devRef .tc main_arg9) = V (Proc.devRef .tc main_arg9) :=
  kept main_arg9 V (by untouched) (by untouched) (by untouched) (by untouched) (by untouched) (by untouched) (by untouched) (by untouched) (by untouched)
theorem kept_arg10 (V : Valuation τ sig (Elt F)) : after ops V (Proc.devRef .tc main_arg10) = V (Proc.devRef .tc main_arg10) :=
  kept main_arg10 V (by untouched) (by untouched) (by untouched) (by untouched) (by untouched) (by untouched) (by untouched) (by untouched) (by untouched)
theorem kept_arg11 (V : Valuation τ sig (Elt F)) : after ops V (Proc.devRef .tc main_arg11) = V (Proc.devRef .tc main_arg11) :=
  kept main_arg11 V (by untouched) (by untouched) (by untouched) (by untouched) (by untouched) (by untouched) (by untouched) (by untouched) (by untouched)

end Cert.ReferenceIdeal.Line

end
-- ==== Proof.LibPlainMatmul.lean ====
/-
  A matrix product of an M × K by a K × N matrix into a zero accumulator, read at one entry on the extended
  reals: entry (i, j) is Σ_k lhs (i, k) · rhs (k, j). No rounding and no order of accumulation is left in it.
-/
import Idealize.ShloMosaic.PureOps.Ideal.Laws
import Idealize.ShloMosaic.Lib.ValueIdx

noncomputable section

namespace Cert.PlainMatmul

open Idealize.ShloMosaic Idealize.ShloMosaic.ValueIdx

/-- Entry (i, j) of the product of `lhs` (M × K) and `rhs` (K × N) accumulated into zeros. -/
theorem matmul_zero_apply (M K N : Nat) {φ₁ φ₂ : FTy} (prec : Option ContractPrecision)
    (lhs : FVec Ideal ⟨2, ![M, K]⟩ φ₁) (rhs : FVec Ideal ⟨2, ![K, N]⟩ φ₂) (i : Fin M) (j : Fin N) :
    FloatOps.matmul (DotDims.plain M K N) prec lhs rhs (constant ⟨2, ![M, N]⟩ .f32 0x00000000#32) (ix2 i j)
      = ∑ k : Fin K, lhs (ix2 i k) * rhs (ix2 k j) := by
  rw [Ideal.matmul_constant_zero_apply, ← Equiv.sum_comp (contrEquiv1 (DotDims.plain M K N) K rfl rfl).symm]
  refine Finset.sum_congr rfl fun k _ => ?_
  have hk := contrEquiv1_symm_val (DotDims.plain M K N) K rfl rfl k
  have el : (DotDims.plain M K N).lhsIdx (ix2 i j) ((contrEquiv1 (DotDims.plain M K N) K rfl rfl).symm k) = ix2 i k :=
    funext fun a => Fin.ext (by
      match a with
      | ⟨0, _⟩ => rfl
      | ⟨1, _⟩ => exact ((DotDims.plain M K N).lhsIdx_val_of_single rfl _ _).trans hk)
  have er : (DotDims.plain M K N).rhsIdx (ix2 i j) ((contrEquiv1 (DotDims.plain M K N) K rfl rfl).symm k) = ix2 k j :=
    funext fun a => Fin.ext (by
      match a with
      | ⟨0, _⟩ => exact ((DotDims.plain M K N).rhsIdx_val_of_single rfl _ _).trans hk
      | ⟨1, _⟩ => rfl)
  rw [el, er]

end Cert.PlainMatmul

end
-- ==== Proof.LibHostReads.lean ====
/-
  Three host-side readings at an entry, over any sizes, on the extended reals.

  * A plain matrix product on the host (an M × K by a K × N `dot_general`, no batch axes): entry (i, j) is
    Σ_k lhs (i, k) · rhs (k, j).
  * One matrix picked out of a tensor [G, O, K, N] by slicing the first axis at g, dropping it, slicing the next at o
    and dropping it too: entry (k, n) of the result is the tensor at (g, o, k, n).
  * One row picked out of a table [G, N] at g, flattened, and broadcast down M rows: entry (i, n) of the result is
    the table at (g, n).
-/
import Idealize.ShloMosaic.PureOps.Ideal.Laws
import Idealize.ShloMosaic.Lib.Pipeline.Value
import Idealize.ShloMosaic.Lib.ValueIdx

noncomputable section

open scoped BigOperators

namespace Cert.LibHostReads

open Idealize.ShloMosaic Idealize.ShloMosaic.ValueIdx

/-- Entry (i, j) of the host's plain product of `lhs` (M × K) and `rhs` (K × N). -/
theorem dotGeneral_plain_apply (M K N : Nat) {φ₁ φ₂ : FTy} (prec : Option ContractPrecision)
    (lhs : FVec Ideal ⟨2, ![M, K]⟩ φ₁) (rhs : FVec Ideal ⟨2, ![K, N]⟩ φ₂) (i : Fin M) (j : Fin N) :
    Host.dotGeneral (F := Ideal) (DotDims.plain M K N) prec lhs rhs (ix2 i j) = ∑ k : Fin K, lhs (ix2 i k) * rhs (ix2 k j) := by
  simp only [Host.dotGeneral]
  rw [Ideal.dotGeneral_apply, ← Equiv.sum_comp (contrEquiv1 (DotDims.plain M K N) K rfl rfl).symm]
  refine Finset.sum_congr rfl fun k _ => ?_
  have hk := contrEquiv1_symm_val (DotDims.plain M K N) K rfl rfl k
  have el : (DotDims.plain M K N).lhsIdx (ix2 i j) ((contrEquiv1 (DotDims.plain M K N) K rfl rfl).symm k) = ix2 i k :=
    funext fun a => Fin.ext (by
      match a with
      | ⟨0, _⟩ => rfl
      | ⟨1, _⟩ => exact ((DotDims.plain M K N).lhsIdx_val_of_single rfl _ _).trans hk)
  have er : (DotDims.plain M K N).rhsIdx (ix2 i j) ((contrEquiv1 (DotDims.plain M K N) K rfl rfl).symm k) = ix2 k j :=
    funext fun a => Fin.ext (by
      match a with
      | ⟨0, _⟩ => exact ((DotDims.plain M K N).rhsIdx_val_of_single rfl _ _).trans hk
      | ⟨1, _⟩ => rfl)
  rw [el, er]

/-- One matrix of a [G, O, K, N] tensor, picked by two slice-and-drop steps, read at (k, n). -/
theorem select_matrix_apply {α : Type} {G O K N : Nat} (W : (⟨4, ![G, O, K, N]⟩ : Shape).Idx → α) (g : Fin G) (o : Fin O)
    (h1 : (⟨4, ![G, O, K, N]⟩ : Shape).Slices ![g.val, 0, 0, 0] ⟨4, ![1, O, K, N]⟩)
    (h2 : (⟨4, ![1, O, K, N]⟩ : Shape).ShapeCasts ⟨3, ![O, K, N]⟩)
    (h3 : (⟨3, ![O, K, N]⟩ : Shape).Slices ![o.val, 0, 0] ⟨3, ![1, K, N]⟩)
    (h4 : (⟨3, ![1, K, N]⟩ : Shape).ShapeCasts ⟨2, ![K, N]⟩) (k : Fin K) (n : Fin N) :
    shapeCast ⟨2, ![K, N]⟩ (extractStridedSlice ⟨3, ![1, K, N]⟩ ![o.val, 0, 0]
      (shapeCast ⟨3, ![O, K, N]⟩ (extractStridedSlice ⟨4, ![1, O, K, N]⟩ ![g.val, 0, 0, 0] W h1) h2) h3) h4 (ix2 k n)
      = W (ix4 g o k n) := by
  refine (shapeCast_apply _ h4 (ix2 k n) (ix3 (0 : Fin 1) k n) ?_).trans ?_
  · rewrite [Shape.rowMajor_val_three, Shape.rowMajor_val_two]
    show ((0 : Fin 1).val * K + k.val) * N + n.val = k.val * N + n.val
    simp
  refine (extractStridedSlice_apply ![o.val, 0, 0] _ h3 (ix3 (0 : Fin 1) k n) (ix3 o k n) ?_).trans ?_
  · intro a
    match a with
    | ⟨0, _⟩ => show o.val = o.val + (0 : Fin 1).val; simp
    | ⟨1, _⟩ => show k.val = 0 + k.val; omega
    | ⟨2, _⟩ => show n.val = 0 + n.val; omega
  refine (shapeCast_apply _ h2 (ix3 o k n) (ix4 (0 : Fin 1) o k n) ?_).trans ?_
  · rewrite [Shape.rowMajor_val_four, Shape.rowMajor_val_three]
    show (((0 : Fin 1).val * O + o.val) * K + k.val) * N + n.val = (o.val * K + k.val) * N + n.val
    simp
  refine extractStridedSlice_apply ![g.val, 0, 0, 0] W h1 (ix4 (0 : Fin 1) o k n) (ix4 g o k n) ?_
  intro a
  match a with
  | ⟨0, _⟩ => show g.val = g.val + (0 : Fin 1).val; simp
  | ⟨1, _⟩ => show o.val = 0 + o.val; omega
  | ⟨2, _⟩ => show k.val = 0 + k.val; omega
  | ⟨3, _⟩ => show n.val = 0 + n.val; omega

/-- One row of a [G, N] table picked at g, flattened and broadcast down M rows, read at (i, n). -/
theorem select_row_apply {α : Type} {G N M : Nat} (hN : N ≠ 1) (B : (⟨2, ![G, N]⟩ : Shape).Idx → α) (g : Fin G)
    (h1 : (⟨2, ![G, N]⟩ : Shape).Slices ![g.val, 0] ⟨2, ![1, N]⟩)
    (h2 : (⟨2, ![1, N]⟩ : Shape).ShapeCasts ⟨1, ![N]⟩)
    (h3 : (⟨1, ![N]⟩ : Shape).BroadcastsInDim ⟨2, ![1, N]⟩ ![1])
    (h4 : (⟨2, ![1, N]⟩ : Shape).BroadcastsInDim ⟨2, ![M, N]⟩ ![0, 1]) (i : Fin M) (n : Fin N) :
    broadcastInDim ⟨2, ![M, N]⟩ ![0, 1] h4 (broadcastInDim ⟨2, ![1, N]⟩ ![1] h3
      (shapeCast ⟨1, ![N]⟩ (extractStridedSlice ⟨2, ![1, N]⟩ ![g.val, 0] B h1) h2)) (ix2 i n) = B (ix2 g n) := by
  refine (broadcastInDim_apply _ h4 _ (ix2 i n) (ix2 (0 : Fin 1) n) ?_).trans ?_
  · intro a
    match a with
    | ⟨0, _⟩ => show (0 : Fin 1).val = if (1 : Nat) = 1 then 0 else i.val; rw [if_pos rfl]; rfl
    | ⟨1, _⟩ => show n.val = if N = 1 then 0 else n.val; rw [if_neg hN]
  refine (broadcastInDim_apply _ h3 _ (ix2 (0 : Fin 1) n) (ix1 n) ?_).trans ?_
  · intro a
    match a with
    | ⟨0, _⟩ => show n.val = if N = 1 then 0 else n.val; rw [if_neg hN]
  refine (shapeCast_apply _ h2 (ix1 n) (ix2 (0 : Fin 1) n) ?_).trans ?_
  · rewrite [Shape.rowMajor_val_two, Shape.rowMajor_val_one]
    show (0 : Fin 1).val * N + n.val = n.val
    simp
  refine extractStridedSlice_apply ![g.val, 0] B h1 (ix2 (0 : Fin 1) n) (ix2 g n) ?_
  intro a
  match a with
  | ⟨0, _⟩ => show g.val = g.val + (0 : Fin 1).val; simp
  | ⟨1, _⟩ => show n.val = 0 + n.val; omega

end Cert.LibHostReads

end
-- ==== Proof.LibHostLayout.lean ====
/-
  Two host re-layings read at one entry, over any sizes and any element type.

  * A matrix transposed: the result at (i, j) is the matrix at (j, i).
  * A vector of N entries laid as a row [1, N] and then down M rows, by two `broadcast_in_dim`s: the result at (r, c)
    is entry c.
  * A rank-zero value broadcast to a matrix: every entry is the value.
-/
import Idealize.ShloMosaic.Lib.Pipeline.Value
import Idealize.ShloMosaic.Lib.ValueIdx

noncomputable section

namespace Cert.HostLayout

open Idealize.ShloMosaic Idealize.ShloMosaic.ValueIdx

/-- A transposed matrix at (i, j) is the matrix at (j, i). -/
theorem transpose2_apply {α : Type} {a b : ℕ} (x : (⟨2, ![a, b]⟩ : Shape).Idx → α)
    (h : (⟨2, ![a, b]⟩ : Shape).Transposes [1, 0] ⟨2, ![b, a]⟩) (i : Fin b) (j : Fin a) :
    transpose ⟨2, ![b, a]⟩ [1, 0] x h (ix2 i j) = x (ix2 j i) := by
  refine transpose_apply [1, 0] x h (ix2 i j) (ix2 j i) fun q => ?_
  match q with
  | ⟨0, _⟩ => rfl
  | ⟨1, _⟩ => rfl

/-- A vector laid as a row and then down M rows reads, at (r, c), entry c. -/
theorem biasRow_apply {α : Type} {M N : ℕ} (v : (⟨1, ![N]⟩ : Shape).Idx → α)
    (h1 : (⟨1, ![N]⟩ : Shape).BroadcastsInDim ⟨2, ![1, N]⟩ ![1])
    (h2 : (⟨2, ![1, N]⟩ : Shape).BroadcastsInDim ⟨2, ![M, N]⟩ ![0, 1]) (r : Fin M) (c : Fin N) :
    broadcastInDim ⟨2, ![M, N]⟩ ![0, 1] h2 (broadcastInDim ⟨2, ![1, N]⟩ ![1] h1 v) (ix2 r c) = v (ix1 c) := by
  refine (broadcastInDim_apply _ h2 _ (ix2 r c) (ix2 (0 : Fin 1) c) fun a => ?_).trans
    (broadcastInDim_apply _ h1 v (ix2 (0 : Fin 1) c) (ix1 c) fun a => ?_)
  · match a with
    | ⟨0, _⟩ => show (0 : Fin 1).val = if (1 : Nat) = 1 then 0 else r.val; rw [if_pos rfl]; rfl
    | ⟨1, _⟩ =>
      show c.val = if N = 1 then 0 else c.val
      split
      · have := c.isLt; omega
      · rfl
  · match a with
    | ⟨0, _⟩ =>
      show c.val = if N = 1 then 0 else c.val
      split
      · have := c.isLt; omega
      · rfl

/-- A rank-zero value broadcast to any shape reads the value everywhere. -/
theorem scalar_apply {α : Type} {t : Shape} (u : (⟨0, ![]⟩ : Shape).Idx → α)
    (h : (⟨0, ![]⟩ : Shape).BroadcastsInDim t ![]) (i : t.Idx) :
    broadcastInDim t ![] h u i = u (fun a => a.elim0) :=
  broadcastInDim_apply ![] h u i (fun a => a.elim0) (fun a => a.elim0)

end Cert.HostLayout

end
-- ==== Proof.LibBlockRows.lean ====
/-
  Picking rows out of a matrix, and the layers of a dense graph network read on the picked rows.

  A map ρ from the row numbers of a small matrix to the row numbers of a tall one lays rows ρ 0, ρ 1, … of the
  tall matrix as a matrix of its own (`rowsOf`). Every layer below acts on each row separately, so computing the
  layer on the picked rows gives the picked rows of the layer computed on the whole matrix:

  * a product with a fixed right factor, Σ_k A (r, k) · G (k, c): the matrix unit's product into a zero
    accumulator on the picked rows against the host's plain product on the whole;
  * a bias, one vector of N numbers added to every row: the vector laid as a row and broadcast down the picked
    rows against two host broadcasts down all rows;
  * the entry-by-entry operations (sum, product, maximum, exponential) and a constant splat.

  Everything is on the extended reals, where a change of float format is the identity, so an operand may first
  have been converted to a narrower format.
-/
import Idealize.ShloMosaic.PureOps.Ideal.Laws
import Idealize.ShloMosaic.Lib.Pipeline.Value
import Idealize.ShloMosaic.Lib.ValueIdx
import Idealize.ShloMosaic.Lib.ValueLayout
import proofs.«134301_j23244363006452_2_alg».proof.Proof.LibPlainMatmul
import proofs.«134301_j23244363006452_2_alg».proof.Proof.LibHostReads
import proofs.«134301_j23244363006452_2_alg».proof.Proof.LibHostLayout

noncomputable section

open scoped BigOperators

namespace Cert.BlockRows

open Idealize.ShloMosaic Idealize.ShloMosaic.ValueIdx

variable {TM M K N : Nat}

/-- Rows ρ 0, ρ 1, … of an M-row matrix, laid as a TM-row matrix. -/
def rowsOf {α : Type} (ρ : Fin TM → Fin M) (X : (⟨2, ![M, K]⟩ : Shape).Idx → α) : (⟨2, ![TM, K]⟩ : Shape).Idx → α :=
  fun j => X (ix2 (ρ (j 0)) (j 1))

/-- Entry (p, k) of the picked rows is entry (ρ p, k) of the matrix. -/
theorem rowsOf_apply {α : Type} (ρ : Fin TM → Fin M) (X : (⟨2, ![M, K]⟩ : Shape).Idx → α) (p : Fin TM) (k : Fin K) :
    rowsOf ρ X (ix2 p k) = X (ix2 (ρ p) k) := rfl

/-- Picking every row in place changes nothing. -/
theorem rowsOf_id {α : Type} (X : (⟨2, ![M, K]⟩ : Shape).Idx → α) : rowsOf (fun p : Fin M => p) X = X := by
  funext j
  exact congrArg X (eq_ix2 j).symm

/-- Row p of block t when M rows are cut into n blocks of TM rows each: row TM · t + p. -/
def blockRow (TM n M : Nat) (h : TM * n ≤ M) (t : Fin n) : Fin TM → Fin M := fun p =>
  ⟨TM * t.val + p.val, by
    have ht := t.isLt
    have hp := p.isLt
    calc TM * t.val + p.val < TM * t.val + TM := by omega
      _ = TM * (t.val + 1) := by rw [Nat.mul_succ]
      _ ≤ TM * n := Nat.mul_le_mul_left _ (by omega)
      _ ≤ M := h⟩

/-- Its row number. -/
theorem blockRow_val (TM n M : Nat) (h : TM * n ≤ M) (t : Fin n) (p : Fin TM) :
    (blockRow TM n M h t p).val = TM * t.val + p.val := rfl

/-- A sum of picked rows is the picked rows of the sum. -/
theorem addf_rows {φ : FTy} (ρ : Fin TM → Fin M) (X Y : FVec Ideal ⟨2, ![M, N]⟩ φ) :
    addf (rowsOf ρ X) (rowsOf ρ Y) = rowsOf ρ (addf X Y) := rfl

/-- A product, entry by entry, of picked rows is the picked rows of the product. -/
theorem mulf_rows {φ : FTy} (ρ : Fin TM → Fin M) (X Y : FVec Ideal ⟨2, ![M, N]⟩ φ) :
    mulf (rowsOf ρ X) (rowsOf ρ Y) = rowsOf ρ (mulf X Y) := rfl

/-- The exponential of picked rows is the picked rows of the host's exponential: one function on the extended reals. -/
theorem exp_rows {φ : FTy} (ρ : Fin TM → Fin M) (X : FVec Ideal ⟨2, ![M, N]⟩ φ) :
    exp (rowsOf ρ X) = rowsOf ρ (Host.exp X) := rfl

/-- The host's plain product of an M × K by a K × N matrix. -/
def propagate (A : FVec Ideal ⟨2, ![M, K]⟩ .f32) (G : FVec Ideal ⟨2, ![K, N]⟩ .f32) : FVec Ideal ⟨2, ![M, N]⟩ .f32 :=
  Host.dotGeneral (F := Ideal) (DotDims.plain M K N) none A G

/-- The host's dense layer: the plain product X · W plus the one row B added to every row. -/
def dense (h2 : (⟨2, ![1, N]⟩ : Shape).BroadcastsInDim ⟨2, ![M, N]⟩ ![0, 1])
    (X : FVec Ideal ⟨2, ![M, K]⟩ .f32) (W : FVec Ideal ⟨2, ![K, N]⟩ .f32) (B : FVec Ideal ⟨2, ![1, N]⟩ .f32) :
    FVec Ideal ⟨2, ![M, N]⟩ .f32 :=
  addf (Host.dotGeneral (F := Ideal) (DotDims.plain M K N) none X W) (broadcastInDim ⟨2, ![M, N]⟩ ![0, 1] h2 B)

/-- The host's maximum with zero, the zero a rank-zero constant broadcast to the matrix. -/
def relu (h0 : (⟨0, ![]⟩ : Shape).BroadcastsInDim ⟨2, ![M, N]⟩ ![]) (Y : FVec Ideal ⟨2, ![M, N]⟩ .f32) :
    FVec Ideal ⟨2, ![M, N]⟩ .f32 :=
  maximumf Y (broadcastInDim ⟨2, ![M, N]⟩ ![] h0 (constant (F := Ideal) ⟨0, ![]⟩ .f32 0x00000000#32))

/-- The host's product with a constant, the constant of word `w` broadcast from rank zero. -/
def scaled (w : BitVec 32) (h0 : (⟨0, ![]⟩ : Shape).BroadcastsInDim ⟨2, ![M, N]⟩ ![]) (Y : FVec Ideal ⟨2, ![M, N]⟩ .f32) :
    FVec Ideal ⟨2, ![M, N]⟩ .f32 :=
  mulf (broadcastInDim ⟨2, ![M, N]⟩ ![] h0 (constant (F := Ideal) ⟨0, ![]⟩ .f32 w)) Y

/-- The product with a fixed right factor, row by row: when row p of `a` is row ρ p of `A` and `g` is `G`, the
    matrix unit's product of `a` and `g` into zeros is the picked rows of the host's product of `A` and `G`. -/
theorem matmul_rows (ρ : Fin TM → Fin M) {φ₁ φ₂ : FTy} (prec prec' : Option ContractPrecision)
    (a : FVec Ideal ⟨2, ![TM, K]⟩ φ₁) (g : FVec Ideal ⟨2, ![K, N]⟩ φ₂)
    (A : FVec Ideal ⟨2, ![M, K]⟩ .f32) (G : FVec Ideal ⟨2, ![K, N]⟩ .f32)
    (ha : ∀ (p : Fin TM) (k : Fin K), (a (ix2 p k) : EReal) = A (ix2 (ρ p) k))
    (hg : ∀ (k : Fin K) (n : Fin N), (g (ix2 k n) : EReal) = G (ix2 k n)) :
    matmul (DotDims.plain TM K N) prec a g (constant ⟨2, ![TM, N]⟩ .f32 0x00000000#32)
      = rowsOf ρ (Host.dotGeneral (F := Ideal) (DotDims.plain M K N) prec' A G) := by
  funext j
  obtain ⟨p, c, rfl⟩ : ∃ (p : Fin TM) (c : Fin N), j = ix2 p c := ⟨j 0, j 1, eq_ix2 j⟩
  rw [rowsOf_apply, Cert.LibHostReads.dotGeneral_plain_apply]
  refine (Cert.PlainMatmul.matmul_zero_apply TM K N prec a g p c).trans ?_
  exact Finset.sum_congr rfl fun k _ => congrArg₂ (· * ·) (ha p k) (hg k c)

/-- The propagation step on picked rows: the matrix unit's product, into zeros, of the picked rows of A and the
    whole of G — both first converted to a narrower float format, which changes nothing on the extended reals — is
    the picked rows of the host's product A · G. -/
theorem propagate_rows (ρ : Fin TM → Fin M) {ψ : FTy} (hψ : ψ.bits < FTy.f32.bits)
    (hs : (⟨2, ![K, N]⟩ : Shape).ShapeCasts ⟨2, ![K, N]⟩)
    (A : FVec Ideal ⟨2, ![M, K]⟩ .f32) (G : FVec Ideal ⟨2, ![K, N]⟩ .f32) :
    matmul (DotDims.plain TM K N) none (truncf ψ (rowsOf ρ A) hψ) (truncf ψ (shapeCast ⟨2, ![K, N]⟩ G hs) hψ)
        (constant ⟨2, ![TM, N]⟩ .f32 0x00000000#32)
      = rowsOf ρ (propagate A G) := by
  rw [shapeCast_self]
  exact matmul_rows ρ none none _ _ A G (fun _ _ => rfl) (fun _ _ => rfl)

/-- A dense layer on picked rows: the matrix unit's product of the picked rows of X and the whole of W into zeros,
    plus the row B broadcast down the picked rows, is the picked rows of the host's layer on X. -/
theorem dense_rows (ρ : Fin TM → Fin M)
    (hsw : (⟨2, ![K, N]⟩ : Shape).ShapeCasts ⟨2, ![K, N]⟩) (hs : (⟨2, ![1, N]⟩ : Shape).ShapeCasts ⟨2, ![1, N]⟩)
    (hb : (⟨2, ![1, N]⟩ : Shape).Broadcasts ⟨2, ![TM, N]⟩)
    (h2 : (⟨2, ![1, N]⟩ : Shape).BroadcastsInDim ⟨2, ![M, N]⟩ ![0, 1])
    (X : FVec Ideal ⟨2, ![M, K]⟩ .f32) (W : FVec Ideal ⟨2, ![K, N]⟩ .f32) (B : FVec Ideal ⟨2, ![1, N]⟩ .f32) :
    addf (matmul (DotDims.plain TM K N) none (rowsOf ρ X) (shapeCast ⟨2, ![K, N]⟩ W hsw)
          (constant ⟨2, ![TM, N]⟩ .f32 0x00000000#32))
        (broadcastTo ⟨2, ![TM, N]⟩ (shapeCast ⟨2, ![1, N]⟩ B hs) hb)
      = rowsOf ρ (dense h2 X W B) := by
  rw [shapeCast_self, shapeCast_self, matmul_rows ρ none none (rowsOf ρ X) W X W (fun _ _ => rfl) (fun _ _ => rfl)]
  unfold dense
  rw [← addf_rows]
  refine congrArg (addf (rowsOf ρ (Host.dotGeneral (F := Ideal) (DotDims.plain M K N) none X W))) ?_
  funext j
  obtain ⟨p, c, rfl⟩ : ∃ (p : Fin TM) (c : Fin N), j = ix2 p c := ⟨j 0, j 1, eq_ix2 j⟩
  rw [broadcastTo_1b_ab_apply, rowsOf_apply]
  refine (broadcastInDim_apply _ h2 B (ix2 (ρ p) c) (ix2 (0 : Fin 1) c) fun a => ?_).symm
  match a with
  | ⟨0, _⟩ => show (0 : Fin 1).val = if (1 : Nat) = 1 then 0 else (ρ p).val; rw [if_pos rfl]; rfl
  | ⟨1, _⟩ =>
    show c.val = if N = 1 then 0 else c.val
    split
    · have := c.isLt; omega
    · rfl

/-- A vector of N numbers reshaped to one row is the same vector broadcast into a row along its one axis. -/
theorem reshape_row {α : Type} (v : (⟨1, ![N]⟩ : Shape).Idx → α) (hs : (⟨1, ![N]⟩ : Shape).ShapeCasts ⟨2, ![1, N]⟩)
    (h1 : (⟨1, ![N]⟩ : Shape).BroadcastsInDim ⟨2, ![1, N]⟩ ![1]) :
    shapeCast ⟨2, ![1, N]⟩ v hs = broadcastInDim ⟨2, ![1, N]⟩ ![1] h1 v := by
  funext i
  obtain ⟨z, c, rfl⟩ : ∃ (z : Fin 1) (c : Fin N), i = ix2 z c := ⟨i 0, i 1, eq_ix2 i⟩
  have hz : z.val = 0 := by have := z.isLt; omega
  refine (shapeCast_apply v hs (ix2 z c) (ix1 c) ?_).trans (broadcastInDim_apply ![1] h1 v (ix2 z c) (ix1 c) fun a => ?_).symm
  · rewrite [Shape.rowMajor_val_two, Shape.rowMajor_val_one]
    show c.val = z.val * N + c.val
    rw [hz]; simp
  · match a with
    | ⟨0, _⟩ =>
      show c.val = if N = 1 then 0 else c.val
      split
      · have := c.isLt; omega
      · rfl

/-- A constant splat over TM rows is the picked rows of the same constant broadcast from rank zero over M rows. -/
theorem splat_rows (ρ : Fin TM → Fin M) (w : BitVec 32) (h : (⟨0, ![]⟩ : Shape).BroadcastsInDim ⟨2, ![M, N]⟩ ![]) :
    (broadcast ⟨2, ![TM, N]⟩ (Scalar.ofBits (F := Ideal) .f32 w) : FVec Ideal ⟨2, ![TM, N]⟩ .f32)
      = rowsOf ρ (broadcastInDim ⟨2, ![M, N]⟩ ![] h (constant (F := Ideal) ⟨0, ![]⟩ .f32 w)) := by
  funext j
  exact (Cert.HostLayout.scalar_apply (constant (F := Ideal) ⟨0, ![]⟩ .f32 w) h (ix2 (ρ (j 0)) (j 1))).symm

/-- The maximum with a splat zero of picked rows is the picked rows of the host's maximum with zero. -/
theorem relu_rows (ρ : Fin TM → Fin M) (h0 : (⟨0, ![]⟩ : Shape).BroadcastsInDim ⟨2, ![M, N]⟩ ![])
    (Y : FVec Ideal ⟨2, ![M, N]⟩ .f32) :
    maximumf (rowsOf ρ Y) (broadcast ⟨2, ![TM, N]⟩ (Scalar.ofBits (F := Ideal) .f32 0x00000000#32)) = rowsOf ρ (relu h0 Y) := by
  rw [splat_rows ρ 0x00000000#32 h0]; rfl

/-- The product of a splat constant with picked rows is the picked rows of the host's product with the constant. -/
theorem scaled_rows (ρ : Fin TM → Fin M) (w : BitVec 32) (h0 : (⟨0, ![]⟩ : Shape).BroadcastsInDim ⟨2, ![M, N]⟩ ![])
    (Y : FVec Ideal ⟨2, ![M, N]⟩ .f32) :
    mulf (broadcast ⟨2, ![TM, N]⟩ (Scalar.ofBits (F := Ideal) .f32 w)) (rowsOf ρ Y) = rowsOf ρ (scaled w h0 Y) := by
  rw [splat_rows ρ w h0]; rfl

end Cert.BlockRows

end
-- ==== Proof.MatmulValue.lean ====
/-
  The two matrix-product regions read as whole arrays. Each region cuts the rows of its left operand into twenty
  blocks of 5000; at point t it multiplies rows 5000·t … 5000·t + 4999, narrowed to bf16, by the whole right
  operand, narrowed too, into a zero accumulator, and writes the block back to the same rows of the result. On the
  extended reals narrowing changes nothing and the product's entry (r, c) is Σ_k A (r, k) · W (k, c), which is the
  host's plain product at that entry: so block t of the result is the picked rows of the host's product, the
  twenty blocks cover the array, and the array ends at the host's product of the operands as the region found them.
-/
import proofs.«134301_j23244363006452_2_alg».proof.Proof.Gen.KernelIdeal.Frame
import proofs.«134301_j23244363006452_2_alg».proof.Proof.LibBlockRows
import Idealize.ShloMosaic.Lib.Pipeline.Value
import Idealize.ShloMosaic.Lib.ValueIdx

set_option maxRecDepth 16384

noncomputable section

namespace Cert.KernelIdeal.Products

open Cert.KernelIdeal Cert.KernelIdeal.Gen Cert.BlockRows
open Idealize.ShloMosaic Idealize.ShloMosaic.TcCoe Idealize.ShloMosaic.ValueIdx Idealize.SL.Sem
open Idealize.ShloMosaic.Pipeline (Dat Cfg Window)

variable (V : (c : Dev nD) → (b : Ref sig .tc) → Buf (Elt Ideal) ((c : Thread nD τ).loc b))

theorem origin : (![0, 0] : Fin 2 → Nat) = fun _ => 0 := funext fun a => by fin_cases a <;> rfl

/-- Row p of the t-th block of 5000 rows among 100000. -/
def pick (t : Nat) (ht : t < 20) : Fin 5000 → Fin 100000 := fun p => ⟨5000 * t + p.val, by have := p.isLt; omega⟩

/-! ## x · W1 (region 0) -/

theorem lt0 (t : Fin cfg0.N) : t.val < 20 := lt_of_lt_of_eq t.isLt N_0

/-- The printed index maps, decided over the grid: the left operand's and the result's blocks move down the rows
    with the point, the right operand's stays. -/
theorem maps0 : ∀ t : Fin cfg0.N, win0_0.index t (0 : Fin 2) = t.val ∧ win0_0.index t (1 : Fin 2) = 0
    ∧ win0_1.index t (0 : Fin 2) = 0 ∧ win0_1.index t (1 : Fin 2) = 0
    ∧ win0_2.index t (0 : Fin 2) = t.val ∧ win0_2.index t (1 : Fin 2) = 0 :=
  (by decide +kernel : ∀ t : Fin grid0.N, _)

/-- Every block of rows is some point's. -/
theorem onto0 : ∀ q : Fin 20, ∃ t : Fin cfg0.N, win0_2.index t = ![q.val, 0] :=
  (by decide +kernel : ∀ q : Fin 20, ∃ t : Fin grid0.N, win0_2.index t = ![q.val, 0])

/-- The body's product on picked rows of A and the whole of W is the picked rows of the host's product. -/
theorem body0_rows (ρ : Fin 5000 → Fin 100000) (x0 : Vec Ideal S5000x128 .f32) (x1 : Vec Ideal S128x64 .f32)
    (A : FVec Ideal ⟨2, ![100000, 128]⟩ .f32) (W : FVec Ideal ⟨2, ![128, 64]⟩ .f32)
    (h0 : x0 = rowsOf ρ A) (h1 : x1 = W) :
    k0_pay1 x0 x1 = rowsOf ρ (propagate A W) := by
  subst h0 h1
  unfold k0_pay1
  exact matmul_rows ρ none none _ _ A x1 (fun _ _ => rfl) (fun _ _ => rfl)

/-- What point t writes back is block t of the host's product of the operands as the region finds them. -/
theorem flushed0 (c : Dev nD) (t : Fin cfg0.N) :
    (dat0 V c).flushed 2 t = ((cfg0.win 2).blk t).view.read (Elt Ideal) (propagate (V c main_arg0) (V c main_arg4)) := by
  show (cfg0.win 2).cut (grid0.coords t) ((dat0 V c).after 2 t) = _
  rw [after0_2]
  unfold out0_2
  rw [View.canon_unit_zero origin]
  simp only [View.ld_unit_zero (S := S5000x128) origin, View.ld_unit_zero (S := S128x64) origin]
  obtain ⟨e0, e1, e2, e3, e4, e5⟩ := maps0 t
  have hA : iblk0 V c 0 t = rowsOf (pick t.val (lt0 t)) (V c main_arg0) := by
    funext j
    show V c main_arg0 (((cfg0.win 0).blk t).view.emb j) = V c main_arg0 (ix2 (pick t.val (lt0 t) (j 0)) (j 1))
    refine congrArg _ (funext fun a => Fin.ext ?_)
    match a with
    | ⟨0, _⟩ => show win0_0.index t (0 : Fin 2) * 5000 + 1 * (j 0).val = 5000 * t.val + (j 0).val; omega
    | ⟨1, _⟩ => show win0_0.index t (1 : Fin 2) * 128 + 1 * (j 1).val = (j 1).val; omega
  have hW : iblk0 V c 1 t = V c main_arg4 := by
    funext j
    show V c main_arg4 (((cfg0.win 1).blk t).view.emb j) = V c main_arg4 j
    refine congrArg _ (funext fun a => Fin.ext ?_)
    match a with
    | ⟨0, _⟩ => show win0_1.index t (0 : Fin 2) * 128 + 1 * (j 0).val = (j 0).val; omega
    | ⟨1, _⟩ => show win0_1.index t (1 : Fin 2) * 64 + 1 * (j 1).val = (j 1).val; omega
  funext j
  show k0_pay1 (iblk0 V c 0 t) (iblk0 V c 1 t) j = propagate (V c main_arg0) (V c main_arg4) (((cfg0.win 2).blk t).view.emb j)
  refine (congrFun (body0_rows (pick t.val (lt0 t)) _ _ (V c main_arg0) (V c main_arg4) hA hW) j).trans ?_
  show propagate (V c main_arg0) (V c main_arg4) (ix2 (pick t.val (lt0 t) (j 0)) (j 1)) = _
  refine congrArg _ (funext fun a => Fin.ext ?_)
  match a with
  | ⟨0, _⟩ => show 5000 * t.val + (j 0).val = win0_2.index t (0 : Fin 2) * 5000 + 1 * (j 0).val; omega
  | ⟨1, _⟩ => show (j 1).val = win0_2.index t (1 : Fin 2) * 64 + 1 * (j 1).val; omega

/-- An index of the result is in point t's block iff each coordinate is in the block's range on its axis. -/
theorem mem0 (t : Fin cfg0.N) (i : S100000x64.Idx) :
    i ∈ ((cfg0.win 2).blk t).view.set ↔ ∀ a : Fin 2, win0_2.index t a * S5000x64.size a ≤ (i a).val ∧ (i a).val < win0_2.index t a * S5000x64.size a + S5000x64.size a := by
  show i ∈ ((View.whole main_v4).slice (win0_2.rect t)).set ↔ _
  rw [View.set_slice_whole, Rect.mem_set_unit]
  exact Iff.rfl

/-- Every index of the result is in some point's block: the one its row's quotient by 5000 names. -/
theorem cover0 (i : S100000x64.Idx) : ∃ t : Fin cfg0.N, (cfg0.win 2).flush t = true ∧ i ∈ ((cfg0.win 2).blk t).view.set := by
  have hi0 : (i 0).val < 100000 := (i 0).isLt
  have hi1 : (i 1).val < 64 := (i 1).isLt
  obtain ⟨t, ht⟩ := onto0 ⟨(i 0).val / 5000, by omega⟩
  have q0 : win0_2.index t (0 : Fin 2) = (i 0).val / 5000 := congrFun ht 0
  have q1 : win0_2.index t (1 : Fin 2) = 0 := congrFun ht 1
  refine ⟨t, flush0_2 t, ?_⟩
  rw [mem0]
  intro a
  match a with
  | ⟨0, _⟩ => show win0_2.index t (0 : Fin 2) * 5000 ≤ (i 0).val ∧ (i 0).val < win0_2.index t (0 : Fin 2) * 5000 + 5000; omega
  | ⟨1, _⟩ => show win0_2.index t (1 : Fin 2) * 64 ≤ (i 1).val ∧ (i 1).val < win0_2.index t (1 : Fin 2) * 64 + 64; omega

/-- Region 0 leaves its result array at the host's product of its operands. -/
theorem value0 (c : Dev nD) : (dat0 V c).arrAt 2 cfg0.N = propagate (V c main_arg0) (V c main_arg4) :=
  (dat0 V c).arrAt_eq_of_cover 2 _ (fun t _ => flushed0 V c t) cover0

/-! ## h1 · W2 (region 2) -/

theorem lt2 (t : Fin cfg2.N) : t.val < 20 := lt_of_lt_of_eq t.isLt N_2

/-- The printed index maps, decided over the grid: the left operand's and the result's blocks move down the rows
    with the point, the right operand's stays. -/
theorem maps2 : ∀ t : Fin cfg2.N, win2_0.index t (0 : Fin 2) = t.val ∧ win2_0.index t (1 : Fin 2) = 0
    ∧ win2_1.index t (0 : Fin 2) = 0 ∧ win2_1.index t (1 : Fin 2) = 0
    ∧ win2_2.index t (0 : Fin 2) = t.val ∧ win2_2.index t (1 : Fin 2) = 0 :=
  (by decide +kernel : ∀ t : Fin grid2.N, _)

/-- Every block of rows is some point's. -/
theorem onto2 : ∀ q : Fin 20, ∃ t : Fin cfg2.N, win2_2.index t = ![q.val, 0] :=
  (by decide +kernel : ∀ q : Fin 20, ∃ t : Fin grid2.N, win2_2.index t = ![q.val, 0])

/-- The body's product on picked rows of A and the whole of W is the picked rows of the host's product. -/
theorem body2_rows (ρ : Fin 5000 → Fin 100000) (x0 : Vec Ideal S5000x64 .f32) (x1 : Vec Ideal S64x16 .f32)
    (A : FVec Ideal ⟨2, ![100000, 64]⟩ .f32) (W : FVec Ideal ⟨2, ![64, 16]⟩ .f32)
    (h0 : x0 = rowsOf ρ A) (h1 : x1 = W) :
    k2_pay1 x0 x1 = rowsOf ρ (propagate A W) := by
  subst h0 h1
  unfold k2_pay1
  rw [shapeCast_self]
  exact matmul_rows ρ none none _ _ A x1 (fun _ _ => rfl) (fun _ _ => rfl)

/-- What point t writes back is block t of the host's product of the operands as the region finds them. -/
theorem flushed2 (c : Dev nD) (t : Fin cfg2.N) :
    (dat2 V c).flushed 2 t = ((cfg2.win 2).blk t).view.read (Elt Ideal) (propagate (V c main_v43) (V c main_arg6)) := by
  show (cfg2.win 2).cut (grid2.coords t) ((dat2 V c).after 2 t) = _
  rw [after2_2]
  unfold out2_2
  rw [View.canon_unit_zero origin]
  simp only [View.ld_unit_zero (S := S5000x64) origin, View.ld_unit_zero (S := S64x16) origin]
  obtain ⟨e0, e1, e2, e3, e4, e5⟩ := maps2 t
  have hA : iblk2 V c 0 t = rowsOf (pick t.val (lt2 t)) (V c main_v43) := by
    funext j
    show V c main_v43 (((cfg2.win 0).blk t).view.emb j) = V c main_v43 (ix2 (pick t.val (lt2 t) (j 0)) (j 1))
    refine congrArg _ (funext fun a => Fin.ext ?_)
    match a with
    | ⟨0, _⟩ => show win2_0.index t (0 : Fin 2) * 5000 + 1 * (j 0).val = 5000 * t.val + (j 0).val; omega
    | ⟨1, _⟩ => show win2_0.index t (1 : Fin 2) * 64 + 1 * (j 1).val = (j 1).val; omega
  have hW : iblk2 V c 1 t = V c main_arg6 := by
    funext j
    show V c main_arg6 (((cfg2.win 1).blk t).view.emb j) = V c main_arg6 j
    refine congrArg _ (funext fun a => Fin.ext ?_)
    match a with
    | ⟨0, _⟩ => show win2_1.index t (0 : Fin 2) * 64 + 1 * (j 0).val = (j 0).val; omega
    | ⟨1, _⟩ => show win2_1.index t (1 : Fin 2) * 16 + 1 * (j 1).val = (j 1).val; omega
  funext j
  show k2_pay1 (iblk2 V c 0 t) (iblk2 V c 1 t) j = propagate (V c main_v43) (V c main_arg6) (((cfg2.win 2).blk t).view.emb j)
  refine (congrFun (body2_rows (pick t.val (lt2 t)) _ _ (V c main_v43) (V c main_arg6) hA hW) j).trans ?_
  show propagate (V c main_v43) (V c main_arg6) (ix2 (pick t.val (lt2 t) (j 0)) (j 1)) = _
  refine congrArg _ (funext fun a => Fin.ext ?_)
  match a with
  | ⟨0, _⟩ => show 5000 * t.val + (j 0).val = win2_2.index t (0 : Fin 2) * 5000 + 1 * (j 0).val; omega
  | ⟨1, _⟩ => show (j 1).val = win2_2.index t (1 : Fin 2) * 16 + 1 * (j 1).val; omega

/-- An index of the result is in point t's block iff each coordinate is in the block's range on its axis. -/
theorem mem2 (t : Fin cfg2.N) (i : S100000x16.Idx) :
    i ∈ ((cfg2.win 2).blk t).view.set ↔ ∀ a : Fin 2, win2_2.index t a * S5000x16.size a ≤ (i a).val ∧ (i a).val < win2_2.index t a * S5000x16.size a + S5000x16.size a := by
  show i ∈ ((View.whole main_v44).slice (win2_2.rect t)).set ↔ _
  rw [View.set_slice_whole, Rect.mem_set_unit]
  exact Iff.rfl

/-- Every index of the result is in some point's block: the one its row's quotient by 5000 names. -/
theorem cover2 (i : S100000x16.Idx) : ∃ t : Fin cfg2.N, (cfg2.win 2).flush t = true ∧ i ∈ ((cfg2.win 2).blk t).view.set := by
  have hi0 : (i 0).val < 100000 := (i 0).isLt
  have hi1 : (i 1).val < 16 := (i 1).isLt
  obtain ⟨t, ht⟩ := onto2 ⟨(i 0).val / 5000, by omega⟩
  have q0 : win2_2.index t (0 : Fin 2) = (i 0).val / 5000 := congrFun ht 0
  have q1 : win2_2.index t (1 : Fin 2) = 0 := congrFun ht 1
  refine ⟨t, flush2_2 t, ?_⟩
  rw [mem2]
  intro a
  match a with
  | ⟨0, _⟩ => show win2_2.index t (0 : Fin 2) * 5000 ≤ (i 0).val ∧ (i 0).val < win2_2.index t (0 : Fin 2) * 5000 + 5000; omega
  | ⟨1, _⟩ => show win2_2.index t (1 : Fin 2) * 16 ≤ (i 1).val ∧ (i 1).val < win2_2.index t (1 : Fin 2) * 16 + 16; omega

/-- Region 2 leaves its result array at the host's product of its operands. -/
theorem value2 (c : Dev nD) : (dat2 V c).arrAt 2 cfg2.N = propagate (V c main_v43) (V c main_arg6) :=
  (dat2 V c).arrAt_eq_of_cover 2 _ (fun t _ => flushed2 V c t) cover2

end Cert.KernelIdeal.Products

end
-- ==== Proof.LibColRowBroadcast.lean ====
/-
  Four re-layings of a vector read at one entry, over any sizes and any element type.

  * A vector of `a` entries cast to a column [a, 1]: the column at (p, 0) is entry p.
  * A vector of `b` entries cast to a row [1, b]: the row at (0, q) is entry q.
  * A column [a, 1] broadcast along the lanes to [a, b]: the result at (p, q) is the column at (p, 0).
  * A row [1, b] broadcast down the sublanes to [a, b]: the result at (p, q) is the row at (0, q).

  Between a cast and a broadcast a kernel may apply pointwise operations to the column (a square root, a clamp, a
  reciprocal); reading the two steps separately lets those be read at (p, 0) in between.
-/
import Idealize.ShloMosaic.Lib.Pipeline.Value
import Idealize.ShloMosaic.Lib.ValueIdx

noncomputable section

namespace Cert.ColRowBroadcast

open Idealize.ShloMosaic Idealize.ShloMosaic.ValueIdx

/-- A vector of `a` entries cast to a column reads, at (p, 0), entry `p`. -/
theorem colCast_apply {α : Type} {a : ℕ} (u : (⟨1, ![a]⟩ : Shape).Idx → α)
    (hc : (⟨1, ![a]⟩ : Shape).ShapeCasts ⟨2, ![a, 1]⟩) (p : Fin a) (z : Fin 1) :
    shapeCast ⟨2, ![a, 1]⟩ u hc (ix2 p z) = u (ix1 p) := by
  refine shapeCast_apply u hc (ix2 p z) (ix1 p) ?_
  rw [Shape.rowMajor_val_one, Shape.rowMajor_val_two]
  show p.val = p.val * 1 + z.val
  have := z.isLt
  omega

/-- A vector of `b` entries cast to a row reads, at (0, q), entry `q`. -/
theorem rowCast_apply {α : Type} {b : ℕ} (u : (⟨1, ![b]⟩ : Shape).Idx → α)
    (hc : (⟨1, ![b]⟩ : Shape).ShapeCasts ⟨2, ![1, b]⟩) (z : Fin 1) (q : Fin b) :
    shapeCast ⟨2, ![1, b]⟩ u hc (ix2 z q) = u (ix1 q) := by
  refine shapeCast_apply u hc (ix2 z q) (ix1 q) ?_
  rw [Shape.rowMajor_val_one, Shape.rowMajor_val_two]
  show q.val = z.val * b + q.val
  have hz : z.val = 0 := by have := z.isLt; omega
  rw [hz, Nat.zero_mul, Nat.zero_add]

/-- A column broadcast along the lanes reads, at (p, q), the column at (p, 0). -/
theorem colBroadcast_apply {α : Type} {a b : ℕ} (w : (⟨2, ![a, 1]⟩ : Shape).Idx → α)
    (hb : (⟨2, ![a, 1]⟩ : Shape).Broadcasts ⟨2, ![a, b]⟩) (p : Fin a) (q : Fin b) :
    broadcastTo ⟨2, ![a, b]⟩ w hb (ix2 p q) = w (ix2 p (0 : Fin 1)) := by
  refine broadcastTo_apply w hb (ix2 p q) (ix2 p (0 : Fin 1)) fun c => ?_
  match c with
  | ⟨0, _⟩ =>
    show p.val = if a = 1 then 0 else p.val
    split
    · have := p.isLt; omega
    · rfl
  | ⟨1, _⟩ =>
    exact (if_pos rfl).symm

/-- A row broadcast down the sublanes reads, at (p, q), the row at (0, q). -/
theorem rowBroadcast_apply {α : Type} {a b : ℕ} (w : (⟨2, ![1, b]⟩ : Shape).Idx → α)
    (hb : (⟨2, ![1, b]⟩ : Shape).Broadcasts ⟨2, ![a, b]⟩) (p : Fin a) (q : Fin b) :
    broadcastTo ⟨2, ![a, b]⟩ w hb (ix2 p q) = w (ix2 (0 : Fin 1) q) := by
  refine broadcastTo_apply w hb (ix2 p q) (ix2 (0 : Fin 1) q) fun c => ?_
  match c with
  | ⟨0, _⟩ =>
    exact (if_pos rfl).symm
  | ⟨1, _⟩ =>
    show q.val = if b = 1 then 0 else q.val
    split
    · have := q.isLt; omega
    · rfl

end Cert.ColRowBroadcast

end
-- ==== Proof.LibRmsNorm.lean ====
/-
  Root-mean-square normalisation of the rows of a matrix, read one row at a time on the extended reals, over any sizes.

  A row r of N entries is scaled by s(r) = rsqrt((Σ_k r_k · r_k) / c + e), where c and e are the numbers two given 32-bit
  words encode (the row length and a small offset, as the program spells them), and then multiplied entry by entry
  by a gain row g:   rowNorm r g q = r_q · s(r) · g_q.

  The same function is computed two ways. On the vector unit: square, sum along the lanes from zero, lay the sums
  out as a column, divide, add, take the reciprocal square root, spread the column along the lanes, multiply; the
  gain row laid out as a row and spread down the sublanes. On the host: square, reduce-add over the last axis from a
  scalar zero, broadcast to a column, divide by a broadcast scalar, add a broadcast scalar, reciprocal square root,
  broadcast along the last axis, multiply; the gain broadcast to a row and then down the rows. Both, read at
  row p, are rowNorm of row p of the operand. Nothing here needs the entries to be finite: both sides apply the same
  operations to the same sums.

  Also here: the vocabulary of rows (row p of a matrix, a vector as a function of its coordinate, a matrix as a function
  of two coordinates), and a row times a matrix.
-/
import Idealize.ShloMosaic.PureOps.Ideal.Laws
import Idealize.ShloMosaic.Lib.Pipeline.Value
import Idealize.ShloMosaic.Lib.ValueIdx
import proofs.«134301_j23244363006452_2_alg».proof.Proof.LibColRowBroadcast

noncomputable section

open scoped BigOperators

namespace Cert.RmsNorm

open Idealize.ShloMosaic Idealize.ShloMosaic.ValueIdx

/-! ## Rows -/

/-- Row `p` of a matrix, as a function of the column. -/
def row {M N : ℕ} (a : (⟨2, ![M, N]⟩ : Shape).Idx → EReal) (p : Fin M) : Fin N → EReal := fun k => a (ix2 p k)

/-- A vector as a function of its coordinate. -/
def vec {N : ℕ} (g : (⟨1, ![N]⟩ : Shape).Idx → EReal) : Fin N → EReal := fun k => g (ix1 k)

/-- A matrix as a function of its two coordinates. -/
def mat {K N : ℕ} (w : (⟨2, ![K, N]⟩ : Shape).Idx → EReal) : Fin K → Fin N → EReal := fun k q => w (ix2 k q)

/-- A row times a matrix: entry q is Σ_k r_k · w_{k q}. -/
def rowMat {K N : ℕ} (r : Fin K → EReal) (w : Fin K → Fin N → EReal) : Fin N → EReal := fun q => ∑ k, r k * w k q

/-- The scale of a row: the reciprocal square root of (Σ_k r_k² divided by the number `cN` encodes, plus the number
    `ce` encodes). -/
def scale {N : ℕ} (cN ce : BitVec 32) (r : Fin N → EReal) : EReal :=
  Ideal.rsqrt (Ideal.div (∑ k, r k * r k) (Ideal.ofBits .f32 cN) + Ideal.ofBits .f32 ce)

/-- A row normalised by its scale and multiplied entry by entry by a gain row. -/
def rowNorm {N : ℕ} (cN ce : BitVec 32) (r g : Fin N → EReal) : Fin N → EReal := fun q => r q * scale cN ce r * g q

/-- Rows of equal matrices' sums: row p of a pointwise sum is the sum of the rows. -/
theorem row_addf {M N : ℕ} (a b : FVec Ideal ⟨2, ![M, N]⟩ .f32) (p : Fin M) :
    row (addf a b) p = fun q => row a p q + row b p q := rfl

/-! ## On the vector unit -/

/-- The reduced index `p` with lane `k` put back is (p, k). -/
theorem lift_lane {M N : ℕ} (h : (⟨2, ![M, N]⟩ : Shape).Reduces [1] (⟨1, ![M]⟩ : Shape)) (p : Fin M)
    (k : Fin ((⟨2, ![M, N]⟩ : Shape).size 1)) : h.lift (ix1 p) k = ix2 p (⟨k.val, k.isLt⟩ : Fin N) := by
  funext c; apply Fin.ext
  fin_cases c <;> rfl

/-- A sum along the lanes from zero, at row `p`, is the sum of the row. -/
theorem laneSum_apply {M N : ℕ} (src : FVec Ideal ⟨2, ![M, N]⟩ .f32)
    (hr : (⟨2, ![M, N]⟩ : Shape).Reduces [1] (⟨1, ![M]⟩ : Shape)) (hφ : FKind.Formats .f32)
    (hacc : (0x00000000#32 : BitVec (FTy.bits .f32)) = FKind.add.neutral .f32 hφ) (p : Fin M) :
    multiReduction .add [1] ⟨1, ![M]⟩ src 0x00000000#32 hr hφ hacc (ix1 p) = ∑ k : Fin N, src (ix2 p k) := by
  refine (Ideal.multiReduction_add_single src 0x00000000#32 hr hφ hacc (ix1 p)).trans ?_
  exact Finset.sum_congr rfl fun k _ => congrArg src (lift_lane hr p k)

/-- The column of scales as the vector unit computes it. -/
def colScale {M N : ℕ} (cN ce : BitVec 32) (a : FVec Ideal ⟨2, ![M, N]⟩ .f32)
    (hr : (⟨2, ![M, N]⟩ : Shape).Reduces [1] (⟨1, ![M]⟩ : Shape)) (hφ : FKind.Formats .f32)
    (hacc : (0x00000000#32 : BitVec (FTy.bits .f32)) = FKind.add.neutral .f32 hφ)
    (hc : (⟨1, ![M]⟩ : Shape).ShapeCasts ⟨2, ![M, 1]⟩) : FVec Ideal ⟨2, ![M, 1]⟩ .f32 :=
  rsqrt (addf (divf (shapeCast ⟨2, ![M, 1]⟩ (multiReduction .add [1] ⟨1, ![M]⟩ (mulf a a) 0x00000000#32 hr hφ hacc) hc)
    (broadcast ⟨2, ![M, 1]⟩ (Scalar.ofBits .f32 cN))) (broadcast ⟨2, ![M, 1]⟩ (Scalar.ofBits .f32 ce)))

/-- The column of scales at row `p` is the scale of row `p`. -/
theorem colScale_apply {M N : ℕ} (cN ce : BitVec 32) (a : FVec Ideal ⟨2, ![M, N]⟩ .f32)
    (hr : (⟨2, ![M, N]⟩ : Shape).Reduces [1] (⟨1, ![M]⟩ : Shape)) (hφ : FKind.Formats .f32)
    (hacc : (0x00000000#32 : BitVec (FTy.bits .f32)) = FKind.add.neutral .f32 hφ)
    (hc : (⟨1, ![M]⟩ : Shape).ShapeCasts ⟨2, ![M, 1]⟩) (p : Fin M) (z : Fin 1) :
    colScale cN ce a hr hφ hacc hc (ix2 p z) = scale cN ce (row a p) := by
  have h1 : shapeCast ⟨2, ![M, 1]⟩ (multiReduction .add [1] ⟨1, ![M]⟩ (mulf a a) 0x00000000#32 hr hφ hacc) hc (ix2 p z)
      = ∑ k : Fin N, row a p k * row a p k :=
    (Cert.ColRowBroadcast.colCast_apply _ hc p z).trans (laneSum_apply (mulf a a) hr hφ hacc p)
  exact congrArg (fun s => Ideal.rsqrt (Ideal.div s (Ideal.ofBits .f32 cN) + Ideal.ofBits .f32 ce)) h1

/-- Root-mean-square normalisation of the rows of `a` with gain `g`, as the vector unit computes it. -/
def vectorNorm {M N : ℕ} (cN ce : BitVec 32) (a : FVec Ideal ⟨2, ![M, N]⟩ .f32) (g : FVec Ideal ⟨1, ![N]⟩ .f32)
    (hr : (⟨2, ![M, N]⟩ : Shape).Reduces [1] (⟨1, ![M]⟩ : Shape)) (hφ : FKind.Formats .f32)
    (hacc : (0x00000000#32 : BitVec (FTy.bits .f32)) = FKind.add.neutral .f32 hφ)
    (hc : (⟨1, ![M]⟩ : Shape).ShapeCasts ⟨2, ![M, 1]⟩) (hb : (⟨2, ![M, 1]⟩ : Shape).Broadcasts ⟨2, ![M, N]⟩)
    (hg : (⟨1, ![N]⟩ : Shape).ShapeCasts ⟨2, ![1, N]⟩) (hgb : (⟨2, ![1, N]⟩ : Shape).Broadcasts ⟨2, ![M, N]⟩) :
    FVec Ideal ⟨2, ![M, N]⟩ .f32 :=
  mulf (mulf a (broadcastTo ⟨2, ![M, N]⟩ (colScale cN ce a hr hφ hacc hc) hb))
    (broadcastTo ⟨2, ![M, N]⟩ (shapeCast ⟨2, ![1, N]⟩ g hg) hgb)

/-- Row `p` of the vector unit's normalisation is rowNorm of row `p`. -/
theorem vectorNorm_row {M N : ℕ} (cN ce : BitVec 32) (a : FVec Ideal ⟨2, ![M, N]⟩ .f32) (g : FVec Ideal ⟨1, ![N]⟩ .f32)
    (hr : (⟨2, ![M, N]⟩ : Shape).Reduces [1] (⟨1, ![M]⟩ : Shape)) (hφ : FKind.Formats .f32)
    (hacc : (0x00000000#32 : BitVec (FTy.bits .f32)) = FKind.add.neutral .f32 hφ)
    (hc : (⟨1, ![M]⟩ : Shape).ShapeCasts ⟨2, ![M, 1]⟩) (hb : (⟨2, ![M, 1]⟩ : Shape).Broadcasts ⟨2, ![M, N]⟩)
    (hg : (⟨1, ![N]⟩ : Shape).ShapeCasts ⟨2, ![1, N]⟩) (hgb : (⟨2, ![1, N]⟩ : Shape).Broadcasts ⟨2, ![M, N]⟩) (p : Fin M) :
    row (vectorNorm cN ce a g hr hφ hacc hc hb hg hgb) p = rowNorm cN ce (row a p) (vec g) := by
  funext q
  have hs : broadcastTo ⟨2, ![M, N]⟩ (colScale cN ce a hr hφ hacc hc) hb (ix2 p q) = scale cN ce (row a p) :=
    (Cert.ColRowBroadcast.colBroadcast_apply _ hb p q).trans (colScale_apply cN ce a hr hφ hacc hc p 0)
  have hq : broadcastTo ⟨2, ![M, N]⟩ (shapeCast ⟨2, ![1, N]⟩ g hg) hgb (ix2 p q) = vec g q :=
    (Cert.ColRowBroadcast.rowBroadcast_apply _ hgb p q).trans (Cert.ColRowBroadcast.rowCast_apply g hg 0 q)
  show a (ix2 p q) * broadcastTo ⟨2, ![M, N]⟩ (colScale cN ce a hr hφ hacc hc) hb (ix2 p q)
      * broadcastTo ⟨2, ![M, N]⟩ (shapeCast ⟨2, ![1, N]⟩ g hg) hgb (ix2 p q) = _
  rw [hs, hq]
  rfl

/-! ## On the host -/

/-- The host's sum over the last axis from a scalar zero, at row `p`, is the sum of the row. -/
theorem hostSum_apply {M N : ℕ} (src : FVec Ideal ⟨2, ![M, N]⟩ .f32)
    (hrt : (⟨2, ![M, N]⟩ : Shape).ReducesTo [1] (⟨1, ![M]⟩ : Shape))
    (hr : (⟨2, ![M, N]⟩ : Shape).Reduces [1] (⟨1, ![M]⟩ : Shape)) (h0 : 0 < (⟨0, ![]⟩ : Shape).numel) (p : Fin M) :
    Host.reduceAdd src (constant (F := Ideal) ⟨0, ![]⟩ .f32 0x00000000#32) hrt h0 (ix1 p) = ∑ k : Fin N, src (ix2 p k) := by
  show Ideal.hostReduceAdd hrt src (Ideal.ofBits .f32 0x00000000#32) (ix1 p) = _
  rw [Ideal.hostReduceAdd_single hrt hr, Ideal.ofBits_zero_f32, zero_add]
  exact Finset.sum_congr rfl fun k _ => congrArg src (lift_lane hr p k)

/-- A scalar broadcast to any shape reads the scalar everywhere. -/
theorem scalarBroadcast_apply {α : Type} {t : Shape} (x : (⟨0, ![]⟩ : Shape).Idx → α)
    (h : (⟨0, ![]⟩ : Shape).BroadcastsInDim t (![] : Fin 0 → Fin t.rank)) (j : t.Idx) :
    broadcastInDim t ![] h x j = x ix0 :=
  broadcastInDim_apply _ h x j ix0 (fun a => a.elim0)

/-- A vector of `a` entries broadcast to a column [a, 1] reads, at (p, 0), entry `p`. -/
theorem hostCol_apply {α : Type} {a : ℕ} (u : (⟨1, ![a]⟩ : Shape).Idx → α)
    (h : (⟨1, ![a]⟩ : Shape).BroadcastsInDim ⟨2, ![a, 1]⟩ ![0]) (p : Fin a) (z : Fin 1) :
    broadcastInDim ⟨2, ![a, 1]⟩ ![0] h u (ix2 p z) = u (ix1 p) := by
  refine broadcastInDim_apply _ h u (ix2 p z) (ix1 p) fun c => ?_
  match c with
  | ⟨0, _⟩ =>
    show p.val = if a = 1 then 0 else p.val
    split
    · have := p.isLt; omega
    · rfl

/-- A column [a, 1] broadcast along the last axis to [a, b] reads, at (p, q), the column at (p, 0). -/
theorem hostColBroadcast_apply {α : Type} {a b : ℕ} (w : (⟨2, ![a, 1]⟩ : Shape).Idx → α)
    (h : (⟨2, ![a, 1]⟩ : Shape).BroadcastsInDim ⟨2, ![a, b]⟩ ![0, 1]) (p : Fin a) (q : Fin b) :
    broadcastInDim ⟨2, ![a, b]⟩ ![0, 1] h w (ix2 p q) = w (ix2 p (0 : Fin 1)) := by
  refine broadcastInDim_apply _ h w (ix2 p q) (ix2 p (0 : Fin 1)) fun c => ?_
  match c with
  | ⟨0, _⟩ =>
    show p.val = if a = 1 then 0 else p.val
    split
    · have := p.isLt; omega
    · rfl
  | ⟨1, _⟩ =>
    exact (if_pos rfl).symm

/-- A vector of `b` entries broadcast to a row [1, b] reads, at (0, q), entry `q`. -/
theorem hostRow_apply {α : Type} {b : ℕ} (u : (⟨1, ![b]⟩ : Shape).Idx → α)
    (h : (⟨1, ![b]⟩ : Shape).BroadcastsInDim ⟨2, ![1, b]⟩ ![1]) (z : Fin 1) (q : Fin b) :
    broadcastInDim ⟨2, ![1, b]⟩ ![1] h u (ix2 z q) = u (ix1 q) := by
  refine broadcastInDim_apply _ h u (ix2 z q) (ix1 q) fun c => ?_
  match c with
  | ⟨0, _⟩ =>
    show q.val = if b = 1 then 0 else q.val
    split
    · have := q.isLt; omega
    · rfl

/-- A row [1, b] broadcast down the first axis to [a, b] reads, at (p, q), the row at (0, q). -/
theorem hostRowBroadcast_apply {α : Type} {a b : ℕ} (w : (⟨2, ![1, b]⟩ : Shape).Idx → α)
    (h : (⟨2, ![1, b]⟩ : Shape).BroadcastsInDim ⟨2, ![a, b]⟩ ![0, 1]) (p : Fin a) (q : Fin b) :
    broadcastInDim ⟨2, ![a, b]⟩ ![0, 1] h w (ix2 p q) = w (ix2 (0 : Fin 1) q) := by
  refine broadcastInDim_apply _ h w (ix2 p q) (ix2 (0 : Fin 1) q) fun c => ?_
  match c with
  | ⟨0, _⟩ =>
    exact (if_pos rfl).symm
  | ⟨1, _⟩ =>
    show q.val = if b = 1 then 0 else q.val
    split
    · have := q.isLt; omega
    · rfl

/-- The column of scales as the host computes it. -/
def hostColScale {M N : ℕ} (cN ce : BitVec 32) (a : FVec Ideal ⟨2, ![M, N]⟩ .f32)
    (hrt : (⟨2, ![M, N]⟩ : Shape).ReducesTo [1] (⟨1, ![M]⟩ : Shape)) (h0 : 0 < (⟨0, ![]⟩ : Shape).numel)
    (hb1 : (⟨1, ![M]⟩ : Shape).BroadcastsInDim ⟨2, ![M, 1]⟩ ![0])
    (hbs : (⟨0, ![]⟩ : Shape).BroadcastsInDim ⟨2, ![M, 1]⟩ ![]) : FVec Ideal ⟨2, ![M, 1]⟩ .f32 :=
  Host.rsqrt (addf (Host.divf
      (broadcastInDim ⟨2, ![M, 1]⟩ ![0] hb1 (Host.reduceAdd (mulf a a) (constant (F := Ideal) ⟨0, ![]⟩ .f32 0x00000000#32) hrt h0))
      (broadcastInDim ⟨2, ![M, 1]⟩ ![] hbs (constant (F := Ideal) ⟨0, ![]⟩ .f32 cN)))
    (broadcastInDim ⟨2, ![M, 1]⟩ ![] hbs (constant (F := Ideal) ⟨0, ![]⟩ .f32 ce)))

/-- The host's column of scales at row `p` is the scale of row `p`. -/
theorem hostColScale_apply {M N : ℕ} (cN ce : BitVec 32) (a : FVec Ideal ⟨2, ![M, N]⟩ .f32)
    (hrt : (⟨2, ![M, N]⟩ : Shape).ReducesTo [1] (⟨1, ![M]⟩ : Shape))
    (hr : (⟨2, ![M, N]⟩ : Shape).Reduces [1] (⟨1, ![M]⟩ : Shape)) (h0 : 0 < (⟨0, ![]⟩ : Shape).numel)
    (hb1 : (⟨1, ![M]⟩ : Shape).BroadcastsInDim ⟨2, ![M, 1]⟩ ![0])
    (hbs : (⟨0, ![]⟩ : Shape).BroadcastsInDim ⟨2, ![M, 1]⟩ ![]) (p : Fin M) (z : Fin 1) :
    hostColScale cN ce a hrt h0 hb1 hbs (ix2 p z) = scale cN ce (row a p) := by
  have h1 : broadcastInDim ⟨2, ![M, 1]⟩ ![0] hb1
        (Host.reduceAdd (mulf a a) (constant (F := Ideal) ⟨0, ![]⟩ .f32 0x00000000#32) hrt h0) (ix2 p z)
      = ∑ k : Fin N, row a p k * row a p k :=
    (hostCol_apply _ hb1 p z).trans (hostSum_apply (mulf a a) hrt hr h0 p)
  have h2 : broadcastInDim ⟨2, ![M, 1]⟩ ![] hbs (constant (F := Ideal) ⟨0, ![]⟩ .f32 cN) (ix2 p z) = Ideal.ofBits .f32 cN :=
    scalarBroadcast_apply _ hbs (ix2 p z)
  have h3 : broadcastInDim ⟨2, ![M, 1]⟩ ![] hbs (constant (F := Ideal) ⟨0, ![]⟩ .f32 ce) (ix2 p z) = Ideal.ofBits .f32 ce :=
    scalarBroadcast_apply _ hbs (ix2 p z)
  show Ideal.rsqrt (Ideal.div
      (broadcastInDim ⟨2, ![M, 1]⟩ ![0] hb1 (Host.reduceAdd (mulf a a) (constant (F := Ideal) ⟨0, ![]⟩ .f32 0x00000000#32) hrt h0) (ix2 p z))
      (broadcastInDim ⟨2, ![M, 1]⟩ ![] hbs (constant (F := Ideal) ⟨0, ![]⟩ .f32 cN) (ix2 p z))
    + broadcastInDim ⟨2, ![M, 1]⟩ ![] hbs (constant (F := Ideal) ⟨0, ![]⟩ .f32 ce) (ix2 p z)) = _
  rw [h1, h2, h3]
  rfl

/-- Root-mean-square normalisation of the rows of `a` with gain `g`, as the host computes it. -/
def hostNorm {M N : ℕ} (cN ce : BitVec 32) (a : FVec Ideal ⟨2, ![M, N]⟩ .f32) (g : FVec Ideal ⟨1, ![N]⟩ .f32)
    (hrt : (⟨2, ![M, N]⟩ : Shape).ReducesTo [1] (⟨1, ![M]⟩ : Shape)) (h0 : 0 < (⟨0, ![]⟩ : Shape).numel)
    (hb1 : (⟨1, ![M]⟩ : Shape).BroadcastsInDim ⟨2, ![M, 1]⟩ ![0])
    (hbs : (⟨0, ![]⟩ : Shape).BroadcastsInDim ⟨2, ![M, 1]⟩ ![])
    (hbc : (⟨2, ![M, 1]⟩ : Shape).BroadcastsInDim ⟨2, ![M, N]⟩ ![0, 1])
    (hg : (⟨1, ![N]⟩ : Shape).BroadcastsInDim ⟨2, ![1, N]⟩ ![1])
    (hgb : (⟨2, ![1, N]⟩ : Shape).BroadcastsInDim ⟨2, ![M, N]⟩ ![0, 1]) : FVec Ideal ⟨2, ![M, N]⟩ .f32 :=
  mulf (mulf a (broadcastInDim ⟨2, ![M, N]⟩ ![0, 1] hbc (hostColScale cN ce a hrt h0 hb1 hbs)))
    (broadcastInDim ⟨2, ![M, N]⟩ ![0, 1] hgb (broadcastInDim ⟨2, ![1, N]⟩ ![1] hg g))

/-- Row `p` of the host's normalisation is rowNorm of row `p`. -/
theorem hostNorm_row {M N : ℕ} (cN ce : BitVec 32) (a : FVec Ideal ⟨2, ![M, N]⟩ .f32) (g : FVec Ideal ⟨1, ![N]⟩ .f32)
    (hrt : (⟨2, ![M, N]⟩ : Shape).ReducesTo [1] (⟨1, ![M]⟩ : Shape))
    (hr : (⟨2, ![M, N]⟩ : Shape).Reduces [1] (⟨1, ![M]⟩ : Shape)) (h0 : 0 < (⟨0, ![]⟩ : Shape).numel)
    (hb1 : (⟨1, ![M]⟩ : Shape).BroadcastsInDim ⟨2, ![M, 1]⟩ ![0])
    (hbs : (⟨0, ![]⟩ : Shape).BroadcastsInDim ⟨2, ![M, 1]⟩ ![])
    (hbc : (⟨2, ![M, 1]⟩ : Shape).BroadcastsInDim ⟨2, ![M, N]⟩ ![0, 1])
    (hg : (⟨1, ![N]⟩ : Shape).BroadcastsInDim ⟨2, ![1, N]⟩ ![1])
    (hgb : (⟨2, ![1, N]⟩ : Shape).BroadcastsInDim ⟨2, ![M, N]⟩ ![0, 1]) (p : Fin M) :
    row (hostNorm cN ce a g hrt h0 hb1 hbs hbc hg hgb) p = rowNorm cN ce (row a p) (vec g) := by
  funext q
  have hs : broadcastInDim ⟨2, ![M, N]⟩ ![0, 1] hbc (hostColScale cN ce a hrt h0 hb1 hbs) (ix2 p q) = scale cN ce (row a p) :=
    (hostColBroadcast_apply _ hbc p q).trans (hostColScale_apply cN ce a hrt hr h0 hb1 hbs p 0)
  have hq : broadcastInDim ⟨2, ![M, N]⟩ ![0, 1] hgb (broadcastInDim ⟨2, ![1, N]⟩ ![1] hg g) (ix2 p q) = vec g q :=
    (hostRowBroadcast_apply _ hgb p q).trans (hostRow_apply g hg 0 q)
  show a (ix2 p q) * broadcastInDim ⟨2, ![M, N]⟩ ![0, 1] hbc (hostColScale cN ce a hrt h0 hb1 hbs) (ix2 p q)
      * broadcastInDim ⟨2, ![M, N]⟩ ![0, 1] hgb (broadcastInDim ⟨2, ![1, N]⟩ ![1] hg g) (ix2 p q) = _
  rw [hs, hq]
  rfl

end Cert.RmsNorm

end
-- ==== Proof.LibGcnNodeSide.lean ====
/-
  The node side of a graph-convolution layer with a leaky rectifier, read on picked rows, over any sizes.

  From a matrix A of aggregated messages, the node features H, one scale per row (D) and one bias per column (B),
  the layer's entry (r, c) is leaky (A (r, c) + H (r, c) · D r + B c), where leaky y is y when y ≥ z and s · y
  otherwise, z and s two f32 words. The vector unit computes it on a block of picked rows: the scales arrive as a
  column and are broadcast along the lanes, the biases as a row broadcast down the sublanes, and the small product
  is written y · s. The host computes it on all rows: scales and biases laid out by two broadcasts each, the small
  product written s · y. On the extended reals a product commutes whatever its factors, so the block's result is the
  picked rows of the host's: no finiteness is asked of anything.
-/
import Idealize.ShloMosaic.PureOps.Ideal.Laws
import Idealize.ShloMosaic.Lib.Pipeline.Value
import Idealize.ShloMosaic.Lib.ValueIdx
import proofs.«134301_j23244363006452_2_alg».proof.Proof.LibBlockRows
import proofs.«134301_j23244363006452_2_alg».proof.Proof.LibColRowBroadcast
import proofs.«134301_j23244363006452_2_alg».proof.Proof.LibRmsNorm

noncomputable section

namespace Cert.GcnNodeSide

open Idealize.ShloMosaic Idealize.ShloMosaic.ValueIdx Cert.BlockRows Cert.ColRowBroadcast Cert.RmsNorm

variable {TM M N : Nat}

/-- The host's value before the rectifier: A + H ⊙ (D laid as a column, then along the rows) + (B laid as a row,
    then down the rows). -/
def preact (hc1 : (⟨1, ![M]⟩ : Shape).BroadcastsInDim ⟨2, ![M, 1]⟩ ![0])
    (hc2 : (⟨2, ![M, 1]⟩ : Shape).BroadcastsInDim ⟨2, ![M, N]⟩ ![0, 1])
    (hr1 : (⟨1, ![N]⟩ : Shape).BroadcastsInDim ⟨2, ![1, N]⟩ ![1])
    (hr2 : (⟨2, ![1, N]⟩ : Shape).BroadcastsInDim ⟨2, ![M, N]⟩ ![0, 1])
    (A H : FVec Ideal ⟨2, ![M, N]⟩ .f32) (D : FVec Ideal ⟨1, ![M]⟩ .f32) (B : FVec Ideal ⟨1, ![N]⟩ .f32) :
    FVec Ideal ⟨2, ![M, N]⟩ .f32 :=
  addf (addf A (mulf H (broadcastInDim ⟨2, ![M, N]⟩ ![0, 1] hc2 (broadcastInDim ⟨2, ![M, 1]⟩ ![0] hc1 D))))
    (broadcastInDim ⟨2, ![M, N]⟩ ![0, 1] hr2 (broadcastInDim ⟨2, ![1, N]⟩ ![1] hr1 B))

/-- Its entry (r, c) is A (r, c) + H (r, c) · D r + B c. -/
theorem preact_apply (hc1 : (⟨1, ![M]⟩ : Shape).BroadcastsInDim ⟨2, ![M, 1]⟩ ![0])
    (hc2 : (⟨2, ![M, 1]⟩ : Shape).BroadcastsInDim ⟨2, ![M, N]⟩ ![0, 1])
    (hr1 : (⟨1, ![N]⟩ : Shape).BroadcastsInDim ⟨2, ![1, N]⟩ ![1])
    (hr2 : (⟨2, ![1, N]⟩ : Shape).BroadcastsInDim ⟨2, ![M, N]⟩ ![0, 1])
    (A H : FVec Ideal ⟨2, ![M, N]⟩ .f32) (D : FVec Ideal ⟨1, ![M]⟩ .f32) (B : FVec Ideal ⟨1, ![N]⟩ .f32)
    (r : Fin M) (c : Fin N) :
    preact hc1 hc2 hr1 hr2 A H D B (ix2 r c) = A (ix2 r c) + H (ix2 r c) * D (ix1 r) + B (ix1 c) := by
  unfold preact
  rw [addf_apply, addf_apply, mulf_apply, hostColBroadcast_apply, hostCol_apply, hostRowBroadcast_apply, hostRow_apply]

/-- The host's leaky rectifier: y where y ≥ z, else s · y, the two constants broadcast from rank zero. -/
def leakyHost (wz ws : BitVec 32) (h0 : (⟨0, ![]⟩ : Shape).BroadcastsInDim ⟨2, ![M, N]⟩ ![])
    (X : FVec Ideal ⟨2, ![M, N]⟩ .f32) : FVec Ideal ⟨2, ![M, N]⟩ .f32 :=
  select (cmpf .oge X (broadcastInDim ⟨2, ![M, N]⟩ ![] h0 (constant (F := Ideal) ⟨0, ![]⟩ .f32 wz))) X
    (mulf (broadcastInDim ⟨2, ![M, N]⟩ ![] h0 (constant (F := Ideal) ⟨0, ![]⟩ .f32 ws)) X)

theorem leakyHost_apply (wz ws : BitVec 32) (h0 : (⟨0, ![]⟩ : Shape).BroadcastsInDim ⟨2, ![M, N]⟩ ![])
    (X : FVec Ideal ⟨2, ![M, N]⟩ .f32) (i : (⟨2, ![M, N]⟩ : Shape).Idx) :
    leakyHost wz ws h0 X i
      = Scalar.select (FloatOps.cmpf (F := Ideal) .oge (X i) (Ideal.ofBits .f32 wz)) (X i) (Ideal.ofBits .f32 ws * X i) := by
  unfold leakyHost
  rw [select_apply, cmpf_apply, mulf_apply, scalarBroadcast_apply, scalarBroadcast_apply]
  rfl

/-- The vector unit's leaky rectifier: y where y ≥ z, else y · s, the two constants splat. -/
def leakyVec (wz ws : BitVec 32) (y : FVec Ideal ⟨2, ![TM, N]⟩ .f32) : FVec Ideal ⟨2, ![TM, N]⟩ .f32 :=
  select (cmpf .oge y (broadcast ⟨2, ![TM, N]⟩ (Scalar.ofBits (F := Ideal) .f32 wz))) y
    (mulf y (broadcast ⟨2, ![TM, N]⟩ (Scalar.ofBits (F := Ideal) .f32 ws)))

theorem leakyVec_apply (wz ws : BitVec 32) (y : FVec Ideal ⟨2, ![TM, N]⟩ .f32) (j : (⟨2, ![TM, N]⟩ : Shape).Idx) :
    leakyVec wz ws y j
      = Scalar.select (FloatOps.cmpf (F := Ideal) .oge (y j) (Ideal.ofBits .f32 wz)) (y j) (y j * Ideal.ofBits .f32 ws) := rfl

/-- The host's node side on all M rows. -/
def hostSide (wz ws : BitVec 32) (h0 : (⟨0, ![]⟩ : Shape).BroadcastsInDim ⟨2, ![M, N]⟩ ![])
    (hc1 : (⟨1, ![M]⟩ : Shape).BroadcastsInDim ⟨2, ![M, 1]⟩ ![0])
    (hc2 : (⟨2, ![M, 1]⟩ : Shape).BroadcastsInDim ⟨2, ![M, N]⟩ ![0, 1])
    (hr1 : (⟨1, ![N]⟩ : Shape).BroadcastsInDim ⟨2, ![1, N]⟩ ![1])
    (hr2 : (⟨2, ![1, N]⟩ : Shape).BroadcastsInDim ⟨2, ![M, N]⟩ ![0, 1])
    (A H : FVec Ideal ⟨2, ![M, N]⟩ .f32) (D : FVec Ideal ⟨1, ![M]⟩ .f32) (B : FVec Ideal ⟨1, ![N]⟩ .f32) :
    FVec Ideal ⟨2, ![M, N]⟩ .f32 :=
  leakyHost wz ws h0 (preact hc1 hc2 hr1 hr2 A H D B)

/-- The vector unit's node side on a block of TM rows: a, h the block's rows of messages and features, d its
    column of scales, b the row of biases. -/
def vectorSide (wz ws : BitVec 32)
    (hsa : (⟨2, ![TM, N]⟩ : Shape).ShapeCasts ⟨2, ![TM, N]⟩) (hsd : (⟨2, ![TM, 1]⟩ : Shape).ShapeCasts ⟨2, ![TM, 1]⟩)
    (hsb : (⟨2, ![1, N]⟩ : Shape).ShapeCasts ⟨2, ![1, N]⟩)
    (hbd : (⟨2, ![TM, 1]⟩ : Shape).Broadcasts ⟨2, ![TM, N]⟩) (hbb : (⟨2, ![1, N]⟩ : Shape).Broadcasts ⟨2, ![TM, N]⟩)
    (a h : FVec Ideal ⟨2, ![TM, N]⟩ .f32) (d : FVec Ideal ⟨2, ![TM, 1]⟩ .f32) (b : FVec Ideal ⟨2, ![1, N]⟩ .f32) :
    FVec Ideal ⟨2, ![TM, N]⟩ .f32 :=
  leakyVec wz ws
    (addf (addf (shapeCast ⟨2, ![TM, N]⟩ a hsa)
        (mulf (shapeCast ⟨2, ![TM, N]⟩ h hsa) (broadcastTo ⟨2, ![TM, N]⟩ (shapeCast ⟨2, ![TM, 1]⟩ d hsd) hbd)))
      (broadcastTo ⟨2, ![TM, N]⟩ (shapeCast ⟨2, ![1, N]⟩ b hsb) hbb))

/-- On the rows ρ picks — the messages and features the picked rows of A and H, the scales the picked rows of the
    vector D cast to a column, the biases the vector B cast to a row — the vector unit's node side is the picked
    rows of the host's. -/
theorem vectorSide_rows (ρ : Fin TM → Fin M) (wz ws : BitVec 32)
    (hsa : (⟨2, ![TM, N]⟩ : Shape).ShapeCasts ⟨2, ![TM, N]⟩) (hsd : (⟨2, ![TM, 1]⟩ : Shape).ShapeCasts ⟨2, ![TM, 1]⟩)
    (hsb : (⟨2, ![1, N]⟩ : Shape).ShapeCasts ⟨2, ![1, N]⟩)
    (hbd : (⟨2, ![TM, 1]⟩ : Shape).Broadcasts ⟨2, ![TM, N]⟩) (hbb : (⟨2, ![1, N]⟩ : Shape).Broadcasts ⟨2, ![TM, N]⟩)
    (hcd : (⟨1, ![M]⟩ : Shape).ShapeCasts ⟨2, ![M, 1]⟩) (hcb : (⟨1, ![N]⟩ : Shape).ShapeCasts ⟨2, ![1, N]⟩)
    (h0 : (⟨0, ![]⟩ : Shape).BroadcastsInDim ⟨2, ![M, N]⟩ ![])
    (hc1 : (⟨1, ![M]⟩ : Shape).BroadcastsInDim ⟨2, ![M, 1]⟩ ![0])
    (hc2 : (⟨2, ![M, 1]⟩ : Shape).BroadcastsInDim ⟨2, ![M, N]⟩ ![0, 1])
    (hr1 : (⟨1, ![N]⟩ : Shape).BroadcastsInDim ⟨2, ![1, N]⟩ ![1])
    (hr2 : (⟨2, ![1, N]⟩ : Shape).BroadcastsInDim ⟨2, ![M, N]⟩ ![0, 1])
    (A H : FVec Ideal ⟨2, ![M, N]⟩ .f32) (D : FVec Ideal ⟨1, ![M]⟩ .f32) (B : FVec Ideal ⟨1, ![N]⟩ .f32) :
    vectorSide wz ws hsa hsd hsb hbd hbb (rowsOf ρ A) (rowsOf ρ H) (rowsOf ρ (shapeCast ⟨2, ![M, 1]⟩ D hcd))
        (shapeCast ⟨2, ![1, N]⟩ B hcb)
      = rowsOf ρ (hostSide wz ws h0 hc1 hc2 hr1 hr2 A H D B) := by
  funext j
  obtain ⟨p, q, rfl⟩ : ∃ (p : Fin TM) (q : Fin N), j = ix2 p q := ⟨j 0, j 1, eq_ix2 j⟩
  unfold vectorSide hostSide
  rw [leakyVec_apply, rowsOf_apply, leakyHost_apply, preact_apply]
  have hy : (addf (addf (shapeCast ⟨2, ![TM, N]⟩ (rowsOf ρ A) hsa)
        (mulf (shapeCast ⟨2, ![TM, N]⟩ (rowsOf ρ H) hsa)
          (broadcastTo ⟨2, ![TM, N]⟩ (shapeCast ⟨2, ![TM, 1]⟩ (rowsOf ρ (shapeCast ⟨2, ![M, 1]⟩ D hcd)) hsd) hbd)))
      (broadcastTo ⟨2, ![TM, N]⟩ (shapeCast ⟨2, ![1, N]⟩ (shapeCast ⟨2, ![1, N]⟩ B hcb) hsb) hbb)) (ix2 p q)
      = A (ix2 (ρ p) q) + H (ix2 (ρ p) q) * D (ix1 (ρ p)) + B (ix1 q) := by
    rw [shapeCast_self, shapeCast_self, shapeCast_self, shapeCast_self, addf_apply, addf_apply, mulf_apply,
      colBroadcast_apply, rowBroadcast_apply, rowsOf_apply, rowsOf_apply, rowsOf_apply, colCast_apply, rowCast_apply]
  rw [hy]
  exact congrArg _ (mul_comm _ _)

end Cert.GcnNodeSide

end
-- ==== Proof.CombineValue.lean ====
/-
  The two node-side regions read as whole arrays. Each region cuts the rows of the aggregated messages, of the node
  features and of the column of squared inverse root degrees into twenty blocks of 5000 and takes the bias row
  whole; at point t it computes leaky (messages + features · scale + bias) on rows 5000·t … 5000·t + 4999 and writes
  the block back to the same rows. That block is the picked rows of the host's node side on the whole arrays (a
  product commutes on the extended reals), the twenty blocks cover the array, and so the array ends at the host's
  node side of the arrays as the region found them.
-/
import proofs.«134301_j23244363006452_2_alg».proof.Proof.Gen.KernelIdeal.Frame
import proofs.«134301_j23244363006452_2_alg».proof.Proof.LibGcnNodeSide
import proofs.«134301_j23244363006452_2_alg».proof.Proof.MatmulValue
import Idealize.ShloMosaic.Lib.Pipeline.Value
import Idealize.ShloMosaic.Lib.ValueIdx

set_option maxRecDepth 16384

noncomputable section

namespace Cert.KernelIdeal.NodeSides

open Cert.KernelIdeal Cert.KernelIdeal.Gen Cert.BlockRows Cert.GcnNodeSide Cert.KernelIdeal.Products
open Idealize.ShloMosaic Idealize.ShloMosaic.TcCoe Idealize.ShloMosaic.ValueIdx Idealize.SL.Sem
open Idealize.ShloMosaic.Pipeline (Dat Cfg Window)

variable (V : (c : Dev nD) → (b : Ref sig .tc) → Buf (Elt Ideal) ((c : Thread nD τ).loc b))

/-! ## The first layer's node side (region 1) -/

theorem lt1 (t : Fin cfg1.N) : t.val < 20 := lt_of_lt_of_eq t.isLt N_1

/-- The printed index maps, decided over the grid: messages, features, scales and the result move down the rows with
    the point; the bias row stays. -/
theorem maps1 : ∀ t : Fin cfg1.N, win1_0.index t (0 : Fin 2) = t.val ∧ win1_0.index t (1 : Fin 2) = 0
    ∧ win1_1.index t (0 : Fin 2) = t.val ∧ win1_1.index t (1 : Fin 2) = 0
    ∧ win1_2.index t (0 : Fin 2) = t.val ∧ win1_2.index t (1 : Fin 2) = 0
    ∧ win1_3.index t (0 : Fin 2) = 0 ∧ win1_3.index t (1 : Fin 2) = 0
    ∧ win1_4.index t (0 : Fin 2) = t.val ∧ win1_4.index t (1 : Fin 2) = 0 :=
  (by decide +kernel : ∀ t : Fin grid1.N, _)

/-- Every block of rows is some point's. -/
theorem onto1 : ∀ q : Fin 20, ∃ t : Fin cfg1.N, win1_4.index t = ![q.val, 0] :=
  (by decide +kernel : ∀ q : Fin 20, ∃ t : Fin grid1.N, win1_4.index t = ![q.val, 0])

/-- The body on picked rows of the messages A and features H, the picked rows of the scales D cast to a column, and
    the biases B cast to a row, is the picked rows of the host's node side. -/
theorem body1_rows (ρ : Fin 5000 → Fin 100000) (x0 x1 : Vec Ideal S5000x64 .f32) (x2 : Vec Ideal S5000x1 .f32) (x3 : Vec Ideal S1x64 .f32)
    (hcd : (⟨1, ![100000]⟩ : Shape).ShapeCasts ⟨2, ![100000, 1]⟩) (hcb : (⟨1, ![64]⟩ : Shape).ShapeCasts ⟨2, ![1, 64]⟩)
    (h0 : (⟨0, ![]⟩ : Shape).BroadcastsInDim ⟨2, ![100000, 64]⟩ ![])
    (hc1 : (⟨1, ![100000]⟩ : Shape).BroadcastsInDim ⟨2, ![100000, 1]⟩ ![0])
    (hc2 : (⟨2, ![100000, 1]⟩ : Shape).BroadcastsInDim ⟨2, ![100000, 64]⟩ ![0, 1])
    (hr1 : (⟨1, ![64]⟩ : Shape).BroadcastsInDim ⟨2, ![1, 64]⟩ ![1])
    (hr2 : (⟨2, ![1, 64]⟩ : Shape).BroadcastsInDim ⟨2, ![100000, 64]⟩ ![0, 1])
    (A H : FVec Ideal ⟨2, ![100000, 64]⟩ .f32) (D : FVec Ideal ⟨1, ![100000]⟩ .f32) (B : FVec Ideal ⟨1, ![64]⟩ .f32)
    (e0 : x0 = rowsOf ρ A) (e1 : x1 = rowsOf ρ H) (e2 : x2 = rowsOf ρ (shapeCast ⟨2, ![100000, 1]⟩ D hcd))
    (e3 : x3 = shapeCast ⟨2, ![1, 64]⟩ B hcb) :
    k1_pay1 x0 x1 x2 x3 = rowsOf ρ (hostSide 0x00000000#32 0x3C23D70A#32 h0 hc1 hc2 hr1 hr2 A H D B) := by
  subst e0 e1 e2 e3
  unfold k1_pay1
  exact vectorSide_rows ρ 0x00000000#32 0x3C23D70A#32 shapeCasts_S5000x64_S5000x64 shapeCasts_S5000x1_S5000x1 shapeCasts_S1x64_S1x64
    broadcasts_S5000x1_S5000x64 broadcasts_S1x64_S5000x64 hcd hcb h0 hc1 hc2 hr1 hr2 A H D B

/-- What point t writes back is block t of the host's node side of the arrays as the region finds them, when the
    scale column and the bias row it finds are a vector D and a vector B re-laid. -/
theorem flushed1 (c : Dev nD) (t : Fin cfg1.N)
    (hcd : (⟨1, ![100000]⟩ : Shape).ShapeCasts ⟨2, ![100000, 1]⟩) (hcb : (⟨1, ![64]⟩ : Shape).ShapeCasts ⟨2, ![1, 64]⟩)
    (h0 : (⟨0, ![]⟩ : Shape).BroadcastsInDim ⟨2, ![100000, 64]⟩ ![])
    (hc1 : (⟨1, ![100000]⟩ : Shape).BroadcastsInDim ⟨2, ![100000, 1]⟩ ![0])
    (hc2 : (⟨2, ![100000, 1]⟩ : Shape).BroadcastsInDim ⟨2, ![100000, 64]⟩ ![0, 1])
    (hr1 : (⟨1, ![64]⟩ : Shape).BroadcastsInDim ⟨2, ![1, 64]⟩ ![1])
    (hr2 : (⟨2, ![1, 64]⟩ : Shape).BroadcastsInDim ⟨2, ![100000, 64]⟩ ![0, 1])
    (D : FVec Ideal ⟨1, ![100000]⟩ .f32) (B : FVec Ideal ⟨1, ![64]⟩ .f32)
    (hD : V c main_v41 = shapeCast ⟨2, ![100000, 1]⟩ D hcd) (hB : V c main_v42 = shapeCast ⟨2, ![1, 64]⟩ B hcb) :
    (dat1 V c).flushed 4 t = ((cfg1.win 4).blk t).view.read (Elt Ideal)
      (hostSide 0x00000000#32 0x3C23D70A#32 h0 hc1 hc2 hr1 hr2 (V c main_v39) (V c main_v4) D B) := by
  show (cfg1.win 4).cut (grid1.coords t) ((dat1 V c).after 4 t) = _
  rw [after1_4]
  unfold out1_4
  rw [View.canon_unit_zero origin]
  simp only [View.ld_unit_zero (S := S5000x64) origin, View.ld_unit_zero (S := S5000x1) origin, View.ld_unit_zero (S := S1x64) origin]
  obtain ⟨a0, a1, b0, b1, d0, d1, r0, r1, o0, o1⟩ := maps1 t
  have hA : iblk1 V c 0 t = rowsOf (pick t.val (lt1 t)) (V c main_v39) := by
    funext j
    show V c main_v39 (((cfg1.win 0).blk t).view.emb j) = V c main_v39 (ix2 (pick t.val (lt1 t) (j 0)) (j 1))
    refine congrArg _ (funext fun a => Fin.ext ?_)
    match a with
    | ⟨0, _⟩ => show win1_0.index t (0 : Fin 2) * 5000 + 1 * (j 0).val = 5000 * t.val + (j 0).val; omega
    | ⟨1, _⟩ => show win1_0.index t (1 : Fin 2) * 64 + 1 * (j 1).val = (j 1).val; omega
  have hH : iblk1 V c 1 t = rowsOf (pick t.val (lt1 t)) (V c main_v4) := by
    funext j
    show V c main_v4 (((cfg1.win 1).blk t).view.emb j) = V c main_v4 (ix2 (pick t.val (lt1 t) (j 0)) (j 1))
    refine congrArg _ (funext fun a => Fin.ext ?_)
    match a with
    | ⟨0, _⟩ => show win1_1.index t (0 : Fin 2) * 5000 + 1 * (j 0).val = 5000 * t.val + (j 0).val; omega
    | ⟨1, _⟩ => show win1_1.index t (1 : Fin 2) * 64 + 1 * (j 1).val = (j 1).val; omega
  have hDc : iblk1 V c 2 t = rowsOf (pick t.val (lt1 t)) (shapeCast ⟨2, ![100000, 1]⟩ D hcd) := by
    funext j
    show V c main_v41 (((cfg1.win 2).blk t).view.emb j) = shapeCast ⟨2, ![100000, 1]⟩ D hcd (ix2 (pick t.val (lt1 t) (j 0)) (j 1))
    rw [hD]
    refine congrArg _ (funext fun a => Fin.ext ?_)
    match a with
    | ⟨0, _⟩ => show win1_2.index t (0 : Fin 2) * 5000 + 1 * (j 0).val = 5000 * t.val + (j 0).val; omega
    | ⟨1, _⟩ => show win1_2.index t (1 : Fin 2) * 1 + 1 * (j 1).val = (j 1).val; omega
  have hBr : iblk1 V c 3 t = shapeCast ⟨2, ![1, 64]⟩ B hcb := by
    funext j
    show V c main_v42 (((cfg1.win 3).blk t).view.emb j) = shapeCast ⟨2, ![1, 64]⟩ B hcb j
    rw [hB]
    refine congrArg _ (funext fun a => Fin.ext ?_)
    match a with
    | ⟨0, _⟩ => show win1_3.index t (0 : Fin 2) * 1 + 1 * (j 0).val = (j 0).val; omega
    | ⟨1, _⟩ => show win1_3.index t (1 : Fin 2) * 64 + 1 * (j 1).val = (j 1).val; omega
  funext j
  show k1_pay1 (iblk1 V c 0 t) (iblk1 V c 1 t) (iblk1 V c 2 t) (iblk1 V c 3 t) j
    = hostSide 0x00000000#32 0x3C23D70A#32 h0 hc1 hc2 hr1 hr2 (V c main_v39) (V c main_v4) D B (((cfg1.win 4).blk t).view.emb j)
  refine (congrFun (body1_rows (pick t.val (lt1 t)) _ _ _ _ hcd hcb h0 hc1 hc2 hr1 hr2 (V c main_v39) (V c main_v4) D B hA hH hDc hBr) j).trans ?_
  show hostSide 0x00000000#32 0x3C23D70A#32 h0 hc1 hc2 hr1 hr2 (V c main_v39) (V c main_v4) D B (ix2 (pick t.val (lt1 t) (j 0)) (j 1)) = _
  refine congrArg _ (funext fun a => Fin.ext ?_)
  match a with
  | ⟨0, _⟩ => show 5000 * t.val + (j 0).val = win1_4.index t (0 : Fin 2) * 5000 + 1 * (j 0).val; omega
  | ⟨1, _⟩ => show (j 1).val = win1_4.index t (1 : Fin 2) * 64 + 1 * (j 1).val; omega

/-- An index of the result is in point t's block iff each coordinate is in the block's range on its axis. -/
theorem mem1 (t : Fin cfg1.N) (i : S100000x64.Idx) :
    i ∈ ((cfg1.win 4).blk t).view.set ↔ ∀ a : Fin 2, win1_4.index t a * S5000x64.size a ≤ (i a).val ∧ (i a).val < win1_4.index t a * S5000x64.size a + S5000x64.size a := by
  show i ∈ ((View.whole main_v43).slice (win1_4.rect t)).set ↔ _
  rw [View.set_slice_whole, Rect.mem_set_unit]
  exact Iff.rfl

/-- Every index of the result is in some point's block. -/
theorem cover1 (i : S100000x64.Idx) : ∃ t : Fin cfg1.N, (cfg1.win 4).flush t = true ∧ i ∈ ((cfg1.win 4).blk t).view.set := by
  have hi0 : (i 0).val < 100000 := (i 0).isLt
  have hi1 : (i 1).val < 64 := (i 1).isLt
  obtain ⟨t, ht⟩ := onto1 ⟨(i 0).val / 5000, by omega⟩
  have q0 : win1_4.index t (0 : Fin 2) = (i 0).val / 5000 := congrFun ht 0
  have q1 : win1_4.index t (1 : Fin 2) = 0 := congrFun ht 1
  refine ⟨t, flush1_4 t, ?_⟩
  rw [mem1]
  intro a
  match a with
  | ⟨0, _⟩ => show win1_4.index t (0 : Fin 2) * 5000 ≤ (i 0).val ∧ (i 0).val < win1_4.index t (0 : Fin 2) * 5000 + 5000; omega
  | ⟨1, _⟩ => show win1_4.index t (1 : Fin 2) * 64 ≤ (i 1).val ∧ (i 1).val < win1_4.index t (1 : Fin 2) * 64 + 64; omega

/-- Region 1 leaves its result array at the host's node side of the arrays it found. -/
theorem value1 (c : Dev nD)
    (hcd : (⟨1, ![100000]⟩ : Shape).ShapeCasts ⟨2, ![100000, 1]⟩) (hcb : (⟨1, ![64]⟩ : Shape).ShapeCasts ⟨2, ![1, 64]⟩)
    (h0 : (⟨0, ![]⟩ : Shape).BroadcastsInDim ⟨2, ![100000, 64]⟩ ![])
    (hc1 : (⟨1, ![100000]⟩ : Shape).BroadcastsInDim ⟨2, ![100000, 1]⟩ ![0])
    (hc2 : (⟨2, ![100000, 1]⟩ : Shape).BroadcastsInDim ⟨2, ![100000, 64]⟩ ![0, 1])
    (hr1 : (⟨1, ![64]⟩ : Shape).BroadcastsInDim ⟨2, ![1, 64]⟩ ![1])
    (hr2 : (⟨2, ![1, 64]⟩ : Shape).BroadcastsInDim ⟨2, ![100000, 64]⟩ ![0, 1])
    (D : FVec Ideal ⟨1, ![100000]⟩ .f32) (B : FVec Ideal ⟨1, ![64]⟩ .f32)
    (hD : V c main_v41 = shapeCast ⟨2, ![100000, 1]⟩ D hcd) (hB : V c main_v42 = shapeCast ⟨2, ![1, 64]⟩ B hcb) :
    (dat1 V c).arrAt 4 cfg1.N = hostSide 0x00000000#32 0x3C23D70A#32 h0 hc1 hc2 hr1 hr2 (V c main_v39) (V c main_v4) D B :=
  (dat1 V c).arrAt_eq_of_cover 4 _ (fun t _ => flushed1 V c t hcd hcb h0 hc1 hc2 hr1 hr2 D B hD hB) cover1

/-! ## The second layer's node side (region 3) -/

theorem lt3 (t : Fin cfg3.N) : t.val < 20 := lt_of_lt_of_eq t.isLt N_3

/-- The printed index maps, decided over the grid: messages, features, scales and the result move down the rows with
    the point; the bias row stays. -/
theorem maps3 : ∀ t : Fin cfg3.N, win3_0.index t (0 : Fin 2) = t.val ∧ win3_0.index t (1 : Fin 2) = 0
    ∧ win3_1.index t (0 : Fin 2) = t.val ∧ win3_1.index t (1 : Fin 2) = 0
    ∧ win3_2.index t (0 : Fin 2) = t.val ∧ win3_2.index t (1 : Fin 2) = 0
    ∧ win3_3.index t (0 : Fin 2) = 0 ∧ win3_3.index t (1 : Fin 2) = 0
    ∧ win3_4.index t (0 : Fin 2) = t.val ∧ win3_4.index t (1 : Fin 2) = 0 :=
  (by decide +kernel : ∀ t : Fin grid3.N, _)

/-- Every block of rows is some point's. -/
theorem onto3 : ∀ q : Fin 20, ∃ t : Fin cfg3.N, win3_4.index t = ![q.val, 0] :=
  (by decide +kernel : ∀ q : Fin 20, ∃ t : Fin grid3.N, win3_4.index t = ![q.val, 0])

/-- The body on picked rows of the messages A and features H, the picked rows of the scales D cast to a column, and
    the biases B cast to a row, is the picked rows of the host's node side. -/
theorem body3_rows (ρ : Fin 5000 → Fin 100000) (x0 x1 : Vec Ideal S5000x16 .f32) (x2 : Vec Ideal S5000x1 .f32) (x3 : Vec Ideal S1x16 .f32)
    (hcd : (⟨1, ![100000]⟩ : Shape).ShapeCasts ⟨2, ![100000, 1]⟩) (hcb : (⟨1, ![16]⟩ : Shape).ShapeCasts ⟨2, ![1, 16]⟩)
    (h0 : (⟨0, ![]⟩ : Shape).BroadcastsInDim ⟨2, ![100000, 16]⟩ ![])
    (hc1 : (⟨1, ![100000]⟩ : Shape).BroadcastsInDim ⟨2, ![100000, 1]⟩ ![0])
    (hc2 : (⟨2, ![100000, 1]⟩ : Shape).BroadcastsInDim ⟨2, ![100000, 16]⟩ ![0, 1])
    (hr1 : (⟨1, ![16]⟩ : Shape).BroadcastsInDim ⟨2, ![1, 16]⟩ ![1])
    (hr2 : (⟨2, ![1, 16]⟩ : Shape).BroadcastsInDim ⟨2, ![100000, 16]⟩ ![0, 1])
    (A H : FVec Ideal ⟨2, ![100000, 16]⟩ .f32) (D : FVec Ideal ⟨1, ![100000]⟩ .f32) (B : FVec Ideal ⟨1, ![16]⟩ .f32)
    (e0 : x0 = rowsOf ρ A) (e1 : x1 = rowsOf ρ H) (e2 : x2 = rowsOf ρ (shapeCast ⟨2, ![100000, 1]⟩ D hcd))
    (e3 : x3 = shapeCast ⟨2, ![1, 16]⟩ B hcb) :
    k3_pay1 x0 x1 x2 x3 = rowsOf ρ (hostSide 0x00000000#32 0x3C23D70A#32 h0 hc1 hc2 hr1 hr2 A H D B) := by
  subst e0 e1 e2 e3
  unfold k3_pay1
  exact vectorSide_rows ρ 0x00000000#32 0x3C23D70A#32 shapeCasts_S5000x16_S5000x16 shapeCasts_S5000x1_S5000x1 shapeCasts_S1x16_S1x16
    broadcasts_S5000x1_S5000x16 broadcasts_S1x16_S5000x16 hcd hcb h0 hc1 hc2 hr1 hr2 A H D B

/-- What point t writes back is block t of the host's node side of the arrays as the region finds them, when the
    scale column and the bias row it finds are a vector D and a vector B re-laid. -/
theorem flushed3 (c : Dev nD) (t : Fin cfg3.N)
    (hcd : (⟨1, ![100000]⟩ : Shape).ShapeCasts ⟨2, ![100000, 1]⟩) (hcb : (⟨1, ![16]⟩ : Shape).ShapeCasts ⟨2, ![1, 16]⟩)
    (h0 : (⟨0, ![]⟩ : Shape).BroadcastsInDim ⟨2, ![100000, 16]⟩ ![])
    (hc1 : (⟨1, ![100000]⟩ : Shape).BroadcastsInDim ⟨2, ![100000, 1]⟩ ![0])
    (hc2 : (⟨2, ![100000, 1]⟩ : Shape).BroadcastsInDim ⟨2, ![100000, 16]⟩ ![0, 1])
    (hr1 : (⟨1, ![16]⟩ : Shape).BroadcastsInDim ⟨2, ![1, 16]⟩ ![1])
    (hr2 : (⟨2, ![1, 16]⟩ : Shape).BroadcastsInDim ⟨2, ![100000, 16]⟩ ![0, 1])
    (D : FVec Ideal ⟨1, ![100000]⟩ .f32) (B : FVec Ideal ⟨1, ![16]⟩ .f32)
    (hD : V c main_v81 = shapeCast ⟨2, ![100000, 1]⟩ D hcd) (hB : V c main_v82 = shapeCast ⟨2, ![1, 16]⟩ B hcb) :
    (dat3 V c).flushed 4 t = ((cfg3.win 4).blk t).view.read (Elt Ideal)
      (hostSide 0x00000000#32 0x3C23D70A#32 h0 hc1 hc2 hr1 hr2 (V c main_v79) (V c main_v44) D B) := by
  show (cfg3.win 4).cut (grid3.coords t) ((dat3 V c).after 4 t) = _
  rw [after3_4]
  unfold out3_4
  rw [View.canon_unit_zero origin]
  simp only [View.ld_unit_zero (S := S5000x16) origin, View.ld_unit_zero (S := S5000x1) origin, View.ld_unit_zero (S := S1x16) origin]
  obtain ⟨a0, a1, b0, b1, d0, d1, r0, r1, o0, o1⟩ := maps3 t
  have hA : iblk3 V c 0 t = rowsOf (pick t.val (lt3 t)) (V c main_v79) := by
    funext j
    show V c main_v79 (((cfg3.win 0).blk t).view.emb j) = V c main_v79 (ix2 (pick t.val (lt3 t) (j 0)) (j 1))
    refine congrArg _ (funext fun a => Fin.ext ?_)
    match a with
    | ⟨0, _⟩ => show win3_0.index t (0 : Fin 2) * 5000 + 1 * (j 0).val = 5000 * t.val + (j 0).val; omega
    | ⟨1, _⟩ => show win3_0.index t (1 : Fin 2) * 16 + 1 * (j 1).val = (j 1).val; omega
  have hH : iblk3 V c 1 t = rowsOf (pick t.val (lt3 t)) (V c main_v44) := by
    funext j
    show V c main_v44 (((cfg3.win 1).blk t).view.emb j) = V c main_v44 (ix2 (pick t.val (lt3 t) (j 0)) (j 1))
    refine congrArg _ (funext fun a => Fin.ext ?_)
    match a with
    | ⟨0, _⟩ => show win3_1.index t (0 : Fin 2) * 5000 + 1 * (j 0).val = 5000 * t.val + (j 0).val; omega
    | ⟨1, _⟩ => show win3_1.index t (1 : Fin 2) * 16 + 1 * (j 1).val = (j 1).val; omega
  have hDc : iblk3 V c 2 t = rowsOf (pick t.val (lt3 t)) (shapeCast ⟨2, ![100000, 1]⟩ D hcd) := by
    funext j
    show V c main_v81 (((cfg3.win 2).blk t).view.emb j) = shapeCast ⟨2, ![100000, 1]⟩ D hcd (ix2 (pick t.val (lt3 t) (j 0)) (j 1))
    rw [hD]
    refine congrArg _ (funext fun a => Fin.ext ?_)
    match a with
    | ⟨0, _⟩ => show win3_2.index t (0 : Fin 2) * 5000 + 1 * (j 0).val = 5000 * t.val + (j 0).val; omega
    | ⟨1, _⟩ => show win3_2.index t (1 : Fin 2) * 1 + 1 * (j 1).val = (j 1).val; omega
  have hBr : iblk3 V c 3 t = shapeCast ⟨2, ![1, 16]⟩ B hcb := by
    funext j
    show V c main_v82 (((cfg3.win 3).blk t).view.emb j) = shapeCast ⟨2, ![1, 16]⟩ B hcb j
    rw [hB]
    refine congrArg _ (funext fun a => Fin.ext ?_)
    match a with
    | ⟨0, _⟩ => show win3_3.index t (0 : Fin 2) * 1 + 1 * (j 0).val = (j 0).val; omega
    | ⟨1, _⟩ => show win3_3.index t (1 : Fin 2) * 16 + 1 * (j 1).val = (j 1).val; omega
  funext j
  show k3_pay1 (iblk3 V c 0 t) (iblk3 V c 1 t) (iblk3 V c 2 t) (iblk3 V c 3 t) j
    = hostSide 0x00000000#32 0x3C23D70A#32 h0 hc1 hc2 hr1 hr2 (V c main_v79) (V c main_v44) D B (((cfg3.win 4).blk t).view.emb j)
  refine (congrFun (body3_rows (pick t.val (lt3 t)) _ _ _ _ hcd hcb h0 hc1 hc2 hr1 hr2 (V c main_v79) (V c main_v44) D B hA hH hDc hBr) j).trans ?_
  show hostSide 0x00000000#32 0x3C23D70A#32 h0 hc1 hc2 hr1 hr2 (V c main_v79) (V c main_v44) D B (ix2 (pick t.val (lt3 t) (j 0)) (j 1)) = _
  refine congrArg _ (funext fun a => Fin.ext ?_)
  match a with
  | ⟨0, _⟩ => show 5000 * t.val + (j 0).val = win3_4.index t (0 : Fin 2) * 5000 + 1 * (j 0).val; omega
  | ⟨1, _⟩ => show (j 1).val = win3_4.index t (1 : Fin 2) * 16 + 1 * (j 1).val; omega

/-- An index of the result is in point t's block iff each coordinate is in the block's range on its axis. -/
theorem mem3 (t : Fin cfg3.N) (i : S100000x16.Idx) :
    i ∈ ((cfg3.win 4).blk t).view.set ↔ ∀ a : Fin 2, win3_4.index t a * S5000x16.size a ≤ (i a).val ∧ (i a).val < win3_4.index t a * S5000x16.size a + S5000x16.size a := by
  show i ∈ ((View.whole main_v83).slice (win3_4.rect t)).set ↔ _
  rw [View.set_slice_whole, Rect.mem_set_unit]
  exact Iff.rfl

/-- Every index of the result is in some point's block. -/
theorem cover3 (i : S100000x16.Idx) : ∃ t : Fin cfg3.N, (cfg3.win 4).flush t = true ∧ i ∈ ((cfg3.win 4).blk t).view.set := by
  have hi0 : (i 0).val < 100000 := (i 0).isLt
  have hi1 : (i 1).val < 16 := (i 1).isLt
  obtain ⟨t, ht⟩ := onto3 ⟨(i 0).val / 5000, by omega⟩
  have q0 : win3_4.index t (0 : Fin 2) = (i 0).val / 5000 := congrFun ht 0
  have q1 : win3_4.index t (1 : Fin 2) = 0 := congrFun ht 1
  refine ⟨t, flush3_4 t, ?_⟩
  rw [mem3]
  intro a
  match a with
  | ⟨0, _⟩ => show win3_4.index t (0 : Fin 2) * 5000 ≤ (i 0).val ∧ (i 0).val < win3_4.index t (0 : Fin 2) * 5000 + 5000; omega
  | ⟨1, _⟩ => show win3_4.index t (1 : Fin 2) * 16 ≤ (i 1).val ∧ (i 1).val < win3_4.index t (1 : Fin 2) * 16 + 16; omega

/-- Region 3 leaves its result array at the host's node side of the arrays it found. -/
theorem value3 (c : Dev nD)
    (hcd : (⟨1, ![100000]⟩ : Shape).ShapeCasts ⟨2, ![100000, 1]⟩) (hcb : (⟨1, ![16]⟩ : Shape).ShapeCasts ⟨2, ![1, 16]⟩)
    (h0 : (⟨0, ![]⟩ : Shape).BroadcastsInDim ⟨2, ![100000, 16]⟩ ![])
    (hc1 : (⟨1, ![100000]⟩ : Shape).BroadcastsInDim ⟨2, ![100000, 1]⟩ ![0])
    (hc2 : (⟨2, ![100000, 1]⟩ : Shape).BroadcastsInDim ⟨2, ![100000, 16]⟩ ![0, 1])
    (hr1 : (⟨1, ![16]⟩ : Shape).BroadcastsInDim ⟨2, ![1, 16]⟩ ![1])
    (hr2 : (⟨2, ![1, 16]⟩ : Shape).BroadcastsInDim ⟨2, ![100000, 16]⟩ ![0, 1])
    (D : FVec Ideal ⟨1, ![100000]⟩ .f32) (B : FVec Ideal ⟨1, ![16]⟩ .f32)
    (hD : V c main_v81 = shapeCast ⟨2, ![100000, 1]⟩ D hcd) (hB : V c main_v82 = shapeCast ⟨2, ![1, 16]⟩ B hcb) :
    (dat3 V c).arrAt 4 cfg3.N = hostSide 0x00000000#32 0x3C23D70A#32 h0 hc1 hc2 hr1 hr2 (V c main_v79) (V c main_v44) D B :=
  (dat3 V c).arrAt_eq_of_cover 4 _ (fun t _ => flushed3 V c t hcd hcb h0 hc1 hc2 hr1 hr2 D B hD hB) cover3

end Cert.KernelIdeal.NodeSides

end
-- ==== Proof.SimHost.lean ====
/-
  The kernel's program and the reference run the SAME host operations between the places where the kernel
  launches a region. Read as folds over buffer contents, a stretch of the one and the matching stretch of the
  other compute the same function of what they read: if the two contents agree on the buffers the stretch reads,
  the folds agree on the buffers it writes. Stated here per stretch — the rows of the edge table, each layer's graph
  side (degrees, edge weights, aggregated messages, squared inverse roots), and the pooling with the two dense
  layers — together with what only one side has: the kernel's re-laying of a layer's scales as a column and biases
  as a row, and the reference's two products and two node sides read as the functions the regions are proved to
  compute.
-/
import proofs.«134301_j23244363006452_2_alg».proof.Proof.Gen.KernelIdeal.Launch
import proofs.«134301_j23244363006452_2_alg».proof.Proof.RefOps
import proofs.«134301_j23244363006452_2_alg».proof.Proof.LibBlockRows
import proofs.«134301_j23244363006452_2_alg».proof.Proof.LibGcnNodeSide

set_option maxRecDepth 16384

noncomputable section

namespace Cert.Proof.Sim

open Idealize.ShloMosaic Idealize.ShloMosaic.TcCoe Idealize.SL.Sem Idealize.ShloMosaic.StableHlo

section Shared

variable {F : FTy → Type} [FloatOps F]
variable (VK : Valuation Cert.KernelIdeal.τ Cert.KernelIdeal.sig (Elt F)) (VR : Valuation Cert.ReferenceIdeal.τ Cert.ReferenceIdeal.sig (Elt F))

/-- The rows of the edge table: sources and destinations are the same vectors on both sides. -/
theorem rows_agree (h : VK (Proc.devRef .tc Cert.KernelIdeal.main_arg1) = VR (Proc.devRef .tc Cert.ReferenceIdeal.main_arg1)) :
    after Cert.KernelIdeal.Gen.hostOps0 VK (Proc.devRef .tc Cert.KernelIdeal.main_v1) = after Cert.ReferenceIdeal.Line.opsA VR (Proc.devRef .tc Cert.ReferenceIdeal.main_v1)
    ∧ after Cert.KernelIdeal.Gen.hostOps0 VK (Proc.devRef .tc Cert.KernelIdeal.main_v3) = after Cert.ReferenceIdeal.Line.opsA VR (Proc.devRef .tc Cert.ReferenceIdeal.main_v3) := by
  constructor <;>
  · dsimp only [Cert.KernelIdeal.Gen.hostOps0, Cert.ReferenceIdeal.Line.opsA]
    after_results
    rw [h]
    rfl

set_option maxHeartbeats 8000000 in
/-- The first layer's graph side: from the same sources, destinations and product, the same aggregated messages
    and the same squared inverse root degrees. -/
theorem graph1_agree (h1 : VK (Proc.devRef .tc Cert.KernelIdeal.main_v1) = VR (Proc.devRef .tc Cert.ReferenceIdeal.main_v1)) (h3 : VK (Proc.devRef .tc Cert.KernelIdeal.main_v3) = VR (Proc.devRef .tc Cert.ReferenceIdeal.main_v3))
    (h4 : VK (Proc.devRef .tc Cert.KernelIdeal.main_v4) = VR (Proc.devRef .tc Cert.ReferenceIdeal.main_v4)) :
    after Cert.KernelIdeal.Gen.hostOps1 VK (Proc.devRef .tc Cert.KernelIdeal.main_v39) = after Cert.ReferenceIdeal.Line.opsB VR (Proc.devRef .tc Cert.ReferenceIdeal.main_v39)
    ∧ after Cert.KernelIdeal.Gen.hostOps1 VK (Proc.devRef .tc Cert.KernelIdeal.main_v40) = after Cert.ReferenceIdeal.Line.opsB VR (Proc.devRef .tc Cert.ReferenceIdeal.main_v40) := by
  constructor <;>
  · dsimp only [Cert.KernelIdeal.Gen.hostOps1, Cert.ReferenceIdeal.Line.opsB]
    after_results_simp
    simp only [h1, h3, h4]
    try rfl

set_option maxHeartbeats 8000000 in
/-- What only the kernel's program does there: the squared inverse roots re-laid as a column, the bias as a row,
    and the product left as it was. -/
theorem graph1_casts :
    after Cert.KernelIdeal.Gen.hostOps1 VK (Proc.devRef .tc Cert.KernelIdeal.main_v41)
      = (fun i => shapeCast Cert.KernelIdeal.S100000x1 (after Cert.KernelIdeal.Gen.hostOps1 VK (Proc.devRef .tc Cert.KernelIdeal.main_v40)) Cert.KernelIdeal.Gen.shapeCasts_S100000_S100000x1 i)
    ∧ after Cert.KernelIdeal.Gen.hostOps1 VK (Proc.devRef .tc Cert.KernelIdeal.main_v42)
      = (fun i => shapeCast Cert.KernelIdeal.S1x64 (VK (Proc.devRef .tc Cert.KernelIdeal.main_arg5)) Cert.KernelIdeal.Gen.shapeCasts_S64_S1x64 i)
    ∧ after Cert.KernelIdeal.Gen.hostOps1 VK (Proc.devRef .tc Cert.KernelIdeal.main_v4) = VK (Proc.devRef .tc Cert.KernelIdeal.main_v4) := by
  refine ⟨?_, ?_, ?_⟩ <;>
  · dsimp only [Cert.KernelIdeal.Gen.hostOps1]
    after_results_simp
    try rfl

set_option maxHeartbeats 8000000 in
/-- The second layer's graph side, likewise. -/
theorem graph2_agree (h1 : VK (Proc.devRef .tc Cert.KernelIdeal.main_v1) = VR (Proc.devRef .tc Cert.ReferenceIdeal.main_v1)) (h3 : VK (Proc.devRef .tc Cert.KernelIdeal.main_v3) = VR (Proc.devRef .tc Cert.ReferenceIdeal.main_v3))
    (h4 : VK (Proc.devRef .tc Cert.KernelIdeal.main_v44) = VR (Proc.devRef .tc Cert.ReferenceIdeal.main_v49)) :
    after Cert.KernelIdeal.Gen.hostOps3 VK (Proc.devRef .tc Cert.KernelIdeal.main_v79) = after Cert.ReferenceIdeal.Line.opsC VR (Proc.devRef .tc Cert.ReferenceIdeal.main_v84)
    ∧ after Cert.KernelIdeal.Gen.hostOps3 VK (Proc.devRef .tc Cert.KernelIdeal.main_v80) = after Cert.ReferenceIdeal.Line.opsC VR (Proc.devRef .tc Cert.ReferenceIdeal.main_v85) := by
  constructor <;>
  · dsimp only [Cert.KernelIdeal.Gen.hostOps3, Cert.ReferenceIdeal.Line.opsC]
    after_results_simp
    simp only [h1, h3, h4]
    try rfl

set_option maxHeartbeats 8000000 in
theorem graph2_casts :
    after Cert.KernelIdeal.Gen.hostOps3 VK (Proc.devRef .tc Cert.KernelIdeal.main_v81)
      = (fun i => shapeCast Cert.KernelIdeal.S100000x1 (after Cert.KernelIdeal.Gen.hostOps3 VK (Proc.devRef .tc Cert.KernelIdeal.main_v80)) Cert.KernelIdeal.Gen.shapeCasts_S100000_S100000x1 i)
    ∧ after Cert.KernelIdeal.Gen.hostOps3 VK (Proc.devRef .tc Cert.KernelIdeal.main_v82)
      = (fun i => shapeCast Cert.KernelIdeal.S1x16 (VK (Proc.devRef .tc Cert.KernelIdeal.main_arg7)) Cert.KernelIdeal.Gen.shapeCasts_S16_S1x16 i)
    ∧ after Cert.KernelIdeal.Gen.hostOps3 VK (Proc.devRef .tc Cert.KernelIdeal.main_v44) = VK (Proc.devRef .tc Cert.KernelIdeal.main_v44) := by
  refine ⟨?_, ?_, ?_⟩ <;>
  · dsimp only [Cert.KernelIdeal.Gen.hostOps3]
    after_results_simp
    try rfl

set_option maxHeartbeats 8000000 in
/-- The pooling and the two dense layers: from the same node features, graph labels and weights, the same result. -/
theorem tail_agree (h : VK (Proc.devRef .tc Cert.KernelIdeal.main_v83) = VR (Proc.devRef .tc Cert.ReferenceIdeal.main_v93))
    (a2 : VK (Proc.devRef .tc Cert.KernelIdeal.main_arg2) = VR (Proc.devRef .tc Cert.ReferenceIdeal.main_arg2)) (a8 : VK (Proc.devRef .tc Cert.KernelIdeal.main_arg8) = VR (Proc.devRef .tc Cert.ReferenceIdeal.main_arg8))
    (a9 : VK (Proc.devRef .tc Cert.KernelIdeal.main_arg9) = VR (Proc.devRef .tc Cert.ReferenceIdeal.main_arg9)) (a10 : VK (Proc.devRef .tc Cert.KernelIdeal.main_arg10) = VR (Proc.devRef .tc Cert.ReferenceIdeal.main_arg10))
    (a11 : VK (Proc.devRef .tc Cert.KernelIdeal.main_arg11) = VR (Proc.devRef .tc Cert.ReferenceIdeal.main_arg11)) :
    after Cert.KernelIdeal.Gen.hostOps4_2 (after Cert.KernelIdeal.Gen.hostOps4_1 (after Cert.KernelIdeal.Gen.hostOps4 VK)) (Proc.devRef .tc Cert.KernelIdeal.main_v104)
      = after Cert.ReferenceIdeal.Line.opsT2 (after Cert.ReferenceIdeal.Line.opsT1 VR) (Proc.devRef .tc Cert.ReferenceIdeal.main_v114) := by
  dsimp only [Cert.KernelIdeal.Gen.hostOps4, Cert.KernelIdeal.Gen.hostOps4_1, Cert.KernelIdeal.Gen.hostOps4_2, Cert.ReferenceIdeal.Line.opsT1, Cert.ReferenceIdeal.Line.opsT2]
  after_results_simp
  simp only [h, a2, a8, a9, a10, a11]
  try rfl

end Shared

section Reference

open Cert.BlockRows Cert.GcnNodeSide

variable (VR : Valuation Cert.ReferenceIdeal.τ Cert.ReferenceIdeal.sig (Elt Ideal))

/-- The reference's first product is the plain product of the features and the first table. -/
theorem ref_product1 : after Cert.ReferenceIdeal.Line.opsD1 VR (Proc.devRef .tc Cert.ReferenceIdeal.main_v4) = propagate (VR (Proc.devRef .tc Cert.ReferenceIdeal.main_arg0)) (VR (Proc.devRef .tc Cert.ReferenceIdeal.main_arg4)) := by
  dsimp only [Cert.ReferenceIdeal.Line.opsD1]
  after_results
  rfl

/-- Its second product likewise. -/
theorem ref_product2 : after Cert.ReferenceIdeal.Line.opsD2 VR (Proc.devRef .tc Cert.ReferenceIdeal.main_v49) = propagate (VR (Proc.devRef .tc Cert.ReferenceIdeal.main_v48)) (VR (Proc.devRef .tc Cert.ReferenceIdeal.main_arg6)) := by
  dsimp only [Cert.ReferenceIdeal.Line.opsD2]
  after_results
  rfl

set_option maxHeartbeats 4000000 in
/-- The reference's first node side is the host's node side of messages, product, squared inverse roots and bias. -/
theorem ref_side1 : after Cert.ReferenceIdeal.Line.opsL1 VR (Proc.devRef .tc Cert.ReferenceIdeal.main_v48)
    = hostSide 0x00000000#32 0x3C23D70A#32 Cert.ReferenceIdeal.Gen.bcast_S_S100000x64 Cert.ReferenceIdeal.Gen.bcast_S100000_S100000x1_0 Cert.ReferenceIdeal.Gen.bcast_S100000x1_S100000x64_0_1
        Cert.ReferenceIdeal.Gen.bcast_S64_S1x64_1 Cert.ReferenceIdeal.Gen.bcast_S1x64_S100000x64_0_1
        (VR (Proc.devRef .tc Cert.ReferenceIdeal.main_v39)) (VR (Proc.devRef .tc Cert.ReferenceIdeal.main_v4)) (VR (Proc.devRef .tc Cert.ReferenceIdeal.main_v40)) (VR (Proc.devRef .tc Cert.ReferenceIdeal.main_arg5)) := by
  dsimp only [Cert.ReferenceIdeal.Line.opsL1]
  after_results_simp
  try rfl

set_option maxHeartbeats 4000000 in
/-- Its second node side likewise. -/
theorem ref_side2 : after Cert.ReferenceIdeal.Line.opsL2 VR (Proc.devRef .tc Cert.ReferenceIdeal.main_v93)
    = hostSide 0x00000000#32 0x3C23D70A#32 Cert.ReferenceIdeal.Gen.bcast_S_S100000x16 Cert.ReferenceIdeal.Gen.bcast_S100000_S100000x1_0 Cert.ReferenceIdeal.Gen.bcast_S100000x1_S100000x16_0_1
        Cert.ReferenceIdeal.Gen.bcast_S16_S1x16_1 Cert.ReferenceIdeal.Gen.bcast_S1x16_S100000x16_0_1
        (VR (Proc.devRef .tc Cert.ReferenceIdeal.main_v84)) (VR (Proc.devRef .tc Cert.ReferenceIdeal.main_v49)) (VR (Proc.devRef .tc Cert.ReferenceIdeal.main_v85)) (VR (Proc.devRef .tc Cert.ReferenceIdeal.main_arg7)) := by
  dsimp only [Cert.ReferenceIdeal.Line.opsL2]
  after_results_simp
  try rfl

end Reference

end Cert.Proof.Sim

end
-- ==== Proof.SimKeep.lean ====
/-
  What each side leaves alone. A buffer that no operation of a stretch writes, and that is no array of a region's
  windows, holds after the stretch or the region what it held before. Here, for the buffers the later stretches and
  regions read: on the kernel's side the sources and destinations of the edges (written once, at the start) and the
  argument arrays, followed through the boundary contents of its program; on the reference's side the same through
  the folds of its nine stretches.
-/
import proofs.«134301_j23244363006452_2_alg».proof.Proof.Gen.KernelIdeal.Frame
import proofs.«134301_j23244363006452_2_alg».proof.Proof.RefOps

set_option maxRecDepth 16384

noncomputable section

namespace Cert.Proof.Sim

open Idealize.ShloMosaic Idealize.ShloMosaic.TcCoe Idealize.SL.Sem Idealize.ShloMosaic.StableHlo

/-- No operation of a literal line writes the buffer: the line unfolded, each operation's written buffer another one. -/
macro "unwritten" : tactic => `(tactic| (
  refine List.forall_iff_forall_mem.mp ?_
  simp only [Cert.KernelIdeal.Gen.hostOps0, Cert.KernelIdeal.Gen.hostOps1, Cert.KernelIdeal.Gen.hostOps3, Cert.ReferenceIdeal.Line.opsA, Cert.ReferenceIdeal.Line.opsD1, Cert.ReferenceIdeal.Line.opsB, Cert.ReferenceIdeal.Line.opsL1, Cert.ReferenceIdeal.Line.opsD2,
    Cert.ReferenceIdeal.Line.opsC, Cert.ReferenceIdeal.Line.opsL2, List.Forall, StableHlo.nullary_writes, StableHlo.unary_writes, StableHlo.binary_writes,
    StableHlo.ternary_writes, StableHlo.reshape_writes, Finset.mem_singleton]
  repeat' apply And.intro
  all_goals exact StableHlo.devRef_ne_of_ne (by decide)))

section Kernel

variable {F : FTy → Type} [FloatOps F]
variable (m : (ℓ : Loc Cert.KernelIdeal.nD Cert.KernelIdeal.τ Cert.KernelIdeal.sig) → Buf (Elt F) ℓ) (ρ : Dev Cert.KernelIdeal.nD → PrngReg) (c : Dev Cert.KernelIdeal.nD)

/-- Before the first region an argument array holds its launch contents. -/
theorem entry_arg (b : Ref Cert.KernelIdeal.sig .tc) (h0 : ∀ op ∈ (Cert.KernelIdeal.Gen.hostOps0 : List (HloOp Cert.KernelIdeal.τ Cert.KernelIdeal.sig (Elt F))), Proc.devRef .tc b ∉ op.writes) :
    Cert.KernelIdeal.Gen.W1 m ρ c (Proc.devRef .tc b) = m ((c : Thread Cert.KernelIdeal.nD Cert.KernelIdeal.τ).loc b) :=
  (after_of_forall_not_mem Cert.KernelIdeal.Gen.hostOps0 (Cert.KernelIdeal.Gen.W0 m ρ c) h0).trans rfl

/-- Past the first region. -/
theorem keep2 (b : Ref Cert.KernelIdeal.sig .tc) (r0 : ∀ w, Pipeline.arrRef Cert.KernelIdeal.spec0 w ≠ b) :
    Cert.KernelIdeal.Gen.W2 m ρ c (Proc.devRef .tc b) = Cert.KernelIdeal.Gen.W1 m ρ c (Proc.devRef .tc b) := Cert.KernelIdeal.Gen.W2_of_ne m ρ c b r0

/-- Past the first layer's graph side and node side. -/
theorem keep4 (b : Ref Cert.KernelIdeal.sig .tc)
    (h1 : ∀ op ∈ (Cert.KernelIdeal.Gen.hostOps1 : List (HloOp Cert.KernelIdeal.τ Cert.KernelIdeal.sig (Elt F))), Proc.devRef .tc b ∉ op.writes)
    (r0 : ∀ w, Pipeline.arrRef Cert.KernelIdeal.spec0 w ≠ b) (r1 : ∀ w, Pipeline.arrRef Cert.KernelIdeal.spec1 w ≠ b) :
    Cert.KernelIdeal.Gen.W4 m ρ c (Proc.devRef .tc b) = Cert.KernelIdeal.Gen.W1 m ρ c (Proc.devRef .tc b) :=
  (Cert.KernelIdeal.Gen.W4_of_ne m ρ c b r1).trans ((after_of_forall_not_mem Cert.KernelIdeal.Gen.hostOps1 (Cert.KernelIdeal.Gen.W2 m ρ c) h1).trans (keep2 m ρ c b r0))

/-- Past the second product. -/
theorem keep5 (b : Ref Cert.KernelIdeal.sig .tc)
    (h1 : ∀ op ∈ (Cert.KernelIdeal.Gen.hostOps1 : List (HloOp Cert.KernelIdeal.τ Cert.KernelIdeal.sig (Elt F))), Proc.devRef .tc b ∉ op.writes)
    (r0 : ∀ w, Pipeline.arrRef Cert.KernelIdeal.spec0 w ≠ b) (r1 : ∀ w, Pipeline.arrRef Cert.KernelIdeal.spec1 w ≠ b)
    (r2 : ∀ w, Pipeline.arrRef Cert.KernelIdeal.spec2 w ≠ b) :
    Cert.KernelIdeal.Gen.W5 m ρ c (Proc.devRef .tc b) = Cert.KernelIdeal.Gen.W1 m ρ c (Proc.devRef .tc b) :=
  (Cert.KernelIdeal.Gen.W5_of_ne m ρ c b r2).trans (keep4 m ρ c b h1 r0 r1)

/-- Past the second layer's graph side and node side. -/
theorem keep7 (b : Ref Cert.KernelIdeal.sig .tc)
    (h1 : ∀ op ∈ (Cert.KernelIdeal.Gen.hostOps1 : List (HloOp Cert.KernelIdeal.τ Cert.KernelIdeal.sig (Elt F))), Proc.devRef .tc b ∉ op.writes)
    (h3 : ∀ op ∈ (Cert.KernelIdeal.Gen.hostOps3 : List (HloOp Cert.KernelIdeal.τ Cert.KernelIdeal.sig (Elt F))), Proc.devRef .tc b ∉ op.writes)
    (r0 : ∀ w, Pipeline.arrRef Cert.KernelIdeal.spec0 w ≠ b) (r1 : ∀ w, Pipeline.arrRef Cert.KernelIdeal.spec1 w ≠ b)
    (r2 : ∀ w, Pipeline.arrRef Cert.KernelIdeal.spec2 w ≠ b) (r3 : ∀ w, Pipeline.arrRef Cert.KernelIdeal.spec3 w ≠ b) :
    Cert.KernelIdeal.Gen.W7 m ρ c (Proc.devRef .tc b) = Cert.KernelIdeal.Gen.W1 m ρ c (Proc.devRef .tc b) :=
  (Cert.KernelIdeal.Gen.W7_of_ne m ρ c b r3).trans ((after_of_forall_not_mem Cert.KernelIdeal.Gen.hostOps3 (Cert.KernelIdeal.Gen.W5 m ρ c) h3).trans (keep5 m ρ c b h1 r0 r1 r2))

theorem h0_main_arg0 : ∀ op ∈ (Cert.KernelIdeal.Gen.hostOps0 : List (HloOp Cert.KernelIdeal.τ Cert.KernelIdeal.sig (Elt F))), (Proc.devRef .tc Cert.KernelIdeal.main_arg0) ∉ op.writes := by unwritten
theorem h0_main_arg2 : ∀ op ∈ (Cert.KernelIdeal.Gen.hostOps0 : List (HloOp Cert.KernelIdeal.τ Cert.KernelIdeal.sig (Elt F))), (Proc.devRef .tc Cert.KernelIdeal.main_arg2) ∉ op.writes := by unwritten
theorem h0_main_arg4 : ∀ op ∈ (Cert.KernelIdeal.Gen.hostOps0 : List (HloOp Cert.KernelIdeal.τ Cert.KernelIdeal.sig (Elt F))), (Proc.devRef .tc Cert.KernelIdeal.main_arg4) ∉ op.writes := by unwritten
theorem h0_main_arg5 : ∀ op ∈ (Cert.KernelIdeal.Gen.hostOps0 : List (HloOp Cert.KernelIdeal.τ Cert.KernelIdeal.sig (Elt F))), (Proc.devRef .tc Cert.KernelIdeal.main_arg5) ∉ op.writes := by unwritten
theorem h0_main_arg6 : ∀ op ∈ (Cert.KernelIdeal.Gen.hostOps0 : List (HloOp Cert.KernelIdeal.τ Cert.KernelIdeal.sig (Elt F))), (Proc.devRef .tc Cert.KernelIdeal.main_arg6) ∉ op.writes := by unwritten
theorem h0_main_arg7 : ∀ op ∈ (Cert.KernelIdeal.Gen.hostOps0 : List (HloOp Cert.KernelIdeal.τ Cert.KernelIdeal.sig (Elt F))), (Proc.devRef .tc Cert.KernelIdeal.main_arg7) ∉ op.writes := by unwritten
theorem h0_main_arg8 : ∀ op ∈ (Cert.KernelIdeal.Gen.hostOps0 : List (HloOp Cert.KernelIdeal.τ Cert.KernelIdeal.sig (Elt F))), (Proc.devRef .tc Cert.KernelIdeal.main_arg8) ∉ op.writes := by unwritten
theorem h0_main_arg9 : ∀ op ∈ (Cert.KernelIdeal.Gen.hostOps0 : List (HloOp Cert.KernelIdeal.τ Cert.KernelIdeal.sig (Elt F))), (Proc.devRef .tc Cert.KernelIdeal.main_arg9) ∉ op.writes := by unwritten
theorem h0_main_arg10 : ∀ op ∈ (Cert.KernelIdeal.Gen.hostOps0 : List (HloOp Cert.KernelIdeal.τ Cert.KernelIdeal.sig (Elt F))), (Proc.devRef .tc Cert.KernelIdeal.main_arg10) ∉ op.writes := by unwritten
theorem h0_main_arg11 : ∀ op ∈ (Cert.KernelIdeal.Gen.hostOps0 : List (HloOp Cert.KernelIdeal.τ Cert.KernelIdeal.sig (Elt F))), (Proc.devRef .tc Cert.KernelIdeal.main_arg11) ∉ op.writes := by unwritten
theorem h1_main_v1 : ∀ op ∈ (Cert.KernelIdeal.Gen.hostOps1 : List (HloOp Cert.KernelIdeal.τ Cert.KernelIdeal.sig (Elt F))), (Proc.devRef .tc Cert.KernelIdeal.main_v1) ∉ op.writes := by unwritten
theorem h1_main_v3 : ∀ op ∈ (Cert.KernelIdeal.Gen.hostOps1 : List (HloOp Cert.KernelIdeal.τ Cert.KernelIdeal.sig (Elt F))), (Proc.devRef .tc Cert.KernelIdeal.main_v3) ∉ op.writes := by unwritten
theorem h1_main_arg2 : ∀ op ∈ (Cert.KernelIdeal.Gen.hostOps1 : List (HloOp Cert.KernelIdeal.τ Cert.KernelIdeal.sig (Elt F))), (Proc.devRef .tc Cert.KernelIdeal.main_arg2) ∉ op.writes := by unwritten
theorem h1_main_arg6 : ∀ op ∈ (Cert.KernelIdeal.Gen.hostOps1 : List (HloOp Cert.KernelIdeal.τ Cert.KernelIdeal.sig (Elt F))), (Proc.devRef .tc Cert.KernelIdeal.main_arg6) ∉ op.writes := by unwritten
theorem h1_main_arg7 : ∀ op ∈ (Cert.KernelIdeal.Gen.hostOps1 : List (HloOp Cert.KernelIdeal.τ Cert.KernelIdeal.sig (Elt F))), (Proc.devRef .tc Cert.KernelIdeal.main_arg7) ∉ op.writes := by unwritten
theorem h1_main_arg8 : ∀ op ∈ (Cert.KernelIdeal.Gen.hostOps1 : List (HloOp Cert.KernelIdeal.τ Cert.KernelIdeal.sig (Elt F))), (Proc.devRef .tc Cert.KernelIdeal.main_arg8) ∉ op.writes := by unwritten
theorem h1_main_arg9 : ∀ op ∈ (Cert.KernelIdeal.Gen.hostOps1 : List (HloOp Cert.KernelIdeal.τ Cert.KernelIdeal.sig (Elt F))), (Proc.devRef .tc Cert.KernelIdeal.main_arg9) ∉ op.writes := by unwritten
theorem h1_main_arg10 : ∀ op ∈ (Cert.KernelIdeal.Gen.hostOps1 : List (HloOp Cert.KernelIdeal.τ Cert.KernelIdeal.sig (Elt F))), (Proc.devRef .tc Cert.KernelIdeal.main_arg10) ∉ op.writes := by unwritten
theorem h1_main_arg11 : ∀ op ∈ (Cert.KernelIdeal.Gen.hostOps1 : List (HloOp Cert.KernelIdeal.τ Cert.KernelIdeal.sig (Elt F))), (Proc.devRef .tc Cert.KernelIdeal.main_arg11) ∉ op.writes := by unwritten
theorem h3_main_arg2 : ∀ op ∈ (Cert.KernelIdeal.Gen.hostOps3 : List (HloOp Cert.KernelIdeal.τ Cert.KernelIdeal.sig (Elt F))), (Proc.devRef .tc Cert.KernelIdeal.main_arg2) ∉ op.writes := by unwritten
theorem h3_main_arg8 : ∀ op ∈ (Cert.KernelIdeal.Gen.hostOps3 : List (HloOp Cert.KernelIdeal.τ Cert.KernelIdeal.sig (Elt F))), (Proc.devRef .tc Cert.KernelIdeal.main_arg8) ∉ op.writes := by unwritten
theorem h3_main_arg9 : ∀ op ∈ (Cert.KernelIdeal.Gen.hostOps3 : List (HloOp Cert.KernelIdeal.τ Cert.KernelIdeal.sig (Elt F))), (Proc.devRef .tc Cert.KernelIdeal.main_arg9) ∉ op.writes := by unwritten
theorem h3_main_arg10 : ∀ op ∈ (Cert.KernelIdeal.Gen.hostOps3 : List (HloOp Cert.KernelIdeal.τ Cert.KernelIdeal.sig (Elt F))), (Proc.devRef .tc Cert.KernelIdeal.main_arg10) ∉ op.writes := by unwritten
theorem h3_main_arg11 : ∀ op ∈ (Cert.KernelIdeal.Gen.hostOps3 : List (HloOp Cert.KernelIdeal.τ Cert.KernelIdeal.sig (Elt F))), (Proc.devRef .tc Cert.KernelIdeal.main_arg11) ∉ op.writes := by unwritten

/-- Sources and destinations as the first layer's graph side finds them, and as the second's does. -/
theorem src_at2 : Cert.KernelIdeal.Gen.W2 m ρ c (Proc.devRef .tc Cert.KernelIdeal.main_v1) = Cert.KernelIdeal.Gen.W1 m ρ c (Proc.devRef .tc Cert.KernelIdeal.main_v1) := keep2 m ρ c _ (by decide)
theorem dst_at2 : Cert.KernelIdeal.Gen.W2 m ρ c (Proc.devRef .tc Cert.KernelIdeal.main_v3) = Cert.KernelIdeal.Gen.W1 m ρ c (Proc.devRef .tc Cert.KernelIdeal.main_v3) := keep2 m ρ c _ (by decide)
theorem src_at5 : Cert.KernelIdeal.Gen.W5 m ρ c (Proc.devRef .tc Cert.KernelIdeal.main_v1) = Cert.KernelIdeal.Gen.W1 m ρ c (Proc.devRef .tc Cert.KernelIdeal.main_v1) := keep5 m ρ c _ h1_main_v1 (by decide) (by decide) (by decide)
theorem dst_at5 : Cert.KernelIdeal.Gen.W5 m ρ c (Proc.devRef .tc Cert.KernelIdeal.main_v3) = Cert.KernelIdeal.Gen.W1 m ρ c (Proc.devRef .tc Cert.KernelIdeal.main_v3) := keep5 m ρ c _ h1_main_v3 (by decide) (by decide) (by decide)

/-- The argument arrays where they are read. -/
theorem arg0_at1 : Cert.KernelIdeal.Gen.W1 m ρ c (Proc.devRef .tc Cert.KernelIdeal.main_arg0) = m ((c : Thread Cert.KernelIdeal.nD Cert.KernelIdeal.τ).loc Cert.KernelIdeal.main_arg0) := entry_arg m ρ c _ h0_main_arg0
theorem arg4_at1 : Cert.KernelIdeal.Gen.W1 m ρ c (Proc.devRef .tc Cert.KernelIdeal.main_arg4) = m ((c : Thread Cert.KernelIdeal.nD Cert.KernelIdeal.τ).loc Cert.KernelIdeal.main_arg4) := entry_arg m ρ c _ h0_main_arg4
theorem arg5_at2 : Cert.KernelIdeal.Gen.W2 m ρ c (Proc.devRef .tc Cert.KernelIdeal.main_arg5) = m ((c : Thread Cert.KernelIdeal.nD Cert.KernelIdeal.τ).loc Cert.KernelIdeal.main_arg5) :=
  (keep2 m ρ c _ (by decide)).trans (entry_arg m ρ c _ h0_main_arg5)
theorem arg6_at4 : Cert.KernelIdeal.Gen.W4 m ρ c (Proc.devRef .tc Cert.KernelIdeal.main_arg6) = m ((c : Thread Cert.KernelIdeal.nD Cert.KernelIdeal.τ).loc Cert.KernelIdeal.main_arg6) :=
  (keep4 m ρ c _ h1_main_arg6 (by decide) (by decide)).trans (entry_arg m ρ c _ h0_main_arg6)
theorem arg7_at5 : Cert.KernelIdeal.Gen.W5 m ρ c (Proc.devRef .tc Cert.KernelIdeal.main_arg7) = m ((c : Thread Cert.KernelIdeal.nD Cert.KernelIdeal.τ).loc Cert.KernelIdeal.main_arg7) :=
  (keep5 m ρ c _ h1_main_arg7 (by decide) (by decide) (by decide)).trans (entry_arg m ρ c _ h0_main_arg7)
theorem arg2_at7 : Cert.KernelIdeal.Gen.W7 m ρ c (Proc.devRef .tc Cert.KernelIdeal.main_arg2) = m ((c : Thread Cert.KernelIdeal.nD Cert.KernelIdeal.τ).loc Cert.KernelIdeal.main_arg2) :=
  (keep7 m ρ c _ h1_main_arg2 h3_main_arg2 (by decide) (by decide) (by decide) (by decide)).trans (entry_arg m ρ c _ h0_main_arg2)
theorem arg8_at7 : Cert.KernelIdeal.Gen.W7 m ρ c (Proc.devRef .tc Cert.KernelIdeal.main_arg8) = m ((c : Thread Cert.KernelIdeal.nD Cert.KernelIdeal.τ).loc Cert.KernelIdeal.main_arg8) :=
  (keep7 m ρ c _ h1_main_arg8 h3_main_arg8 (by decide) (by decide) (by decide) (by decide)).trans (entry_arg m ρ c _ h0_main_arg8)
theorem arg9_at7 : Cert.KernelIdeal.Gen.W7 m ρ c (Proc.devRef .tc Cert.KernelIdeal.main_arg9) = m ((c : Thread Cert.KernelIdeal.nD Cert.KernelIdeal.τ).loc Cert.KernelIdeal.main_arg9) :=
  (keep7 m ρ c _ h1_main_arg9 h3_main_arg9 (by decide) (by decide) (by decide) (by decide)).trans (entry_arg m ρ c _ h0_main_arg9)
theorem arg10_at7 : Cert.KernelIdeal.Gen.W7 m ρ c (Proc.devRef .tc Cert.KernelIdeal.main_arg10) = m ((c : Thread Cert.KernelIdeal.nD Cert.KernelIdeal.τ).loc Cert.KernelIdeal.main_arg10) :=
  (keep7 m ρ c _ h1_main_arg10 h3_main_arg10 (by decide) (by decide) (by decide) (by decide)).trans (entry_arg m ρ c _ h0_main_arg10)
theorem arg11_at7 : Cert.KernelIdeal.Gen.W7 m ρ c (Proc.devRef .tc Cert.KernelIdeal.main_arg11) = m ((c : Thread Cert.KernelIdeal.nD Cert.KernelIdeal.τ).loc Cert.KernelIdeal.main_arg11) :=
  (keep7 m ρ c _ h1_main_arg11 h3_main_arg11 (by decide) (by decide) (by decide) (by decide)).trans (entry_arg m ρ c _ h0_main_arg11)

end Kernel

section Reference

variable {F : FTy → Type} [FloatOps F]
variable (V : Valuation Cert.ReferenceIdeal.τ Cert.ReferenceIdeal.sig (Elt F))

/-- The reference's contents after each of its first seven stretches, from contents V. -/
abbrev U1 : Valuation Cert.ReferenceIdeal.τ Cert.ReferenceIdeal.sig (Elt F) := after Cert.ReferenceIdeal.Line.opsA V
abbrev U2 : Valuation Cert.ReferenceIdeal.τ Cert.ReferenceIdeal.sig (Elt F) := after Cert.ReferenceIdeal.Line.opsD1 (U1 V)
abbrev U3 : Valuation Cert.ReferenceIdeal.τ Cert.ReferenceIdeal.sig (Elt F) := after Cert.ReferenceIdeal.Line.opsB (U2 V)
abbrev U4 : Valuation Cert.ReferenceIdeal.τ Cert.ReferenceIdeal.sig (Elt F) := after Cert.ReferenceIdeal.Line.opsL1 (U3 V)
abbrev U5 : Valuation Cert.ReferenceIdeal.τ Cert.ReferenceIdeal.sig (Elt F) := after Cert.ReferenceIdeal.Line.opsD2 (U4 V)
abbrev U6 : Valuation Cert.ReferenceIdeal.τ Cert.ReferenceIdeal.sig (Elt F) := after Cert.ReferenceIdeal.Line.opsC (U5 V)
abbrev U7 : Valuation Cert.ReferenceIdeal.τ Cert.ReferenceIdeal.sig (Elt F) := after Cert.ReferenceIdeal.Line.opsL2 (U6 V)

/-- A buffer none of the seven stretches writes holds V's contents after each of them. -/
theorem ref_keep (b : Ref Cert.ReferenceIdeal.sig .tc)
    (hA : ∀ op ∈ (Cert.ReferenceIdeal.Line.opsA : List (HloOp Cert.ReferenceIdeal.τ Cert.ReferenceIdeal.sig (Elt F))), Proc.devRef .tc b ∉ op.writes)
    (hD1 : ∀ op ∈ (Cert.ReferenceIdeal.Line.opsD1 : List (HloOp Cert.ReferenceIdeal.τ Cert.ReferenceIdeal.sig (Elt F))), Proc.devRef .tc b ∉ op.writes)
    (hB : ∀ op ∈ (Cert.ReferenceIdeal.Line.opsB : List (HloOp Cert.ReferenceIdeal.τ Cert.ReferenceIdeal.sig (Elt F))), Proc.devRef .tc b ∉ op.writes)
    (hL1 : ∀ op ∈ (Cert.ReferenceIdeal.Line.opsL1 : List (HloOp Cert.ReferenceIdeal.τ Cert.ReferenceIdeal.sig (Elt F))), Proc.devRef .tc b ∉ op.writes)
    (hD2 : ∀ op ∈ (Cert.ReferenceIdeal.Line.opsD2 : List (HloOp Cert.ReferenceIdeal.τ Cert.ReferenceIdeal.sig (Elt F))), Proc.devRef .tc b ∉ op.writes)
    (hC : ∀ op ∈ (Cert.ReferenceIdeal.Line.opsC : List (HloOp Cert.ReferenceIdeal.τ Cert.ReferenceIdeal.sig (Elt F))), Proc.devRef .tc b ∉ op.writes)
    (hL2 : ∀ op ∈ (Cert.ReferenceIdeal.Line.opsL2 : List (HloOp Cert.ReferenceIdeal.τ Cert.ReferenceIdeal.sig (Elt F))), Proc.devRef .tc b ∉ op.writes) :
    U1 V (Proc.devRef .tc b) = V (Proc.devRef .tc b) ∧ U2 V (Proc.devRef .tc b) = V (Proc.devRef .tc b)
    ∧ U3 V (Proc.devRef .tc b) = V (Proc.devRef .tc b) ∧ U4 V (Proc.devRef .tc b) = V (Proc.devRef .tc b)
    ∧ U5 V (Proc.devRef .tc b) = V (Proc.devRef .tc b) ∧ U6 V (Proc.devRef .tc b) = V (Proc.devRef .tc b)
    ∧ U7 V (Proc.devRef .tc b) = V (Proc.devRef .tc b) := by
  have e1 := after_of_forall_not_mem Cert.ReferenceIdeal.Line.opsA V hA
  have e2 := (after_of_forall_not_mem Cert.ReferenceIdeal.Line.opsD1 (U1 V) hD1).trans e1
  have e3 := (after_of_forall_not_mem Cert.ReferenceIdeal.Line.opsB (U2 V) hB).trans e2
  have e4 := (after_of_forall_not_mem Cert.ReferenceIdeal.Line.opsL1 (U3 V) hL1).trans e3
  have e5 := (after_of_forall_not_mem Cert.ReferenceIdeal.Line.opsD2 (U4 V) hD2).trans e4
  have e6 := (after_of_forall_not_mem Cert.ReferenceIdeal.Line.opsC (U5 V) hC).trans e5
  have e7 := (after_of_forall_not_mem Cert.ReferenceIdeal.Line.opsL2 (U6 V) hL2).trans e6
  exact ⟨e1, e2, e3, e4, e5, e6, e7⟩

/-- A buffer written only by the first stretch keeps, through the next four, what the first left in it. -/
theorem ref_keep_rows (b : Ref Cert.ReferenceIdeal.sig .tc)
    (hD1 : ∀ op ∈ (Cert.ReferenceIdeal.Line.opsD1 : List (HloOp Cert.ReferenceIdeal.τ Cert.ReferenceIdeal.sig (Elt F))), Proc.devRef .tc b ∉ op.writes)
    (hB : ∀ op ∈ (Cert.ReferenceIdeal.Line.opsB : List (HloOp Cert.ReferenceIdeal.τ Cert.ReferenceIdeal.sig (Elt F))), Proc.devRef .tc b ∉ op.writes)
    (hL1 : ∀ op ∈ (Cert.ReferenceIdeal.Line.opsL1 : List (HloOp Cert.ReferenceIdeal.τ Cert.ReferenceIdeal.sig (Elt F))), Proc.devRef .tc b ∉ op.writes)
    (hD2 : ∀ op ∈ (Cert.ReferenceIdeal.Line.opsD2 : List (HloOp Cert.ReferenceIdeal.τ Cert.ReferenceIdeal.sig (Elt F))), Proc.devRef .tc b ∉ op.writes) :
    U2 V (Proc.devRef .tc b) = U1 V (Proc.devRef .tc b) ∧ U5 V (Proc.devRef .tc b) = U1 V (Proc.devRef .tc b) := by
  have e2 := after_of_forall_not_mem Cert.ReferenceIdeal.Line.opsD1 (U1 V) hD1
  have e3 := (after_of_forall_not_mem Cert.ReferenceIdeal.Line.opsB (U2 V) hB).trans e2
  have e4 := (after_of_forall_not_mem Cert.ReferenceIdeal.Line.opsL1 (U3 V) hL1).trans e3
  have e5 := (after_of_forall_not_mem Cert.ReferenceIdeal.Line.opsD2 (U4 V) hD2).trans e4
  exact ⟨e2, e5⟩

theorem ref_arg0 : U1 V (Proc.devRef .tc Cert.ReferenceIdeal.main_arg0) = V (Proc.devRef .tc Cert.ReferenceIdeal.main_arg0) ∧ U2 V (Proc.devRef .tc Cert.ReferenceIdeal.main_arg0) = V (Proc.devRef .tc Cert.ReferenceIdeal.main_arg0) ∧ U3 V (Proc.devRef .tc Cert.ReferenceIdeal.main_arg0) = V (Proc.devRef .tc Cert.ReferenceIdeal.main_arg0) ∧ U4 V (Proc.devRef .tc Cert.ReferenceIdeal.main_arg0) = V (Proc.devRef .tc Cert.ReferenceIdeal.main_arg0)
    ∧ U5 V (Proc.devRef .tc Cert.ReferenceIdeal.main_arg0) = V (Proc.devRef .tc Cert.ReferenceIdeal.main_arg0) ∧ U6 V (Proc.devRef .tc Cert.ReferenceIdeal.main_arg0) = V (Proc.devRef .tc Cert.ReferenceIdeal.main_arg0) ∧ U7 V (Proc.devRef .tc Cert.ReferenceIdeal.main_arg0) = V (Proc.devRef .tc Cert.ReferenceIdeal.main_arg0) :=
  ref_keep V _ (by unwritten) (by unwritten) (by unwritten) (by unwritten) (by unwritten) (by unwritten) (by unwritten)
theorem ref_arg2 : U1 V (Proc.devRef .tc Cert.ReferenceIdeal.main_arg2) = V (Proc.devRef .tc Cert.ReferenceIdeal.main_arg2) ∧ U2 V (Proc.devRef .tc Cert.ReferenceIdeal.main_arg2) = V (Proc.devRef .tc Cert.ReferenceIdeal.main_arg2) ∧ U3 V (Proc.devRef .tc Cert.ReferenceIdeal.main_arg2) = V (Proc.devRef .tc Cert.ReferenceIdeal.main_arg2) ∧ U4 V (Proc.devRef .tc Cert.ReferenceIdeal.main_arg2) = V (Proc.devRef .tc Cert.ReferenceIdeal.main_arg2)
    ∧ U5 V (Proc.devRef .tc Cert.ReferenceIdeal.main_arg2) = V (Proc.devRef .tc Cert.ReferenceIdeal.main_arg2) ∧ U6 V (Proc.devRef .tc Cert.ReferenceIdeal.main_arg2) = V (Proc.devRef .tc Cert.ReferenceIdeal.main_arg2) ∧ U7 V (Proc.devRef .tc Cert.ReferenceIdeal.main_arg2) = V (Proc.devRef .tc Cert.ReferenceIdeal.main_arg2) :=
  ref_keep V _ (by unwritten) (by unwritten) (by unwritten) (by unwritten) (by unwritten) (by unwritten) (by unwritten)
theorem ref_arg4 : U1 V (Proc.devRef .tc Cert.ReferenceIdeal.main_arg4) = V (Proc.devRef .tc Cert.ReferenceIdeal.main_arg4) ∧ U2 V (Proc.devRef .tc Cert.ReferenceIdeal.main_arg4) = V (Proc.devRef .tc Cert.ReferenceIdeal.main_arg4) ∧ U3 V (Proc.devRef .tc Cert.ReferenceIdeal.main_arg4) = V (Proc.devRef .tc Cert.ReferenceIdeal.main_arg4) ∧ U4 V (Proc.devRef .tc Cert.ReferenceIdeal.main_arg4) = V (Proc.devRef .tc Cert.ReferenceIdeal.main_arg4)
    ∧ U5 V (Proc.devRef .tc Cert.ReferenceIdeal.main_arg4) = V (Proc.devRef .tc Cert.ReferenceIdeal.main_arg4) ∧ U6 V (Proc.devRef .tc Cert.ReferenceIdeal.main_arg4) = V (Proc.devRef .tc Cert.ReferenceIdeal.main_arg4) ∧ U7 V (Proc.devRef .tc Cert.ReferenceIdeal.main_arg4) = V (Proc.devRef .tc Cert.ReferenceIdeal.main_arg4) :=
  ref_keep V _ (by unwritten) (by unwritten) (by unwritten) (by unwritten) (by unwritten) (by unwritten) (by unwritten)
theorem ref_arg5 : U1 V (Proc.devRef .tc Cert.ReferenceIdeal.main_arg5) = V (Proc.devRef .tc Cert.ReferenceIdeal.main_arg5) ∧ U2 V (Proc.devRef .tc Cert.ReferenceIdeal.main_arg5) = V (Proc.devRef .tc Cert.ReferenceIdeal.main_arg5) ∧ U3 V (Proc.devRef .tc Cert.ReferenceIdeal.main_arg5) = V (Proc.devRef .tc Cert.ReferenceIdeal.main_arg5) ∧ U4 V (Proc.devRef .tc Cert.ReferenceIdeal.main_arg5) = V (Proc.devRef .tc Cert.ReferenceIdeal.main_arg5)
    ∧ U5 V (Proc.devRef .tc Cert.ReferenceIdeal.main_arg5) = V (Proc.devRef .tc Cert.ReferenceIdeal.main_arg5) ∧ U6 V (Proc.devRef .tc Cert.ReferenceIdeal.main_arg5) = V (Proc.devRef .tc Cert.ReferenceIdeal.main_arg5) ∧ U7 V (Proc.devRef .tc Cert.ReferenceIdeal.main_arg5) = V (Proc.devRef .tc Cert.ReferenceIdeal.main_arg5) :=
  ref_keep V _ (by unwritten) (by unwritten) (by unwritten) (by unwritten) (by unwritten) (by unwritten) (by unwritten)
theorem ref_arg6 : U1 V (Proc.devRef .tc Cert.ReferenceIdeal.main_arg6) = V (Proc.devRef .tc Cert.ReferenceIdeal.main_arg6) ∧ U2 V (Proc.devRef .tc Cert.ReferenceIdeal.main_arg6) = V (Proc.devRef .tc Cert.ReferenceIdeal.main_arg6) ∧ U3 V (Proc.devRef .tc Cert.ReferenceIdeal.main_arg6) = V (Proc.devRef .tc Cert.ReferenceIdeal.main_arg6) ∧ U4 V (Proc.devRef .tc Cert.ReferenceIdeal.main_arg6) = V (Proc.devRef .tc Cert.ReferenceIdeal.main_arg6)
    ∧ U5 V (Proc.devRef .tc Cert.ReferenceIdeal.main_arg6) = V (Proc.devRef .tc Cert.ReferenceIdeal.main_arg6) ∧ U6 V (Proc.devRef .tc Cert.ReferenceIdeal.main_arg6) = V (Proc.devRef .tc Cert.ReferenceIdeal.main_arg6) ∧ U7 V (Proc.devRef .tc Cert.ReferenceIdeal.main_arg6) = V (Proc.devRef .tc Cert.ReferenceIdeal.main_arg6) :=
  ref_keep V _ (by unwritten) (by unwritten) (by unwritten) (by unwritten) (by unwritten) (by unwritten) (by unwritten)
theorem ref_arg7 : U1 V (Proc.devRef .tc Cert.ReferenceIdeal.main_arg7) = V (Proc.devRef .tc Cert.ReferenceIdeal.main_arg7) ∧ U2 V (Proc.devRef .tc Cert.ReferenceIdeal.main_arg7) = V (Proc.devRef .tc Cert.ReferenceIdeal.main_arg7) ∧ U3 V (Proc.devRef .tc Cert.ReferenceIdeal.main_arg7) = V (Proc.devRef .tc Cert.ReferenceIdeal.main_arg7) ∧ U4 V (Proc.devRef .tc Cert.ReferenceIdeal.main_arg7) = V (Proc.devRef .tc Cert.ReferenceIdeal.main_arg7)
    ∧ U5 V (Proc.devRef .tc Cert.ReferenceIdeal.main_arg7) = V (Proc.devRef .tc Cert.ReferenceIdeal.main_arg7) ∧ U6 V (Proc.devRef .tc Cert.ReferenceIdeal.main_arg7) = V (Proc.devRef .tc Cert.ReferenceIdeal.main_arg7) ∧ U7 V (Proc.devRef .tc Cert.ReferenceIdeal.main_arg7) = V (Proc.devRef .tc Cert.ReferenceIdeal.main_arg7) :=
  ref_keep V _ (by unwritten) (by unwritten) (by unwritten) (by unwritten) (by unwritten) (by unwritten) (by unwritten)
theorem ref_arg8 : U1 V (Proc.devRef .tc Cert.ReferenceIdeal.main_arg8) = V (Proc.devRef .tc Cert.ReferenceIdeal.main_arg8) ∧ U2 V (Proc.devRef .tc Cert.ReferenceIdeal.main_arg8) = V (Proc.devRef .tc Cert.ReferenceIdeal.main_arg8) ∧ U3 V (Proc.devRef .tc Cert.ReferenceIdeal.main_arg8) = V (Proc.devRef .tc Cert.ReferenceIdeal.main_arg8) ∧ U4 V (Proc.devRef .tc Cert.ReferenceIdeal.main_arg8) = V (Proc.devRef .tc Cert.ReferenceIdeal.main_arg8)
    ∧ U5 V (Proc.devRef .tc Cert.ReferenceIdeal.main_arg8) = V (Proc.devRef .tc Cert.ReferenceIdeal.main_arg8) ∧ U6 V (Proc.devRef .tc Cert.ReferenceIdeal.main_arg8) = V (Proc.devRef .tc Cert.ReferenceIdeal.main_arg8) ∧ U7 V (Proc.devRef .tc Cert.ReferenceIdeal.main_arg8) = V (Proc.devRef .tc Cert.ReferenceIdeal.main_arg8) :=
  ref_keep V _ (by unwritten) (by unwritten) (by unwritten) (by unwritten) (by unwritten) (by unwritten) (by unwritten)
theorem ref_arg9 : U1 V (Proc.devRef .tc Cert.ReferenceIdeal.main_arg9) = V (Proc.devRef .tc Cert.ReferenceIdeal.main_arg9) ∧ U2 V (Proc.devRef .tc Cert.ReferenceIdeal.main_arg9) = V (Proc.devRef .tc Cert.ReferenceIdeal.main_arg9) ∧ U3 V (Proc.devRef .tc Cert.ReferenceIdeal.main_arg9) = V (Proc.devRef .tc Cert.ReferenceIdeal.main_arg9) ∧ U4 V (Proc.devRef .tc Cert.ReferenceIdeal.main_arg9) = V (Proc.devRef .tc Cert.ReferenceIdeal.main_arg9)
    ∧ U5 V (Proc.devRef .tc Cert.ReferenceIdeal.main_arg9) = V (Proc.devRef .tc Cert.ReferenceIdeal.main_arg9) ∧ U6 V (Proc.devRef .tc Cert.ReferenceIdeal.main_arg9) = V (Proc.devRef .tc Cert.ReferenceIdeal.main_arg9) ∧ U7 V (Proc.devRef .tc Cert.ReferenceIdeal.main_arg9) = V (Proc.devRef .tc Cert.ReferenceIdeal.main_arg9) :=
  ref_keep V _ (by unwritten) (by unwritten) (by unwritten) (by unwritten) (by unwritten) (by unwritten) (by unwritten)
theorem ref_arg10 : U1 V (Proc.devRef .tc Cert.ReferenceIdeal.main_arg10) = V (Proc.devRef .tc Cert.ReferenceIdeal.main_arg10) ∧ U2 V (Proc.devRef .tc Cert.ReferenceIdeal.main_arg10) = V (Proc.devRef .tc Cert.ReferenceIdeal.main_arg10) ∧ U3 V (Proc.devRef .tc Cert.ReferenceIdeal.main_arg10) = V (Proc.devRef .tc Cert.ReferenceIdeal.main_arg10) ∧ U4 V (Proc.devRef .tc Cert.ReferenceIdeal.main_arg10) = V (Proc.devRef .tc Cert.ReferenceIdeal.main_arg10)
    ∧ U5 V (Proc.devRef .tc Cert.ReferenceIdeal.main_arg10) = V (Proc.devRef .tc Cert.ReferenceIdeal.main_arg10) ∧ U6 V (Proc.devRef .tc Cert.ReferenceIdeal.main_arg10) = V (Proc.devRef .tc Cert.ReferenceIdeal.main_arg10) ∧ U7 V (Proc.devRef .tc Cert.ReferenceIdeal.main_arg10) = V (Proc.devRef .tc Cert.ReferenceIdeal.main_arg10) :=
  ref_keep V _ (by unwritten) (by unwritten) (by unwritten) (by unwritten) (by unwritten) (by unwritten) (by unwritten)
theorem ref_arg11 : U1 V (Proc.devRef .tc Cert.ReferenceIdeal.main_arg11) = V (Proc.devRef .tc Cert.ReferenceIdeal.main_arg11) ∧ U2 V (Proc.devRef .tc Cert.ReferenceIdeal.main_arg11) = V (Proc.devRef .tc Cert.ReferenceIdeal.main_arg11) ∧ U3 V (Proc.devRef .tc Cert.ReferenceIdeal.main_arg11) = V (Proc.devRef .tc Cert.ReferenceIdeal.main_arg11) ∧ U4 V (Proc.devRef .tc Cert.ReferenceIdeal.main_arg11) = V (Proc.devRef .tc Cert.ReferenceIdeal.main_arg11)
    ∧ U5 V (Proc.devRef .tc Cert.ReferenceIdeal.main_arg11) = V (Proc.devRef .tc Cert.ReferenceIdeal.main_arg11) ∧ U6 V (Proc.devRef .tc Cert.ReferenceIdeal.main_arg11) = V (Proc.devRef .tc Cert.ReferenceIdeal.main_arg11) ∧ U7 V (Proc.devRef .tc Cert.ReferenceIdeal.main_arg11) = V (Proc.devRef .tc Cert.ReferenceIdeal.main_arg11) :=
  ref_keep V _ (by unwritten) (by unwritten) (by unwritten) (by unwritten) (by unwritten) (by unwritten) (by unwritten)
theorem ref_v1 : U2 V (Proc.devRef .tc Cert.ReferenceIdeal.main_v1) = U1 V (Proc.devRef .tc Cert.ReferenceIdeal.main_v1) ∧ U5 V (Proc.devRef .tc Cert.ReferenceIdeal.main_v1) = U1 V (Proc.devRef .tc Cert.ReferenceIdeal.main_v1) :=
  ref_keep_rows V _ (by unwritten) (by unwritten) (by unwritten) (by unwritten)
theorem ref_v3 : U2 V (Proc.devRef .tc Cert.ReferenceIdeal.main_v3) = U1 V (Proc.devRef .tc Cert.ReferenceIdeal.main_v3) ∧ U5 V (Proc.devRef .tc Cert.ReferenceIdeal.main_v3) = U1 V (Proc.devRef .tc Cert.ReferenceIdeal.main_v3) :=
  ref_keep_rows V _ (by unwritten) (by unwritten) (by unwritten) (by unwritten)
/-- The first product through the first graph side, the second through the second. -/
theorem ref_v4 : U3 V (Proc.devRef .tc Cert.ReferenceIdeal.main_v4) = U2 V (Proc.devRef .tc Cert.ReferenceIdeal.main_v4) := after_of_forall_not_mem Cert.ReferenceIdeal.Line.opsB (U2 V) (by unwritten)
theorem ref_v49 : U6 V (Proc.devRef .tc Cert.ReferenceIdeal.main_v49) = U5 V (Proc.devRef .tc Cert.ReferenceIdeal.main_v49) := after_of_forall_not_mem Cert.ReferenceIdeal.Line.opsC (U5 V) (by unwritten)

end Reference

end Cert.Proof.Sim

end
-- ==== Proof.Sim.lean ====
/-
  The two results are equal. On one device, from launch memories that agree on the argument arrays, the kernel's
  program passes through boundary contents W1 … W7 (after the edge rows, the first product, the first layer's graph
  side, its node side, the second product, the second graph side, the second node side) and the reference through
  U1 … U7 after the matching stretches. At each boundary the buffers the next step reads hold the same arrays on
  both sides: the host stretches are the same functions of what they read; a product region leaves the host's plain
  product; a node-side region leaves the host's node side, the kernel's column of scales and row of biases being the
  reference's vectors re-laid. The last stretch — pooling and the two dense layers — then gives the same result.
-/
import proofs.«134301_j23244363006452_2_alg».proof.Proof.MatmulValue
import proofs.«134301_j23244363006452_2_alg».proof.Proof.CombineValue
import proofs.«134301_j23244363006452_2_alg».proof.Proof.SimHost
import proofs.«134301_j23244363006452_2_alg».proof.Proof.SimKeep

set_option maxRecDepth 16384

noncomputable section

namespace Cert.Proof.Sim

open Idealize.ShloMosaic Idealize.ShloMosaic.TcCoe Idealize.SL.Sem Idealize.ShloMosaic.StableHlo
open Cert.BlockRows Cert.GcnNodeSide

variable (m : (ℓ : Loc Cert.KernelIdeal.nD Cert.KernelIdeal.τ Cert.KernelIdeal.sig) → Buf (Elt Ideal) ℓ) (ρ : Dev Cert.KernelIdeal.nD → PrngReg)
variable (m' : (ℓ : Loc Cert.ReferenceIdeal.nD Cert.ReferenceIdeal.τ Cert.ReferenceIdeal.sig) → Buf (Elt Ideal) ℓ) (c : Dev Cert.KernelIdeal.nD)

/-- The reference's launch contents on the device. -/
abbrev start : Valuation Cert.ReferenceIdeal.τ Cert.ReferenceIdeal.sig (Elt Ideal) := launchContents m' c

set_option maxHeartbeats 2000000 in
/-- From memories agreeing on the arguments, the kernel's result buffer after its program and the reference's after
    its line hold the same array. -/
theorem result_agree
    (a0 : m' ((c : Thread Cert.ReferenceIdeal.nD Cert.ReferenceIdeal.τ).loc Cert.ReferenceIdeal.main_arg0) = m ((c : Thread Cert.KernelIdeal.nD Cert.KernelIdeal.τ).loc Cert.KernelIdeal.main_arg0))
    (a1 : m' ((c : Thread Cert.ReferenceIdeal.nD Cert.ReferenceIdeal.τ).loc Cert.ReferenceIdeal.main_arg1) = m ((c : Thread Cert.KernelIdeal.nD Cert.KernelIdeal.τ).loc Cert.KernelIdeal.main_arg1))
    (a2 : m' ((c : Thread Cert.ReferenceIdeal.nD Cert.ReferenceIdeal.τ).loc Cert.ReferenceIdeal.main_arg2) = m ((c : Thread Cert.KernelIdeal.nD Cert.KernelIdeal.τ).loc Cert.KernelIdeal.main_arg2))
    (a4 : m' ((c : Thread Cert.ReferenceIdeal.nD Cert.ReferenceIdeal.τ).loc Cert.ReferenceIdeal.main_arg4) = m ((c : Thread Cert.KernelIdeal.nD Cert.KernelIdeal.τ).loc Cert.KernelIdeal.main_arg4))
    (a5 : m' ((c : Thread Cert.ReferenceIdeal.nD Cert.ReferenceIdeal.τ).loc Cert.ReferenceIdeal.main_arg5) = m ((c : Thread Cert.KernelIdeal.nD Cert.KernelIdeal.τ).loc Cert.KernelIdeal.main_arg5))
    (a6 : m' ((c : Thread Cert.ReferenceIdeal.nD Cert.ReferenceIdeal.τ).loc Cert.ReferenceIdeal.main_arg6) = m ((c : Thread Cert.KernelIdeal.nD Cert.KernelIdeal.τ).loc Cert.KernelIdeal.main_arg6))
    (a7 : m' ((c : Thread Cert.ReferenceIdeal.nD Cert.ReferenceIdeal.τ).loc Cert.ReferenceIdeal.main_arg7) = m ((c : Thread Cert.KernelIdeal.nD Cert.KernelIdeal.τ).loc Cert.KernelIdeal.main_arg7))
    (a8 : m' ((c : Thread Cert.ReferenceIdeal.nD Cert.ReferenceIdeal.τ).loc Cert.ReferenceIdeal.main_arg8) = m ((c : Thread Cert.KernelIdeal.nD Cert.KernelIdeal.τ).loc Cert.KernelIdeal.main_arg8))
    (a9 : m' ((c : Thread Cert.ReferenceIdeal.nD Cert.ReferenceIdeal.τ).loc Cert.ReferenceIdeal.main_arg9) = m ((c : Thread Cert.KernelIdeal.nD Cert.KernelIdeal.τ).loc Cert.KernelIdeal.main_arg9))
    (a10 : m' ((c : Thread Cert.ReferenceIdeal.nD Cert.ReferenceIdeal.τ).loc Cert.ReferenceIdeal.main_arg10) = m ((c : Thread Cert.KernelIdeal.nD Cert.KernelIdeal.τ).loc Cert.KernelIdeal.main_arg10))
    (a11 : m' ((c : Thread Cert.ReferenceIdeal.nD Cert.ReferenceIdeal.τ).loc Cert.ReferenceIdeal.main_arg11) = m ((c : Thread Cert.KernelIdeal.nD Cert.KernelIdeal.τ).loc Cert.KernelIdeal.main_arg11)) :
    Cert.KernelIdeal.Gen.W10 m ρ c (Proc.devRef .tc Cert.KernelIdeal.main_v104) = after Cert.ReferenceIdeal.Line.ops (launchContents m' c) (Proc.devRef .tc Cert.ReferenceIdeal.main_v114) := by
  rw [Cert.ReferenceIdeal.Line.after_ops]
  -- the edge rows
  have s1 := rows_agree (Cert.KernelIdeal.Gen.W0 m ρ c) (start m' c) (show Cert.KernelIdeal.Gen.W0 m ρ c (Proc.devRef .tc Cert.KernelIdeal.main_arg1) = (start m' c) (Proc.devRef .tc Cert.ReferenceIdeal.main_arg1) from a1.symm)
  -- the first product
  have e0 : Cert.KernelIdeal.Gen.V1 m ρ c Cert.KernelIdeal.main_arg0 = U1 (start m' c) (Proc.devRef .tc Cert.ReferenceIdeal.main_arg0) :=
    (arg0_at1 m ρ c).trans (a0.symm.trans (ref_arg0 (start m' c)).1.symm)
  have e4 : Cert.KernelIdeal.Gen.V1 m ρ c Cert.KernelIdeal.main_arg4 = U1 (start m' c) (Proc.devRef .tc Cert.ReferenceIdeal.main_arg4) :=
    (arg4_at1 m ρ c).trans (a4.symm.trans (ref_arg4 (start m' c)).1.symm)
  have s2 : Cert.KernelIdeal.Gen.W2 m ρ c (Proc.devRef .tc Cert.KernelIdeal.main_v4) = U2 (start m' c) (Proc.devRef .tc Cert.ReferenceIdeal.main_v4) := by
    refine ((Cert.KernelIdeal.Gen.W2_arr m ρ c 2).trans (Cert.KernelIdeal.Products.value0 (Cert.KernelIdeal.Gen.V1 m ρ) c)).trans ?_
    rw [e0, e4]
    exact (ref_product1 (U1 (start m' c))).symm
  -- the first layer's graph side
  have g1 := graph1_agree (Cert.KernelIdeal.Gen.W2 m ρ c) (U2 (start m' c))
    ((src_at2 m ρ c).trans (s1.1.trans (ref_v1 (start m' c)).1.symm))
    ((dst_at2 m ρ c).trans (s1.2.trans (ref_v3 (start m' c)).1.symm)) s2
  have k1 := graph1_casts (Cert.KernelIdeal.Gen.W2 m ρ c)
  -- its node side
  have s4 : Cert.KernelIdeal.Gen.W4 m ρ c (Proc.devRef .tc Cert.KernelIdeal.main_v43) = U4 (start m' c) (Proc.devRef .tc Cert.ReferenceIdeal.main_v48) := by
    refine ((Cert.KernelIdeal.Gen.W4_arr m ρ c 4).trans (Cert.KernelIdeal.NodeSides.value1 (Cert.KernelIdeal.Gen.V3 m ρ) c Cert.KernelIdeal.Gen.shapeCasts_S100000_S100000x1 Cert.KernelIdeal.Gen.shapeCasts_S64_S1x64
      Cert.ReferenceIdeal.Gen.bcast_S_S100000x64 Cert.ReferenceIdeal.Gen.bcast_S100000_S100000x1_0 Cert.ReferenceIdeal.Gen.bcast_S100000x1_S100000x64_0_1 Cert.ReferenceIdeal.Gen.bcast_S64_S1x64_1
      Cert.ReferenceIdeal.Gen.bcast_S1x64_S100000x64_0_1 (Cert.KernelIdeal.Gen.W3 m ρ c (Proc.devRef .tc Cert.KernelIdeal.main_v40)) (Cert.KernelIdeal.Gen.W2 m ρ c (Proc.devRef .tc Cert.KernelIdeal.main_arg5)) k1.1 k1.2.1)).trans ?_
    have eA : Cert.KernelIdeal.Gen.V3 m ρ c Cert.KernelIdeal.main_v39 = U3 (start m' c) (Proc.devRef .tc Cert.ReferenceIdeal.main_v39) := g1.1
    have eH : Cert.KernelIdeal.Gen.V3 m ρ c Cert.KernelIdeal.main_v4 = U3 (start m' c) (Proc.devRef .tc Cert.ReferenceIdeal.main_v4) := k1.2.2.trans (s2.trans (ref_v4 (start m' c)).symm)
    have eD : Cert.KernelIdeal.Gen.W3 m ρ c (Proc.devRef .tc Cert.KernelIdeal.main_v40) = U3 (start m' c) (Proc.devRef .tc Cert.ReferenceIdeal.main_v40) := g1.2
    have eB : Cert.KernelIdeal.Gen.W2 m ρ c (Proc.devRef .tc Cert.KernelIdeal.main_arg5) = U3 (start m' c) (Proc.devRef .tc Cert.ReferenceIdeal.main_arg5) :=
      (arg5_at2 m ρ c).trans (a5.symm.trans (ref_arg5 (start m' c)).2.2.1.symm)
    rw [eA, eH, eD, eB]
    exact (ref_side1 (U3 (start m' c))).symm
  -- the second product
  have e6 : Cert.KernelIdeal.Gen.V4 m ρ c Cert.KernelIdeal.main_arg6 = U4 (start m' c) (Proc.devRef .tc Cert.ReferenceIdeal.main_arg6) :=
    (arg6_at4 m ρ c).trans (a6.symm.trans (ref_arg6 (start m' c)).2.2.2.1.symm)
  have s5 : Cert.KernelIdeal.Gen.W5 m ρ c (Proc.devRef .tc Cert.KernelIdeal.main_v44) = U5 (start m' c) (Proc.devRef .tc Cert.ReferenceIdeal.main_v49) := by
    refine ((Cert.KernelIdeal.Gen.W5_arr m ρ c 2).trans (Cert.KernelIdeal.Products.value2 (Cert.KernelIdeal.Gen.V4 m ρ) c)).trans ?_
    rw [show Cert.KernelIdeal.Gen.V4 m ρ c Cert.KernelIdeal.main_v43 = U4 (start m' c) (Proc.devRef .tc Cert.ReferenceIdeal.main_v48) from s4, e6]
    exact (ref_product2 (U4 (start m' c))).symm
  -- the second layer's graph side
  have g2 := graph2_agree (Cert.KernelIdeal.Gen.W5 m ρ c) (U5 (start m' c))
    ((src_at5 m ρ c).trans (s1.1.trans (ref_v1 (start m' c)).2.symm))
    ((dst_at5 m ρ c).trans (s1.2.trans (ref_v3 (start m' c)).2.symm)) s5
  have k2 := graph2_casts (Cert.KernelIdeal.Gen.W5 m ρ c)
  -- its node side
  have s7 : Cert.KernelIdeal.Gen.W7 m ρ c (Proc.devRef .tc Cert.KernelIdeal.main_v83) = U7 (start m' c) (Proc.devRef .tc Cert.ReferenceIdeal.main_v93) := by
    refine ((Cert.KernelIdeal.Gen.W7_arr m ρ c 4).trans (Cert.KernelIdeal.NodeSides.value3 (Cert.KernelIdeal.Gen.V6 m ρ) c Cert.KernelIdeal.Gen.shapeCasts_S100000_S100000x1 Cert.KernelIdeal.Gen.shapeCasts_S16_S1x16
      Cert.ReferenceIdeal.Gen.bcast_S_S100000x16 Cert.ReferenceIdeal.Gen.bcast_S100000_S100000x1_0 Cert.ReferenceIdeal.Gen.bcast_S100000x1_S100000x16_0_1 Cert.ReferenceIdeal.Gen.bcast_S16_S1x16_1
      Cert.ReferenceIdeal.Gen.bcast_S1x16_S100000x16_0_1 (Cert.KernelIdeal.Gen.W6 m ρ c (Proc.devRef .tc Cert.KernelIdeal.main_v80)) (Cert.KernelIdeal.Gen.W5 m ρ c (Proc.devRef .tc Cert.KernelIdeal.main_arg7)) k2.1 k2.2.1)).trans ?_
    have eA : Cert.KernelIdeal.Gen.V6 m ρ c Cert.KernelIdeal.main_v79 = U6 (start m' c) (Proc.devRef .tc Cert.ReferenceIdeal.main_v84) := g2.1
    have eH : Cert.KernelIdeal.Gen.V6 m ρ c Cert.KernelIdeal.main_v44 = U6 (start m' c) (Proc.devRef .tc Cert.ReferenceIdeal.main_v49) := k2.2.2.trans (s5.trans (ref_v49 (start m' c)).symm)
    have eD : Cert.KernelIdeal.Gen.W6 m ρ c (Proc.devRef .tc Cert.KernelIdeal.main_v80) = U6 (start m' c) (Proc.devRef .tc Cert.ReferenceIdeal.main_v85) := g2.2
    have eB : Cert.KernelIdeal.Gen.W5 m ρ c (Proc.devRef .tc Cert.KernelIdeal.main_arg7) = U6 (start m' c) (Proc.devRef .tc Cert.ReferenceIdeal.main_arg7) :=
      (arg7_at5 m ρ c).trans (a7.symm.trans (ref_arg7 (start m' c)).2.2.2.2.2.1.symm)
    rw [eA, eH, eD, eB]
    exact (ref_side2 (U6 (start m' c))).symm
  -- pooling and the dense layers
  exact tail_agree (Cert.KernelIdeal.Gen.W7 m ρ c) (U7 (start m' c)) s7
    ((arg2_at7 m ρ c).trans (a2.symm.trans (ref_arg2 (start m' c)).2.2.2.2.2.2.symm))
    ((arg8_at7 m ρ c).trans (a8.symm.trans (ref_arg8 (start m' c)).2.2.2.2.2.2.symm))
    ((arg9_at7 m ρ c).trans (a9.symm.trans (ref_arg9 (start m' c)).2.2.2.2.2.2.symm))
    ((arg10_at7 m ρ c).trans (a10.symm.trans (ref_arg10 (start m' c)).2.2.2.2.2.2.symm))
    ((arg11_at7 m ρ c).trans (a11.symm.trans (ref_arg11 (start m' c)).2.2.2.2.2.2.symm))

end Cert.Proof.Sim

end
-- ==== Proof.lean ====
/-
  Two layers of graph convolution, a mean over each graph's nodes and two dense layers: the kernel against its jnp
  reference, over the extended reals.

  Both programs take node features x, an edge table, graph labels and the layers' weights. A layer forms the
  product h = a · W, the in-degrees d_r + 1 of the destinations, the edge weights (d_src + 1)^(-1/2) (d_dst + 1)^(-1/2),
  the messages Σ_{edges into r} weight · h_src, and then leaky (messages + h · ((d_r + 1)^(-1/2))² + b), with leaky y = y for
  y ≥ 0 and 0.01 · y otherwise (0.01 as its f32 word). The kernel launches four regions: the two products, each
  on bf16-narrowed operands into a zero accumulator, twenty blocks of 5000 rows at a time; and the two node sides
  (everything after the messages), blockwise too, with the small product written y · 0.01. The gathers, the
  scatters, the pooling and the dense layers are the same host operations in both programs.

  On the extended reals narrowing is the identity and a product region leaves the host's plain product; a
  node-side region leaves the host's node side because a product commutes there, whatever its factors — so no
  finiteness of the inputs is used. Everything else is the same function of the same arrays on both sides, so
  the results are equal (algebraic). The idealization rewrote nothing (preserves is trivial), and each program
  runs and leaves its arguments as launched (the frames: the kernel's two from the generated frame certificates,
  the reference's from the run of its straight line).
-/
import proofs.«134301_j23244363006452_2_alg».proof.Defs
import proofs.«134301_j23244363006452_2_alg».proof.Proof.Gen.Kernel
import proofs.«134301_j23244363006452_2_alg».proof.Proof.Gen.Kernel.Frame
import proofs.«134301_j23244363006452_2_alg».proof.Proof.Gen.KernelIdeal
import proofs.«134301_j23244363006452_2_alg».proof.Proof.Gen.KernelIdeal.Frame
import proofs.«134301_j23244363006452_2_alg».proof.Proof.Gen.ReferenceIdeal
import proofs.«134301_j23244363006452_2_alg».proof.Proof.Gen.Pre_finite_inputs
import proofs.«134301_j23244363006452_2_alg».proof.Proof.KernelRun
import proofs.«134301_j23244363006452_2_alg».proof.Proof.RefOps
import proofs.«134301_j23244363006452_2_alg».proof.Proof.RefKept
import proofs.«134301_j23244363006452_2_alg».proof.Proof.Sim
import Idealize.ShloMosaic.Adequacy
import Idealize.ShloMosaic.Init

noncomputable section

namespace Cert.Proof

open Idealize.ShloMosaic Idealize.SL.Sem Idealize.ShloMosaic.StableHlo

/-- The kernel as printed runs and leaves its arguments as launched. -/
theorem frame_kernel : Cert.frame_Kernel (hKernel := Cert.Kernel.Gen.facts) (hPre_finite_inputs := Cert.Pre_finite_inputs.Gen.facts) :=
  fun m ρ _ => Cert.Kernel.Gen.frame m ρ

/-- So does its idealization. -/
theorem frame_ideal : Cert.frame_KernelIdeal (hKernelIdeal := Cert.KernelIdeal.Gen.facts) (hPre_finite_inputs := Cert.Pre_finite_inputs.Gen.facts) :=
  fun m ρ _ => Cert.KernelIdeal.Gen.frame m ρ

/-- The reference's straight line runs, and writes none of its arguments. -/
theorem frame_reference : Cert.frame_ReferenceIdeal (hReferenceIdeal := Cert.ReferenceIdeal.Gen.facts) (hPre_finite_inputs := Cert.Pre_finite_inputs.Gen.facts) :=
  fun m ρ _ => (θ_run Cert.ReferenceIdeal.defs _ _).mono (fun r h c =>
    ⟨(h c Cert.ReferenceIdeal.main_arg0).trans (Cert.ReferenceIdeal.Line.kept_arg0 _),
     (h c Cert.ReferenceIdeal.main_arg1).trans (Cert.ReferenceIdeal.Line.kept_arg1 _),
     (h c Cert.ReferenceIdeal.main_arg2).trans (Cert.ReferenceIdeal.Line.kept_arg2 _),
     (h c Cert.ReferenceIdeal.main_arg3).trans (Cert.ReferenceIdeal.Line.kept_arg3 _),
     (h c Cert.ReferenceIdeal.main_arg4).trans (Cert.ReferenceIdeal.Line.kept_arg4 _),
     (h c Cert.ReferenceIdeal.main_arg5).trans (Cert.ReferenceIdeal.Line.kept_arg5 _),
     (h c Cert.ReferenceIdeal.main_arg6).trans (Cert.ReferenceIdeal.Line.kept_arg6 _),
     (h c Cert.ReferenceIdeal.main_arg7).trans (Cert.ReferenceIdeal.Line.kept_arg7 _),
     (h c Cert.ReferenceIdeal.main_arg8).trans (Cert.ReferenceIdeal.Line.kept_arg8 _),
     (h c Cert.ReferenceIdeal.main_arg9).trans (Cert.ReferenceIdeal.Line.kept_arg9 _),
     (h c Cert.ReferenceIdeal.main_arg10).trans (Cert.ReferenceIdeal.Line.kept_arg10 _),
     (h c Cert.ReferenceIdeal.main_arg11).trans (Cert.ReferenceIdeal.Line.kept_arg11 _)⟩)
    (Cert.ReferenceIdeal.Line.run (F := Ideal) m ρ)

/-- The idealization rewrote no operation. -/
theorem preserves : Cert.preserves_Kernel_KernelIdeal := trivial

/-- From memories agreeing on the arguments both idealized programs run, leave their arguments as launched, and end
    with the same result: the kernel's result buffer at the last boundary's contents, the reference's at its line's
    fold, and the two are equal. -/
theorem algebraic : Cert.algebraic_KernelIdeal_ReferenceIdeal (hKernelIdeal := Cert.KernelIdeal.Gen.facts)
    (hReferenceIdeal := Cert.ReferenceIdeal.Gen.facts) (hPre_finite_inputs := Cert.Pre_finite_inputs.Gen.facts) := by
  intro m ρ m' ρ' _ hagree
  refine ⟨fun c => Cert.KernelIdeal.Gen.W10 m ρ c (Proc.devRef .tc Cert.KernelIdeal.main_v104), Cert.KernelIdeal.RunValue.run_value m ρ, ?_⟩
  refine (θ_run Cert.ReferenceIdeal.defs _ _).mono (fun r h c => ?_) (Cert.ReferenceIdeal.Line.run (F := Ideal) m' ρ')
  obtain ⟨a0, a1, a2, a3, a4, a5, a6, a7, a8, a9, a10, a11⟩ := hagree c
  exact ⟨(h c Cert.ReferenceIdeal.main_v114).trans (Cert.Proof.Sim.result_agree m ρ m' c a0 a1 a2 a4 a5 a6 a7 a8 a9 a10 a11).symm,
     (h c Cert.ReferenceIdeal.main_arg0).trans (Cert.ReferenceIdeal.Line.kept_arg0 _),
     (h c Cert.ReferenceIdeal.main_arg1).trans (Cert.ReferenceIdeal.Line.kept_arg1 _),
     (h c Cert.ReferenceIdeal.main_arg2).trans (Cert.ReferenceIdeal.Line.kept_arg2 _),
     (h c Cert.ReferenceIdeal.main_arg3).trans (Cert.ReferenceIdeal.Line.kept_arg3 _),
     (h c Cert.ReferenceIdeal.main_arg4).trans (Cert.ReferenceIdeal.Line.kept_arg4 _),
     (h c Cert.ReferenceIdeal.main_arg5).trans (Cert.ReferenceIdeal.Line.kept_arg5 _),
     (h c Cert.ReferenceIdeal.main_arg6).trans (Cert.ReferenceIdeal.Line.kept_arg6 _),
     (h c Cert.ReferenceIdeal.main_arg7).trans (Cert.ReferenceIdeal.Line.kept_arg7 _),
     (h c Cert.ReferenceIdeal.main_arg8).trans (Cert.ReferenceIdeal.Line.kept_arg8 _),
     (h c Cert.ReferenceIdeal.main_arg9).trans (Cert.ReferenceIdeal.Line.kept_arg9 _),
     (h c Cert.ReferenceIdeal.main_arg10).trans (Cert.ReferenceIdeal.Line.kept_arg10 _),
     (h c Cert.ReferenceIdeal.main_arg11).trans (Cert.ReferenceIdeal.Line.kept_arg11 _)⟩

theorem claim : Cert.Claim :=
  ⟨Cert.Kernel.Gen.facts, Cert.KernelIdeal.Gen.facts, Cert.ReferenceIdeal.Gen.facts, Cert.Pre_finite_inputs.Gen.facts,
    frame_kernel, frame_ideal, frame_reference, preserves, algebraic⟩

end Cert.Proof

end
